-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x32 : Shape := ⟨2, ![1000000, 32]⟩
abbrev S1x32 : Shape := ⟨2, ![1, 32]⟩
abbrev S1 : Shape := ⟨1, ![1]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg0 : IVec S16384 32) (main_arg1 : IVec S16384 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 0#32
  let main_v19 : IVec S16384 32 := broadcastInDim S16384 ![] bcast_S_S16384 main_c_6
  let main_v20 : IVec S16384 1 := cmpi .sge main_arg0 main_v19
  let main_c_7 : IVec S_ 32 := constantI S_ 32 999999#32
  let main_v21 : IVec S16384 32 := broadcastInDim S16384 ![] bcast_S_S16384 main_c_7
  let main_v22 : IVec S16384 1 := cmpi .sle main_arg0 main_v21
  let main_v23 : IVec S16384 1 := andi main_v20 main_v22
  let main_c_8 : IVec S_ 1 := constantI S_ 1 1#1
  let main_v24 : IVec S_ 1 := (fun x v => Host.reduce IntOp.andi x v reducesTo_S16384_S_d0 h_S_) main_v23 main_c_8
  let main_v25 : IVec S_ 1 := andi main_v18 main_v24
  let main_c_9 : IVec S_ 32 := constantI S_ 32 0#32
  let main_v26 : IVec S16384 32 := broadcastInDim S16384 ![] bcast_S_S16384 main_c_9
  let main_v27 : IVec S16384 1 := cmpi .sge main_arg1 main_v26
  let main_c_10 : IVec S_ 32 := constantI S_ 32 999999#32
  let main_v28 : IVec S16384 32 := broadcastInDim S16384 ![] bcast_S_S16384 main_c_10
  let main_v29 : IVec S16384 1 := cmpi .sle main_arg1 main_v28
  let main_v30 : IVec S16384 1 := andi main_v27 main_v29
  let main_c_11 : IVec S_ 1 := constantI S_ 1 1#1
  let main_v31 : IVec S_ 1 := (fun x v => Host.reduce IntOp.andi x v reducesTo_S16384_S_d0 h_S_) main_v30 main_c_11
  let main_v32 : IVec S_ 1 := andi main_v25 main_v31
  main_v32

def fn {F : FTy → Type} [FloatOps F] (main_arg0 : IVec S16384 32) (main_arg1 : IVec S16384 32) (main_arg2 : FVec F S1000000x32 .f32) (main_arg3 : FVec F S1000000x32 .f32) (main_arg4 : FVec F S1x32 .f32) (main_arg5 : FVec F S1 .f32) : IVec S_ 1 :=
  let main_v0 : FVec F S1000000x32 .f32 := Host.absf main_arg2
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S1000000x32 .f32 := Host.absf main_arg3
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S1x32 .f32 := Host.absf main_arg4
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg0 main_arg1 main_v13 main_v16
-- ==== Kernel.lean ====
abbrev S16384 : Shape := ⟨1, ![16384]⟩
abbrev S1000000x32 : Shape := ⟨2, ![1000000, 32]⟩
abbrev S1x32 : Shape := ⟨2, ![1, 32]⟩
abbrev S1 : Shape := ⟨1, ![1]⟩
abbrev S32 : Shape := ⟨1, ![32]⟩
abbrev S32x1 : Shape := ⟨2, ![32, 1]⟩
abbrev S32x16 : Shape := ⟨2, ![32, 16]⟩
abbrev S512 : Shape := ⟨1, ![512]⟩
abbrev S_ : Shape := ⟨0, ![]⟩
abbrev S16 : Shape := ⟨1, ![16]⟩
abbrev S16x32 : Shape := ⟨2, ![16, 32]⟩
abbrev S16384x1 : Shape := ⟨2, ![16384, 1]⟩

abbrev nBuf : Table → Nat
  | .hbm => 14
  | .local .scVector .vmem => 7
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x32, .f32⟩
  | .hbm, ⟨3, _⟩ => ⟨S1000000x32, .f32⟩
  | .hbm, ⟨4, _⟩ => ⟨S1x32, .f32⟩
  | .hbm, ⟨5, _⟩ => ⟨S1, .f32⟩
  | .hbm, ⟨6, _⟩ => ⟨S32, .f32⟩
  | .hbm, ⟨7, _⟩ => ⟨S32x1, .f32⟩
  | .hbm, ⟨8, _⟩ => ⟨S32x16, .f32⟩
  | .hbm, ⟨9, _⟩ => ⟨S512, .f32⟩
  | .hbm, ⟨10, _⟩ => ⟨S_, .f32⟩
  | .hbm, ⟨11, _⟩ => ⟨S16, .f32⟩
  | .hbm, ⟨12, _⟩ => ⟨S16384, .f32⟩
  | .hbm, ⟨13, _⟩ => ⟨S16384x1, .f32⟩
  | .local .scVector .vmem, ⟨0, _⟩ => ⟨S512, .i32⟩
  | .local .scVector .vmem, ⟨1, _⟩ => ⟨S512, .i32⟩
  | .local .scVector .vmem, ⟨2, _⟩ => ⟨S16x32, .f32⟩
  | .local .scVector .vmem, ⟨3, _⟩ => ⟨S16x32, .f32⟩
  | .local .scVector .vmem, ⟨4, _⟩ => ⟨S512, .f32⟩
  | .local .scVector .vmem, ⟨5, _⟩ => ⟨S16, .f32⟩
  | .local .scVector .vmem, ⟨6, _⟩ => ⟨S512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v3_scv : Ref sig .scVector := ⟨.hbm, 9, rfl⟩
abbrev main_v5_scv : Ref sig .scVector := ⟨.hbm, 11, rfl⟩
abbrev main_v6_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_1 : BitVec 32 := 0#32
  let c32_i32 : BitVec 32 := 32#32
  let v37 : BitVec 32 := Scalar.addi c0_i32_1 c32_i32
  let c1_i32 : BitVec 32 := 1#32
  ⟨c0_i32_1, v37, c1_i32⟩
def k0_off2 (k0_t1 : Fin k0_t1_loop.trips) : Fin 1 → Nat :=
  let c0_i32_1 : BitVec 32 := 0#32
  let c1_i32 : BitVec 32 := 1#32
  let arg20 : BitVec 32 := Scf.iv c0_i32_1 c1_i32 k0_t1
  let c16_i32 : BitVec 32 := 16#32
  let v38 : BitVec 32 := Scalar.muli arg20 c16_i32
  let v39 : Index := Scalar.indexCast v38
  ![v39.toNat]
def k0_off3 (v44 : BitVec 32) : Fin 2 → Nat :=
  let c0_i32_5 : BitVec 32 := 0#32
  ![v44.toNat, 0]

def k0_off4 (v50 : BitVec 32) : Fin 2 → Nat :=
  let c0_i32_11 : BitVec 32 := 0#32
  ![v50.toNat, 0]

def k0_off5 (v56 : BitVec 32) : Fin 2 → Nat :=
  let c0_i32_17 : BitVec 32 := 0#32
  ![v56.toNat, 0]

def k0_off6 (v62 : BitVec 32) : Fin 2 → Nat :=
  let c0_i32_23 : BitVec 32 := 0#32
  ![v62.toNat, 0]

def k0_off7 (v68 : BitVec 32) : Fin 2 → Nat :=
  let c0_i32_29 : BitVec 32 := 0#32
  ![v68.toNat, 0]

def k0_off8 (v74 : BitVec 32) : Fin 2 → Nat :=
  let c0_i32_35 : BitVec 32 := 0#32
  ![v74.toNat, 0]

def k0_off9 (v80 : BitVec 32) : Fin 2 → Nat :=
  let c0_i32_40 : BitVec 32 := 0#32
  ![v80.toNat, 0]

def k0_off10 (v86 : BitVec 32) : Fin 2 → Nat :=
  let c0_i32_46 : BitVec 32 := 0#32
  ![v86.toNat, 0]

def k0_off11 (v92 : BitVec 32) : Fin 2 → Nat :=
  let c0_i32_51 : BitVec 32 := 0#32
  ![v92.toNat, 0]

def k0_off12 (v98 : BitVec 32) : Fin 2 → Nat :=
  let c0_i32_57 : BitVec 32 := 0#32
  ![v98.toNat, 0]

def k0_off13 (v104 : BitVec 32) : Fin 2 → Nat :=
  let c0_i32_62 : BitVec 32 := 0#32
  ![v104.toNat, 0]

def k0_off14 (v110 : BitVec 32) : Fin 2 → Nat :=
  let c0_i32_68 : BitVec 32 := 0#32
  ![v110.toNat, 0]

def k0_off15 (v116 : BitVec 32) : Fin 2 → Nat :=
  let c0_i32_73 : BitVec 32 := 0#32
  ![v116.toNat, 0]

def k0_off16 (v122 : BitVec 32) : Fin 2 → Nat :=
  let c0_i32_79 : BitVec 32 := 0#32
  ![v122.toNat, 0]

def k0_off17 (v128 : BitVec 32) : Fin 2 → Nat :=
  let c0_i32_84 : BitVec 32 := 0#32
  ![v128.toNat, 0]

def k0_off18 (v134 : BitVec 32) : Fin 2 → Nat :=
  let c0_i32_90 : BitVec 32 := 0#32
  ![v134.toNat, 0]

def k0_chk16 (v134 : BitVec 32) : Prop :=
  (∀ a, (k0_off18 v134) a + S1x32.size a ≤ S1000000x32.size a)
instance k0_chk16.dec : ∀ (v134 : BitVec 32), Decidable (k0_chk16 v134) := fun v134 => decidable_of_iff' _ (Iff.of_eq (k0_chk16.eq_1 v134))
theorem k0_off18_inb : ∀ (v134 : BitVec 32) (k0_hw16 : k0_chk16 v134), ∀ a, (k0_off18 v134) a + S1x32.size a ≤ S1000000x32.size a := fun v134 k0_hw16 => k0_hw16

def k0_off19 (v44 : BitVec 32) : Fin 2 → Nat :=
  let c0_i32_96 : BitVec 32 := 0#32
  ![v44.toNat, 0]

def k0_chk1 (v44 : BitVec 32) : Prop :=
  (∀ a, (k0_off3 v44) a + S1x32.size a ≤ S1000000x32.size a) ∧
  (∀ a, (k0_off19 v44) a + S1x32.size a ≤ S1000000x32.size a)
instance k0_chk1.dec : ∀ (v44 : BitVec 32), Decidable (k0_chk1 v44) := fun v44 => decidable_of_iff' _ (Iff.of_eq (k0_chk1.eq_1 v44))
theorem k0_off3_inb : ∀ (v44 : BitVec 32) (k0_hw1 : k0_chk1 v44), ∀ a, (k0_off3 v44) a + S1x32.size a ≤ S1000000x32.size a := fun v44 k0_hw1 => k0_hw1.1
theorem k0_off19_inb : ∀ (v44 : BitVec 32) (k0_hw1 : k0_chk1 v44), ∀ a, (k0_off19 v44) a + S1x32.size a ≤ S1000000x32.size a := fun v44 k0_hw1 => k0_hw1.2

def k0_off20 (v50 : BitVec 32) : Fin 2 → Nat :=
  let c0_i32_102 : BitVec 32 := 0#32
  ![v50.toNat, 0]

def k0_chk2 (v50 : BitVec 32) : Prop :=
  (∀ a, (k0_off4 v50) a + S1x32.size a ≤ S1000000x32.size a) ∧
  (∀ a, (k0_off20 v50) a + S1x32.size a ≤ S1000000x32.size a)
instance k0_chk2.dec : ∀ (v50 : BitVec 32), Decidable (k0_chk2 v50) := fun v50 => decidable_of_iff' _ (Iff.of_eq (k0_chk2.eq_1 v50))
theorem k0_off4_inb : ∀ (v50 : BitVec 32) (k0_hw2 : k0_chk2 v50), ∀ a, (k0_off4 v50) a + S1x32.size a ≤ S1000000x32.size a := fun v50 k0_hw2 => k0_hw2.1
theorem k0_off20_inb : ∀ (v50 : BitVec 32) (k0_hw2 : k0_chk2 v50), ∀ a, (k0_off20 v50) a + S1x32.size a ≤ S1000000x32.size a := fun v50 k0_hw2 => k0_hw2.2

def k0_off21 (v56 : BitVec 32) : Fin 2 → Nat :=
  let c0_i32_108 : BitVec 32 := 0#32
  ![v56.toNat, 0]

def k0_chk3 (v56 : BitVec 32) : Prop :=
  (∀ a, (k0_off5 v56) a + S1x32.size a ≤ S1000000x32.size a) ∧
  (∀ a, (k0_off21 v56) a + S1x32.size a ≤ S1000000x32.size a)
instance k0_chk3.dec : ∀ (v56 : BitVec 32), Decidable (k0_chk3 v56) := fun v56 => decidable_of_iff' _ (Iff.of_eq (k0_chk3.eq_1 v56))
theorem k0_off5_inb : ∀ (v56 : BitVec 32) (k0_hw3 : k0_chk3 v56), ∀ a, (k0_off5 v56) a + S1x32.size a ≤ S1000000x32.size a := fun v56 k0_hw3 => k0_hw3.1
theorem k0_off21_inb : ∀ (v56 : BitVec 32) (k0_hw3 : k0_chk3 v56), ∀ a, (k0_off21 v56) a + S1x32.size a ≤ S1000000x32.size a := fun v56 k0_hw3 => k0_hw3.2

def k0_off22 (v62 : BitVec 32) : Fin 2 → Nat :=
  let c0_i32_114 : BitVec 32 := 0#32
  ![v62.toNat, 0]

def k0_chk4 (v62 : BitVec 32) : Prop :=
  (∀ a, (k0_off6 v62) a + S1x32.size a ≤ S1000000x32.size a) ∧
  (∀ a, (k0_off22 v62) a + S1x32.size a ≤ S1000000x32.size a)
instance k0_chk4.dec : ∀ (v62 : BitVec 32), Decidable (k0_chk4 v62) := fun v62 => decidable_of_iff' _ (Iff.of_eq (k0_chk4.eq_1 v62))
theorem k0_off6_inb : ∀ (v62 : BitVec 32) (k0_hw4 : k0_chk4 v62), ∀ a, (k0_off6 v62) a + S1x32.size a ≤ S1000000x32.size a := fun v62 k0_hw4 => k0_hw4.1
theorem k0_off22_inb : ∀ (v62 : BitVec 32) (k0_hw4 : k0_chk4 v62), ∀ a, (k0_off22 v62) a + S1x32.size a ≤ S1000000x32.size a := fun v62 k0_hw4 => k0_hw4.2

def k0_off23 (v68 : BitVec 32) : Fin 2 → Nat :=
  let c0_i32_120 : BitVec 32 := 0#32
  ![v68.toNat, 0]

def k0_chk5 (v68 : BitVec 32) : Prop :=
  (∀ a, (k0_off7 v68) a + S1x32.size a ≤ S1000000x32.size a) ∧
  (∀ a, (k0_off23 v68) a + S1x32.size a ≤ S1000000x32.size a)
instance k0_chk5.dec : ∀ (v68 : BitVec 32), Decidable (k0_chk5 v68) := fun v68 => decidable_of_iff' _ (Iff.of_eq (k0_chk5.eq_1 v68))
theorem k0_off7_inb : ∀ (v68 : BitVec 32) (k0_hw5 : k0_chk5 v68), ∀ a, (k0_off7 v68) a + S1x32.size a ≤ S1000000x32.size a := fun v68 k0_hw5 => k0_hw5.1
theorem k0_off23_inb : ∀ (v68 : BitVec 32) (k0_hw5 : k0_chk5 v68), ∀ a, (k0_off23 v68) a + S1x32.size a ≤ S1000000x32.size a := fun v68 k0_hw5 => k0_hw5.2

def k0_off24 (v74 : BitVec 32) : Fin 2 → Nat :=
  let c0_i32_126 : BitVec 32 := 0#32
  ![v74.toNat, 0]

def k0_chk6 (v74 : BitVec 32) : Prop :=
  (∀ a, (k0_off8 v74) a + S1x32.size a ≤ S1000000x32.size a) ∧
  (∀ a, (k0_off24 v74) a + S1x32.size a ≤ S1000000x32.size a)
instance k0_chk6.dec : ∀ (v74 : BitVec 32), Decidable (k0_chk6 v74) := fun v74 => decidable_of_iff' _ (Iff.of_eq (k0_chk6.eq_1 v74))
theorem k0_off8_inb : ∀ (v74 : BitVec 32) (k0_hw6 : k0_chk6 v74), ∀ a, (k0_off8 v74) a + S1x32.size a ≤ S1000000x32.size a := fun v74 k0_hw6 => k0_hw6.1
theorem k0_off24_inb : ∀ (v74 : BitVec 32) (k0_hw6 : k0_chk6 v74), ∀ a, (k0_off24 v74) a + S1x32.size a ≤ S1000000x32.size a := fun v74 k0_hw6 => k0_hw6.2

def k0_off25 (v80 : BitVec 32) : Fin 2 → Nat :=
  let c0_i32_132 : BitVec 32 := 0#32
  ![v80.toNat, 0]

def k0_chk7 (v80 : BitVec 32) : Prop :=
  (∀ a, (k0_off9 v80) a + S1x32.size a ≤ S1000000x32.size a) ∧
  (∀ a, (k0_off25 v80) a + S1x32.size a ≤ S1000000x32.size a)
instance k0_chk7.dec : ∀ (v80 : BitVec 32), Decidable (k0_chk7 v80) := fun v80 => decidable_of_iff' _ (Iff.of_eq (k0_chk7.eq_1 v80))
theorem k0_off9_inb : ∀ (v80 : BitVec 32) (k0_hw7 : k0_chk7 v80), ∀ a, (k0_off9 v80) a + S1x32.size a ≤ S1000000x32.size a := fun v80 k0_hw7 => k0_hw7.1
theorem k0_off25_inb : ∀ (v80 : BitVec 32) (k0_hw7 : k0_chk7 v80), ∀ a, (k0_off25 v80) a + S1x32.size a ≤ S1000000x32.size a := fun v80 k0_hw7 => k0_hw7.2

def k0_off26 (v86 : BitVec 32) : Fin 2 → Nat :=
  let c0_i32_138 : BitVec 32 := 0#32
  ![v86.toNat, 0]

def k0_chk8 (v86 : BitVec 32) : Prop :=
  (∀ a, (k0_off10 v86) a + S1x32.size a ≤ S1000000x32.size a) ∧
  (∀ a, (k0_off26 v86) a + S1x32.size a ≤ S1000000x32.size a)
instance k0_chk8.dec : ∀ (v86 : BitVec 32), Decidable (k0_chk8 v86) := fun v86 => decidable_of_iff' _ (Iff.of_eq (k0_chk8.eq_1 v86))
theorem k0_off10_inb : ∀ (v86 : BitVec 32) (k0_hw8 : k0_chk8 v86), ∀ a, (k0_off10 v86) a + S1x32.size a ≤ S1000000x32.size a := fun v86 k0_hw8 => k0_hw8.1
theorem k0_off26_inb : ∀ (v86 : BitVec 32) (k0_hw8 : k0_chk8 v86), ∀ a, (k0_off26 v86) a + S1x32.size a ≤ S1000000x32.size a := fun v86 k0_hw8 => k0_hw8.2

def k0_off27 (v92 : BitVec 32) : Fin 2 → Nat :=
  let c0_i32_144 : BitVec 32 := 0#32
  ![v92.toNat, 0]

def k0_chk9 (v92 : BitVec 32) : Prop :=
  (∀ a, (k0_off11 v92) a + S1x32.size a ≤ S1000000x32.size a) ∧
  (∀ a, (k0_off27 v92) a + S1x32.size a ≤ S1000000x32.size a)
instance k0_chk9.dec : ∀ (v92 : BitVec 32), Decidable (k0_chk9 v92) := fun v92 => decidable_of_iff' _ (Iff.of_eq (k0_chk9.eq_1 v92))
theorem k0_off11_inb : ∀ (v92 : BitVec 32) (k0_hw9 : k0_chk9 v92), ∀ a, (k0_off11 v92) a + S1x32.size a ≤ S1000000x32.size a := fun v92 k0_hw9 => k0_hw9.1
theorem k0_off27_inb : ∀ (v92 : BitVec 32) (k0_hw9 : k0_chk9 v92), ∀ a, (k0_off27 v92) a + S1x32.size a ≤ S1000000x32.size a := fun v92 k0_hw9 => k0_hw9.2

def k0_off28 (v98 : BitVec 32) : Fin 2 → Nat :=
  let c0_i32_150 : BitVec 32 := 0#32
  ![v98.toNat, 0]

def k0_chk10 (v98 : BitVec 32) : Prop :=
  (∀ a, (k0_off12 v98) a + S1x32.size a ≤ S1000000x32.size a) ∧
  (∀ a, (k0_off28 v98) a + S1x32.size a ≤ S1000000x32.size a)
instance k0_chk10.dec : ∀ (v98 : BitVec 32), Decidable (k0_chk10 v98) := fun v98 => decidable_of_iff' _ (Iff.of_eq (k0_chk10.eq_1 v98))
theorem k0_off12_inb : ∀ (v98 : BitVec 32) (k0_hw10 : k0_chk10 v98), ∀ a, (k0_off12 v98) a + S1x32.size a ≤ S1000000x32.size a := fun v98 k0_hw10 => k0_hw10.1
theorem k0_off28_inb : ∀ (v98 : BitVec 32) (k0_hw10 : k0_chk10 v98), ∀ a, (k0_off28 v98) a + S1x32.size a ≤ S1000000x32.size a := fun v98 k0_hw10 => k0_hw10.2

def k0_off29 (v104 : BitVec 32) : Fin 2 → Nat :=
  let c0_i32_156 : BitVec 32 := 0#32
  ![v104.toNat, 0]

def k0_chk11 (v104 : BitVec 32) : Prop :=
  (∀ a, (k0_off13 v104) a + S1x32.size a ≤ S1000000x32.size a) ∧
  (∀ a, (k0_off29 v104) a + S1x32.size a ≤ S1000000x32.size a)
instance k0_chk11.dec : ∀ (v104 : BitVec 32), Decidable (k0_chk11 v104) := fun v104 => decidable_of_iff' _ (Iff.of_eq (k0_chk11.eq_1 v104))
theorem k0_off13_inb : ∀ (v104 : BitVec 32) (k0_hw11 : k0_chk11 v104), ∀ a, (k0_off13 v104) a + S1x32.size a ≤ S1000000x32.size a := fun v104 k0_hw11 => k0_hw11.1
theorem k0_off29_inb : ∀ (v104 : BitVec 32) (k0_hw11 : k0_chk11 v104), ∀ a, (k0_off29 v104) a + S1x32.size a ≤ S1000000x32.size a := fun v104 k0_hw11 => k0_hw11.2

def k0_off30 (v110 : BitVec 32) : Fin 2 → Nat :=
  let c0_i32_162 : BitVec 32 := 0#32
  ![v110.toNat, 0]

def k0_chk12 (v110 : BitVec 32) : Prop :=
  (∀ a, (k0_off14 v110) a + S1x32.size a ≤ S1000000x32.size a) ∧
  (∀ a, (k0_off30 v110) a + S1x32.size a ≤ S1000000x32.size a)
instance k0_chk12.dec : ∀ (v110 : BitVec 32), Decidable (k0_chk12 v110) := fun v110 => decidable_of_iff' _ (Iff.of_eq (k0_chk12.eq_1 v110))
theorem k0_off14_inb : ∀ (v110 : BitVec 32) (k0_hw12 : k0_chk12 v110), ∀ a, (k0_off14 v110) a + S1x32.size a ≤ S1000000x32.size a := fun v110 k0_hw12 => k0_hw12.1
theorem k0_off30_inb : ∀ (v110 : BitVec 32) (k0_hw12 : k0_chk12 v110), ∀ a, (k0_off30 v110) a + S1x32.size a ≤ S1000000x32.size a := fun v110 k0_hw12 => k0_hw12.2

def k0_off31 (v116 : BitVec 32) : Fin 2 → Nat :=
  let c0_i32_168 : BitVec 32 := 0#32
  ![v116.toNat, 0]

def k0_chk13 (v116 : BitVec 32) : Prop :=
  (∀ a, (k0_off15 v116) a + S1x32.size a ≤ S1000000x32.size a) ∧
  (∀ a, (k0_off31 v116) a + S1x32.size a ≤ S1000000x32.size a)
instance k0_chk13.dec : ∀ (v116 : BitVec 32), Decidable (k0_chk13 v116) := fun v116 => decidable_of_iff' _ (Iff.of_eq (k0_chk13.eq_1 v116))
theorem k0_off15_inb : ∀ (v116 : BitVec 32) (k0_hw13 : k0_chk13 v116), ∀ a, (k0_off15 v116) a + S1x32.size a ≤ S1000000x32.size a := fun v116 k0_hw13 => k0_hw13.1
theorem k0_off31_inb : ∀ (v116 : BitVec 32) (k0_hw13 : k0_chk13 v116), ∀ a, (k0_off31 v116) a + S1x32.size a ≤ S1000000x32.size a := fun v116 k0_hw13 => k0_hw13.2

def k0_off32 (v122 : BitVec 32) : Fin 2 → Nat :=
  let c0_i32_174 : BitVec 32 := 0#32
  ![v122.toNat, 0]

def k0_chk14 (v122 : BitVec 32) : Prop :=
  (∀ a, (k0_off16 v122) a + S1x32.size a ≤ S1000000x32.size a) ∧
  (∀ a, (k0_off32 v122) a + S1x32.size a ≤ S1000000x32.size a)
instance k0_chk14.dec : ∀ (v122 : BitVec 32), Decidable (k0_chk14 v122) := fun v122 => decidable_of_iff' _ (Iff.of_eq (k0_chk14.eq_1 v122))
theorem k0_off16_inb : ∀ (v122 : BitVec 32) (k0_hw14 : k0_chk14 v122), ∀ a, (k0_off16 v122) a + S1x32.size a ≤ S1000000x32.size a := fun v122 k0_hw14 => k0_hw14.1
theorem k0_off32_inb : ∀ (v122 : BitVec 32) (k0_hw14 : k0_chk14 v122), ∀ a, (k0_off32 v122) a + S1x32.size a ≤ S1000000x32.size a := fun v122 k0_hw14 => k0_hw14.2

def k0_off33 (v128 : BitVec 32) : Fin 2 → Nat :=
  let c0_i32_180 : BitVec 32 := 0#32
  ![v128.toNat, 0]

def k0_chk15 (v128 : BitVec 32) : Prop :=
  (∀ a, (k0_off17 v128) a + S1x32.size a ≤ S1000000x32.size a) ∧
  (∀ a, (k0_off33 v128) a + S1x32.size a ≤ S1000000x32.size a)
instance k0_chk15.dec : ∀ (v128 : BitVec 32), Decidable (k0_chk15 v128) := fun v128 => decidable_of_iff' _ (Iff.of_eq (k0_chk15.eq_1 v128))
theorem k0_off17_inb : ∀ (v128 : BitVec 32) (k0_hw15 : k0_chk15 v128), ∀ a, (k0_off17 v128) a + S1x32.size a ≤ S1000000x32.size a := fun v128 k0_hw15 => k0_hw15.1
theorem k0_off33_inb : ∀ (v128 : BitVec 32) (k0_hw15 : k0_chk15 v128), ∀ a, (k0_off33 v128) a + S1x32.size a ≤ S1000000x32.size a := fun v128 k0_hw15 => k0_hw15.2

def k0_off34 (v204 : BitVec 32) : Fin 2 → Nat :=
  let c0_i32_191 : BitVec 32 := 0#32
  ![v204.toNat, 0]

def k0_off35 (v210 : BitVec 32) : Fin 2 → Nat :=
  let c0_i32_197 : BitVec 32 := 0#32
  ![v210.toNat, 0]

def k0_off36 (v216 : BitVec 32) : Fin 2 → Nat :=
  let c0_i32_202 : BitVec 32 := 0#32
  ![v216.toNat, 0]

def k0_off37 (v222 : BitVec 32) : Fin 2 → Nat :=
  let c0_i32_208 : BitVec 32 := 0#32
  ![v222.toNat, 0]

def k0_off38 (v228 : BitVec 32) : Fin 2 → Nat :=
  let c0_i32_213 : BitVec 32 := 0#32
  ![v228.toNat, 0]

def k0_off39 (v234 : BitVec 32) : Fin 2 → Nat :=
  let c0_i32_219 : BitVec 32 := 0#32
  ![v234.toNat, 0]

def k0_off40 (v240 : BitVec 32) : Fin 2 → Nat :=
  let c0_i32_224 : BitVec 32 := 0#32
  ![v240.toNat, 0]

def k0_off41 (v246 : BitVec 32) : Fin 2 → Nat :=
  let c0_i32_230 : BitVec 32 := 0#32
  ![v246.toNat, 0]

def k0_off42 (v252 : BitVec 32) : Fin 2 → Nat :=
  let c0_i32_235 : BitVec 32 := 0#32
  ![v252.toNat, 0]

def k0_off43 (v258 : BitVec 32) : Fin 2 → Nat :=
  let c0_i32_241 : BitVec 32 := 0#32
  ![v258.toNat, 0]

def k0_off44 (v264 : BitVec 32) : Fin 2 → Nat :=
  let c0_i32_246 : BitVec 32 := 0#32
  ![v264.toNat, 0]

def k0_off45 (v270 : BitVec 32) : Fin 2 → Nat :=
  let c0_i32_252 : BitVec 32 := 0#32
  ![v270.toNat, 0]

def k0_off46 (v276 : BitVec 32) : Fin 2 → Nat :=
  let c0_i32_257 : BitVec 32 := 0#32
  ![v276.toNat, 0]

def k0_off47 (v282 : BitVec 32) : Fin 2 → Nat :=
  let c0_i32_263 : BitVec 32 := 0#32
  ![v282.toNat, 0]

def k0_off48 (v288 : BitVec 32) : Fin 2 → Nat :=
  let c0_i32_268 : BitVec 32 := 0#32
  ![v288.toNat, 0]

def k0_off49 (v294 : BitVec 32) : Fin 2 → Nat :=
  let c0_i32_274 : BitVec 32 := 0#32
  ![v294.toNat, 0]

def k0_chk32 (v294 : BitVec 32) : Prop :=
  (∀ a, (k0_off49 v294) a + S1x32.size a ≤ S1000000x32.size a)
instance k0_chk32.dec : ∀ (v294 : BitVec 32), Decidable (k0_chk32 v294) := fun v294 => decidable_of_iff' _ (Iff.of_eq (k0_chk32.eq_1 v294))
theorem k0_off49_inb : ∀ (v294 : BitVec 32) (k0_hw32 : k0_chk32 v294), ∀ a, (k0_off49 v294) a + S1x32.size a ≤ S1000000x32.size a := fun v294 k0_hw32 => k0_hw32

def k0_off50 (v204 : BitVec 32) : Fin 2 → Nat :=
  let c0_i32_280 : BitVec 32 := 0#32
  ![v204.toNat, 0]

def k0_chk17 (v204 : BitVec 32) : Prop :=
  (∀ a, (k0_off34 v204) a + S1x32.size a ≤ S1000000x32.size a) ∧
  (∀ a, (k0_off50 v204) a + S1x32.size a ≤ S1000000x32.size a)
instance k0_chk17.dec : ∀ (v204 : BitVec 32), Decidable (k0_chk17 v204) := fun v204 => decidable_of_iff' _ (Iff.of_eq (k0_chk17.eq_1 v204))
theorem k0_off34_inb : ∀ (v204 : BitVec 32) (k0_hw17 : k0_chk17 v204), ∀ a, (k0_off34 v204) a + S1x32.size a ≤ S1000000x32.size a := fun v204 k0_hw17 => k0_hw17.1
theorem k0_off50_inb : ∀ (v204 : BitVec 32) (k0_hw17 : k0_chk17 v204), ∀ a, (k0_off50 v204) a + S1x32.size a ≤ S1000000x32.size a := fun v204 k0_hw17 => k0_hw17.2

def k0_off51 (v210 : BitVec 32) : Fin 2 → Nat :=
  let c0_i32_286 : BitVec 32 := 0#32
  ![v210.toNat, 0]

def k0_chk18 (v210 : BitVec 32) : Prop :=
  (∀ a, (k0_off35 v210) a + S1x32.size a ≤ S1000000x32.size a) ∧
  (∀ a, (k0_off51 v210) a + S1x32.size a ≤ S1000000x32.size a)
instance k0_chk18.dec : ∀ (v210 : BitVec 32), Decidable (k0_chk18 v210) := fun v210 => decidable_of_iff' _ (Iff.of_eq (k0_chk18.eq_1 v210))
theorem k0_off35_inb : ∀ (v210 : BitVec 32) (k0_hw18 : k0_chk18 v210), ∀ a, (k0_off35 v210) a + S1x32.size a ≤ S1000000x32.size a := fun v210 k0_hw18 => k0_hw18.1
theorem k0_off51_inb : ∀ (v210 : BitVec 32) (k0_hw18 : k0_chk18 v210), ∀ a, (k0_off51 v210) a + S1x32.size a ≤ S1000000x32.size a := fun v210 k0_hw18 => k0_hw18.2

def k0_off52 (v216 : BitVec 32) : Fin 2 → Nat :=
  let c0_i32_292 : BitVec 32 := 0#32
  ![v216.toNat, 0]

def k0_chk19 (v216 : BitVec 32) : Prop :=
  (∀ a, (k0_off36 v216) a + S1x32.size a ≤ S1000000x32.size a) ∧
  (∀ a, (k0_off52 v216) a + S1x32.size a ≤ S1000000x32.size a)
instance k0_chk19.dec : ∀ (v216 : BitVec 32), Decidable (k0_chk19 v216) := fun v216 => decidable_of_iff' _ (Iff.of_eq (k0_chk19.eq_1 v216))
theorem k0_off36_inb : ∀ (v216 : BitVec 32) (k0_hw19 : k0_chk19 v216), ∀ a, (k0_off36 v216) a + S1x32.size a ≤ S1000000x32.size a := fun v216 k0_hw19 => k0_hw19.1
theorem k0_off52_inb : ∀ (v216 : BitVec 32) (k0_hw19 : k0_chk19 v216), ∀ a, (k0_off52 v216) a + S1x32.size a ≤ S1000000x32.size a := fun v216 k0_hw19 => k0_hw19.2

def k0_off53 (v222 : BitVec 32) : Fin 2 → Nat :=
  let c0_i32_298 : BitVec 32 := 0#32
  ![v222.toNat, 0]

def k0_chk20 (v222 : BitVec 32) : Prop :=
  (∀ a, (k0_off37 v222) a + S1x32.size a ≤ S1000000x32.size a) ∧
  (∀ a, (k0_off53 v222) a + S1x32.size a ≤ S1000000x32.size a)
instance k0_chk20.dec : ∀ (v222 : BitVec 32), Decidable (k0_chk20 v222) := fun v222 => decidable_of_iff' _ (Iff.of_eq (k0_chk20.eq_1 v222))
theorem k0_off37_inb : ∀ (v222 : BitVec 32) (k0_hw20 : k0_chk20 v222), ∀ a, (k0_off37 v222) a + S1x32.size a ≤ S1000000x32.size a := fun v222 k0_hw20 => k0_hw20.1
theorem k0_off53_inb : ∀ (v222 : BitVec 32) (k0_hw20 : k0_chk20 v222), ∀ a, (k0_off53 v222) a + S1x32.size a ≤ S1000000x32.size a := fun v222 k0_hw20 => k0_hw20.2

def k0_off54 (v228 : BitVec 32) : Fin 2 → Nat :=
  let c0_i32_304 : BitVec 32 := 0#32
  ![v228.toNat, 0]

def k0_chk21 (v228 : BitVec 32) : Prop :=
  (∀ a, (k0_off38 v228) a + S1x32.size a ≤ S1000000x32.size a) ∧
  (∀ a, (k0_off54 v228) a + S1x32.size a ≤ S1000000x32.size a)
instance k0_chk21.dec : ∀ (v228 : BitVec 32), Decidable (k0_chk21 v228) := fun v228 => decidable_of_iff' _ (Iff.of_eq (k0_chk21.eq_1 v228))
theorem k0_off38_inb : ∀ (v228 : BitVec 32) (k0_hw21 : k0_chk21 v228), ∀ a, (k0_off38 v228) a + S1x32.size a ≤ S1000000x32.size a := fun v228 k0_hw21 => k0_hw21.1
theorem k0_off54_inb : ∀ (v228 : BitVec 32) (k0_hw21 : k0_chk21 v228), ∀ a, (k0_off54 v228) a + S1x32.size a ≤ S1000000x32.size a := fun v228 k0_hw21 => k0_hw21.2

def k0_off55 (v234 : BitVec 32) : Fin 2 → Nat :=
  let c0_i32_310 : BitVec 32 := 0#32
  ![v234.toNat, 0]

def k0_chk22 (v234 : BitVec 32) : Prop :=
  (∀ a, (k0_off39 v234) a + S1x32.size a ≤ S1000000x32.size a) ∧
  (∀ a, (k0_off55 v234) a + S1x32.size a ≤ S1000000x32.size a)
instance k0_chk22.dec : ∀ (v234 : BitVec 32), Decidable (k0_chk22 v234) := fun v234 => decidable_of_iff' _ (Iff.of_eq (k0_chk22.eq_1 v234))
theorem k0_off39_inb : ∀ (v234 : BitVec 32) (k0_hw22 : k0_chk22 v234), ∀ a, (k0_off39 v234) a + S1x32.size a ≤ S1000000x32.size a := fun v234 k0_hw22 => k0_hw22.1
theorem k0_off55_inb : ∀ (v234 : BitVec 32) (k0_hw22 : k0_chk22 v234), ∀ a, (k0_off55 v234) a + S1x32.size a ≤ S1000000x32.size a := fun v234 k0_hw22 => k0_hw22.2

def k0_off56 (v240 : BitVec 32) : Fin 2 → Nat :=
  let c0_i32_316 : BitVec 32 := 0#32
  ![v240.toNat, 0]

def k0_chk23 (v240 : BitVec 32) : Prop :=
  (∀ a, (k0_off40 v240) a + S1x32.size a ≤ S1000000x32.size a) ∧
  (∀ a, (k0_off56 v240) a + S1x32.size a ≤ S1000000x32.size a)
instance k0_chk23.dec : ∀ (v240 : BitVec 32), Decidable (k0_chk23 v240) := fun v240 => decidable_of_iff' _ (Iff.of_eq (k0_chk23.eq_1 v240))
theorem k0_off40_inb : ∀ (v240 : BitVec 32) (k0_hw23 : k0_chk23 v240), ∀ a, (k0_off40 v240) a + S1x32.size a ≤ S1000000x32.size a := fun v240 k0_hw23 => k0_hw23.1
theorem k0_off56_inb : ∀ (v240 : BitVec 32) (k0_hw23 : k0_chk23 v240), ∀ a, (k0_off56 v240) a + S1x32.size a ≤ S1000000x32.size a := fun v240 k0_hw23 => k0_hw23.2

def k0_off57 (v246 : BitVec 32) : Fin 2 → Nat :=
  let c0_i32_322 : BitVec 32 := 0#32
  ![v246.toNat, 0]

def k0_chk24 (v246 : BitVec 32) : Prop :=
  (∀ a, (k0_off41 v246) a + S1x32.size a ≤ S1000000x32.size a) ∧
  (∀ a, (k0_off57 v246) a + S1x32.size a ≤ S1000000x32.size a)
instance k0_chk24.dec : ∀ (v246 : BitVec 32), Decidable (k0_chk24 v246) := fun v246 => decidable_of_iff' _ (Iff.of_eq (k0_chk24.eq_1 v246))
theorem k0_off41_inb : ∀ (v246 : BitVec 32) (k0_hw24 : k0_chk24 v246), ∀ a, (k0_off41 v246) a + S1x32.size a ≤ S1000000x32.size a := fun v246 k0_hw24 => k0_hw24.1
theorem k0_off57_inb : ∀ (v246 : BitVec 32) (k0_hw24 : k0_chk24 v246), ∀ a, (k0_off57 v246) a + S1x32.size a ≤ S1000000x32.size a := fun v246 k0_hw24 => k0_hw24.2

def k0_off58 (v252 : BitVec 32) : Fin 2 → Nat :=
  let c0_i32_328 : BitVec 32 := 0#32
  ![v252.toNat, 0]

def k0_chk25 (v252 : BitVec 32) : Prop :=
  (∀ a, (k0_off42 v252) a + S1x32.size a ≤ S1000000x32.size a) ∧
  (∀ a, (k0_off58 v252) a + S1x32.size a ≤ S1000000x32.size a)
instance k0_chk25.dec : ∀ (v252 : BitVec 32), Decidable (k0_chk25 v252) := fun v252 => decidable_of_iff' _ (Iff.of_eq (k0_chk25.eq_1 v252))
theorem k0_off42_inb : ∀ (v252 : BitVec 32) (k0_hw25 : k0_chk25 v252), ∀ a, (k0_off42 v252) a + S1x32.size a ≤ S1000000x32.size a := fun v252 k0_hw25 => k0_hw25.1
theorem k0_off58_inb : ∀ (v252 : BitVec 32) (k0_hw25 : k0_chk25 v252), ∀ a, (k0_off58 v252) a + S1x32.size a ≤ S1000000x32.size a := fun v252 k0_hw25 => k0_hw25.2

def k0_off59 (v258 : BitVec 32) : Fin 2 → Nat :=
  let c0_i32_334 : BitVec 32 := 0#32
  ![v258.toNat, 0]

def k0_chk26 (v258 : BitVec 32) : Prop :=
  (∀ a, (k0_off43 v258) a + S1x32.size a ≤ S1000000x32.size a) ∧
  (∀ a, (k0_off59 v258) a + S1x32.size a ≤ S1000000x32.size a)
instance k0_chk26.dec : ∀ (v258 : BitVec 32), Decidable (k0_chk26 v258) := fun v258 => decidable_of_iff' _ (Iff.of_eq (k0_chk26.eq_1 v258))
theorem k0_off43_inb : ∀ (v258 : BitVec 32) (k0_hw26 : k0_chk26 v258), ∀ a, (k0_off43 v258) a + S1x32.size a ≤ S1000000x32.size a := fun v258 k0_hw26 => k0_hw26.1
theorem k0_off59_inb : ∀ (v258 : BitVec 32) (k0_hw26 : k0_chk26 v258), ∀ a, (k0_off59 v258) a + S1x32.size a ≤ S1000000x32.size a := fun v258 k0_hw26 => k0_hw26.2

def k0_off60 (v264 : BitVec 32) : Fin 2 → Nat :=
  let c0_i32_340 : BitVec 32 := 0#32
  ![v264.toNat, 0]

def k0_chk27 (v264 : BitVec 32) : Prop :=
  (∀ a, (k0_off44 v264) a + S1x32.size a ≤ S1000000x32.size a) ∧
  (∀ a, (k0_off60 v264) a + S1x32.size a ≤ S1000000x32.size a)
instance k0_chk27.dec : ∀ (v264 : BitVec 32), Decidable (k0_chk27 v264) := fun v264 => decidable_of_iff' _ (Iff.of_eq (k0_chk27.eq_1 v264))
theorem k0_off44_inb : ∀ (v264 : BitVec 32) (k0_hw27 : k0_chk27 v264), ∀ a, (k0_off44 v264) a + S1x32.size a ≤ S1000000x32.size a := fun v264 k0_hw27 => k0_hw27.1
theorem k0_off60_inb : ∀ (v264 : BitVec 32) (k0_hw27 : k0_chk27 v264), ∀ a, (k0_off60 v264) a + S1x32.size a ≤ S1000000x32.size a := fun v264 k0_hw27 => k0_hw27.2

def k0_off61 (v270 : BitVec 32) : Fin 2 → Nat :=
  let c0_i32_346 : BitVec 32 := 0#32
  ![v270.toNat, 0]

def k0_chk28 (v270 : BitVec 32) : Prop :=
  (∀ a, (k0_off45 v270) a + S1x32.size a ≤ S1000000x32.size a) ∧
  (∀ a, (k0_off61 v270) a + S1x32.size a ≤ S1000000x32.size a)
instance k0_chk28.dec : ∀ (v270 : BitVec 32), Decidable (k0_chk28 v270) := fun v270 => decidable_of_iff' _ (Iff.of_eq (k0_chk28.eq_1 v270))
theorem k0_off45_inb : ∀ (v270 : BitVec 32) (k0_hw28 : k0_chk28 v270), ∀ a, (k0_off45 v270) a + S1x32.size a ≤ S1000000x32.size a := fun v270 k0_hw28 => k0_hw28.1
theorem k0_off61_inb : ∀ (v270 : BitVec 32) (k0_hw28 : k0_chk28 v270), ∀ a, (k0_off61 v270) a + S1x32.size a ≤ S1000000x32.size a := fun v270 k0_hw28 => k0_hw28.2

def k0_off62 (v276 : BitVec 32) : Fin 2 → Nat :=
  let c0_i32_352 : BitVec 32 := 0#32
  ![v276.toNat, 0]

def k0_chk29 (v276 : BitVec 32) : Prop :=
  (∀ a, (k0_off46 v276) a + S1x32.size a ≤ S1000000x32.size a) ∧
  (∀ a, (k0_off62 v276) a + S1x32.size a ≤ S1000000x32.size a)
instance k0_chk29.dec : ∀ (v276 : BitVec 32), Decidable (k0_chk29 v276) := fun v276 => decidable_of_iff' _ (Iff.of_eq (k0_chk29.eq_1 v276))
theorem k0_off46_inb : ∀ (v276 : BitVec 32) (k0_hw29 : k0_chk29 v276), ∀ a, (k0_off46 v276) a + S1x32.size a ≤ S1000000x32.size a := fun v276 k0_hw29 => k0_hw29.1
theorem k0_off62_inb : ∀ (v276 : BitVec 32) (k0_hw29 : k0_chk29 v276), ∀ a, (k0_off62 v276) a + S1x32.size a ≤ S1000000x32.size a := fun v276 k0_hw29 => k0_hw29.2

def k0_off63 (v282 : BitVec 32) : Fin 2 → Nat :=
  let c0_i32_358 : BitVec 32 := 0#32
  ![v282.toNat, 0]

def k0_chk30 (v282 : BitVec 32) : Prop :=
  (∀ a, (k0_off47 v282) a + S1x32.size a ≤ S1000000x32.size a) ∧
  (∀ a, (k0_off63 v282) a + S1x32.size a ≤ S1000000x32.size a)
instance k0_chk30.dec : ∀ (v282 : BitVec 32), Decidable (k0_chk30 v282) := fun v282 => decidable_of_iff' _ (Iff.of_eq (k0_chk30.eq_1 v282))
theorem k0_off47_inb : ∀ (v282 : BitVec 32) (k0_hw30 : k0_chk30 v282), ∀ a, (k0_off47 v282) a + S1x32.size a ≤ S1000000x32.size a := fun v282 k0_hw30 => k0_hw30.1
theorem k0_off63_inb : ∀ (v282 : BitVec 32) (k0_hw30 : k0_chk30 v282), ∀ a, (k0_off63 v282) a + S1x32.size a ≤ S1000000x32.size a := fun v282 k0_hw30 => k0_hw30.2

def k0_off64 (v288 : BitVec 32) : Fin 2 → Nat :=
  let c0_i32_364 : BitVec 32 := 0#32
  ![v288.toNat, 0]

def k0_chk31 (v288 : BitVec 32) : Prop :=
  (∀ a, (k0_off48 v288) a + S1x32.size a ≤ S1000000x32.size a) ∧
  (∀ a, (k0_off64 v288) a + S1x32.size a ≤ S1000000x32.size a)
instance k0_chk31.dec : ∀ (v288 : BitVec 32), Decidable (k0_chk31 v288) := fun v288 => decidable_of_iff' _ (Iff.of_eq (k0_chk31.eq_1 v288))
theorem k0_off48_inb : ∀ (v288 : BitVec 32) (k0_hw31 : k0_chk31 v288), ∀ a, (k0_off48 v288) a + S1x32.size a ≤ S1000000x32.size a := fun v288 k0_hw31 => k0_hw31.1
theorem k0_off64_inb : ∀ (v288 : BitVec 32) (k0_hw31 : k0_chk31 v288), ∀ a, (k0_off64 v288) a + S1x32.size a ≤ S1000000x32.size a := fun v288 k0_hw31 => k0_hw31.2

def k0_chk33 (v36 : IVec S16 32) (v363 : IVec S16 32) : Prop :=
  (∀ a x, ((![v36, v363] : Fin 2 → IVec S16 32) a x).toNat < S16x32.size a) ∧
  (∀ a x, ((![v36, v363] : Fin 2 → IVec S16 32) a x).toNat < S16x32.size a)
instance k0_chk33.dec : ∀ (v36 : IVec S16 32) (v363 : IVec S16 32), Decidable (k0_chk33 v36 v363) := fun v36 v363 => decidable_of_iff' _ (Iff.of_eq (k0_chk33.eq_1 v36 v363))
theorem k0_idx1_inb : ∀ (v36 : IVec S16 32) (v363 : IVec S16 32) (k0_hw33 : k0_chk33 v36 v363), ∀ a x, ((![v36, v363] : Fin 2 → IVec S16 32) a x).toNat < S16x32.size a := fun v36 v363 k0_hw33 => k0_hw33.1
theorem k0_idx2_inb : ∀ (v36 : IVec S16 32) (v363 : IVec S16 32) (k0_hw33 : k0_chk33 v36 v363), ∀ a x, ((![v36, v363] : Fin 2 → IVec S16 32) a x).toNat < S16x32.size a := fun v36 v363 k0_hw33 => k0_hw33.2

def k0_chk34 (v36 : IVec S16 32) (v369 : IVec S16 32) : Prop :=
  (∀ a x, ((![v36, v369] : Fin 2 → IVec S16 32) a x).toNat < S16x32.size a) ∧
  (∀ a x, ((![v36, v369] : Fin 2 → IVec S16 32) a x).toNat < S16x32.size a)
instance k0_chk34.dec : ∀ (v36 : IVec S16 32) (v369 : IVec S16 32), Decidable (k0_chk34 v36 v369) := fun v36 v369 => decidable_of_iff' _ (Iff.of_eq (k0_chk34.eq_1 v36 v369))
theorem k0_idx3_inb : ∀ (v36 : IVec S16 32) (v369 : IVec S16 32) (k0_hw34 : k0_chk34 v36 v369), ∀ a x, ((![v36, v369] : Fin 2 → IVec S16 32) a x).toNat < S16x32.size a := fun v36 v369 k0_hw34 => k0_hw34.1
theorem k0_idx4_inb : ∀ (v36 : IVec S16 32) (v369 : IVec S16 32) (k0_hw34 : k0_chk34 v36 v369), ∀ a x, ((![v36, v369] : Fin 2 → IVec S16 32) a x).toNat < S16x32.size a := fun v36 v369 k0_hw34 => k0_hw34.2

def k0_chk35 (v36 : IVec S16 32) (v375 : IVec S16 32) : Prop :=
  (∀ a x, ((![v36, v375] : Fin 2 → IVec S16 32) a x).toNat < S16x32.size a) ∧
  (∀ a x, ((![v36, v375] : Fin 2 → IVec S16 32) a x).toNat < S16x32.size a)
instance k0_chk35.dec : ∀ (v36 : IVec S16 32) (v375 : IVec S16 32), Decidable (k0_chk35 v36 v375) := fun v36 v375 => decidable_of_iff' _ (Iff.of_eq (k0_chk35.eq_1 v36 v375))
theorem k0_idx5_inb : ∀ (v36 : IVec S16 32) (v375 : IVec S16 32) (k0_hw35 : k0_chk35 v36 v375), ∀ a x, ((![v36, v375] : Fin 2 → IVec S16 32) a x).toNat < S16x32.size a := fun v36 v375 k0_hw35 => k0_hw35.1
theorem k0_idx6_inb : ∀ (v36 : IVec S16 32) (v375 : IVec S16 32) (k0_hw35 : k0_chk35 v36 v375), ∀ a x, ((![v36, v375] : Fin 2 → IVec S16 32) a x).toNat < S16x32.size a := fun v36 v375 k0_hw35 => k0_hw35.2

def k0_chk36 (v36 : IVec S16 32) (v381 : IVec S16 32) : Prop :=
  (∀ a x, ((![v36, v381] : Fin 2 → IVec S16 32) a x).toNat < S16x32.size a) ∧
  (∀ a x, ((![v36, v381] : Fin 2 → IVec S16 32) a x).toNat < S16x32.size a)
instance k0_chk36.dec : ∀ (v36 : IVec S16 32) (v381 : IVec S16 32), Decidable (k0_chk36 v36 v381) := fun v36 v381 => decidable_of_iff' _ (Iff.of_eq (k0_chk36.eq_1 v36 v381))
theorem k0_idx7_inb : ∀ (v36 : IVec S16 32) (v381 : IVec S16 32) (k0_hw36 : k0_chk36 v36 v381), ∀ a x, ((![v36, v381] : Fin 2 → IVec S16 32) a x).toNat < S16x32.size a := fun v36 v381 k0_hw36 => k0_hw36.1
theorem k0_idx8_inb : ∀ (v36 : IVec S16 32) (v381 : IVec S16 32) (k0_hw36 : k0_chk36 v36 v381), ∀ a x, ((![v36, v381] : Fin 2 → IVec S16 32) a x).toNat < S16x32.size a := fun v36 v381 k0_hw36 => k0_hw36.2

def k0_chk37 (v36 : IVec S16 32) (v387 : IVec S16 32) : Prop :=
  (∀ a x, ((![v36, v387] : Fin 2 → IVec S16 32) a x).toNat < S16x32.size a) ∧
  (∀ a x, ((![v36, v387] : Fin 2 → IVec S16 32) a x).toNat < S16x32.size a)
instance k0_chk37.dec : ∀ (v36 : IVec S16 32) (v387 : IVec S16 32), Decidable (k0_chk37 v36 v387) := fun v36 v387 => decidable_of_iff' _ (Iff.of_eq (k0_chk37.eq_1 v36 v387))
theorem k0_idx9_inb : ∀ (v36 : IVec S16 32) (v387 : IVec S16 32) (k0_hw37 : k0_chk37 v36 v387), ∀ a x, ((![v36, v387] : Fin 2 → IVec S16 32) a x).toNat < S16x32.size a := fun v36 v387 k0_hw37 => k0_hw37.1
theorem k0_idx10_inb : ∀ (v36 : IVec S16 32) (v387 : IVec S16 32) (k0_hw37 : k0_chk37 v36 v387), ∀ a x, ((![v36, v387] : Fin 2 → IVec S16 32) a x).toNat < S16x32.size a := fun v36 v387 k0_hw37 => k0_hw37.2

def k0_chk38 (v36 : IVec S16 32) (v393 : IVec S16 32) : Prop :=
  (∀ a x, ((![v36, v393] : Fin 2 → IVec S16 32) a x).toNat < S16x32.size a) ∧
  (∀ a x, ((![v36, v393] : Fin 2 → IVec S16 32) a x).toNat < S16x32.size a)
instance k0_chk38.dec : ∀ (v36 : IVec S16 32) (v393 : IVec S16 32), Decidable (k0_chk38 v36 v393) := fun v36 v393 => decidable_of_iff' _ (Iff.of_eq (k0_chk38.eq_1 v36 v393))
theorem k0_idx11_inb : ∀ (v36 : IVec S16 32) (v393 : IVec S16 32) (k0_hw38 : k0_chk38 v36 v393), ∀ a x, ((![v36, v393] : Fin 2 → IVec S16 32) a x).toNat < S16x32.size a := fun v36 v393 k0_hw38 => k0_hw38.1
theorem k0_idx12_inb : ∀ (v36 : IVec S16 32) (v393 : IVec S16 32) (k0_hw38 : k0_chk38 v36 v393), ∀ a x, ((![v36, v393] : Fin 2 → IVec S16 32) a x).toNat < S16x32.size a := fun v36 v393 k0_hw38 => k0_hw38.2

def k0_chk39 (v36 : IVec S16 32) (v399 : IVec S16 32) : Prop :=
  (∀ a x, ((![v36, v399] : Fin 2 → IVec S16 32) a x).toNat < S16x32.size a) ∧
  (∀ a x, ((![v36, v399] : Fin 2 → IVec S16 32) a x).toNat < S16x32.size a)
instance k0_chk39.dec : ∀ (v36 : IVec S16 32) (v399 : IVec S16 32), Decidable (k0_chk39 v36 v399) := fun v36 v399 => decidable_of_iff' _ (Iff.of_eq (k0_chk39.eq_1 v36 v399))
theorem k0_idx13_inb : ∀ (v36 : IVec S16 32) (v399 : IVec S16 32) (k0_hw39 : k0_chk39 v36 v399), ∀ a x, ((![v36, v399] : Fin 2 → IVec S16 32) a x).toNat < S16x32.size a := fun v36 v399 k0_hw39 => k0_hw39.1
theorem k0_idx14_inb : ∀ (v36 : IVec S16 32) (v399 : IVec S16 32) (k0_hw39 : k0_chk39 v36 v399), ∀ a x, ((![v36, v399] : Fin 2 → IVec S16 32) a x).toNat < S16x32.size a := fun v36 v399 k0_hw39 => k0_hw39.2

def k0_chk40 (v36 : IVec S16 32) (v405 : IVec S16 32) : Prop :=
  (∀ a x, ((![v36, v405] : Fin 2 → IVec S16 32) a x).toNat < S16x32.size a) ∧
  (∀ a x, ((![v36, v405] : Fin 2 → IVec S16 32) a x).toNat < S16x32.size a)
instance k0_chk40.dec : ∀ (v36 : IVec S16 32) (v405 : IVec S16 32), Decidable (k0_chk40 v36 v405) := fun v36 v405 => decidable_of_iff' _ (Iff.of_eq (k0_chk40.eq_1 v36 v405))
theorem k0_idx15_inb : ∀ (v36 : IVec S16 32) (v405 : IVec S16 32) (k0_hw40 : k0_chk40 v36 v405), ∀ a x, ((![v36, v405] : Fin 2 → IVec S16 32) a x).toNat < S16x32.size a := fun v36 v405 k0_hw40 => k0_hw40.1
theorem k0_idx16_inb : ∀ (v36 : IVec S16 32) (v405 : IVec S16 32) (k0_hw40 : k0_chk40 v36 v405), ∀ a x, ((![v36, v405] : Fin 2 → IVec S16 32) a x).toNat < S16x32.size a := fun v36 v405 k0_hw40 => k0_hw40.2

def k0_chk41 (v36 : IVec S16 32) (v411 : IVec S16 32) : Prop :=
  (∀ a x, ((![v36, v411] : Fin 2 → IVec S16 32) a x).toNat < S16x32.size a) ∧
  (∀ a x, ((![v36, v411] : Fin 2 → IVec S16 32) a x).toNat < S16x32.size a)
instance k0_chk41.dec : ∀ (v36 : IVec S16 32) (v411 : IVec S16 32), Decidable (k0_chk41 v36 v411) := fun v36 v411 => decidable_of_iff' _ (Iff.of_eq (k0_chk41.eq_1 v36 v411))
theorem k0_idx17_inb : ∀ (v36 : IVec S16 32) (v411 : IVec S16 32) (k0_hw41 : k0_chk41 v36 v411), ∀ a x, ((![v36, v411] : Fin 2 → IVec S16 32) a x).toNat < S16x32.size a := fun v36 v411 k0_hw41 => k0_hw41.1
theorem k0_idx18_inb : ∀ (v36 : IVec S16 32) (v411 : IVec S16 32) (k0_hw41 : k0_chk41 v36 v411), ∀ a x, ((![v36, v411] : Fin 2 → IVec S16 32) a x).toNat < S16x32.size a := fun v36 v411 k0_hw41 => k0_hw41.2

def k0_chk42 (v36 : IVec S16 32) (v417 : IVec S16 32) : Prop :=
  (∀ a x, ((![v36, v417] : Fin 2 → IVec S16 32) a x).toNat < S16x32.size a) ∧
  (∀ a x, ((![v36, v417] : Fin 2 → IVec S16 32) a x).toNat < S16x32.size a)
instance k0_chk42.dec : ∀ (v36 : IVec S16 32) (v417 : IVec S16 32), Decidable (k0_chk42 v36 v417) := fun v36 v417 => decidable_of_iff' _ (Iff.of_eq (k0_chk42.eq_1 v36 v417))
theorem k0_idx19_inb : ∀ (v36 : IVec S16 32) (v417 : IVec S16 32) (k0_hw42 : k0_chk42 v36 v417), ∀ a x, ((![v36, v417] : Fin 2 → IVec S16 32) a x).toNat < S16x32.size a := fun v36 v417 k0_hw42 => k0_hw42.1
theorem k0_idx20_inb : ∀ (v36 : IVec S16 32) (v417 : IVec S16 32) (k0_hw42 : k0_chk42 v36 v417), ∀ a x, ((![v36, v417] : Fin 2 → IVec S16 32) a x).toNat < S16x32.size a := fun v36 v417 k0_hw42 => k0_hw42.2

def k0_chk43 (v36 : IVec S16 32) (v423 : IVec S16 32) : Prop :=
  (∀ a x, ((![v36, v423] : Fin 2 → IVec S16 32) a x).toNat < S16x32.size a) ∧
  (∀ a x, ((![v36, v423] : Fin 2 → IVec S16 32) a x).toNat < S16x32.size a)
instance k0_chk43.dec : ∀ (v36 : IVec S16 32) (v423 : IVec S16 32), Decidable (k0_chk43 v36 v423) := fun v36 v423 => decidable_of_iff' _ (Iff.of_eq (k0_chk43.eq_1 v36 v423))
theorem k0_idx21_inb : ∀ (v36 : IVec S16 32) (v423 : IVec S16 32) (k0_hw43 : k0_chk43 v36 v423), ∀ a x, ((![v36, v423] : Fin 2 → IVec S16 32) a x).toNat < S16x32.size a := fun v36 v423 k0_hw43 => k0_hw43.1
theorem k0_idx22_inb : ∀ (v36 : IVec S16 32) (v423 : IVec S16 32) (k0_hw43 : k0_chk43 v36 v423), ∀ a x, ((![v36, v423] : Fin 2 → IVec S16 32) a x).toNat < S16x32.size a := fun v36 v423 k0_hw43 => k0_hw43.2

def k0_chk44 (v36 : IVec S16 32) (v429 : IVec S16 32) : Prop :=
  (∀ a x, ((![v36, v429] : Fin 2 → IVec S16 32) a x).toNat < S16x32.size a) ∧
  (∀ a x, ((![v36, v429] : Fin 2 → IVec S16 32) a x).toNat < S16x32.size a)
instance k0_chk44.dec : ∀ (v36 : IVec S16 32) (v429 : IVec S16 32), Decidable (k0_chk44 v36 v429) := fun v36 v429 => decidable_of_iff' _ (Iff.of_eq (k0_chk44.eq_1 v36 v429))
theorem k0_idx23_inb : ∀ (v36 : IVec S16 32) (v429 : IVec S16 32) (k0_hw44 : k0_chk44 v36 v429), ∀ a x, ((![v36, v429] : Fin 2 → IVec S16 32) a x).toNat < S16x32.size a := fun v36 v429 k0_hw44 => k0_hw44.1
theorem k0_idx24_inb : ∀ (v36 : IVec S16 32) (v429 : IVec S16 32) (k0_hw44 : k0_chk44 v36 v429), ∀ a x, ((![v36, v429] : Fin 2 → IVec S16 32) a x).toNat < S16x32.size a := fun v36 v429 k0_hw44 => k0_hw44.2

def k0_chk45 (v36 : IVec S16 32) (v435 : IVec S16 32) : Prop :=
  (∀ a x, ((![v36, v435] : Fin 2 → IVec S16 32) a x).toNat < S16x32.size a) ∧
  (∀ a x, ((![v36, v435] : Fin 2 → IVec S16 32) a x).toNat < S16x32.size a)
instance k0_chk45.dec : ∀ (v36 : IVec S16 32) (v435 : IVec S16 32), Decidable (k0_chk45 v36 v435) := fun v36 v435 => decidable_of_iff' _ (Iff.of_eq (k0_chk45.eq_1 v36 v435))
theorem k0_idx25_inb : ∀ (v36 : IVec S16 32) (v435 : IVec S16 32) (k0_hw45 : k0_chk45 v36 v435), ∀ a x, ((![v36, v435] : Fin 2 → IVec S16 32) a x).toNat < S16x32.size a := fun v36 v435 k0_hw45 => k0_hw45.1
theorem k0_idx26_inb : ∀ (v36 : IVec S16 32) (v435 : IVec S16 32) (k0_hw45 : k0_chk45 v36 v435), ∀ a x, ((![v36, v435] : Fin 2 → IVec S16 32) a x).toNat < S16x32.size a := fun v36 v435 k0_hw45 => k0_hw45.2

def k0_chk46 (v36 : IVec S16 32) (v441 : IVec S16 32) : Prop :=
  (∀ a x, ((![v36, v441] : Fin 2 → IVec S16 32) a x).toNat < S16x32.size a) ∧
  (∀ a x, ((![v36, v441] : Fin 2 → IVec S16 32) a x).toNat < S16x32.size a)
instance k0_chk46.dec : ∀ (v36 : IVec S16 32) (v441 : IVec S16 32), Decidable (k0_chk46 v36 v441) := fun v36 v441 => decidable_of_iff' _ (Iff.of_eq (k0_chk46.eq_1 v36 v441))
theorem k0_idx27_inb : ∀ (v36 : IVec S16 32) (v441 : IVec S16 32) (k0_hw46 : k0_chk46 v36 v441), ∀ a x, ((![v36, v441] : Fin 2 → IVec S16 32) a x).toNat < S16x32.size a := fun v36 v441 k0_hw46 => k0_hw46.1
theorem k0_idx28_inb : ∀ (v36 : IVec S16 32) (v441 : IVec S16 32) (k0_hw46 : k0_chk46 v36 v441), ∀ a x, ((![v36, v441] : Fin 2 → IVec S16 32) a x).toNat < S16x32.size a := fun v36 v441 k0_hw46 => k0_hw46.2

def k0_chk47 (v36 : IVec S16 32) (v447 : IVec S16 32) : Prop :=
  (∀ a x, ((![v36, v447] : Fin 2 → IVec S16 32) a x).toNat < S16x32.size a) ∧
  (∀ a x, ((![v36, v447] : Fin 2 → IVec S16 32) a x).toNat < S16x32.size a)
instance k0_chk47.dec : ∀ (v36 : IVec S16 32) (v447 : IVec S16 32), Decidable (k0_chk47 v36 v447) := fun v36 v447 => decidable_of_iff' _ (Iff.of_eq (k0_chk47.eq_1 v36 v447))
theorem k0_idx29_inb : ∀ (v36 : IVec S16 32) (v447 : IVec S16 32) (k0_hw47 : k0_chk47 v36 v447), ∀ a x, ((![v36, v447] : Fin 2 → IVec S16 32) a x).toNat < S16x32.size a := fun v36 v447 k0_hw47 => k0_hw47.1
theorem k0_idx30_inb : ∀ (v36 : IVec S16 32) (v447 : IVec S16 32) (k0_hw47 : k0_chk47 v36 v447), ∀ a x, ((![v36, v447] : Fin 2 → IVec S16 32) a x).toNat < S16x32.size a := fun v36 v447 k0_hw47 => k0_hw47.2

def k0_chk48 (v36 : IVec S16 32) (v453 : IVec S16 32) : Prop :=
  (∀ a x, ((![v36, v453] : Fin 2 → IVec S16 32) a x).toNat < S16x32.size a) ∧
  (∀ a x, ((![v36, v453] : Fin 2 → IVec S16 32) a x).toNat < S16x32.size a)
instance k0_chk48.dec : ∀ (v36 : IVec S16 32) (v453 : IVec S16 32), Decidable (k0_chk48 v36 v453) := fun v36 v453 => decidable_of_iff' _ (Iff.of_eq (k0_chk48.eq_1 v36 v453))
theorem k0_idx31_inb : ∀ (v36 : IVec S16 32) (v453 : IVec S16 32) (k0_hw48 : k0_chk48 v36 v453), ∀ a x, ((![v36, v453] : Fin 2 → IVec S16 32) a x).toNat < S16x32.size a := fun v36 v453 k0_hw48 => k0_hw48.1
theorem k0_idx32_inb : ∀ (v36 : IVec S16 32) (v453 : IVec S16 32) (k0_hw48 : k0_chk48 v36 v453), ∀ a x, ((![v36, v453] : Fin 2 → IVec S16 32) a x).toNat < S16x32.size a := fun v36 v453 k0_hw48 => k0_hw48.2

def k0_chk49 (v36 : IVec S16 32) (v459 : IVec S16 32) : Prop :=
  (∀ a x, ((![v36, v459] : Fin 2 → IVec S16 32) a x).toNat < S16x32.size a) ∧
  (∀ a x, ((![v36, v459] : Fin 2 → IVec S16 32) a x).toNat < S16x32.size a)
instance k0_chk49.dec : ∀ (v36 : IVec S16 32) (v459 : IVec S16 32), Decidable (k0_chk49 v36 v459) := fun v36 v459 => decidable_of_iff' _ (Iff.of_eq (k0_chk49.eq_1 v36 v459))
theorem k0_idx33_inb : ∀ (v36 : IVec S16 32) (v459 : IVec S16 32) (k0_hw49 : k0_chk49 v36 v459), ∀ a x, ((![v36, v459] : Fin 2 → IVec S16 32) a x).toNat < S16x32.size a := fun v36 v459 k0_hw49 => k0_hw49.1
theorem k0_idx34_inb : ∀ (v36 : IVec S16 32) (v459 : IVec S16 32) (k0_hw49 : k0_chk49 v36 v459), ∀ a x, ((![v36, v459] : Fin 2 → IVec S16 32) a x).toNat < S16x32.size a := fun v36 v459 k0_hw49 => k0_hw49.2

def k0_chk50 (v36 : IVec S16 32) (v465 : IVec S16 32) : Prop :=
  (∀ a x, ((![v36, v465] : Fin 2 → IVec S16 32) a x).toNat < S16x32.size a) ∧
  (∀ a x, ((![v36, v465] : Fin 2 → IVec S16 32) a x).toNat < S16x32.size a)
instance k0_chk50.dec : ∀ (v36 : IVec S16 32) (v465 : IVec S16 32), Decidable (k0_chk50 v36 v465) := fun v36 v465 => decidable_of_iff' _ (Iff.of_eq (k0_chk50.eq_1 v36 v465))
theorem k0_idx35_inb : ∀ (v36 : IVec S16 32) (v465 : IVec S16 32) (k0_hw50 : k0_chk50 v36 v465), ∀ a x, ((![v36, v465] : Fin 2 → IVec S16 32) a x).toNat < S16x32.size a := fun v36 v465 k0_hw50 => k0_hw50.1
theorem k0_idx36_inb : ∀ (v36 : IVec S16 32) (v465 : IVec S16 32) (k0_hw50 : k0_chk50 v36 v465), ∀ a x, ((![v36, v465] : Fin 2 → IVec S16 32) a x).toNat < S16x32.size a := fun v36 v465 k0_hw50 => k0_hw50.2

def k0_chk51 (v36 : IVec S16 32) (v471 : IVec S16 32) : Prop :=
  (∀ a x, ((![v36, v471] : Fin 2 → IVec S16 32) a x).toNat < S16x32.size a) ∧
  (∀ a x, ((![v36, v471] : Fin 2 → IVec S16 32) a x).toNat < S16x32.size a)
instance k0_chk51.dec : ∀ (v36 : IVec S16 32) (v471 : IVec S16 32), Decidable (k0_chk51 v36 v471) := fun v36 v471 => decidable_of_iff' _ (Iff.of_eq (k0_chk51.eq_1 v36 v471))
theorem k0_idx37_inb : ∀ (v36 : IVec S16 32) (v471 : IVec S16 32) (k0_hw51 : k0_chk51 v36 v471), ∀ a x, ((![v36, v471] : Fin 2 → IVec S16 32) a x).toNat < S16x32.size a := fun v36 v471 k0_hw51 => k0_hw51.1
theorem k0_idx38_inb : ∀ (v36 : IVec S16 32) (v471 : IVec S16 32) (k0_hw51 : k0_chk51 v36 v471), ∀ a x, ((![v36, v471] : Fin 2 → IVec S16 32) a x).toNat < S16x32.size a := fun v36 v471 k0_hw51 => k0_hw51.2

def k0_chk52 (v36 : IVec S16 32) (v477 : IVec S16 32) : Prop :=
  (∀ a x, ((![v36, v477] : Fin 2 → IVec S16 32) a x).toNat < S16x32.size a) ∧
  (∀ a x, ((![v36, v477] : Fin 2 → IVec S16 32) a x).toNat < S16x32.size a)
instance k0_chk52.dec : ∀ (v36 : IVec S16 32) (v477 : IVec S16 32), Decidable (k0_chk52 v36 v477) := fun v36 v477 => decidable_of_iff' _ (Iff.of_eq (k0_chk52.eq_1 v36 v477))
theorem k0_idx39_inb : ∀ (v36 : IVec S16 32) (v477 : IVec S16 32) (k0_hw52 : k0_chk52 v36 v477), ∀ a x, ((![v36, v477] : Fin 2 → IVec S16 32) a x).toNat < S16x32.size a := fun v36 v477 k0_hw52 => k0_hw52.1
theorem k0_idx40_inb : ∀ (v36 : IVec S16 32) (v477 : IVec S16 32) (k0_hw52 : k0_chk52 v36 v477), ∀ a x, ((![v36, v477] : Fin 2 → IVec S16 32) a x).toNat < S16x32.size a := fun v36 v477 k0_hw52 => k0_hw52.2

def k0_chk53 (v36 : IVec S16 32) (v483 : IVec S16 32) : Prop :=
  (∀ a x, ((![v36, v483] : Fin 2 → IVec S16 32) a x).toNat < S16x32.size a) ∧
  (∀ a x, ((![v36, v483] : Fin 2 → IVec S16 32) a x).toNat < S16x32.size a)
instance k0_chk53.dec : ∀ (v36 : IVec S16 32) (v483 : IVec S16 32), Decidable (k0_chk53 v36 v483) := fun v36 v483 => decidable_of_iff' _ (Iff.of_eq (k0_chk53.eq_1 v36 v483))
theorem k0_idx41_inb : ∀ (v36 : IVec S16 32) (v483 : IVec S16 32) (k0_hw53 : k0_chk53 v36 v483), ∀ a x, ((![v36, v483] : Fin 2 → IVec S16 32) a x).toNat < S16x32.size a := fun v36 v483 k0_hw53 => k0_hw53.1
theorem k0_idx42_inb : ∀ (v36 : IVec S16 32) (v483 : IVec S16 32) (k0_hw53 : k0_chk53 v36 v483), ∀ a x, ((![v36, v483] : Fin 2 → IVec S16 32) a x).toNat < S16x32.size a := fun v36 v483 k0_hw53 => k0_hw53.2

def k0_chk54 (v36 : IVec S16 32) (v489 : IVec S16 32) : Prop :=
  (∀ a x, ((![v36, v489] : Fin 2 → IVec S16 32) a x).toNat < S16x32.size a) ∧
  (∀ a x, ((![v36, v489] : Fin 2 → IVec S16 32) a x).toNat < S16x32.size a)
instance k0_chk54.dec : ∀ (v36 : IVec S16 32) (v489 : IVec S16 32), Decidable (k0_chk54 v36 v489) := fun v36 v489 => decidable_of_iff' _ (Iff.of_eq (k0_chk54.eq_1 v36 v489))
theorem k0_idx43_inb : ∀ (v36 : IVec S16 32) (v489 : IVec S16 32) (k0_hw54 : k0_chk54 v36 v489), ∀ a x, ((![v36, v489] : Fin 2 → IVec S16 32) a x).toNat < S16x32.size a := fun v36 v489 k0_hw54 => k0_hw54.1
theorem k0_idx44_inb : ∀ (v36 : IVec S16 32) (v489 : IVec S16 32) (k0_hw54 : k0_chk54 v36 v489), ∀ a x, ((![v36, v489] : Fin 2 → IVec S16 32) a x).toNat < S16x32.size a := fun v36 v489 k0_hw54 => k0_hw54.2

def k0_chk55 (v36 : IVec S16 32) (v495 : IVec S16 32) : Prop :=
  (∀ a x, ((![v36, v495] : Fin 2 → IVec S16 32) a x).toNat < S16x32.size a) ∧
  (∀ a x, ((![v36, v495] : Fin 2 → IVec S16 32) a x).toNat < S16x32.size a)
instance k0_chk55.dec : ∀ (v36 : IVec S16 32) (v495 : IVec S16 32), Decidable (k0_chk55 v36 v495) := fun v36 v495 => decidable_of_iff' _ (Iff.of_eq (k0_chk55.eq_1 v36 v495))
theorem k0_idx45_inb : ∀ (v36 : IVec S16 32) (v495 : IVec S16 32) (k0_hw55 : k0_chk55 v36 v495), ∀ a x, ((![v36, v495] : Fin 2 → IVec S16 32) a x).toNat < S16x32.size a := fun v36 v495 k0_hw55 => k0_hw55.1
theorem k0_idx46_inb : ∀ (v36 : IVec S16 32) (v495 : IVec S16 32) (k0_hw55 : k0_chk55 v36 v495), ∀ a x, ((![v36, v495] : Fin 2 → IVec S16 32) a x).toNat < S16x32.size a := fun v36 v495 k0_hw55 => k0_hw55.2

def k0_chk56 (v36 : IVec S16 32) (v501 : IVec S16 32) : Prop :=
  (∀ a x, ((![v36, v501] : Fin 2 → IVec S16 32) a x).toNat < S16x32.size a) ∧
  (∀ a x, ((![v36, v501] : Fin 2 → IVec S16 32) a x).toNat < S16x32.size a)
instance k0_chk56.dec : ∀ (v36 : IVec S16 32) (v501 : IVec S16 32), Decidable (k0_chk56 v36 v501) := fun v36 v501 => decidable_of_iff' _ (Iff.of_eq (k0_chk56.eq_1 v36 v501))
theorem k0_idx47_inb : ∀ (v36 : IVec S16 32) (v501 : IVec S16 32) (k0_hw56 : k0_chk56 v36 v501), ∀ a x, ((![v36, v501] : Fin 2 → IVec S16 32) a x).toNat < S16x32.size a := fun v36 v501 k0_hw56 => k0_hw56.1
theorem k0_idx48_inb : ∀ (v36 : IVec S16 32) (v501 : IVec S16 32) (k0_hw56 : k0_chk56 v36 v501), ∀ a x, ((![v36, v501] : Fin 2 → IVec S16 32) a x).toNat < S16x32.size a := fun v36 v501 k0_hw56 => k0_hw56.2

def k0_chk57 (v36 : IVec S16 32) (v507 : IVec S16 32) : Prop :=
  (∀ a x, ((![v36, v507] : Fin 2 → IVec S16 32) a x).toNat < S16x32.size a) ∧
  (∀ a x, ((![v36, v507] : Fin 2 → IVec S16 32) a x).toNat < S16x32.size a)
instance k0_chk57.dec : ∀ (v36 : IVec S16 32) (v507 : IVec S16 32), Decidable (k0_chk57 v36 v507) := fun v36 v507 => decidable_of_iff' _ (Iff.of_eq (k0_chk57.eq_1 v36 v507))
theorem k0_idx49_inb : ∀ (v36 : IVec S16 32) (v507 : IVec S16 32) (k0_hw57 : k0_chk57 v36 v507), ∀ a x, ((![v36, v507] : Fin 2 → IVec S16 32) a x).toNat < S16x32.size a := fun v36 v507 k0_hw57 => k0_hw57.1
theorem k0_idx50_inb : ∀ (v36 : IVec S16 32) (v507 : IVec S16 32) (k0_hw57 : k0_chk57 v36 v507), ∀ a x, ((![v36, v507] : Fin 2 → IVec S16 32) a x).toNat < S16x32.size a := fun v36 v507 k0_hw57 => k0_hw57.2

def k0_chk58 (v36 : IVec S16 32) (v513 : IVec S16 32) : Prop :=
  (∀ a x, ((![v36, v513] : Fin 2 → IVec S16 32) a x).toNat < S16x32.size a) ∧
  (∀ a x, ((![v36, v513] : Fin 2 → IVec S16 32) a x).toNat < S16x32.size a)
instance k0_chk58.dec : ∀ (v36 : IVec S16 32) (v513 : IVec S16 32), Decidable (k0_chk58 v36 v513) := fun v36 v513 => decidable_of_iff' _ (Iff.of_eq (k0_chk58.eq_1 v36 v513))
theorem k0_idx51_inb : ∀ (v36 : IVec S16 32) (v513 : IVec S16 32) (k0_hw58 : k0_chk58 v36 v513), ∀ a x, ((![v36, v513] : Fin 2 → IVec S16 32) a x).toNat < S16x32.size a := fun v36 v513 k0_hw58 => k0_hw58.1
theorem k0_idx52_inb : ∀ (v36 : IVec S16 32) (v513 : IVec S16 32) (k0_hw58 : k0_chk58 v36 v513), ∀ a x, ((![v36, v513] : Fin 2 → IVec S16 32) a x).toNat < S16x32.size a := fun v36 v513 k0_hw58 => k0_hw58.2

def k0_chk59 (v36 : IVec S16 32) (v519 : IVec S16 32) : Prop :=
  (∀ a x, ((![v36, v519] : Fin 2 → IVec S16 32) a x).toNat < S16x32.size a) ∧
  (∀ a x, ((![v36, v519] : Fin 2 → IVec S16 32) a x).toNat < S16x32.size a)
instance k0_chk59.dec : ∀ (v36 : IVec S16 32) (v519 : IVec S16 32), Decidable (k0_chk59 v36 v519) := fun v36 v519 => decidable_of_iff' _ (Iff.of_eq (k0_chk59.eq_1 v36 v519))
theorem k0_idx53_inb : ∀ (v36 : IVec S16 32) (v519 : IVec S16 32) (k0_hw59 : k0_chk59 v36 v519), ∀ a x, ((![v36, v519] : Fin 2 → IVec S16 32) a x).toNat < S16x32.size a := fun v36 v519 k0_hw59 => k0_hw59.1
theorem k0_idx54_inb : ∀ (v36 : IVec S16 32) (v519 : IVec S16 32) (k0_hw59 : k0_chk59 v36 v519), ∀ a x, ((![v36, v519] : Fin 2 → IVec S16 32) a x).toNat < S16x32.size a := fun v36 v519 k0_hw59 => k0_hw59.2

def k0_chk60 (v36 : IVec S16 32) (v525 : IVec S16 32) : Prop :=
  (∀ a x, ((![v36, v525] : Fin 2 → IVec S16 32) a x).toNat < S16x32.size a) ∧
  (∀ a x, ((![v36, v525] : Fin 2 → IVec S16 32) a x).toNat < S16x32.size a)
instance k0_chk60.dec : ∀ (v36 : IVec S16 32) (v525 : IVec S16 32), Decidable (k0_chk60 v36 v525) := fun v36 v525 => decidable_of_iff' _ (Iff.of_eq (k0_chk60.eq_1 v36 v525))
theorem k0_idx55_inb : ∀ (v36 : IVec S16 32) (v525 : IVec S16 32) (k0_hw60 : k0_chk60 v36 v525), ∀ a x, ((![v36, v525] : Fin 2 → IVec S16 32) a x).toNat < S16x32.size a := fun v36 v525 k0_hw60 => k0_hw60.1
theorem k0_idx56_inb : ∀ (v36 : IVec S16 32) (v525 : IVec S16 32) (k0_hw60 : k0_chk60 v36 v525), ∀ a x, ((![v36, v525] : Fin 2 → IVec S16 32) a x).toNat < S16x32.size a := fun v36 v525 k0_hw60 => k0_hw60.2

def k0_chk61 (v36 : IVec S16 32) (v531 : IVec S16 32) : Prop :=
  (∀ a x, ((![v36, v531] : Fin 2 → IVec S16 32) a x).toNat < S16x32.size a) ∧
  (∀ a x, ((![v36, v531] : Fin 2 → IVec S16 32) a x).toNat < S16x32.size a)
instance k0_chk61.dec : ∀ (v36 : IVec S16 32) (v531 : IVec S16 32), Decidable (k0_chk61 v36 v531) := fun v36 v531 => decidable_of_iff' _ (Iff.of_eq (k0_chk61.eq_1 v36 v531))
theorem k0_idx57_inb : ∀ (v36 : IVec S16 32) (v531 : IVec S16 32) (k0_hw61 : k0_chk61 v36 v531), ∀ a x, ((![v36, v531] : Fin 2 → IVec S16 32) a x).toNat < S16x32.size a := fun v36 v531 k0_hw61 => k0_hw61.1
theorem k0_idx58_inb : ∀ (v36 : IVec S16 32) (v531 : IVec S16 32) (k0_hw61 : k0_chk61 v36 v531), ∀ a x, ((![v36, v531] : Fin 2 → IVec S16 32) a x).toNat < S16x32.size a := fun v36 v531 k0_hw61 => k0_hw61.2

def k0_chk62 (v36 : IVec S16 32) (v537 : IVec S16 32) : Prop :=
  (∀ a x, ((![v36, v537] : Fin 2 → IVec S16 32) a x).toNat < S16x32.size a) ∧
  (∀ a x, ((![v36, v537] : Fin 2 → IVec S16 32) a x).toNat < S16x32.size a)
instance k0_chk62.dec : ∀ (v36 : IVec S16 32) (v537 : IVec S16 32), Decidable (k0_chk62 v36 v537) := fun v36 v537 => decidable_of_iff' _ (Iff.of_eq (k0_chk62.eq_1 v36 v537))
theorem k0_idx59_inb : ∀ (v36 : IVec S16 32) (v537 : IVec S16 32) (k0_hw62 : k0_chk62 v36 v537), ∀ a x, ((![v36, v537] : Fin 2 → IVec S16 32) a x).toNat < S16x32.size a := fun v36 v537 k0_hw62 => k0_hw62.1
theorem k0_idx60_inb : ∀ (v36 : IVec S16 32) (v537 : IVec S16 32) (k0_hw62 : k0_chk62 v36 v537), ∀ a x, ((![v36, v537] : Fin 2 → IVec S16 32) a x).toNat < S16x32.size a := fun v36 v537 k0_hw62 => k0_hw62.2

def k0_chk63 (v36 : IVec S16 32) (v543 : IVec S16 32) : Prop :=
  (∀ a x, ((![v36, v543] : Fin 2 → IVec S16 32) a x).toNat < S16x32.size a) ∧
  (∀ a x, ((![v36, v543] : Fin 2 → IVec S16 32) a x).toNat < S16x32.size a)
instance k0_chk63.dec : ∀ (v36 : IVec S16 32) (v543 : IVec S16 32), Decidable (k0_chk63 v36 v543) := fun v36 v543 => decidable_of_iff' _ (Iff.of_eq (k0_chk63.eq_1 v36 v543))
theorem k0_idx61_inb : ∀ (v36 : IVec S16 32) (v543 : IVec S16 32) (k0_hw63 : k0_chk63 v36 v543), ∀ a x, ((![v36, v543] : Fin 2 → IVec S16 32) a x).toNat < S16x32.size a := fun v36 v543 k0_hw63 => k0_hw63.1
theorem k0_idx62_inb : ∀ (v36 : IVec S16 32) (v543 : IVec S16 32) (k0_hw63 : k0_chk63 v36 v543), ∀ a x, ((![v36, v543] : Fin 2 → IVec S16 32) a x).toNat < S16x32.size a := fun v36 v543 k0_hw63 => k0_hw63.2

def k0_chk64 (v36 : IVec S16 32) (v549 : IVec S16 32) : Prop :=
  (∀ a x, ((![v36, v549] : Fin 2 → IVec S16 32) a x).toNat < S16x32.size a) ∧
  (∀ a x, ((![v36, v549] : Fin 2 → IVec S16 32) a x).toNat < S16x32.size a)
instance k0_chk64.dec : ∀ (v36 : IVec S16 32) (v549 : IVec S16 32), Decidable (k0_chk64 v36 v549) := fun v36 v549 => decidable_of_iff' _ (Iff.of_eq (k0_chk64.eq_1 v36 v549))
theorem k0_idx63_inb : ∀ (v36 : IVec S16 32) (v549 : IVec S16 32) (k0_hw64 : k0_chk64 v36 v549), ∀ a x, ((![v36, v549] : Fin 2 → IVec S16 32) a x).toNat < S16x32.size a := fun v36 v549 k0_hw64 => k0_hw64.1
theorem k0_idx64_inb : ∀ (v36 : IVec S16 32) (v549 : IVec S16 32) (k0_hw64 : k0_chk64 v36 v549), ∀ a x, ((![v36, v549] : Fin 2 → IVec S16 32) a x).toNat < S16x32.size a := fun v36 v549 k0_hw64 => k0_hw64.2
def k0_off65 (k0_t1 : Fin k0_t1_loop.trips) : Fin 1 → Nat :=
  let c0_i32_1 : BitVec 32 := 0#32
  let c1_i32 : BitVec 32 := 1#32
  let arg20 : BitVec 32 := Scf.iv c0_i32_1 c1_i32 k0_t1
  let c16_i32 : BitVec 32 := 16#32
  let v38 : BitVec 32 := Scalar.muli arg20 c16_i32
  let v555 : Index := Scalar.indexCast v38
  ![v555.toNat]
def k0_off66 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x32_S32 : S1x32.ShapeCasts S32
  bcast_S32_S32x1_0 : S32.BroadcastsInDim S32x1 (![0] : Fin 1 → Fin S32x1.rank)
  bcast_S32x1_S32x16_0_1 : S32x1.BroadcastsInDim S32x16 (![0, 1] : Fin 2 → Fin S32x16.rank)
  shapeCasts_S32x16_S512 : S32x16.ShapeCasts S512
  shapeCasts_S1_S_ : S1.ShapeCasts S_
  bcast_S_S16 : S_.BroadcastsInDim S16 (![] : Fin 0 → Fin S16.rank)
  inb_S16_S16_0 : ∀ a, (![0] : Fin 1 → Nat) a + S16.size a ≤ S16.size a
  h_S16 : 0 < S16.numel
  inb_S512_S16_0 : ∀ a, (![0] : Fin 1 → Nat) a + S16.size a ≤ S512.size a
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  iota_S16_d0_w32_scVector : S16.Iotas .scVector 32 [0]
  slices_S16_o0_S1 : S16.Slices ![0] S1
  inpos_S1_p0 : ∀ a, (![0] : Fin 1 → Nat) a < S1.size a
  inb_S16x32_S1x32_0_0 : ∀ a, (![0, 0] : Fin 2 → Nat) a + S1x32.size a ≤ S16x32.size a
  slices_S16_o1_S1 : S16.Slices ![1] S1
  inb_S16x32_S1x32_1_0 : ∀ a, (![1, 0] : Fin 2 → Nat) a + S1x32.size a ≤ S16x32.size a
  slices_S16_o2_S1 : S16.Slices ![2] S1
  inb_S16x32_S1x32_2_0 : ∀ a, (![2, 0] : Fin 2 → Nat) a + S1x32.size a ≤ S16x32.size a
  slices_S16_o3_S1 : S16.Slices ![3] S1
  inb_S16x32_S1x32_3_0 : ∀ a, (![3, 0] : Fin 2 → Nat) a + S1x32.size a ≤ S16x32.size a
  slices_S16_o4_S1 : S16.Slices ![4] S1
  inb_S16x32_S1x32_4_0 : ∀ a, (![4, 0] : Fin 2 → Nat) a + S1x32.size a ≤ S16x32.size a
  slices_S16_o5_S1 : S16.Slices ![5] S1
  inb_S16x32_S1x32_5_0 : ∀ a, (![5, 0] : Fin 2 → Nat) a + S1x32.size a ≤ S16x32.size a
  slices_S16_o6_S1 : S16.Slices ![6] S1
  inb_S16x32_S1x32_6_0 : ∀ a, (![6, 0] : Fin 2 → Nat) a + S1x32.size a ≤ S16x32.size a
  slices_S16_o7_S1 : S16.Slices ![7] S1
  inb_S16x32_S1x32_7_0 : ∀ a, (![7, 0] : Fin 2 → Nat) a + S1x32.size a ≤ S16x32.size a
  slices_S16_o8_S1 : S16.Slices ![8] S1
  inb_S16x32_S1x32_8_0 : ∀ a, (![8, 0] : Fin 2 → Nat) a + S1x32.size a ≤ S16x32.size a
  slices_S16_o9_S1 : S16.Slices ![9] S1
  inb_S16x32_S1x32_9_0 : ∀ a, (![9, 0] : Fin 2 → Nat) a + S1x32.size a ≤ S16x32.size a
  slices_S16_o10_S1 : S16.Slices ![10] S1
  inb_S16x32_S1x32_10_0 : ∀ a, (![10, 0] : Fin 2 → Nat) a + S1x32.size a ≤ S16x32.size a
  slices_S16_o11_S1 : S16.Slices ![11] S1
  inb_S16x32_S1x32_11_0 : ∀ a, (![11, 0] : Fin 2 → Nat) a + S1x32.size a ≤ S16x32.size a
  slices_S16_o12_S1 : S16.Slices ![12] S1
  inb_S16x32_S1x32_12_0 : ∀ a, (![12, 0] : Fin 2 → Nat) a + S1x32.size a ≤ S16x32.size a
  slices_S16_o13_S1 : S16.Slices ![13] S1
  inb_S16x32_S1x32_13_0 : ∀ a, (![13, 0] : Fin 2 → Nat) a + S1x32.size a ≤ S16x32.size a
  slices_S16_o14_S1 : S16.Slices ![14] S1
  inb_S16x32_S1x32_14_0 : ∀ a, (![14, 0] : Fin 2 → Nat) a + S1x32.size a ≤ S16x32.size a
  slices_S16_o15_S1 : S16.Slices ![15] S1
  inb_S16x32_S1x32_15_0 : ∀ a, (![15, 0] : Fin 2 → Nat) a + S1x32.size a ≤ S16x32.size a
  h_S16x32 : 0 < S16x32.numel
  shapeCasts_S16384_S16384x1 : S16384.ShapeCasts S16384x1
  hcc0_scratch7 : 0 + S_.numel ≤ 9
  hcc0_scratch8 : 1 + S_.numel ≤ 9
  hcc0_scratch9 : 2 + S_.numel ≤ 9
  hcc0_scratch10 : 3 + S_.numel ≤ 9
  hcc0_scoped0 : 4 + S_.numel ≤ 9
  hcc0_scoped1 : 5 + S_.numel ≤ 9
  hcc0_scoped2 : 6 + S_.numel ≤ 9
  hcc0_scoped3 : 7 + S_.numel ≤ 9
  hcc0_scoped4 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off2_inb : ∀ k0_t1 : Fin k0_t1_loop.trips, ∀ a, (k0_off2 k0_t1) a + S16.size a ≤ S512.size a
  k0_off65_inb : ∀ k0_t1 : Fin k0_t1_loop.trips, ∀ a, (k0_off65 k0_t1) a + S16.size a ≤ S512.size a
  k0_off66_inb : ∀ i : grid0.Coords, ∀ a, (k0_off66 i) a + S512.size a ≤ S16384.size a

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2
abbrev cc0_scoped3 : DmaSems sig S_ := SemArray.consecutive 7 S_ hcc0_scoped3
abbrev cc0_scoped4 : DmaSems sig S_ := SemArray.consecutive 8 S_ hcc0_scoped4

class Facts : Prop extends Facts₀ where

variable [Facts]
-- ==== ReferenceIdeal.lean ====
abbrev S16384 : Shape := ⟨1, ![16384]⟩
abbrev S1000000x32 : Shape := ⟨2, ![1000000, 32]⟩
abbrev S1x32 : Shape := ⟨2, ![1, 32]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x32 : Shape := ⟨2, ![16384, 32]⟩
abbrev S32x1 : Shape := ⟨2, ![32, 1]⟩

abbrev nBuf : Space → Nat
  | .hbm => 58
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x32, .f32⟩
  | .hbm, ⟨3, _⟩ => ⟨S1000000x32, .f32⟩
  | .hbm, ⟨4, _⟩ => ⟨S1x32, .f32⟩
  | .hbm, ⟨5, _⟩ => ⟨S1, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S1, .i32⟩
  | .hbm, ⟨15, _⟩ => ⟨S_, .i32⟩
  | .hbm, ⟨16, _⟩ => ⟨S16384x1, .i32⟩
  | .hbm, ⟨17, _⟩ => ⟨S16384x1, .i1⟩
  | .hbm, ⟨18, _⟩ => ⟨S1x1, .i32⟩
  | .hbm, ⟨19, _⟩ => ⟨S16384x1, .i32⟩
  | .hbm, ⟨20, _⟩ => ⟨S16384x1, .i1⟩
  | .hbm, ⟨21, _⟩ => ⟨S16384x1, .i1⟩
  | .hbm, ⟨22, _⟩ => ⟨S_, .i1⟩
  | .hbm, ⟨23, _⟩ => ⟨S16384, .i1⟩
  | .hbm, ⟨24, _⟩ => ⟨S16384x32, .f32⟩
  | .hbm, ⟨25, _⟩ => ⟨S16384x32, .i1⟩
  | .hbm, ⟨26, _⟩ => ⟨S_, .f32⟩
  | .hbm, ⟨27, _⟩ => ⟨S16384x32, .f32⟩
  | .hbm, ⟨28, _⟩ => ⟨S16384x32, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S1, .i32⟩
  | .hbm, ⟨38, _⟩ => ⟨S_, .i32⟩
  | .hbm, ⟨39, _⟩ => ⟨S16384x1, .i32⟩
  | .hbm, ⟨40, _⟩ => ⟨S16384x1, .i1⟩
  | .hbm, ⟨41, _⟩ => ⟨S1x1, .i32⟩
  | .hbm, ⟨42, _⟩ => ⟨S16384x1, .i32⟩
  | .hbm, ⟨43, _⟩ => ⟨S16384x1, .i1⟩
  | .hbm, ⟨44, _⟩ => ⟨S16384x1, .i1⟩
  | .hbm, ⟨45, _⟩ => ⟨S_, .i1⟩
  | .hbm, ⟨46, _⟩ => ⟨S16384, .i1⟩
  | .hbm, ⟨47, _⟩ => ⟨S16384x32, .f32⟩
  | .hbm, ⟨48, _⟩ => ⟨S16384x32, .i1⟩
  | .hbm, ⟨49, _⟩ => ⟨S_, .f32⟩
  | .hbm, ⟨50, _⟩ => ⟨S16384x32, .f32⟩
  | .hbm, ⟨51, _⟩ => ⟨S16384x32, .f32⟩
  | .hbm, ⟨52, _⟩ => ⟨S16384x32, .f32⟩
  | .hbm, ⟨53, _⟩ => ⟨S32x1, .f32⟩
  | .hbm, ⟨54, _⟩ => ⟨S16384x1, .f32⟩
  | .hbm, ⟨55, _⟩ => ⟨S1x1, .f32⟩
  | .hbm, ⟨56, _⟩ => ⟨S16384x1, .f32⟩
  | .hbm, ⟨57, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x32_0 : S16384.BroadcastsInDim S16384x32 (![0] : Fin 1 → Fin S16384x32.rank)
  bcast_S_S16384x32 : S_.BroadcastsInDim S16384x32 (![] : Fin 0 → Fin S16384x32.rank)
  transposes_S1x32_S32x1_1_0 : S1x32.Transposes [1, 0] S32x1
  gather_S1000000x32_S16384x1_S16384x32_1_0_n_n_0_1_132_wf : GatherDims.WF S1000000x32 S16384x1 S16384x32 [1] [0] [] [0] [] 1 ![1, 32]
  dot_S16384x32_S32x1_S16384x1_1_0_0_1_n_n_wf : DotDims.WF S16384x32 S32x1 S16384x1 [1] [0] [0] [1] [] []

variable [Facts₀]

def gather_S1000000x32_S16384x1_S16384x32_1_0_n_n_0_1_132 : GatherDims S1000000x32 S16384x1 S16384x32 where
  offsetDims := [1]
  collapsedSliceDims := [0]
  operandBatchingDims := []
  startIndicesBatchingDims := []
  startIndexMap := [0]
  indexVectorDim := 1
  sliceSizes := ![1, 32]
  wf := gather_S1000000x32_S16384x1_S16384x32_1_0_n_n_0_1_132_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.Spec.lean ====
/-
  The function both programs compute, stated once and away from either program.

  For batch entry `p` the user's index word and the item's index word each name a row of a table of
  1,000,000 rows and 32 columns. The result at `p` is the sum over the 32 columns `d` of
  (user row at `d`) * (item row at `d`) * (weight at `d`), plus the bias: a weighted inner product of
  the two looked-up rows. Everything is read on the extended reals, where `+` is commutative and
  associative, so the order and grouping of the 33 summands is immaterial; no finiteness is used.
-/
import Idealize.ShloMosaic.PureOps.Ideal
import Idealize.ShloMosaic.Lib.ValueIdx

noncomputable section

open scoped BigOperators

namespace Cert.Proof.Spec

open Idealize.ShloMosaic Idealize.ShloMosaic.ValueIdx

/-- The table row an index word names: its value as a natural number, capped at the last row
    (an index word in range names its own value). -/
def rowOf (v : BitVec 32) : Fin 1000000 := ⟨min v.toNat 999999, by omega⟩

theorem rowOf_val_of_le {v : BitVec 32} (h : v.toNat ≤ 999999) : (rowOf v).val = v.toNat := by
  show min v.toNat 999999 = v.toNat
  omega

/-- Every word of an index list names a row of the table: at most 999999 as a natural number
    (so also non-negative as a signed word, and its own value under `rowOf`). -/
def IdxOK (a : (⟨1, ![16384]⟩ : Shape).Idx → BitVec 32) : Prop := ∀ j, (a j).toNat ≤ 999999

/-- Entry `p` of the result: the weighted inner product of the two looked-up rows, plus the bias. -/
def entry (iu ii : (⟨1, ![16384]⟩ : Shape).Idx → BitVec 32)
    (ut it : (⟨2, ![1000000, 32]⟩ : Shape).Idx → EReal)
    (w : (⟨2, ![1, 32]⟩ : Shape).Idx → EReal) (b : (⟨1, ![1]⟩ : Shape).Idx → EReal) (p : Fin 16384) : EReal :=
  (∑ d : Fin 32, (ut (ix2 (rowOf (iu (ix1 p))) d) * it (ix2 (rowOf (ii (ix1 p))) d)) * w (ix2 (0 : Fin 1) d))
    + b (ix1 (0 : Fin 1))

/-- The whole result, a column of 16384 entries. -/
def G (iu ii : (⟨1, ![16384]⟩ : Shape).Idx → BitVec 32)
    (ut it : (⟨2, ![1000000, 32]⟩ : Shape).Idx → EReal)
    (w : (⟨2, ![1, 32]⟩ : Shape).Idx → EReal) (b : (⟨1, ![1]⟩ : Shape).Idx → EReal) :
    (⟨2, ![16384, 1]⟩ : Shape).Idx → EReal :=
  fun j => entry iu ii ut it w b (j 0)

/-- A running sum started at `b` and fed the terms of a list one at a time is the list's sum plus `b`:
    in a commutative monoid the order in which the terms are added does not matter. -/
theorem foldl_add_eq_sum_add {M : Type} [AddCommMonoid M] (l : List M) (b : M) :
    l.foldl (· + ·) b = l.sum + b := by
  induction l generalizing b with
  | nil => simp
  | cons a l ih =>
    rw [List.foldl_cons, ih, List.sum_cons]
    rw [add_comm b a, ← add_assoc, add_comm l.sum a]

/-- The same for terms indexed by `Fin n`. -/
theorem foldl_ofFn_add_eq_sum_add {M : Type} [AddCommMonoid M] {n : Nat} (t : Fin n → M) (b : M) :
    (List.ofFn t).foldl (· + ·) b = (∑ d, t d) + b := by
  rw [foldl_add_eq_sum_add, List.sum_ofFn]

end Cert.Proof.Spec

end
-- ==== Proof.KIface.lean ====
/-
  The idealized kernel's program as the SparseCore launch sees it, and what its 32 tiles are handed.

  The batch of 16384 entries is cut into 32 consecutive pieces of 512. Tile `i` of SparseCore `c` works on
  piece number `2 * i + c`: it reads that piece of the two index lists, looks the rows up in the two tables,
  multiplies them entry by entry with the weight vector, sums, adds the bias, and writes that piece of the
  result. So each tile is handed its piece of the two index lists and of the result array outright, and one
  read share each of the two tables, of the stretched weight vector and of the stretched bias (every tile reads
  those whole). It hands the same back, its piece of the result now at the expected contents `OUT`.
  The stretched weight and bias contents (`wbf`, `bsf`: what the host operations before the call computed) and
  the expected result `OUT` are parameters here: the launch argument does not look inside them.
-/
import proofs.«208244_g21053929685252_cont_8to1_1842_38_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«208244_g21053929685252_cont_8to1_1842_38_alg».proof.Proof.Gen.KernelIdeal
import proofs.«208244_g21053929685252_cont_8to1_1842_38_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, as the TensorCore names them -/

/-- The two index lists, the two tables, the weight row and the bias (the arguments); the stretched weight vector
    and the stretched bias (computed on the host before the call); the call's result; the program's result. -/
abbrev loc0 (d : Dev nD) : Loc nD τ sig := (SparseCore.T d).loc main_arg0
abbrev loc1 (d : Dev nD) : Loc nD τ sig := (SparseCore.T d).loc main_arg1
abbrev loc2 (d : Dev nD) : Loc nD τ sig := (SparseCore.T d).loc main_arg2
abbrev loc3 (d : Dev nD) : Loc nD τ sig := (SparseCore.T d).loc main_arg3
abbrev loc4 (d : Dev nD) : Loc nD τ sig := (SparseCore.T d).loc main_arg4
abbrev loc5 (d : Dev nD) : Loc nD τ sig := (SparseCore.T d).loc main_arg5
abbrev locW (d : Dev nD) : Loc nD τ sig := (SparseCore.T d).loc main_v3
abbrev locB (d : Dev nD) : Loc nD τ sig := (SparseCore.T d).loc main_v5
abbrev locO (d : Dev nD) : Loc nD τ sig := (SparseCore.T d).loc main_v6
abbrev locR (d : Dev nD) : Loc nD τ sig := (SparseCore.T d).loc main_v7

/-! ## The 32 pieces of the batch and the tiles' read shares -/

theorem hdiv : 32 ∣ S16384.size 0 := ⟨512, rfl⟩
/-- Piece `w` of a length-16384 array: entries `[512 w, 512 w + 512)`. -/
abbrev piece (w : Fin 32) : Rect S16384 := Rect.part (s := S16384) (a₀ := 0) hdiv w
abbrev pieceSet (w : Fin 32) : Finset S16384.Idx := (piece w).set
/-- The piece tile `i` of SparseCore `c` works on: number `2 i + c`. -/
def widOf (c : Fin ((K (F := F)).nCore 0)) (i : Fin ((K (F := F)).nSub 0)) : Fin 32 :=
  ⟨2 * i.val + c.val, by
    have hc : c.val < 2 := c.isLt
    have hi : i.val < 16 := i.isLt
    omega⟩
/-- Tile number `w`'s read share of an array every tile reads whole: the `w`-th of 32 shares split off the full
    share (what is left after the 32 stays with the TensorCore's side of the call). -/
def ts (w : Fin 32) : PosShare TreeShare := Transfers.shareTokN fullShare w.val

/-! ## What the handshakes carry -/

variable (m : (ℓ : Loc nD τ sig) → Buf (Elt F) ℓ)
variable (wbf : (d : Dev nD) → Buf (Elt F) (locW d)) (bsf : (d : Dev nD) → Buf (Elt F) (locB d))
variable (OUT : (d : Dev nD) → Buf (Elt F) (locO d))

/-- What tile number `w` of device `d` is handed: its piece of the two index lists and of the result array, a read
    share of the two tables and of the stretched weight and bias. `o` is what the result array holds. -/
def tileRes (d : Dev nD) (w : Fin 32) (o : Buf (Elt F) (locO d)) : sProp 𝕄 :=
  iprop((loc0 d ↦[pieceSet w]{fullShare} m (loc0 d)) ∗ (loc1 d ↦[pieceSet w]{fullShare} m (loc1 d))
    ∗ (loc2 d ↦{ts w} m (loc2 d)) ∗ (loc3 d ↦{ts w} m (loc3 d))
    ∗ (locW d ↦{ts w} wbf d) ∗ (locB d ↦{ts w} bsf d)
    ∗ (locO d ↦[pieceSet w]{fullShare} o))

/-- The one call: a SparseCore is handed what its sixteen tiles are, a tile its own; they come back with the result's
    pieces at the expected contents. Nothing of the launch's ghost state is consumed by the kernel's proof. -/
def P : (K (F := F)).Pay (nD := nD) (Val := Elt F) (Name := ℕ) (U := UU) where
  st := fun q d c => match q with | 0 => bigSep Finset.univ fun i : Fin ((K (F := F)).nSub 0) => tileRes m wbf bsf d (widOf c i) (m (locO d))
  dn := fun q d c => match q with | 0 => bigSep Finset.univ fun i : Fin ((K (F := F)).nSub 0) => tileRes m wbf bsf d (widOf c i) (OUT d)
  go := fun q d c i => match q with | 0 => tileRes m wbf bsf d (widOf c i) (m (locO d))
  td := fun q d c i => match q with | 0 => tileRes m wbf bsf d (widOf c i) (OUT d)
  x := fun _ _ => iprop(emp)

instance tileRes_storable (d : Dev nD) (w : Fin 32) (o : Buf (Elt F) (locO d)) :
    BI.Storable (upEmb : UEmb _ 𝕄) (tileRes m wbf bsf d w o) := by
  unfold tileRes; infer_instance

instance P_storable : (P (F := F) m wbf bsf OUT).IsStorable where
  st q d c := match q with
    | 0 => (inferInstance : BI.Storable (upEmb : UEmb _ 𝕄) (bigSep Finset.univ fun i : Fin ((K (F := F)).nSub 0) => tileRes m wbf bsf d (widOf c i) (m (locO d))))
  dn q d c := match q with
    | 0 => (inferInstance : BI.Storable (upEmb : UEmb _ 𝕄) (bigSep Finset.univ fun i : Fin ((K (F := F)).nSub 0) => tileRes m wbf bsf d (widOf c i) (OUT d)))
  go q d c i := match q with
    | 0 => (inferInstance : BI.Storable (upEmb : UEmb _ 𝕄) (tileRes m wbf bsf d (widOf c i) (m (locO d))))
  td q d c i := match q with
    | 0 => (inferInstance : BI.Storable (upEmb : UEmb _ 𝕄) (tileRes m wbf bsf d (widOf c i) (OUT d)))

/-- The split of a SparseCore's operands among its tiles is the identity: it was handed them tile by tile. -/
theorem vecSplit : (K (F := F)).VecSplit' (P m wbf bsf OUT) 0 := by
  intro d c
  show (bigSep Finset.univ fun i : Fin ((K (F := F)).nSub 0) => tileRes m wbf bsf d (widOf c i) (m (locO d)))
    ⊢ |={Set.univ}=> iprop((bigSep Finset.univ fun i : Fin ((K (F := F)).nSub 0) => tileRes m wbf bsf d (widOf c i) (m (locO d)))
      ∗ ((bigSep Finset.univ fun i : Fin ((K (F := F)).nSub 0) => tileRes m wbf bsf d (widOf c i) (OUT d))
        -∗ bigSep Finset.univ fun i : Fin ((K (F := F)).nSub 0) => tileRes m wbf bsf d (widOf c i) (OUT d)))
  iintro H; imodintro
  isplitl [H]; · iexact H
  iintro H; iexact H

/-- What the proof asks of the launch memory: on every device every word of the two index lists names a table row. -/
def PreOK : Prop := ∀ d : Dev nD, Cert.Proof.Spec.IdxOK (m (loc0 d)) ∧ Cert.Proof.Spec.IdxOK (m (loc1 d))

end Cert.Proof.KI

end
-- ==== Proof.KHost.lean ====
/-
  The host stages around the SparseCore call, as pure functions of the launch memory.

  Before the call the TensorCore stretches the weight row and the bias: the weight row, a 1×32 array, is read as
  a vector of 32, made a 32×1 column, repeated along a new axis of 16 and read row by row as a vector of 512, so
  that entry 16 d + l of the stretched vector is weight d for every l below 16; the bias, a vector of one
  entry, is read as a scalar and repeated 16 times. After the call the result, a vector of 16384, is read as a
  16384×1 column. Each is a chain of layout operations, and each entry of what it produces is ONE entry of its
  operand: the three reading lemmas below say which.
-/
import proofs.«208244_g21053929685252_cont_8to1_1842_38_alg».proof.Proof.KIface
import Idealize.ShloMosaic.Lib.Pipeline.Value
import Idealize.ShloMosaic.Lib.ValueLayout
import Idealize.ShloMosaic.Lib.ValueIdx

noncomputable section

namespace Cert.Proof.KI

open Cert.KernelIdeal Cert.KernelIdeal.Gen

open Idealize.ShloMosaic Idealize.ShloMosaic.ValueIdx

variable {F : FTy → Type}

variable (m : (ℓ : Loc nD τ sig) → Buf (Elt F) ℓ)

/-- The stretched weight vector: the weight row read as a vector of 32, made a 32×1 column, repeated to
    32×16 and read row by row as a vector of 512. -/
def WB (d : Dev nD) : Buf (Elt F) (locW d) :=
  shapeCast S512
    (broadcastInDim S32x16 ![0, 1] bcast_S32x1_S32x16_0_1
      (broadcastInDim S32x1 ![0] bcast_S32_S32x1_0
        (shapeCast S32 (m (loc4 d)) shapeCasts_S1x32_S32)))
    shapeCasts_S32x16_S512

/-- The stretched bias: the one-entry bias read as a scalar and repeated 16 times. -/
def BI (d : Dev nD) : Buf (Elt F) (locB d) :=
  broadcastInDim S16 ![] bcast_S_S16 (shapeCast S_ (m (loc5 d)) shapeCasts_S1_S_)

/-- The program's result from the call's: the vector of 16384 read as a 16384×1 column. -/
def reshapeOut {d : Dev nD} (o : Buf (Elt F) (locO d)) : Buf (Elt F) (locR d) :=
  shapeCast S16384x1 o shapeCasts_S16384_S16384x1

/-- Entry 16 c + l of the stretched weight vector is weight c. -/
theorem WB_apply (d : Dev nD) (c : Fin 32) (l : Fin 16) :
    WB m d (ix1 ⟨16 * c.val + l.val, by omega⟩) = m (loc4 d) (ix2 (0 : Fin 1) c) := by
  unfold WB
  -- the vector of 512 at 16 c + l is the 32×16 array at (c, l)
  refine (shapeCast_apply _ shapeCasts_S32x16_S512 _ (ix2 c l) ?_).trans ?_
  · rw [Shape.rowMajor_val_two, Shape.rowMajor_val_one]
    show c.val * 16 + l.val = 16 * c.val + l.val
    omega
  -- the 32×16 array at (c, l) is the 32×1 column at (c, 0)
  refine (broadcastInDim_apply ![0, 1] bcast_S32x1_S32x16_0_1 _ _ (ix2 c (0 : Fin 1)) ?_).trans ?_
  · intro a
    match a with
    | ⟨0, _⟩ => rfl
    | ⟨1, _⟩ => rfl
  -- the column at (c, 0) is the vector of 32 at c
  refine (broadcastInDim_apply ![0] bcast_S32_S32x1_0 _ _ (ix1 c) ?_).trans ?_
  · intro a
    match a with
    | ⟨0, _⟩ => rfl
  -- the vector of 32 at c is the weight row at (0, c)
  exact shapeCast_1a_a_apply _ shapeCasts_S1x32_S32 c

/-- Every entry of the stretched bias is the bias. -/
theorem BI_apply (d : Dev nD) (l : Fin 16) : BI m d (ix1 l) = m (loc5 d) (ix1 (0 : Fin 1)) := by
  unfold BI
  refine (broadcastInDim_apply ![] bcast_S_S16 _ _ ix0 (fun a => a.elim0)).trans ?_
  refine shapeCast_apply _ shapeCasts_S1_S_ _ (ix1 (0 : Fin 1)) ?_
  have h1 := (S1.rowMajor (ix1 (0 : Fin 1))).isLt
  have h0 := (S_.rowMajor ix0).isLt
  have e1 : S1.numel = 1 := rfl
  have e0 : S_.numel = 1 := rfl
  omega

/-- Entry (p, 0) of the column is entry p of the vector. -/
theorem reshapeOut_apply {d : Dev nD} (o : Buf (Elt F) (locO d)) (p : Fin 16384) :
    reshapeOut o (ix2 p (0 : Fin 1)) = o (ix1 p) := by
  unfold reshapeOut
  refine shapeCast_apply _ shapeCasts_S16384_S16384x1 _ (ix1 p) ?_
  rw [Shape.rowMajor_val_two, Shape.rowMajor_val_one]
  show p.val = p.val * 1 + 0
  omega

end Cert.Proof.KI

end
-- ==== Proof.KSplit.lean ====
/-
  How the SparseCore call's arrays are dealt to the 32 tiles and collected again.

  The call takes, for each of the 32 tiles, its piece of the two index lists and of the result array and a read
  share of the two tables and of the stretched weight and bias. So before the call the three batch-long arrays are
  cut into their 32 pieces, and each of the four arrays every tile reads whole is split into 32 read shares and a
  remainder the TensorCore keeps; the 32 bundles are grouped by SparseCore through the bijection (c, i) ↦ 2 i + c
  of {0, 1} × {0, …, 15} with {0, …, 31}. All of it is ONE equation between assertions (whole_split): read forwards
  it deals the call its operands, read backwards it collects them, the result array then at other contents.
  Also here: the launch element of the ghost state, of which the kernel's proof consumes nothing.
-/
import proofs.«208244_g21053929685252_cont_8to1_1842_38_alg».proof.Proof.KHost

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable (wbf : (d : Dev nD) → Buf (Elt F) (locW d)) (bsf : (d : Dev nD) → Buf (Elt F) (locB d))
variable (OUT : (d : Dev nD) → Buf (Elt F) (locO d))

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m wbf bsf OUT).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The 32 tiles, by SparseCore -/

/-- The numbering of the tiles: tile i of SparseCore c is number 2 i + c, a bijection. -/
def widEmb : Fin ((K (F := F)).nCore 0) × Fin ((K (F := F)).nSub 0) ↪ Fin 32 where
  toFun p := widOf p.1 p.2
  inj' := by
    rintro ⟨c, i⟩ ⟨c', i'⟩ e
    have h : 2 * i.val + c.val = 2 * i'.val + c'.val := congrArg Fin.val e
    have hc : c.val < 2 := c.isLt
    have hc' : c'.val < 2 := c'.isLt
    refine Prod.ext (Fin.ext ?_) (Fin.ext ?_)
    · show c.val = c'.val; omega
    · show i.val = i'.val; omega

theorem widEmb_univ : (Finset.univ.map (widEmb (F := F))) = (Finset.univ : Finset (Fin 32)) := by
  refine Finset.eq_univ_of_forall fun w => Finset.mem_map.mpr ?_
  have hw : w.val < 32 := w.isLt
  refine ⟨(⟨w.val % 2, by show w.val % 2 < 2; omega⟩, ⟨w.val / 2, by show w.val / 2 < 16; omega⟩), Finset.mem_univ _, Fin.ext ?_⟩
  show 2 * (w.val / 2) + w.val % 2 = w.val
  omega

/-- A family over the 32 tile numbers, grouped by SparseCore and tile. -/
theorem bigSep_tiles (Φ : Fin 32 → sProp 𝕄) :
    (bigSep Finset.univ fun c : Fin ((K (F := F)).nCore 0) => bigSep Finset.univ fun i : Fin ((K (F := F)).nSub 0) => Φ (widOf c i))
      = bigSep Finset.univ Φ := by
  rw [← bigSep_univ_prod (fun p : Fin ((K (F := F)).nCore 0) × Fin ((K (F := F)).nSub 0) => Φ (widOf p.1 p.2)),
    ← widEmb_univ (F := F), bigSep_map]
  rfl

/-! ## The pieces of a batch-long array and the read shares of an array read whole -/

theorem pieces_disjoint : ∀ i ∈ (Finset.univ : Finset (Fin 32)), ∀ j ∈ (Finset.univ : Finset (Fin 32)), i ≠ j → Disjoint (pieceSet i) (pieceSet j) :=
  fun _ _ _ _ h => Rect.part_disjoint hdiv h
theorem pieces_cover : (Finset.univ : Finset (Fin 32)).biUnion pieceSet = Finset.univ := Rect.biUnion_part hdiv

theorem pts_pieces0 (d : Dev nD) (f : Buf (Elt F) (loc0 d)) :
    (loc0 d ↦{fullShare} f : sProp 𝕄) = bigSep Finset.univ fun w : Fin 32 => loc0 d ↦[pieceSet w]{fullShare} f := by
  rw [← pointsTo_biUnion Finset.univ (ℓ := loc0 d) pieceSet pieces_disjoint, pieces_cover]; try rfl
theorem pts_pieces1 (d : Dev nD) (f : Buf (Elt F) (loc1 d)) :
    (loc1 d ↦{fullShare} f : sProp 𝕄) = bigSep Finset.univ fun w : Fin 32 => loc1 d ↦[pieceSet w]{fullShare} f := by
  rw [← pointsTo_biUnion Finset.univ (ℓ := loc1 d) pieceSet pieces_disjoint, pieces_cover]; try rfl
theorem pts_piecesO (d : Dev nD) (f : Buf (Elt F) (locO d)) :
    (locO d ↦{fullShare} f : sProp 𝕄) = bigSep Finset.univ fun w : Fin 32 => locO d ↦[pieceSet w]{fullShare} f := by
  rw [← pointsTo_biUnion Finset.univ (ℓ := locO d) pieceSet pieces_disjoint, pieces_cover]; try rfl

/-- What the TensorCore keeps of an array every tile reads whole while the tiles hold their shares. -/
abbrev rq : PosShare TreeShare := Transfers.shareDrop fullShare 32

/-- An array held whole is the remainder and the 32 tiles' read shares. -/
theorem pts_shares (ℓ : Loc nD τ sig) (f : Buf (Elt F) ℓ) :
    (ℓ ↦{fullShare} f : sProp 𝕄) = iprop((ℓ ↦{rq} f) ∗ bigSep Finset.univ fun w : Fin 32 => ℓ ↦{ts w} f) := by
  have h : (ℓ ↦{fullShare} f : sProp 𝕄)
      ⊣⊢ iprop((ℓ ↦{rq} f) ∗ bigSep Finset.univ fun w : Fin 32 => ℓ ↦{Transfers.shareTok fullShare 32 w} f) :=
    Transfers.pointsTo_toks fullShare 32
  exact BI.equiv_iff.mp ⟨h.1, h.2⟩

/-! ## The call's arrays, whole and dealt -/

/-- Seven assertions, four of them pairs, regrouped: the pairs' first halves together in front. -/
theorem sep_regroup (A0 A1 R2 B2 R3 B3 RW BW RB BB AO : sProp 𝕄) :
    iprop(A0 ∗ A1 ∗ (R2 ∗ B2) ∗ (R3 ∗ B3) ∗ (RW ∗ BW) ∗ (RB ∗ BB) ∗ AO)
      = iprop((R2 ∗ R3 ∗ RW ∗ RB) ∗ A0 ∗ A1 ∗ B2 ∗ B3 ∗ BW ∗ BB ∗ AO) := by
  have h : iprop(A0 ∗ A1 ∗ (R2 ∗ B2) ∗ (R3 ∗ B3) ∗ (RW ∗ BW) ∗ (RB ∗ BB) ∗ AO)
      ⊣⊢ iprop((R2 ∗ R3 ∗ RW ∗ RB) ∗ A0 ∗ A1 ∗ B2 ∗ B3 ∗ BW ∗ BB ∗ AO) := by
    constructor
    · iintro ⟨H0, H1, ⟨R2, B2⟩, ⟨R3, B3⟩, ⟨RW, BW⟩, ⟨RB, BB⟩, HO⟩
      isplitl [R2 R3 RW RB]
      · isplitl [R2]; · iexact R2
        isplitl [R3]; · iexact R3
        isplitl [RW]; · iexact RW
        iexact RB
      isplitl [H0]; · iexact H0
      isplitl [H1]; · iexact H1
      isplitl [B2]; · iexact B2
      isplitl [B3]; · iexact B3
      isplitl [BW]; · iexact BW
      isplitl [BB]; · iexact BB
      iexact HO
    · iintro ⟨⟨R2, R3, RW, RB⟩, H0, H1, B2, B3, BW, BB, HO⟩
      isplitl [H0]; · iexact H0
      isplitl [H1]; · iexact H1
      isplitl [R2 B2]
      · isplitl [R2]; · iexact R2
        iexact B2
      isplitl [R3 B3]
      · isplitl [R3]; · iexact R3
        iexact B3
      isplitl [RW BW]
      · isplitl [RW]; · iexact RW
        iexact BW
      isplitl [RB BB]
      · isplitl [RB]; · iexact RB
        iexact BB
      iexact HO
  exact BI.equiv_iff.mp ⟨h.1, h.2⟩

/-- What the TensorCore keeps during the call: the remainders of the four arrays every tile reads whole. -/
def REM (d : Dev nD) : sProp 𝕄 :=
  iprop((loc2 d ↦{rq} m (loc2 d)) ∗ (loc3 d ↦{rq} m (loc3 d)) ∗ (locW d ↦{rq} wbf d) ∗ (locB d ↦{rq} bsf d))

/-- The seven arrays of the call held whole, the result array at o. -/
def WHOLE (d : Dev nD) (o : Buf (Elt F) (locO d)) : sProp 𝕄 :=
  iprop((loc0 d ↦{fullShare} m (loc0 d)) ∗ (loc1 d ↦{fullShare} m (loc1 d))
    ∗ (loc2 d ↦{fullShare} m (loc2 d)) ∗ (loc3 d ↦{fullShare} m (loc3 d))
    ∗ (locW d ↦{fullShare} wbf d) ∗ (locB d ↦{fullShare} bsf d)
    ∗ (locO d ↦{fullShare} o))

/-- The seven arrays held whole are the remainders and the 32 tiles' bundles, grouped by SparseCore: the batch-long
    arrays cut into their pieces, the others into read shares. Read forwards it deals the call its operands, read
    backwards it collects them. -/
theorem whole_split (d : Dev nD) (o : Buf (Elt F) (locO d)) :
    WHOLE m wbf bsf d o
      = iprop(REM m wbf bsf d ∗ bigSep Finset.univ fun c : Fin ((K (F := F)).nCore 0) =>
          bigSep Finset.univ fun i : Fin ((K (F := F)).nSub 0) => tileRes m wbf bsf d (widOf c i) o) := by
  rw [bigSep_tiles (F := F) (fun w => tileRes m wbf bsf d w o)]
  unfold WHOLE REM tileRes
  rw [bigSep_sep', bigSep_sep', bigSep_sep', bigSep_sep', bigSep_sep', bigSep_sep']
  rw [pts_pieces0, pts_pieces1, pts_piecesO, pts_shares (loc2 d), pts_shares (loc3 d), pts_shares (locW d), pts_shares (locB d)]
  exact sep_regroup _ _ _ _ _ _ _ _ _ _ _

theorem st0_eq (d : Dev nD) :
    (bigSep Finset.univ fun c : Fin ((K (F := F)).nCore 0) => (P m wbf bsf OUT).st 0 d c)
      = bigSep Finset.univ fun c : Fin ((K (F := F)).nCore 0) =>
          bigSep Finset.univ fun i : Fin ((K (F := F)).nSub 0) => tileRes m wbf bsf d (widOf c i) (m (locO d)) := rfl
theorem dn0_eq (d : Dev nD) :
    (bigSep Finset.univ fun c : Fin ((K (F := F)).nCore 0) => (P m wbf bsf OUT).dn 0 d c)
      = bigSep Finset.univ fun c : Fin ((K (F := F)).nCore 0) =>
          bigSep Finset.univ fun i : Fin ((K (F := F)).nSub 0) => tileRes m wbf bsf d (widOf c i) (OUT d) := rfl

end Cert.Proof.KI

end
-- ==== Proof.KLaunch.lean ====
/-
  The launch side of the idealized kernel's run: @main on the TensorCore, and the program's run.

  @main stretches the weight row and the bias (six host operations over the TensorCore's arrays held whole), deals
  the call its operands (the equation whole_split), starts the two SparseCores and waits for them, collects the
  operands (the same equation, the result array now at the expected contents), and reads the result as a column
  (one more host operation). The launch theorem then turns the tiles' proved task and this proof of @main into
  the run of all 35 threads: it ends, and in the final memory the six arguments are unchanged and the program's
  result is the expected one, read as a column.
-/
import proofs.«208244_g21053929685252_cont_8to1_1842_38_alg».proof.Proof.KSplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable (OUT : (d : Dev nD) → Buf (Elt F) (locO d))

/-! ## The TensorCore's arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)

/-- The intermediate values of the host operations before the call, as the TensorCore names them. -/
abbrev locV0 (d : Dev nD) : Loc nD τ sig := (SparseCore.T d).loc main_v0
abbrev locV1 (d : Dev nD) : Loc nD τ sig := (SparseCore.T d).loc main_v1
abbrev locV2 (d : Dev nD) : Loc nD τ sig := (SparseCore.T d).loc main_v2
abbrev locV4 (d : Dev nD) : Loc nD τ sig := (SparseCore.T d).loc main_v4

/-- The TensorCore's arrays, all unscoped: @main's six arguments and eight values. -/
abbrev S14 : Finset (DevRef τ sig) := {a0', a1', a2', a3', a4', a5', v0', v1', v2', v3', v4', v5', v6', v7'}

theorem held_S14 (d : Dev nD) (W : Valuation τ sig (Elt F)) :
    (held (T d) S14 W : sProp 𝕄)
      = iprop((loc0 d ↦{fullShare} W a0') ∗ (loc1 d ↦{fullShare} W a1') ∗ (loc2 d ↦{fullShare} W a2') ∗ (loc3 d ↦{fullShare} W a3')
        ∗ (loc4 d ↦{fullShare} W a4') ∗ (loc5 d ↦{fullShare} W a5')
        ∗ (locV0 d ↦{fullShare} W v0') ∗ (locV1 d ↦{fullShare} W v1') ∗ (locV2 d ↦{fullShare} W v2') ∗ (locW d ↦{fullShare} W v3')
        ∗ (locV4 d ↦{fullShare} W v4') ∗ (locB d ↦{fullShare} W v5') ∗ (locO d ↦{fullShare} W v6') ∗ (locR d ↦{fullShare} W v7')) := by
  unfold held S14
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((loc0 d ↦{fullShare} W main_arg0) ∗ (loc1 d ↦{fullShare} W main_arg1) ∗ (loc2 d ↦{fullShare} W main_arg2) ∗ (loc3 d ↦{fullShare} W main_arg3)
        ∗ (loc4 d ↦{fullShare} W main_arg4) ∗ (loc5 d ↦{fullShare} W main_arg5)
        ∗ (locV0 d ↦{fullShare} W main_v0) ∗ (locV1 d ↦{fullShare} W main_v1) ∗ (locV2 d ↦{fullShare} W main_v2) ∗ (locW d ↦{fullShare} W main_v3)
        ∗ (locV4 d ↦{fullShare} W main_v4) ∗ (locB d ↦{fullShare} W main_v5) ∗ (locO d ↦{fullShare} W main_v6) ∗ (locR d ↦{fullShare} W main_v7)) := by
  unfold unscopedBufs
  rw [show (Finset.univ.filter fun b : Ref sig .tc => ¬ b.isScoped)
      = {main_arg0, main_arg1, main_arg2, main_arg3, main_arg4, main_arg5, main_v0, main_v1, main_v2, main_v3, main_v4, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch contents of the TensorCore's arrays. -/
def V0 (d : Dev nD) : Valuation τ sig (Elt F) := fun b => m (d, b)

theorem unscoped_held (d : Dev nD) : (unscopedBufs d (fun b => m ((SparseCore.T d).loc b)) : sProp 𝕄) = held (T d) S14 (V0 m d) := by
  rw [unscopedBufs_eq, held_S14]; rfl

/-! ## The host operations and what the arrays hold around the call -/

variable [FloatOps F]

abbrev op0 : HloOp τ sig (Elt F) := StableHlo.reshape main_arg4 main_v0 rfl shapeCasts_S1x32_S32
abbrev op1 : HloOp τ sig (Elt F) :=
  StableHlo.unary main_v0 main_v1 (broadcastInDim S32x1 ![0] bcast_S32_S32x1_0 : (⟨S32, .f32⟩ : BufTy).Contents (Elt F) → (⟨S32x1, .f32⟩ : BufTy).Contents (Elt F))
abbrev op2 : HloOp τ sig (Elt F) :=
  StableHlo.unary main_v1 main_v2 (broadcastInDim S32x16 ![0, 1] bcast_S32x1_S32x16_0_1 : (⟨S32x1, .f32⟩ : BufTy).Contents (Elt F) → (⟨S32x16, .f32⟩ : BufTy).Contents (Elt F))
abbrev op3 : HloOp τ sig (Elt F) := StableHlo.reshape main_v2 main_v3 rfl shapeCasts_S32x16_S512
abbrev op4 : HloOp τ sig (Elt F) := StableHlo.reshape main_arg5 main_v4 rfl shapeCasts_S1_S_
abbrev op5 : HloOp τ sig (Elt F) :=
  StableHlo.unary main_v4 main_v5 (broadcastInDim S16 ![] bcast_S_S16 : (⟨S_, .f32⟩ : BufTy).Contents (Elt F) → (⟨S16, .f32⟩ : BufTy).Contents (Elt F))
abbrev op7 : HloOp τ sig (Elt F) := StableHlo.reshape main_v6 main_v7 rfl shapeCasts_S16384_S16384x1

theorem hbufs0 : (op0 (F := F)).bufs ⊆ S14 := show ({a4', v0'} : Finset (DevRef τ sig)) ⊆ S14 by decide
theorem hbufs1 : (op1 (F := F)).bufs ⊆ S14 := show ({v0', v1'} : Finset (DevRef τ sig)) ⊆ S14 by decide
theorem hbufs2 : (op2 (F := F)).bufs ⊆ S14 := show ({v1', v2'} : Finset (DevRef τ sig)) ⊆ S14 by decide
theorem hbufs3 : (op3 (F := F)).bufs ⊆ S14 := show ({v2', v3'} : Finset (DevRef τ sig)) ⊆ S14 by decide
theorem hbufs4 : (op4 (F := F)).bufs ⊆ S14 := show ({a5', v4'} : Finset (DevRef τ sig)) ⊆ S14 by decide
theorem hbufs5 : (op5 (F := F)).bufs ⊆ S14 := show ({v4', v5'} : Finset (DevRef τ sig)) ⊆ S14 by decide
theorem hbufs7 : (op7 (F := F)).bufs ⊆ S14 := show ({v6', v7'} : Finset (DevRef τ sig)) ⊆ S14 by decide

/-- What the TensorCore's arrays hold when the call starts: the launch contents through the six host operations. -/
def Vpre (d : Dev nD) : Valuation τ sig (Elt F) :=
  (op5 (F := F)).result ((op4 (F := F)).result ((op3 (F := F)).result ((op2 (F := F)).result ((op1 (F := F)).result ((op0 (F := F)).result (V0 m d))))))

/-- Each operation's result at its own result array is its function's value, at any other array what was there. -/
local macro "host_results" : tactic =>
  `(tactic| (repeat (first
      | rw [StableHlo.unary_result] | rw [StableHlo.reshape_result]
      | (rw [StableHlo.unary_result_ne]; rotate_left; decide)
      | (rw [StableHlo.reshape_result_ne]; rotate_left; decide))))

theorem Vpre_a0 (d : Dev nD) : Vpre m d a0' = m (loc0 d) := by unfold Vpre; host_results; try rfl
theorem Vpre_a1 (d : Dev nD) : Vpre m d a1' = m (loc1 d) := by unfold Vpre; host_results; try rfl
theorem Vpre_a2 (d : Dev nD) : Vpre m d a2' = m (loc2 d) := by unfold Vpre; host_results; try rfl
theorem Vpre_a3 (d : Dev nD) : Vpre m d a3' = m (loc3 d) := by unfold Vpre; host_results; try rfl
theorem Vpre_a4 (d : Dev nD) : Vpre m d a4' = m (loc4 d) := by unfold Vpre; host_results; try rfl
theorem Vpre_a5 (d : Dev nD) : Vpre m d a5' = m (loc5 d) := by unfold Vpre; host_results; try rfl
theorem Vpre_v3 (d : Dev nD) : Vpre m d v3' = WB m d := by unfold Vpre; host_results; try rfl
theorem Vpre_v5 (d : Dev nD) : Vpre m d v5' = BI m d := by unfold Vpre; host_results; try rfl
theorem Vpre_v6 (d : Dev nD) : Vpre m d v6' = m (locO d) := by unfold Vpre; host_results; try rfl
theorem Vpre_v7 (d : Dev nD) : Vpre m d v7' = m (locR d) := by unfold Vpre; host_results; try rfl

/-- The same when the call has ended: the result array at the expected contents. -/
def Vpost (d : Dev nD) : Valuation τ sig (Elt F) := Function.update (Vpre m d) v6' (OUT d)

theorem Vpost_v6 (d : Dev nD) : Vpost m OUT d v6' = OUT d := Function.update_self _ _ _
theorem Vpost_ne (d : Dev nD) {b : DevRef τ sig} (h : b ≠ v6') : Vpost m OUT d b = Vpre m d b := Function.update_of_ne h _ _

/-- And after the last host operation. -/
def Vfin (d : Dev nD) : Valuation τ sig (Elt F) := (op7 (F := F)).result (Vpost m OUT d)

theorem Vfin_ne (d : Dev nD) {r : Ref sig .tc} (h : r ≠ main_v7) (h6 : (Proc.devRef .tc r : DevRef τ sig) ≠ v6') :
    Vfin m OUT d (Proc.devRef .tc r) = Vpre m d (Proc.devRef .tc r) := by
  unfold Vfin
  rw [StableHlo.reshape_result_ne (h := h), Vpost_ne m OUT d h6]
theorem Vfin_v6 (d : Dev nD) : Vfin m OUT d v6' = OUT d := by
  unfold Vfin
  rw [StableHlo.reshape_result_ne (h := show main_v6 ≠ main_v7 by decide), Vpost_v6]
theorem Vfin_v7 (d : Dev nD) : Vfin m OUT d v7' = reshapeOut (OUT d) := by
  unfold Vfin
  rw [StableHlo.reshape_result, Vpost_v6]
  rfl

/-- The TensorCore's fourteen arrays: the arguments at their launch contents, the stretched weight and bias, the
    call's result at o and the program's result at r; the three intermediate values at whatever the host
    operations left. -/
def ALL (d : Dev nD) (o : Buf (Elt F) (locO d)) (r : Buf (Elt F) (locR d)) : sProp 𝕄 :=
  iprop((loc0 d ↦{fullShare} m (loc0 d)) ∗ (loc1 d ↦{fullShare} m (loc1 d)) ∗ (loc2 d ↦{fullShare} m (loc2 d)) ∗ (loc3 d ↦{fullShare} m (loc3 d))
    ∗ (loc4 d ↦{fullShare} m (loc4 d)) ∗ (loc5 d ↦{fullShare} m (loc5 d))
    ∗ (locV0 d ↦{fullShare} Vpre m d v0') ∗ (locV1 d ↦{fullShare} Vpre m d v1') ∗ (locV2 d ↦{fullShare} Vpre m d v2') ∗ (locW d ↦{fullShare} WB m d)
    ∗ (locV4 d ↦{fullShare} Vpre m d v4') ∗ (locB d ↦{fullShare} BI m d) ∗ (locO d ↦{fullShare} o) ∗ (locR d ↦{fullShare} r))

theorem held_pre (d : Dev nD) : (held (T d) S14 (Vpre m d) : sProp 𝕄) = ALL m d (m (locO d)) (m (locR d)) := by
  rw [held_S14, Vpre_a0, Vpre_a1, Vpre_a2, Vpre_a3, Vpre_a4, Vpre_a5, Vpre_v3, Vpre_v5, Vpre_v6, Vpre_v7]; rfl

theorem held_post (d : Dev nD) : (held (T d) S14 (Vpost m OUT d) : sProp 𝕄) = ALL m d (OUT d) (m (locR d)) := by
  rw [held_S14, Vpost_v6, Vpost_ne m OUT d (show a0' ≠ v6' by decide), Vpost_ne m OUT d (show a1' ≠ v6' by decide),
    Vpost_ne m OUT d (show a2' ≠ v6' by decide), Vpost_ne m OUT d (show a3' ≠ v6' by decide), Vpost_ne m OUT d (show a4' ≠ v6' by decide),
    Vpost_ne m OUT d (show a5' ≠ v6' by decide), Vpost_ne m OUT d (show v0' ≠ v6' by decide), Vpost_ne m OUT d (show v1' ≠ v6' by decide),
    Vpost_ne m OUT d (show v2' ≠ v6' by decide), Vpost_ne m OUT d (show v3' ≠ v6' by decide), Vpost_ne m OUT d (show v4' ≠ v6' by decide),
    Vpost_ne m OUT d (show v5' ≠ v6' by decide), Vpost_ne m OUT d (show v7' ≠ v6' by decide),
    Vpre_a0, Vpre_a1, Vpre_a2, Vpre_a3, Vpre_a4, Vpre_a5, Vpre_v3, Vpre_v5, Vpre_v7]; rfl

theorem held_fin (d : Dev nD) : (held (T d) S14 (Vfin m OUT d) : sProp 𝕄) = ALL m d (OUT d) (reshapeOut (OUT d)) := by
  rw [held_S14, Vfin_v6, Vfin_v7,
    Vfin_ne m OUT d (show main_arg0 ≠ main_v7 by decide) (by decide), Vfin_ne m OUT d (show main_arg1 ≠ main_v7 by decide) (by decide),
    Vfin_ne m OUT d (show main_arg2 ≠ main_v7 by decide) (by decide), Vfin_ne m OUT d (show main_arg3 ≠ main_v7 by decide) (by decide),
    Vfin_ne m OUT d (show main_arg4 ≠ main_v7 by decide) (by decide), Vfin_ne m OUT d (show main_arg5 ≠ main_v7 by decide) (by decide),
    Vfin_ne m OUT d (show main_v0 ≠ main_v7 by decide) (by decide), Vfin_ne m OUT d (show main_v1 ≠ main_v7 by decide) (by decide),
    Vfin_ne m OUT d (show main_v2 ≠ main_v7 by decide) (by decide), Vfin_ne m OUT d (show main_v3 ≠ main_v7 by decide) (by decide),
    Vfin_ne m OUT d (show main_v4 ≠ main_v7 by decide) (by decide), Vfin_ne m OUT d (show main_v5 ≠ main_v7 by decide) (by decide),
    Vpre_a0, Vpre_a1, Vpre_a2, Vpre_a3, Vpre_a4, Vpre_a5, Vpre_v3, Vpre_v5]; rfl

abbrev W1 (d : Dev nD) : Valuation τ sig (Elt F) := (op0 (F := F)).result (V0 m d)
abbrev W2 (d : Dev nD) : Valuation τ sig (Elt F) := (op1 (F := F)).result (W1 m d)
abbrev W3 (d : Dev nD) : Valuation τ sig (Elt F) := (op2 (F := F)).result (W2 m d)
abbrev W4 (d : Dev nD) : Valuation τ sig (Elt F) := (op3 (F := F)).result (W3 m d)
abbrev W5 (d : Dev nD) : Valuation τ sig (Elt F) := (op4 (F := F)).result (W4 m d)

theorem Vpre_eq (d : Dev nD) : (op5 (F := F)).result (W5 m d) = Vpre m d := rfl
theorem Vfin_eq (d : Dev nD) : (op7 (F := F)).result (Vpost m OUT d) = Vfin m OUT d := rfl

/-! ## @main on the TensorCore -/

/-- What @main leaves the claim: the six arguments whole at their launch contents, the program's result at the
    expected result read as a column. -/
def FIN (d : Dev nD) : sProp 𝕄 :=
  iprop((loc0 d ↦{fullShare} m (loc0 d)) ∗ (loc1 d ↦{fullShare} m (loc1 d)) ∗ (loc2 d ↦{fullShare} m (loc2 d)) ∗ (loc3 d ↦{fullShare} m (loc3 d))
    ∗ (loc4 d ↦{fullShare} m (loc4 d)) ∗ (loc5 d ↦{fullShare} m (loc5 d)) ∗ (locR d ↦{fullShare} reshapeOut (OUT d)))

/-- @main on device d's TensorCore: the six host operations over the fourteen arrays held whole; the call's
    operands dealt (whole_split), the call, the operands collected (whole_split backwards, the result array at
    the expected contents); the last host operation. -/
theorem hmain (κ : GSem nD τ sig → ℕ) (d : Dev nD) :
    iprop((K (F := F)).ctx EH (P m (WB m) (BI m) OUT) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m OUT d) := by
  unfold SparseCore.Cfg.tcRes
  rw [unscoped_held]
  simp only [main, wp_bind, wp_pure]
  iintro ⟨#Hctx, Hst, ⟨Hb, Hheld, -, -⟩, -⟩
  -- the six host operations before the call
  iapply (wp_hlo_within 𝒱 (SparseCore.T d) none Set.univ (op := op0) (S := S14) hbufs0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S14) hbufs1 (V := W1 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S14) hbufs2 (V := W2 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S14) hbufs3 (V := W3 m d)) $$ [Hb Hheld]
  · isplitl [Hb]; · iexact Hb
    iexact Hheld
  iintro ⟨Hb, Hheld⟩
  rw [wp_ret]; imodintro
  iapply (wp_hlo_within 𝒱 (SparseCore.T d) none Set.univ (op := op4) (S := S14) hbufs4 (V := W4 m d)) $$ [Hb Hheld]
  · isplitl [Hb]; · iexact Hb
    iexact Hheld
  iintro ⟨Hb, Hheld⟩
  rw [wp_ret]; imodintro
  iapply (wp_hlo_within 𝒱 (SparseCore.T d) none Set.univ (op := op5) (S := S14) hbufs5 (V := W5 m d)) $$ [Hb Hheld]
  · isplitl [Hb]; · iexact Hb
    iexact Hheld
  iintro ⟨Hb, Hheld⟩
  rw [wp_ret]; imodintro
  rw [Vpre_eq]
  ihave Hh := (Entails.of_eq (held_pre m d)) $$ Hheld
  unfold ALL
  icases Hh with ⟨H0, H1, H2, H3, H4, H5, Hv0, Hv1, Hv2, HW, Hv4, HB, HO, HR⟩
  -- the call's operands dealt to the tiles
  ihave Hw := (Entails.of_eq (whole_split m (WB m) (BI m) d (m (locO d)))) $$ [H0 H1 H2 H3 HW HB HO]
  · unfold WHOLE
    isplitl [H0]; · iexact H0
    isplitl [H1]; · iexact H1
    isplitl [H2]; · iexact H2
    isplitl [H3]; · iexact H3
    isplitl [HW]; · iexact HW
    isplitl [HB]; · iexact HB
    iexact HO
  icases Hw with ⟨Hrem, Htiles⟩
  -- the call
  iapply ((K (F := F)).wp_run (D (F := F)) 𝒱 (EH := EH) (P := P m (WB m) (BI m) OUT) κ d 0) $$ [Hst Htiles Hrem Hb H4 H5 Hv0 Hv1 Hv2 Hv4 HR]
  isplitr; · iexact Hctx
  isplitl [Hst]; · iexact Hst
  isplitl [Htiles]
  · rw [st0_eq]; iexact Htiles
  iintro ⟨Hst, Hdn⟩
  -- the operands collected, the result array at the expected contents
  ihave Hdn' := (Entails.of_eq (dn0_eq m (WB m) (BI m) OUT d)) $$ Hdn
  ihave Hw := (Entails.of_eq (whole_split m (WB m) (BI m) d (OUT d)).symm) $$ [Hrem Hdn']
  · isplitl [Hrem]; · iexact Hrem
    iexact Hdn'
  unfold WHOLE
  icases Hw with ⟨H0, H1, H2, H3, HW, HB, HO⟩
  -- the last host operation
  iapply (wp_hlo_within 𝒱 (SparseCore.T d) none Set.univ (op := op7) (S := S14) hbufs7 (V := Vpost m OUT d)) $$ [Hb H0 H1 H2 H3 H4 H5 Hv0 Hv1 Hv2 HW Hv4 HB HO HR]
  · isplitl [Hb]; · iexact Hb
    rw [held_post]; unfold ALL
    isplitl [H0]; · iexact H0
    isplitl [H1]; · iexact H1
    isplitl [H2]; · iexact H2
    isplitl [H3]; · iexact H3
    isplitl [H4]; · iexact H4
    isplitl [H5]; · iexact H5
    isplitl [Hv0]; · iexact Hv0
    isplitl [Hv1]; · iexact Hv1
    isplitl [Hv2]; · iexact Hv2
    isplitl [HW]; · iexact HW
    isplitl [Hv4]; · iexact Hv4
    isplitl [HB]; · iexact HB
    isplitl [HO]; · iexact HO
    iexact HR
  iintro ⟨Hb, Hheld⟩
  rw [Vfin_eq]
  ihave Hh := (Entails.of_eq (held_fin m OUT d)) $$ Hheld
  unfold ALL
  icases Hh with ⟨H0, H1, H2, H3, H4, H5, -, -, -, -, -, -, -, HR⟩
  rw [wp_ret]; imodintro; imodintro
  isplitl [Hst]; · iexact Hst
  unfold FIN
  isplitl [H0]; · iexact H0
  isplitl [H1]; · iexact H1
  isplitl [H2]; · iexact H2
  isplitl [H3]; · iexact H3
  isplitl [H4]; · iexact H4
  isplitl [H5]; · iexact H5
  iexact HR

/-! ## The final memory read off @main's final assertion -/

/-- An array held whole at contents f holds f in any memory the assertion is true of. -/
theorem pts_agree (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

def fq (d : Dev nD) (s' : Phys nD τ sig (Elt F)) : Prop :=
  s'.mem.mem (locR d) = reshapeOut (OUT d) ∧ s'.mem.mem (loc0 d) = m (loc0 d) ∧ s'.mem.mem (loc1 d) = m (loc1 d)
    ∧ s'.mem.mem (loc2 d) = m (loc2 d) ∧ s'.mem.mem (loc3 d) = m (loc3 d) ∧ s'.mem.mem (loc4 d) = m (loc4 d) ∧ s'.mem.mem (loc5 d) = m (loc5 d)

theorem hfin (d : Dev nD) (s' : Phys nD τ sig (Elt F)) : iprop(FIN m OUT d ∗ SI s') ⊢ (⌜fq m OUT d s'⌝ : sProp 𝕄) := by
  unfold FIN
  iintro ⟨⟨H0, H1, H2, H3, H4, H5, HR⟩, HSI⟩
  ihave H := (pts_agree s' (loc0 d) _) $$ [HSI H0]
  · isplitl [HSI] <;> iassumption
  icases H with ⟨%h0, HSI⟩
  ihave H := (pts_agree s' (loc1 d) _) $$ [HSI H1]
  · isplitl [HSI] <;> iassumption
  icases H with ⟨%h1, HSI⟩
  ihave H := (pts_agree s' (loc2 d) _) $$ [HSI H2]
  · isplitl [HSI] <;> iassumption
  icases H with ⟨%h2, HSI⟩
  ihave H := (pts_agree s' (loc3 d) _) $$ [HSI H3]
  · isplitl [HSI] <;> iassumption
  icases H with ⟨%h3, HSI⟩
  ihave H := (pts_agree s' (loc4 d) _) $$ [HSI H4]
  · isplitl [HSI] <;> iassumption
  icases H with ⟨%h4, HSI⟩
  ihave H := (pts_agree s' (loc5 d) _) $$ [HSI H5]
  · isplitl [HSI] <;> iassumption
  icases H with ⟨%h5, HSI⟩
  ihave H := (pts_agree s' (locR d) _) $$ [HSI HR]
  · isplitl [HSI] <;> iassumption
  icases H with ⟨%hR, -⟩
  ipureintro; exact ⟨hR, h0, h1, h2, h3, h4, h5⟩

/-! ## The program's run -/

/-- Every weakly fair execution of the 35 threads from the launch memory ends, faulting nowhere; in the final memory
    the program's result is the expected result read as a column and the six arguments are unchanged — given the
    tiles' task proved against the handshakes' payloads at the stretched weight and bias and the expected result. -/
theorem run_main [∀ e, Nonempty (Elt F e)]
    (htile : (K (F := F)).TileObl (D (F := F)) 𝒱 (P m (WB m) (BI m) OUT) v₀ 0) :
    θ_run (Cert.KernelIdeal.defs (F := F)) (Cert.KernelIdeal.threads (F := F)) ⟨m, fun _ => 0, ρ⟩
      (fun r => ∀ c : Dev nD, r.2.mem (locR c) = reshapeOut (OUT c) ∧ r.2.mem (loc0 c) = m (loc0 c) ∧ r.2.mem (loc1 c) = m (loc1 c)
        ∧ r.2.mem (loc2 c) = m (loc2 c) ∧ r.2.mem (loc3 c) = m (loc3 c) ∧ r.2.mem (loc4 c) = m (loc4 c) ∧ r.2.mem (loc5 c) = m (loc5 c)) :=
  SparseCore.Cfg.θ_run_sc (K := K (F := F)) (D := D (F := F)) (𝒱 := 𝒱) (EH := EH) (P := P m (WB m) (BI m) OUT) facts v₀
    (fun q hq => match q with | 0 => nomatch hq)
    (fun q _ => match q with | 0 => htile)
    (fun q _ => match q with | 0 => SparseCore.Cfg.VecSplit.of_plain (vecSplit m (WB m) (BI m) OUT))
    m ρ main (fun _ => iprop(emp)) (FIN m OUT) (u₀ (F := F)) (sep_elim_left.trans (hu₀ m (WB m) (BI m) OUT)) (hmain m ρ OUT) (fq m OUT) (hfin m OUT)
    _ (fun _ h => h)

end Cert.Proof.KI

end
-- ==== Proof.KTile0.lean ====
/-
  A tile's own storage and semaphores, and the pieces it is handed, in the spelling its task uses.

  Tile (`L 0`, `L 1`) of the grid works on piece `2 * (L 1) + (L 0)` of the batch. Its task addresses the three
  length-16384 arrays through slices `[1024 * (L 1) + 512 * (L 0), + 512)`, which are those pieces; the tables, the
  staged weights and the staged bias it addresses whole. Of its own it has seven scratch buffers and nine DMA
  semaphores; the launch hands them over as one bundle each, unpacked here one by one.
-/
import proofs.«208244_g21053929685252_cont_8to1_1842_38_alg».proof.Proof.KIface
import proofs.«208244_g21053929685252_cont_8to1_1842_38_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a2W" => (Memref.whole Cert.KernelIdeal.main_arg0_scv : Memref Cert.KernelIdeal.sig Kind.scVector Space.hbm Cert.KernelIdeal.S16384 EltTy.i32)
local notation "a3W" => (Memref.whole Cert.KernelIdeal.main_arg1_scv : Memref Cert.KernelIdeal.sig Kind.scVector Space.hbm Cert.KernelIdeal.S16384 EltTy.i32)
local notation "a4W" => (Memref.whole Cert.KernelIdeal.main_arg2_scv : Memref Cert.KernelIdeal.sig Kind.scVector Space.hbm Cert.KernelIdeal.S1000000x32 EltTy.f32)
local notation "a5W" => (Memref.whole Cert.KernelIdeal.main_arg3_scv : Memref Cert.KernelIdeal.sig Kind.scVector Space.hbm Cert.KernelIdeal.S1000000x32 EltTy.f32)
local notation "a6W" => (Memref.whole Cert.KernelIdeal.main_v3_scv : Memref Cert.KernelIdeal.sig Kind.scVector Space.hbm Cert.KernelIdeal.S512 EltTy.f32)
local notation "a7W" => (Memref.whole Cert.KernelIdeal.main_v5_scv : Memref Cert.KernelIdeal.sig Kind.scVector Space.hbm Cert.KernelIdeal.S16 EltTy.f32)
local notation "a8W" => (Memref.whole Cert.KernelIdeal.main_v6_scv : Memref Cert.KernelIdeal.sig Kind.scVector Space.hbm Cert.KernelIdeal.S16384 EltTy.f32)
local notation "s9W" => (Memref.whole Cert.KernelIdeal.cc0_scratch0 : Memref Cert.KernelIdeal.sig Kind.scVector Space.vmem Cert.KernelIdeal.S512 EltTy.i32)
local notation "s10W" => (Memref.whole Cert.KernelIdeal.cc0_scratch1 : Memref Cert.KernelIdeal.sig Kind.scVector Space.vmem Cert.KernelIdeal.S512 EltTy.i32)
local notation "s11W" => (Memref.whole Cert.KernelIdeal.cc0_scratch2 : Memref Cert.KernelIdeal.sig Kind.scVector Space.vmem Cert.KernelIdeal.S16x32 EltTy.f32)
local notation "s12W" => (Memref.whole Cert.KernelIdeal.cc0_scratch3 : Memref Cert.KernelIdeal.sig Kind.scVector Space.vmem Cert.KernelIdeal.S16x32 EltTy.f32)
local notation "s13W" => (Memref.whole Cert.KernelIdeal.cc0_scratch4 : Memref Cert.KernelIdeal.sig Kind.scVector Space.vmem Cert.KernelIdeal.S512 EltTy.f32)
local notation "s14W" => (Memref.whole Cert.KernelIdeal.cc0_scratch5 : Memref Cert.KernelIdeal.sig Kind.scVector Space.vmem Cert.KernelIdeal.S16 EltTy.f32)
local notation "s15W" => (Memref.whole Cert.KernelIdeal.cc0_scratch6 : Memref Cert.KernelIdeal.sig Kind.scVector Space.vmem Cert.KernelIdeal.S512 EltTy.f32)

variable [FloatOps F]

/-- The tile's thread and processor. -/
abbrev thrOf (d : Dev nD) (L : grid0.Coords) : Thread nD τ := V d ((L 0).castLE hcore0) ((L 1).castLE hsub0)
abbrev pV (L : grid0.Coords) : Proc τ := Proc.scVector ((L 0).castLE hcore0) ((L 1).castLE hsub0)

/-- The piece the tile works on. -/
def widL (L : grid0.Coords) : Fin 32 :=
  ⟨2 * (L 1).val + (L 0).val, by
    have h0 : (L 0).val < 2 := (L 0).isLt
    have h1 : (L 1).val < 16 := (L 1).isLt
    omega⟩

/-! ## The three sliced arrays -/

omit [FloatOps F] in
/-- The rectangle the task slices out of a length-16384 array is the tile's piece. -/
theorem rect1_eq (L : grid0.Coords) : Rect.unit (s := S16384) (k0_off1 L) S512.size (k0_off1_inb L) = piece (widL L) := by
  unfold piece Rect.part Rect.block
  congr 1 <;> funext a
  · rw [k0_off1_eq]
    match a with
    | ⟨0, _⟩ => simp [Shape.partIx, Shape.partSize, widL]; omega
  · match a with
    | ⟨0, _⟩ => simp [Shape.partSize]
omit [FloatOps F] in
theorem rect66_eq (L : grid0.Coords) : Rect.unit (s := S16384) (k0_off66 L) S512.size (k0_off66_inb L) = piece (widL L) := by
  unfold piece Rect.part Rect.block
  congr 1 <;> funext a
  · rw [k0_off66_eq]
    match a with
    | ⟨0, _⟩ => simp [Shape.partIx, Shape.partSize, widL]; omega
  · match a with
    | ⟨0, _⟩ => simp [Shape.partSize]

/-- The tile's slices of the two index lists and of the result array, as its task spells them. -/
abbrev sl2 (L : grid0.Coords) : Memref sig .scVector .hbm S512 .i32 := (a2W).slice (Rect.unit (s := S16384) (k0_off1 L) S512.size (k0_off1_inb L)) (fun _ => rfl)
abbrev sl3 (L : grid0.Coords) : Memref sig .scVector .hbm S512 .i32 := (a3W).slice (Rect.unit (s := S16384) (k0_off1 L) S512.size (k0_off1_inb L)) (fun _ => rfl)
abbrev sl8 (L : grid0.Coords) : Memref sig .scVector .hbm S512 .f32 := (a8W).slice (Rect.unit (s := S16384) (k0_off66 L) S512.size (k0_off66_inb L)) (fun _ => rfl)

omit [FloatOps F] in
theorem set_sl2 (L : grid0.Coords) : (sl2 L).view.set = pieceSet (widL L) := by
  show ((View.whole (main_arg0_scv : Ref sig .scVector)).slice (Rect.unit (s := S16384) (k0_off1 L) S512.size (k0_off1_inb L))).set = _
  rw [View.set_slice, rect1_eq]; exact Finset.map_refl
omit [FloatOps F] in
theorem set_sl3 (L : grid0.Coords) : (sl3 L).view.set = pieceSet (widL L) := by
  show ((View.whole (main_arg1_scv : Ref sig .scVector)).slice (Rect.unit (s := S16384) (k0_off1 L) S512.size (k0_off1_inb L))).set = _
  rw [View.set_slice, rect1_eq]; exact Finset.map_refl
omit [FloatOps F] in
theorem set_sl8 (L : grid0.Coords) : (sl8 L).view.set = pieceSet (widL L) := by
  show ((View.whole (main_v6_scv : Ref sig .scVector)).slice (Rect.unit (s := S16384) (k0_off66 L) S512.size (k0_off66_inb L))).set = _
  rw [View.set_slice, rect66_eq]; exact Finset.map_refl

omit [FloatOps F] in
theorem pts_sl2 (d : Dev nD) (L : grid0.Coords) (f : Buf (Elt F) (loc0 d)) :
    ((sl2 L).view.loc (thrOf d L) ↦[(sl2 L).view.set]{fullShare} f : sProp 𝕄) = loc0 d ↦[pieceSet (widL L)]{fullShare} f := by
  rw [set_sl2]
omit [FloatOps F] in
theorem pts_sl3 (d : Dev nD) (L : grid0.Coords) (f : Buf (Elt F) (loc1 d)) :
    ((sl3 L).view.loc (thrOf d L) ↦[(sl3 L).view.set]{fullShare} f : sProp 𝕄) = loc1 d ↦[pieceSet (widL L)]{fullShare} f := by
  rw [set_sl3]
omit [FloatOps F] in
theorem pts_sl8 (d : Dev nD) (L : grid0.Coords) (f : Buf (Elt F) (locO d)) :
    ((sl8 L).view.loc (thrOf d L) ↦[(sl8 L).view.set]{fullShare} f : sProp 𝕄) = locO d ↦[pieceSet (widL L)]{fullShare} f := by
  rw [set_sl8]

/-! ## The arrays read whole -/

omit [FloatOps F] in
theorem pts_a4 (d : Dev nD) (L : grid0.Coords) (q : PosShare TreeShare) (f : Buf (Elt F) (loc2 d)) :
    ((a4W).view.loc (thrOf d L) ↦{q} f : sProp 𝕄) = loc2 d ↦{q} f := rfl
omit [FloatOps F] in
theorem pts_a5 (d : Dev nD) (L : grid0.Coords) (q : PosShare TreeShare) (f : Buf (Elt F) (loc3 d)) :
    ((a5W).view.loc (thrOf d L) ↦{q} f : sProp 𝕄) = loc3 d ↦{q} f := rfl
omit [FloatOps F] in
theorem pts_a6 (d : Dev nD) (L : grid0.Coords) (q : PosShare TreeShare) (f : Buf (Elt F) (locW d)) :
    ((a6W).view.loc (thrOf d L) ↦{q} f : sProp 𝕄) = locW d ↦{q} f := rfl
omit [FloatOps F] in
theorem pts_a7 (d : Dev nD) (L : grid0.Coords) (q : PosShare TreeShare) (f : Buf (Elt F) (locB d)) :
    ((a7W).view.loc (thrOf d L) ↦{q} f : sProp 𝕄) = locB d ↦{q} f := rfl

/-! ## The tile's nine DMA semaphores -/

abbrev csem (k : Nat) (hk : k < 9 := by decide) : DmaSem sig := ⟨k, hk⟩
abbrev dcell (d : Dev nD) (c : Fin τ.nSC) (i : Fin τ.nSub) (k : Fin 9) : GSem nD τ sig := (V d c i, .dma (csem k.val k.isLt))

/-- The nine at zero, in the task's spelling: the four the row copies share, then the five of the staging copies. -/
abbrev cells0 (d : Dev nD) (L : grid0.Coords) : sProp 𝕄 :=
  iprop(semVal (thrOf d L, SemLoc.dma (csem 0)) 0 ∗ semVal (thrOf d L, SemLoc.dma (csem 1)) 0 ∗ semVal (thrOf d L, SemLoc.dma (csem 2)) 0
    ∗ semVal (thrOf d L, SemLoc.dma (csem 3)) 0 ∗ semVal (thrOf d L, SemLoc.dma (csem 4)) 0 ∗ semVal (thrOf d L, SemLoc.dma (csem 5)) 0
    ∗ semVal (thrOf d L, SemLoc.dma (csem 6)) 0 ∗ semVal (thrOf d L, SemLoc.dma (csem 7)) 0 ∗ semVal (thrOf d L, SemLoc.dma (csem 8)) 0)

omit [FloatOps F] in
theorem dcell_mem (d : Dev nD) (c : Fin τ.nSC) (i : Fin τ.nSub) (k : Fin 9) : dcell d c i k ∈ ownCells (V d c i) :=
  mem_ownCells.mpr ⟨rfl, (show ∀ s : DmaSem sig, (SemLoc.dma s : SemLoc sig).isScoped .scVector = true by decide) _⟩

omit [FloatOps F] in
/-- The tile's own semaphores at zero: the nine its task names, one by one, and the rest. -/
theorem ownSems0_V (d : Dev nD) (L : grid0.Coords) :
    (ownSems0 (thrOf d L) : sProp 𝕄)
      = iprop(cells0 d L
          ∗ bigSep ((ownCells (thrOf d L)) \ Finset.univ.image (dcell d ((L 0).castLE hcore0) ((L 1).castLE hsub0))) fun g => semVal g 0) := by
  unfold SparseCore.Cfg.ownSems0
  rw [SparseCore.bigSep_sdiff_split' (t := Finset.univ.image (dcell d ((L 0).castLE hcore0) ((L 1).castLE hsub0)))
      (Finset.image_subset_iff.mpr fun k _ => dcell_mem d _ _ k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 9)) = {0, 1, 2, 3, 4, 5, 6, 7, 8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-! ## The tile's seven scratch buffers -/

abbrev restRefs (L : grid0.Coords) : Finset (DevRef τ sig) :=
  ((((((((ownRefs (τ := τ) (.scVector ((L 0).castLE hcore0) ((L 1).castLE hsub0))).erase (pV L |>.devRef cc0_scratch0)).erase (pV L |>.devRef cc0_scratch1)).erase (pV L |>.devRef cc0_scratch2)).erase (pV L |>.devRef cc0_scratch3)).erase (pV L |>.devRef cc0_scratch4)).erase (pV L |>.devRef cc0_scratch5)).erase (pV L |>.devRef cc0_scratch6))

omit [FloatOps F] in
/-- The tile's own buffers: the seven scratches, each at some contents, and the rest. -/
theorem ownBufs_V (d : Dev nD) (L : grid0.Coords) :
    (ownBufs (thrOf d L) : sProp 𝕄)
      = iprop((∃ f, (thrOf d L).loc cc0_scratch0 ↦{fullShare} f) ∗ (∃ f, (thrOf d L).loc cc0_scratch1 ↦{fullShare} f) ∗ (∃ f, (thrOf d L).loc cc0_scratch2 ↦{fullShare} f) ∗ (∃ f, (thrOf d L).loc cc0_scratch3 ↦{fullShare} f) ∗ (∃ f, (thrOf d L).loc cc0_scratch4 ↦{fullShare} f) ∗ (∃ f, (thrOf d L).loc cc0_scratch5 ↦{fullShare} f) ∗ (∃ f, (thrOf d L).loc cc0_scratch6 ↦{fullShare} f)
          ∗ bigSep (restRefs L) fun b => iprop(∃ f, ((d, b) : Loc nD τ sig) ↦{fullShare} f)) := by
  unfold SparseCore.Cfg.ownBufs restRefs
  have hm0 : (pV L).devRef cc0_scratch0 ∈ ownRefs (τ := τ) (pV L) :=
    SparseCore.Cfg.mem_ownRefs_of_owner (p := pV L) (b := (pV L).devRef cc0_scratch0) rfl
  have hm1 : (pV L).devRef cc0_scratch1 ∈ ownRefs (τ := τ) (pV L) :=
    SparseCore.Cfg.mem_ownRefs_of_owner (p := pV L) (b := (pV L).devRef cc0_scratch1) rfl
  have hm2 : (pV L).devRef cc0_scratch2 ∈ ownRefs (τ := τ) (pV L) :=
    SparseCore.Cfg.mem_ownRefs_of_owner (p := pV L) (b := (pV L).devRef cc0_scratch2) rfl
  have hm3 : (pV L).devRef cc0_scratch3 ∈ ownRefs (τ := τ) (pV L) :=
    SparseCore.Cfg.mem_ownRefs_of_owner (p := pV L) (b := (pV L).devRef cc0_scratch3) rfl
  have hm4 : (pV L).devRef cc0_scratch4 ∈ ownRefs (τ := τ) (pV L) :=
    SparseCore.Cfg.mem_ownRefs_of_owner (p := pV L) (b := (pV L).devRef cc0_scratch4) rfl
  have hm5 : (pV L).devRef cc0_scratch5 ∈ ownRefs (τ := τ) (pV L) :=
    SparseCore.Cfg.mem_ownRefs_of_owner (p := pV L) (b := (pV L).devRef cc0_scratch5) rfl
  have hm6 : (pV L).devRef cc0_scratch6 ∈ ownRefs (τ := τ) (pV L) :=
    SparseCore.Cfg.mem_ownRefs_of_owner (p := pV L) (b := (pV L).devRef cc0_scratch6) rfl
  have hne : ∀ {r r' : Ref sig .scVector}, r ≠ r' → (pV L).devRef r ≠ (pV L).devRef r' :=
    fun h e => h (Proc.devRef_injective _ e)
  rw [SparseCore.bigSep_erase' (hm0),
    SparseCore.bigSep_erase' (Finset.mem_erase.mpr ⟨hne (by decide), hm1⟩),
    SparseCore.bigSep_erase' (Finset.mem_erase.mpr ⟨hne (by decide), Finset.mem_erase.mpr ⟨hne (by decide), hm2⟩⟩),
    SparseCore.bigSep_erase' (Finset.mem_erase.mpr ⟨hne (by decide), Finset.mem_erase.mpr ⟨hne (by decide), Finset.mem_erase.mpr ⟨hne (by decide), hm3⟩⟩⟩),
    SparseCore.bigSep_erase' (Finset.mem_erase.mpr ⟨hne (by decide), Finset.mem_erase.mpr ⟨hne (by decide), Finset.mem_erase.mpr ⟨hne (by decide), Finset.mem_erase.mpr ⟨hne (by decide), hm4⟩⟩⟩⟩),
    SparseCore.bigSep_erase' (Finset.mem_erase.mpr ⟨hne (by decide), Finset.mem_erase.mpr ⟨hne (by decide), Finset.mem_erase.mpr ⟨hne (by decide), Finset.mem_erase.mpr ⟨hne (by decide), Finset.mem_erase.mpr ⟨hne (by decide), hm5⟩⟩⟩⟩⟩),
    SparseCore.bigSep_erase' (Finset.mem_erase.mpr ⟨hne (by decide), Finset.mem_erase.mpr ⟨hne (by decide), Finset.mem_erase.mpr ⟨hne (by decide), Finset.mem_erase.mpr ⟨hne (by decide), Finset.mem_erase.mpr ⟨hne (by decide), Finset.mem_erase.mpr ⟨hne (by decide), hm6⟩⟩⟩⟩⟩⟩)]

end Cert.Proof.KI

end
-- ==== Proof.KTripVec.lean ====
/-
  The vector one trip of a tile's task computes, as a function of what the two row scratches hold.

  A trip has fetched sixteen user rows and sixteen item rows (one per lane) into two 16 × 32 scratches. It then
  walks the 32 columns: for column `c` it reads column `c` of both scratches (lane `l` reads row `l`),
  multiplies the two entry by entry and by the weight column `w c`, and adds the product to a running sum that
  started at the bias. The result is the running sum after the 32nd column: one number per lane.
  Stated here over any float instance, in the order the task performs it.
-/
import proofs.«208244_g21053929685252_cont_8to1_1842_38_alg».proof.Proof.Gen.KernelIdeal
import proofs.«208244_g21053929685252_cont_8to1_1842_38_alg».proof.Proof.Gen.KernelIdeal.Skeleton

noncomputable section

namespace Cert.Proof.KI

open Cert.KernelIdeal Cert.KernelIdeal.Gen
open Idealize.ShloMosaic

variable {F : FTy → Type} [FloatOps F]

/-- The lane numbers 0 … 15, as the vector unit makes them. -/
abbrev lanes : IVec S16 32 := iota .scVector S16 32 [0] iota_S16_d0_w32_scVector

/-- Reading a 16 × 32 scratch at (lane number, column `c`) stays inside it when `c < 32`. -/
theorem colIdx_inb (c : Nat) (hc : c < 32) :
    ∀ a x, ((![lanes, broadcast S16 (BitVec.ofNat 32 c)] : Fin 2 → IVec S16 32) a x).toNat < S16x32.size a := by
  intro a x
  match a with
  | ⟨0, _⟩ =>
    show (BitVec.ofNat 32 (0 * S16.size 0 + (x 0).val)).toNat < 16
    have hx : (x 0).val < 16 := (x 0).isLt
    rw [BitVec.toNat_ofNat]
    have : (0 * S16.size 0 + (x 0).val) = (x 0).val := by simp
    rw [this, Nat.mod_eq_of_lt (by omega)]
    exact hx
  | ⟨1, _⟩ =>
    show (BitVec.ofNat 32 c).toNat < 32
    rw [BitVec.toNat_ofNat, Nat.mod_eq_of_lt (by omega)]
    exact hc

/-- Column `c` of a 16 × 32 scratch holding `g`: lane `l` gets `g (l, c)`. -/
def colOf (g : FVec F S16x32 .f32) (c : Nat) (hc : c < 32 := by decide) : Vec F S16 .f32 :=
  loadIdx g ![lanes, broadcast S16 (BitVec.ofNat 32 c)] (colIdx_inb c hc)

/-- The same, for the scratch of user rows and for the scratch of item rows. -/
abbrev colU (g : FVec F S16x32 .f32) (c : Nat) (hc : c < 32 := by decide) : Vec F S16 .f32 := colOf g c hc
abbrev colI (g : FVec F S16x32 .f32) (c : Nat) (hc : c < 32 := by decide) : Vec F S16 .f32 := colOf g c hc

/-- The running sum after all 32 columns, from the bias `bias`, the weight columns `w`, the user rows `g11` and the
    item rows `g12`: the task's five blocks of arithmetic composed (columns 0–3, 4–10, 11–18, 19–25, 26–31). -/
def tripVec (bias : Vec F S16 .f32) (w : Nat → Vec F S16 .f32) (g11 g12 : FVec F S16x32 .f32) : FVec F S16 .f32 :=
  k0_pay37 (w 26) (w 27) (w 28) (w 29) (w 30) (w 31)
    (k0_pay36 (w 19) (w 20) (w 21) (w 22) (w 23) (w 24) (w 25)
      (k0_pay35 (w 11) (w 12) (w 13) (w 14) (w 15) (w 16) (w 17) (w 18)
        (k0_pay34 (w 4) (w 5) (w 6) (w 7) (w 8) (w 9) (w 10)
          (k0_pay33 bias (w 0) (w 1) (w 2) (w 3) (colU g11 0) (colI g12 0) (colU g11 1) (colI g12 1) (colU g11 2) (colI g12 2) (colU g11 3) (colI g12 3))
          (colU g11 4) (colI g12 4) (colU g11 5) (colI g12 5) (colU g11 6) (colI g12 6) (colU g11 7) (colI g12 7) (colU g11 8) (colI g12 8) (colU g11 9) (colI g12 9) (colU g11 10) (colI g12 10))
        (colU g11 11) (colI g12 11) (colU g11 12) (colI g12 12) (colU g11 13) (colI g12 13) (colU g11 14) (colI g12 14) (colU g11 15) (colI g12 15) (colU g11 16) (colI g12 16) (colU g11 17) (colI g12 17) (colU g11 18) (colI g12 18))
      (colU g11 19) (colI g12 19) (colU g11 20) (colI g12 20) (colU g11 21) (colI g12 21) (colU g11 22) (colI g12 22) (colU g11 23) (colI g12 23) (colU g11 24) (colI g12 24) (colU g11 25) (colI g12 25))
    (colU g11 26) (colI g12 26) (colU g11 27) (colI g12 27) (colU g11 28) (colI g12 28) (colU g11 29) (colI g12 29) (colU g11 30) (colI g12 30) (colU g11 31) (colI g12 31)

end Cert.Proof.KI

end
-- ==== Proof.KOut.lean ====
/-
  The result array the idealized kernel is expected to leave, as a function of its argument arrays.

  Entry `j` of the batch belongs to piece `j / 512` (one tile), within it to trip `(j % 512) / 16`, and within
  the trip to lane `j % 16`. At that trip the tile has fetched, for each lane, the table row its index word names;
  the trip's vector (KTripVec) over those rows, the staged weight columns and the staged bias gives the lane's value.
  Stated over any float instance; nothing here uses the arithmetic's laws.
-/
import proofs.«208244_g21053929685252_cont_8to1_1842_38_alg».proof.Proof.KIface
import proofs.«208244_g21053929685252_cont_8to1_1842_38_alg».proof.Proof.KTripVec
import Idealize.ShloMosaic.Lib.ValueIdx

noncomputable section

namespace Cert.Proof.KI

open Cert.KernelIdeal Cert.KernelIdeal.Gen
open Idealize.ShloMosaic Idealize.ShloMosaic.ValueIdx

variable {F : FTy → Type} [FloatOps F]

/-- Weight column `c` as the task reads it off the staged weight vector: sixteen consecutive entries from `16 c`. -/
def wOf (wb : FVec F S512 .f32) (c : Nat) : Vec F S16 .f32 :=
  fun x => wb (ix1 ⟨(16 * c + (x 0).val) % 512, Nat.mod_lt _ (by decide)⟩)

/-- The sixteen rows piece `w`'s tile fetches at trip `s` out of table `tab` through index list `idx`:
    lane `r`, column `c` holds `tab (row named by idx (512 w + 16 s + r), c)`. -/
def rowsAt (tab : FVec F S1000000x32 .f32) (idx : IVec S16384 32) (w s : Fin 32) : FVec F S16x32 .f32 :=
  fun j => tab (ix2 (Cert.Proof.Spec.rowOf (idx (ix1 ⟨(512 * w.val + 16 * s.val + (j 0).val) % 16384, Nat.mod_lt _ (by decide)⟩))) (j 1))

/-- What piece `w`'s tile stores at trip `s`: the trip's vector over the fetched user and item rows. -/
def outAt (iu ii : IVec S16384 32) (ut it : FVec F S1000000x32 .f32) (wb : FVec F S512 .f32) (bv : FVec F S16 .f32)
    (w s : Fin 32) : FVec F S16 .f32 :=
  tripVec bv (wOf wb) (rowsAt ut iu w s) (rowsAt it ii w s)

/-- The whole expected result: entry `j` from its piece, trip and lane. -/
def outVec (iu ii : IVec S16384 32) (ut it : FVec F S1000000x32 .f32) (wb : FVec F S512 .f32) (bv : FVec F S16 .f32) :
    FVec F S16384 .f32 :=
  fun j => outAt iu ii ut it wb bv ⟨(j 0).val / 512, by have h : (j 0).val < 16384 := (j 0).isLt; show (j 0).val / 512 < 32; omega⟩
    ⟨((j 0).val % 512) / 16, by show ((j 0).val % 512) / 16 < 32; omega⟩
    (ix1 ⟨(j 0).val % 16, Nat.mod_lt _ (by decide)⟩)

/-- The expected contents of the call's result array on device `d`, from the launch memory `m` and the staged weight
    and bias contents. -/
def OUT (m : (ℓ : Loc nD τ sig) → Buf (Elt F) ℓ) (wbf : (d : Dev nD) → Buf (Elt F) (locW d)) (bsf : (d : Dev nD) → Buf (Elt F) (locB d))
    (d : Dev nD) : Buf (Elt F) (locO d) :=
  outVec (m (loc0 d)) (m (loc1 d)) (m (loc2 d)) (m (loc3 d)) (wbf d) (bsf d)

end Cert.Proof.KI

end
-- ==== Proof.KObl.lean ====
/-
  The tiles' task as the launch theorem asks for it, and the idealized kernel's run.

  The launch theorem wants, of every tile of the grid, the run of the body table's row for that tile from what the
  go signal hands it to what it hands back. The row is the task's function at the tile's grid coordinates on the
  whole arrays and the tile's scratch; what the tile is handed is its bundle (its pieces and read shares), numbered
  2 i + c for tile i of SparseCore c, which is the number the task's own coordinates give. So the obligation
  is the task's proved run (taken here as a hypothesis, stated at a symbolic tile) at those coordinates; the task
  owes nothing for a protocol of its own. With it the launch side gives the run of all the threads.
-/
import proofs.«208244_g21053929685252_cont_8to1_1842_38_alg».proof.Proof.KLaunch
import proofs.«208244_g21053929685252_cont_8to1_1842_38_alg».proof.Proof.KTile0
import proofs.«208244_g21053929685252_cont_8to1_1842_38_alg».proof.Proof.KOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a2W" => (Memref.whole Cert.KernelIdeal.main_arg0_scv : Memref Cert.KernelIdeal.sig Kind.scVector Space.hbm Cert.KernelIdeal.S16384 EltTy.i32)
local notation "a3W" => (Memref.whole Cert.KernelIdeal.main_arg1_scv : Memref Cert.KernelIdeal.sig Kind.scVector Space.hbm Cert.KernelIdeal.S16384 EltTy.i32)
local notation "a4W" => (Memref.whole Cert.KernelIdeal.main_arg2_scv : Memref Cert.KernelIdeal.sig Kind.scVector Space.hbm Cert.KernelIdeal.S1000000x32 EltTy.f32)
local notation "a5W" => (Memref.whole Cert.KernelIdeal.main_arg3_scv : Memref Cert.KernelIdeal.sig Kind.scVector Space.hbm Cert.KernelIdeal.S1000000x32 EltTy.f32)
local notation "a6W" => (Memref.whole Cert.KernelIdeal.main_v3_scv : Memref Cert.KernelIdeal.sig Kind.scVector Space.hbm Cert.KernelIdeal.S512 EltTy.f32)
local notation "a7W" => (Memref.whole Cert.KernelIdeal.main_v5_scv : Memref Cert.KernelIdeal.sig Kind.scVector Space.hbm Cert.KernelIdeal.S16 EltTy.f32)
local notation "a8W" => (Memref.whole Cert.KernelIdeal.main_v6_scv : Memref Cert.KernelIdeal.sig Kind.scVector Space.hbm Cert.KernelIdeal.S16384 EltTy.f32)
local notation "s9W" => (Memref.whole Cert.KernelIdeal.cc0_scratch0 : Memref Cert.KernelIdeal.sig Kind.scVector Space.vmem Cert.KernelIdeal.S512 EltTy.i32)
local notation "s10W" => (Memref.whole Cert.KernelIdeal.cc0_scratch1 : Memref Cert.KernelIdeal.sig Kind.scVector Space.vmem Cert.KernelIdeal.S512 EltTy.i32)
local notation "s11W" => (Memref.whole Cert.KernelIdeal.cc0_scratch2 : Memref Cert.KernelIdeal.sig Kind.scVector Space.vmem Cert.KernelIdeal.S16x32 EltTy.f32)
local notation "s12W" => (Memref.whole Cert.KernelIdeal.cc0_scratch3 : Memref Cert.KernelIdeal.sig Kind.scVector Space.vmem Cert.KernelIdeal.S16x32 EltTy.f32)
local notation "s13W" => (Memref.whole Cert.KernelIdeal.cc0_scratch4 : Memref Cert.KernelIdeal.sig Kind.scVector Space.vmem Cert.KernelIdeal.S512 EltTy.f32)
local notation "s14W" => (Memref.whole Cert.KernelIdeal.cc0_scratch5 : Memref Cert.KernelIdeal.sig Kind.scVector Space.vmem Cert.KernelIdeal.S16 EltTy.f32)
local notation "s15W" => (Memref.whole Cert.KernelIdeal.cc0_scratch6 : Memref Cert.KernelIdeal.sig Kind.scVector Space.vmem Cert.KernelIdeal.S512 EltTy.f32)

variable (m : (ℓ : Loc nD τ sig) → Buf (Elt F) ℓ) (ρ : Dev nD → PrngReg)
variable (wbf : (d : Dev nD) → Buf (Elt F) (locW d)) (bsf : (d : Dev nD) → Buf (Elt F) (locB d))

variable [FloatOps F]

/-- The task's run at a symbolic tile: from the tile's bundle (the result piece at its launch contents), its scoped
    storage and what it owes, to the bundle with the result piece at the expected contents, the storage back, and
    nothing more owed; its waits are on its own semaphores only. -/
abbrev BodyRun : Prop :=
  ∀ (d : Dev nD) (L : grid0.Coords) (O : CellTallies nD τ sig (HIx 1)) (W : Waits sig (HIx 1)), (∀ g, O g none = 0) →
    iprop(levAts (K (F := F)).L (K (F := F)).lev ∗ emp ∗ tileRes m wbf bsf d (widL L) (m (locO d)) ∗ scopedBufs (thrOf d L) ∗ scopedSems0 (thrOf d L) ∗ owes (thrOf d L) O W)
      ⊢ wp frame (wpE (defs₀ (F := F)) 𝒱₀ (thrOf d L) none) Set.univ
          (cc0__gmf_body (F := F) L a2W (Memref.isWhole_whole _) a3W (Memref.isWhole_whole _) a4W (Memref.isWhole_whole _) a5W (Memref.isWhole_whole _) a6W (Memref.isWhole_whole _) a7W (Memref.isWhole_whole _) a8W (Memref.isWhole_whole _) s9W (Memref.isWhole_whole _) s10W (Memref.isWhole_whole _) s11W (Memref.isWhole_whole _) s12W (Memref.isWhole_whole _) s13W (Memref.isWhole_whole _) s14W (Memref.isWhole_whole _) s15W (Memref.isWhole_whole _) cc0_scratch7 cc0_scratch8 cc0_scratch9 cc0_scratch10 cc0_scoped0 cc0_scoped1 cc0_scoped2 cc0_scoped3 cc0_scoped4)
          fun _ => iprop(tileRes m wbf bsf d (widL L) (OUT m wbf bsf d) ∗ scopedBufs (thrOf d L) ∗ scopedSems0 (thrOf d L) ∗ ∃ W', ⌜∀ p ∈ W', p ∈ W ∨ p.2 = none⌝ ∗ owes (thrOf d L) O W')

/-! ## The launch theorem's obligation -/

/-- A tile's grid coordinates from its SparseCore's and its own number. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gmf_body (F := F) (coordsV c s) a2W (Memref.isWhole_whole _) a3W (Memref.isWhole_whole _) a4W (Memref.isWhole_whole _) a5W (Memref.isWhole_whole _) a6W (Memref.isWhole_whole _) a7W (Memref.isWhole_whole _) a8W (Memref.isWhole_whole _) s9W (Memref.isWhole_whole _) s10W (Memref.isWhole_whole _) s11W (Memref.isWhole_whole _) s12W (Memref.isWhole_whole _) s13W (Memref.isWhole_whole _) s14W (Memref.isWhole_whole _) s15W (Memref.isWhole_whole _) cc0_scratch7 cc0_scratch8 cc0_scratch9 cc0_scratch10 cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- The bundle number the launch gives tile i of SparseCore c is the one the task's coordinates give. -/
theorem widOf_coordsV (c : Fin ((K (F := F)).nCore 0)) (i : Fin ((K (F := F)).nSub 0))
    (hc : ((K (F := F)).core 0 c).val < grid0.bound 0 ∧ ((K (F := F)).sub 0 i).val < grid0.bound 1) :
    widOf c i = widL (coordsV ⟨_, hc.1⟩ ⟨_, hc.2⟩) := Fin.ext rfl

/-- The tiles' obligation at the one call, from the task's run. -/
theorem tileObl (hbody : BodyRun m wbf bsf) :
    (K (F := F)).TileObl (D (F := F)) 𝒱 (P m wbf bsf (OUT m wbf bsf)) v₀ 0 := by
  intro d c i O W hO _ _
  -- the task owes nothing for a protocol of its own
  simp only [show (P m wbf bsf (OUT m wbf bsf)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hx : (P m wbf bsf (OUT m wbf bsf)).x 0 (V d ((K (F := F)).core 0 c) ((K (F := F)).sub 0 i)) = iprop(emp) := rfl
  have hgo : (P m wbf bsf (OUT m wbf bsf)).go 0 d c i = tileRes m wbf bsf d (widL (coordsV ⟨_, hc.1⟩ ⟨_, hc.2⟩)) (m (locO d)) := by
    rw [← widOf_coordsV c i hc]; rfl
  have htd : (P m wbf bsf (OUT m wbf bsf)).td 0 d c i = tileRes m wbf bsf d (widL (coordsV ⟨_, hc.1⟩ ⟨_, hc.2⟩)) (OUT m wbf bsf d) := by
    rw [← widOf_coordsV c i hc]; rfl
  rw [hx, hgo, htd]
  exact (hbody d (coordsV ⟨_, hc.1⟩ ⟨_, hc.2⟩) O W hO).trans (wp_mono frame _ _ fun _ => obl_post)

/-! ## The idealized kernel's run -/

/-- Every weakly fair execution of the threads from the launch memory ends, faulting nowhere; the final memory has the
    program's result at the expected result read as a column, and the six arguments unchanged — given the task's run
    at the stretched weight and bias. -/
theorem run_kernel [∀ e, Nonempty (Elt F e)] (hbody : BodyRun m (WB m) (BI m)) :
    θ_run (Cert.KernelIdeal.defs (F := F)) (Cert.KernelIdeal.threads (F := F)) ⟨m, fun _ => 0, ρ⟩
      (fun r => ∀ c : Dev nD, r.2.mem (locR c) = reshapeOut (OUT m (WB m) (BI m) c) ∧ r.2.mem (loc0 c) = m (loc0 c) ∧ r.2.mem (loc1 c) = m (loc1 c)
        ∧ r.2.mem (loc2 c) = m (loc2 c) ∧ r.2.mem (loc3 c) = m (loc3 c) ∧ r.2.mem (loc4 c) = m (loc4 c) ∧ r.2.mem (loc5 c) = m (loc5 c)) :=
  run_main m ρ (OUT m (WB m) (BI m)) (tileObl m (WB m) (BI m) hbody)

end Cert.Proof.KI

end
-- ==== Proof.WIface.lean ====
/-
  The kernel's program as the SparseCore launch sees it, and what its 32 tiles are handed.

  The batch of 16384 entries is cut into 32 consecutive pieces of 512. Tile `i` of SparseCore `c` works on
  piece number `2 * i + c`: it reads that piece of the two index lists, looks the rows up in the two tables,
  multiplies them entry by entry with the weight vector, sums, adds the bias, and writes that piece of the
  result. So each tile is handed its piece of the two index lists and of the result array outright, and one
  read share each of the two tables, of the stretched weight vector and of the stretched bias (every tile reads
  those whole). It hands the same back, its piece of the result now at the expected contents `OUT`.
  The stretched weight and bias contents (`wbf`, `bsf`: what the host operations before the call computed) and
  the expected result `OUT` are parameters here: the launch argument does not look inside them.
-/
import proofs.«208244_g21053929685252_cont_8to1_1842_38_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«208244_g21053929685252_cont_8to1_1842_38_alg».proof.Proof.Gen.Kernel
import proofs.«208244_g21053929685252_cont_8to1_1842_38_alg».proof.Proof.Spec

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, as the TensorCore names them -/

/-- The two index lists, the two tables, the weight row and the bias (the arguments); the stretched weight vector
    and the stretched bias (computed on the host before the call); the call's result; the program's result. -/
abbrev loc0 (d : Dev nD) : Loc nD τ sig := (SparseCore.T d).loc main_arg0
abbrev loc1 (d : Dev nD) : Loc nD τ sig := (SparseCore.T d).loc main_arg1
abbrev loc2 (d : Dev nD) : Loc nD τ sig := (SparseCore.T d).loc main_arg2
abbrev loc3 (d : Dev nD) : Loc nD τ sig := (SparseCore.T d).loc main_arg3
abbrev loc4 (d : Dev nD) : Loc nD τ sig := (SparseCore.T d).loc main_arg4
abbrev loc5 (d : Dev nD) : Loc nD τ sig := (SparseCore.T d).loc main_arg5
abbrev locW (d : Dev nD) : Loc nD τ sig := (SparseCore.T d).loc main_v3
abbrev locB (d : Dev nD) : Loc nD τ sig := (SparseCore.T d).loc main_v5
abbrev locO (d : Dev nD) : Loc nD τ sig := (SparseCore.T d).loc main_v6
abbrev locR (d : Dev nD) : Loc nD τ sig := (SparseCore.T d).loc main_v7

/-! ## The 32 pieces of the batch and the tiles' read shares -/

theorem hdiv : 32 ∣ S16384.size 0 := ⟨512, rfl⟩
/-- Piece `w` of a length-16384 array: entries `[512 w, 512 w + 512)`. -/
abbrev piece (w : Fin 32) : Rect S16384 := Rect.part (s := S16384) (a₀ := 0) hdiv w
abbrev pieceSet (w : Fin 32) : Finset S16384.Idx := (piece w).set
/-- The piece tile `i` of SparseCore `c` works on: number `2 i + c`. -/
def widOf (c : Fin ((K (F := F)).nCore 0)) (i : Fin ((K (F := F)).nSub 0)) : Fin 32 :=
  ⟨2 * i.val + c.val, by
    have hc : c.val < 2 := c.isLt
    have hi : i.val < 16 := i.isLt
    omega⟩
/-- Tile number `w`'s read share of an array every tile reads whole: the `w`-th of 32 shares split off the full
    share (what is left after the 32 stays with the TensorCore's side of the call). -/
def ts (w : Fin 32) : PosShare TreeShare := Transfers.shareTokN fullShare w.val

/-! ## What the handshakes carry -/

variable (m : (ℓ : Loc nD τ sig) → Buf (Elt F) ℓ)
variable (wbf : (d : Dev nD) → Buf (Elt F) (locW d)) (bsf : (d : Dev nD) → Buf (Elt F) (locB d))
variable (OUT : (d : Dev nD) → Buf (Elt F) (locO d))

/-- What tile number `w` of device `d` is handed: its piece of the two index lists and of the result array, a read
    share of the two tables and of the stretched weight and bias. `o` is what the result array holds. -/
def tileRes (d : Dev nD) (w : Fin 32) (o : Buf (Elt F) (locO d)) : sProp 𝕄 :=
  iprop((loc0 d ↦[pieceSet w]{fullShare} m (loc0 d)) ∗ (loc1 d ↦[pieceSet w]{fullShare} m (loc1 d))
    ∗ (loc2 d ↦{ts w} m (loc2 d)) ∗ (loc3 d ↦{ts w} m (loc3 d))
    ∗ (locW d ↦{ts w} wbf d) ∗ (locB d ↦{ts w} bsf d)
    ∗ (locO d ↦[pieceSet w]{fullShare} o))

/-- The one call: a SparseCore is handed what its sixteen tiles are, a tile its own; they come back with the result's
    pieces at the expected contents. Nothing of the launch's ghost state is consumed by the kernel's proof. -/
def P : (K (F := F)).Pay (nD := nD) (Val := Elt F) (Name := ℕ) (U := UU) where
  st := fun q d c => match q with | 0 => bigSep Finset.univ fun i : Fin ((K (F := F)).nSub 0) => tileRes m wbf bsf d (widOf c i) (m (locO d))
  dn := fun q d c => match q with | 0 => bigSep Finset.univ fun i : Fin ((K (F := F)).nSub 0) => tileRes m wbf bsf d (widOf c i) (OUT d)
  go := fun q d c i => match q with | 0 => tileRes m wbf bsf d (widOf c i) (m (locO d))
  td := fun q d c i => match q with | 0 => tileRes m wbf bsf d (widOf c i) (OUT d)
  x := fun _ _ => iprop(emp)

instance tileRes_storable (d : Dev nD) (w : Fin 32) (o : Buf (Elt F) (locO d)) :
    BI.Storable (upEmb : UEmb _ 𝕄) (tileRes m wbf bsf d w o) := by
  unfold tileRes; infer_instance

instance P_storable : (P (F := F) m wbf bsf OUT).IsStorable where
  st q d c := match q with
    | 0 => (inferInstance : BI.Storable (upEmb : UEmb _ 𝕄) (bigSep Finset.univ fun i : Fin ((K (F := F)).nSub 0) => tileRes m wbf bsf d (widOf c i) (m (locO d))))
  dn q d c := match q with
    | 0 => (inferInstance : BI.Storable (upEmb : UEmb _ 𝕄) (bigSep Finset.univ fun i : Fin ((K (F := F)).nSub 0) => tileRes m wbf bsf d (widOf c i) (OUT d)))
  go q d c i := match q with
    | 0 => (inferInstance : BI.Storable (upEmb : UEmb _ 𝕄) (tileRes m wbf bsf d (widOf c i) (m (locO d))))
  td q d c i := match q with
    | 0 => (inferInstance : BI.Storable (upEmb : UEmb _ 𝕄) (tileRes m wbf bsf d (widOf c i) (OUT d)))

/-- The split of a SparseCore's operands among its tiles is the identity: it was handed them tile by tile. -/
theorem vecSplit : (K (F := F)).VecSplit' (P m wbf bsf OUT) 0 := by
  intro d c
  show (bigSep Finset.univ fun i : Fin ((K (F := F)).nSub 0) => tileRes m wbf bsf d (widOf c i) (m (locO d)))
    ⊢ |={Set.univ}=> iprop((bigSep Finset.univ fun i : Fin ((K (F := F)).nSub 0) => tileRes m wbf bsf d (widOf c i) (m (locO d)))
      ∗ ((bigSep Finset.univ fun i : Fin ((K (F := F)).nSub 0) => tileRes m wbf bsf d (widOf c i) (OUT d))
        -∗ bigSep Finset.univ fun i : Fin ((K (F := F)).nSub 0) => tileRes m wbf bsf d (widOf c i) (OUT d)))
  iintro H; imodintro
  isplitl [H]; · iexact H
  iintro H; iexact H

/-- What the proof asks of the launch memory: on every device every word of the two index lists names a table row. -/
def PreOK : Prop := ∀ d : Dev nD, Cert.Proof.Spec.IdxOK (m (loc0 d)) ∧ Cert.Proof.Spec.IdxOK (m (loc1 d))

end Cert.Proof.KW

end
-- ==== Proof.WHost.lean ====
/-
  The host stages around the SparseCore call, as pure functions of the launch memory.

  Before the call the TensorCore stretches the weight row and the bias: the weight row, a 1×32 array, is read as
  a vector of 32, made a 32×1 column, repeated along a new axis of 16 and read row by row as a vector of 512, so
  that entry 16 d + l of the stretched vector is weight d for every l below 16; the bias, a vector of one
  entry, is read as a scalar and repeated 16 times. After the call the result, a vector of 16384, is read as a
  16384×1 column. Each is a chain of layout operations, and each entry of what it produces is ONE entry of its
  operand: the three reading lemmas below say which.
-/
import proofs.«208244_g21053929685252_cont_8to1_1842_38_alg».proof.Proof.WIface
import Idealize.ShloMosaic.Lib.Pipeline.Value
import Idealize.ShloMosaic.Lib.ValueLayout
import Idealize.ShloMosaic.Lib.ValueIdx

noncomputable section

namespace Cert.Proof.KW

open Cert.Kernel Cert.Kernel.Gen

open Idealize.ShloMosaic Idealize.ShloMosaic.ValueIdx

variable {F : FTy → Type}

variable (m : (ℓ : Loc nD τ sig) → Buf (Elt F) ℓ)

/-- The stretched weight vector: the weight row read as a vector of 32, made a 32×1 column, repeated to
    32×16 and read row by row as a vector of 512. -/
def WB (d : Dev nD) : Buf (Elt F) (locW d) :=
  shapeCast S512
    (broadcastInDim S32x16 ![0, 1] bcast_S32x1_S32x16_0_1
      (broadcastInDim S32x1 ![0] bcast_S32_S32x1_0
        (shapeCast S32 (m (loc4 d)) shapeCasts_S1x32_S32)))
    shapeCasts_S32x16_S512

/-- The stretched bias: the one-entry bias read as a scalar and repeated 16 times. -/
def BI (d : Dev nD) : Buf (Elt F) (locB d) :=
  broadcastInDim S16 ![] bcast_S_S16 (shapeCast S_ (m (loc5 d)) shapeCasts_S1_S_)

/-- The program's result from the call's: the vector of 16384 read as a 16384×1 column. -/
def reshapeOut {d : Dev nD} (o : Buf (Elt F) (locO d)) : Buf (Elt F) (locR d) :=
  shapeCast S16384x1 o shapeCasts_S16384_S16384x1

/-- Entry 16 c + l of the stretched weight vector is weight c. -/
theorem WB_apply (d : Dev nD) (c : Fin 32) (l : Fin 16) :
    WB m d (ix1 ⟨16 * c.val + l.val, by omega⟩) = m (loc4 d) (ix2 (0 : Fin 1) c) := by
  unfold WB
  -- the vector of 512 at 16 c + l is the 32×16 array at (c, l)
  refine (shapeCast_apply _ shapeCasts_S32x16_S512 _ (ix2 c l) ?_).trans ?_
  · rw [Shape.rowMajor_val_two, Shape.rowMajor_val_one]
    show c.val * 16 + l.val = 16 * c.val + l.val
    omega
  -- the 32×16 array at (c, l) is the 32×1 column at (c, 0)
  refine (broadcastInDim_apply ![0, 1] bcast_S32x1_S32x16_0_1 _ _ (ix2 c (0 : Fin 1)) ?_).trans ?_
  · intro a
    match a with
    | ⟨0, _⟩ => rfl
    | ⟨1, _⟩ => rfl
  -- the column at (c, 0) is the vector of 32 at c
  refine (broadcastInDim_apply ![0] bcast_S32_S32x1_0 _ _ (ix1 c) ?_).trans ?_
  · intro a
    match a with
    | ⟨0, _⟩ => rfl
  -- the vector of 32 at c is the weight row at (0, c)
  exact shapeCast_1a_a_apply _ shapeCasts_S1x32_S32 c

/-- Every entry of the stretched bias is the bias. -/
theorem BI_apply (d : Dev nD) (l : Fin 16) : BI m d (ix1 l) = m (loc5 d) (ix1 (0 : Fin 1)) := by
  unfold BI
  refine (broadcastInDim_apply ![] bcast_S_S16 _ _ ix0 (fun a => a.elim0)).trans ?_
  refine shapeCast_apply _ shapeCasts_S1_S_ _ (ix1 (0 : Fin 1)) ?_
  have h1 := (S1.rowMajor (ix1 (0 : Fin 1))).isLt
  have h0 := (S_.rowMajor ix0).isLt
  have e1 : S1.numel = 1 := rfl
  have e0 : S_.numel = 1 := rfl
  omega

/-- Entry (p, 0) of the column is entry p of the vector. -/
theorem reshapeOut_apply {d : Dev nD} (o : Buf (Elt F) (locO d)) (p : Fin 16384) :
    reshapeOut o (ix2 p (0 : Fin 1)) = o (ix1 p) := by
  unfold reshapeOut
  refine shapeCast_apply _ shapeCasts_S16384_S16384x1 _ (ix1 p) ?_
  rw [Shape.rowMajor_val_two, Shape.rowMajor_val_one]
  show p.val = p.val * 1 + 0
  omega

end Cert.Proof.KW

end
-- ==== Proof.WSplit.lean ====
/-
  How the SparseCore call's arrays are dealt to the 32 tiles and collected again.

  The call takes, for each of the 32 tiles, its piece of the two index lists and of the result array and a read
  share of the two tables and of the stretched weight and bias. So before the call the three batch-long arrays are
  cut into their 32 pieces, and each of the four arrays every tile reads whole is split into 32 read shares and a
  remainder the TensorCore keeps; the 32 bundles are grouped by SparseCore through the bijection (c, i) ↦ 2 i + c
  of {0, 1} × {0, …, 15} with {0, …, 31}. All of it is ONE equation between assertions (whole_split): read forwards
  it deals the call its operands, read backwards it collects them, the result array then at other contents.
  Also here: the launch element of the ghost state, of which the kernel's proof consumes nothing.
-/
import proofs.«208244_g21053929685252_cont_8to1_1842_38_alg».proof.Proof.WHost

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable (wbf : (d : Dev nD) → Buf (Elt F) (locW d)) (bsf : (d : Dev nD) → Buf (Elt F) (locB d))
variable (OUT : (d : Dev nD) → Buf (Elt F) (locO d))

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m wbf bsf OUT).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The 32 tiles, by SparseCore -/

/-- The numbering of the tiles: tile i of SparseCore c is number 2 i + c, a bijection. -/
def widEmb : Fin ((K (F := F)).nCore 0) × Fin ((K (F := F)).nSub 0) ↪ Fin 32 where
  toFun p := widOf p.1 p.2
  inj' := by
    rintro ⟨c, i⟩ ⟨c', i'⟩ e
    have h : 2 * i.val + c.val = 2 * i'.val + c'.val := congrArg Fin.val e
    have hc : c.val < 2 := c.isLt
    have hc' : c'.val < 2 := c'.isLt
    refine Prod.ext (Fin.ext ?_) (Fin.ext ?_)
    · show c.val = c'.val; omega
    · show i.val = i'.val; omega

theorem widEmb_univ : (Finset.univ.map (widEmb (F := F))) = (Finset.univ : Finset (Fin 32)) := by
  refine Finset.eq_univ_of_forall fun w => Finset.mem_map.mpr ?_
  have hw : w.val < 32 := w.isLt
  refine ⟨(⟨w.val % 2, by show w.val % 2 < 2; omega⟩, ⟨w.val / 2, by show w.val / 2 < 16; omega⟩), Finset.mem_univ _, Fin.ext ?_⟩
  show 2 * (w.val / 2) + w.val % 2 = w.val
  omega

/-- A family over the 32 tile numbers, grouped by SparseCore and tile. -/
theorem bigSep_tiles (Φ : Fin 32 → sProp 𝕄) :
    (bigSep Finset.univ fun c : Fin ((K (F := F)).nCore 0) => bigSep Finset.univ fun i : Fin ((K (F := F)).nSub 0) => Φ (widOf c i))
      = bigSep Finset.univ Φ := by
  rw [← bigSep_univ_prod (fun p : Fin ((K (F := F)).nCore 0) × Fin ((K (F := F)).nSub 0) => Φ (widOf p.1 p.2)),
    ← widEmb_univ (F := F), bigSep_map]
  rfl

/-! ## The pieces of a batch-long array and the read shares of an array read whole -/

theorem pieces_disjoint : ∀ i ∈ (Finset.univ : Finset (Fin 32)), ∀ j ∈ (Finset.univ : Finset (Fin 32)), i ≠ j → Disjoint (pieceSet i) (pieceSet j) :=
  fun _ _ _ _ h => Rect.part_disjoint hdiv h
theorem pieces_cover : (Finset.univ : Finset (Fin 32)).biUnion pieceSet = Finset.univ := Rect.biUnion_part hdiv

theorem pts_pieces0 (d : Dev nD) (f : Buf (Elt F) (loc0 d)) :
    (loc0 d ↦{fullShare} f : sProp 𝕄) = bigSep Finset.univ fun w : Fin 32 => loc0 d ↦[pieceSet w]{fullShare} f := by
  rw [← pointsTo_biUnion Finset.univ (ℓ := loc0 d) pieceSet pieces_disjoint, pieces_cover]; try rfl
theorem pts_pieces1 (d : Dev nD) (f : Buf (Elt F) (loc1 d)) :
    (loc1 d ↦{fullShare} f : sProp 𝕄) = bigSep Finset.univ fun w : Fin 32 => loc1 d ↦[pieceSet w]{fullShare} f := by
  rw [← pointsTo_biUnion Finset.univ (ℓ := loc1 d) pieceSet pieces_disjoint, pieces_cover]; try rfl
theorem pts_piecesO (d : Dev nD) (f : Buf (Elt F) (locO d)) :
    (locO d ↦{fullShare} f : sProp 𝕄) = bigSep Finset.univ fun w : Fin 32 => locO d ↦[pieceSet w]{fullShare} f := by
  rw [← pointsTo_biUnion Finset.univ (ℓ := locO d) pieceSet pieces_disjoint, pieces_cover]; try rfl

/-- What the TensorCore keeps of an array every tile reads whole while the tiles hold their shares. -/
abbrev rq : PosShare TreeShare := Transfers.shareDrop fullShare 32

/-- An array held whole is the remainder and the 32 tiles' read shares. -/
theorem pts_shares (ℓ : Loc nD τ sig) (f : Buf (Elt F) ℓ) :
    (ℓ ↦{fullShare} f : sProp 𝕄) = iprop((ℓ ↦{rq} f) ∗ bigSep Finset.univ fun w : Fin 32 => ℓ ↦{ts w} f) := by
  have h : (ℓ ↦{fullShare} f : sProp 𝕄)
      ⊣⊢ iprop((ℓ ↦{rq} f) ∗ bigSep Finset.univ fun w : Fin 32 => ℓ ↦{Transfers.shareTok fullShare 32 w} f) :=
    Transfers.pointsTo_toks fullShare 32
  exact BI.equiv_iff.mp ⟨h.1, h.2⟩

/-! ## The call's arrays, whole and dealt -/

/-- Seven assertions, four of them pairs, regrouped: the pairs' first halves together in front. -/
theorem sep_regroup (A0 A1 R2 B2 R3 B3 RW BW RB BB AO : sProp 𝕄) :
    iprop(A0 ∗ A1 ∗ (R2 ∗ B2) ∗ (R3 ∗ B3) ∗ (RW ∗ BW) ∗ (RB ∗ BB) ∗ AO)
      = iprop((R2 ∗ R3 ∗ RW ∗ RB) ∗ A0 ∗ A1 ∗ B2 ∗ B3 ∗ BW ∗ BB ∗ AO) := by
  have h : iprop(A0 ∗ A1 ∗ (R2 ∗ B2) ∗ (R3 ∗ B3) ∗ (RW ∗ BW) ∗ (RB ∗ BB) ∗ AO)
      ⊣⊢ iprop((R2 ∗ R3 ∗ RW ∗ RB) ∗ A0 ∗ A1 ∗ B2 ∗ B3 ∗ BW ∗ BB ∗ AO) := by
    constructor
    · iintro ⟨H0, H1, ⟨R2, B2⟩, ⟨R3, B3⟩, ⟨RW, BW⟩, ⟨RB, BB⟩, HO⟩
      isplitl [R2 R3 RW RB]
      · isplitl [R2]; · iexact R2
        isplitl [R3]; · iexact R3
        isplitl [RW]; · iexact RW
        iexact RB
      isplitl [H0]; · iexact H0
      isplitl [H1]; · iexact H1
      isplitl [B2]; · iexact B2
      isplitl [B3]; · iexact B3
      isplitl [BW]; · iexact BW
      isplitl [BB]; · iexact BB
      iexact HO
    · iintro ⟨⟨R2, R3, RW, RB⟩, H0, H1, B2, B3, BW, BB, HO⟩
      isplitl [H0]; · iexact H0
      isplitl [H1]; · iexact H1
      isplitl [R2 B2]
      · isplitl [R2]; · iexact R2
        iexact B2
      isplitl [R3 B3]
      · isplitl [R3]; · iexact R3
        iexact B3
      isplitl [RW BW]
      · isplitl [RW]; · iexact RW
        iexact BW
      isplitl [RB BB]
      · isplitl [RB]; · iexact RB
        iexact BB
      iexact HO
  exact BI.equiv_iff.mp ⟨h.1, h.2⟩

/-- What the TensorCore keeps during the call: the remainders of the four arrays every tile reads whole. -/
def REM (d : Dev nD) : sProp 𝕄 :=
  iprop((loc2 d ↦{rq} m (loc2 d)) ∗ (loc3 d ↦{rq} m (loc3 d)) ∗ (locW d ↦{rq} wbf d) ∗ (locB d ↦{rq} bsf d))

/-- The seven arrays of the call held whole, the result array at o. -/
def WHOLE (d : Dev nD) (o : Buf (Elt F) (locO d)) : sProp 𝕄 :=
  iprop((loc0 d ↦{fullShare} m (loc0 d)) ∗ (loc1 d ↦{fullShare} m (loc1 d))
    ∗ (loc2 d ↦{fullShare} m (loc2 d)) ∗ (loc3 d ↦{fullShare} m (loc3 d))
    ∗ (locW d ↦{fullShare} wbf d) ∗ (locB d ↦{fullShare} bsf d)
    ∗ (locO d ↦{fullShare} o))

/-- The seven arrays held whole are the remainders and the 32 tiles' bundles, grouped by SparseCore: the batch-long
    arrays cut into their pieces, the others into read shares. Read forwards it deals the call its operands, read
    backwards it collects them. -/
theorem whole_split (d : Dev nD) (o : Buf (Elt F) (locO d)) :
    WHOLE m wbf bsf d o
      = iprop(REM m wbf bsf d ∗ bigSep Finset.univ fun c : Fin ((K (F := F)).nCore 0) =>
          bigSep Finset.univ fun i : Fin ((K (F := F)).nSub 0) => tileRes m wbf bsf d (widOf c i) o) := by
  rw [bigSep_tiles (F := F) (fun w => tileRes m wbf bsf d w o)]
  unfold WHOLE REM tileRes
  rw [bigSep_sep', bigSep_sep', bigSep_sep', bigSep_sep', bigSep_sep', bigSep_sep']
  rw [pts_pieces0, pts_pieces1, pts_piecesO, pts_shares (loc2 d), pts_shares (loc3 d), pts_shares (locW d), pts_shares (locB d)]
  exact sep_regroup _ _ _ _ _ _ _ _ _ _ _

theorem st0_eq (d : Dev nD) :
    (bigSep Finset.univ fun c : Fin ((K (F := F)).nCore 0) => (P m wbf bsf OUT).st 0 d c)
      = bigSep Finset.univ fun c : Fin ((K (F := F)).nCore 0) =>
          bigSep Finset.univ fun i : Fin ((K (F := F)).nSub 0) => tileRes m wbf bsf d (widOf c i) (m (locO d)) := rfl
theorem dn0_eq (d : Dev nD) :
    (bigSep Finset.univ fun c : Fin ((K (F := F)).nCore 0) => (P m wbf bsf OUT).dn 0 d c)
      = bigSep Finset.univ fun c : Fin ((K (F := F)).nCore 0) =>
          bigSep Finset.univ fun i : Fin ((K (F := F)).nSub 0) => tileRes m wbf bsf d (widOf c i) (OUT d) := rfl

end Cert.Proof.KW

end
-- ==== Proof.WLaunch.lean ====
/-
  The launch side of the kernel's run: @main on the TensorCore, and the program's run.

  @main stretches the weight row and the bias (six host operations over the TensorCore's arrays held whole), deals
  the call its operands (the equation whole_split), starts the two SparseCores and waits for them, collects the
  operands (the same equation, the result array now at the expected contents), and reads the result as a column
  (one more host operation). The launch theorem then turns the tiles' proved task and this proof of @main into
  the run of all 35 threads: it ends, and in the final memory the six arguments are unchanged and the program's
  result is the expected one, read as a column.
-/
import proofs.«208244_g21053929685252_cont_8to1_1842_38_alg».proof.Proof.WSplit

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable (OUT : (d : Dev nD) → Buf (Elt F) (locO d))

/-! ## The TensorCore's arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)

/-- The intermediate values of the host operations before the call, as the TensorCore names them. -/
abbrev locV0 (d : Dev nD) : Loc nD τ sig := (SparseCore.T d).loc main_v0
abbrev locV1 (d : Dev nD) : Loc nD τ sig := (SparseCore.T d).loc main_v1
abbrev locV2 (d : Dev nD) : Loc nD τ sig := (SparseCore.T d).loc main_v2
abbrev locV4 (d : Dev nD) : Loc nD τ sig := (SparseCore.T d).loc main_v4

/-- The TensorCore's arrays, all unscoped: @main's six arguments and eight values. -/
abbrev S14 : Finset (DevRef τ sig) := {a0', a1', a2', a3', a4', a5', v0', v1', v2', v3', v4', v5', v6', v7'}

theorem held_S14 (d : Dev nD) (W : Valuation τ sig (Elt F)) :
    (held (T d) S14 W : sProp 𝕄)
      = iprop((loc0 d ↦{fullShare} W a0') ∗ (loc1 d ↦{fullShare} W a1') ∗ (loc2 d ↦{fullShare} W a2') ∗ (loc3 d ↦{fullShare} W a3')
        ∗ (loc4 d ↦{fullShare} W a4') ∗ (loc5 d ↦{fullShare} W a5')
        ∗ (locV0 d ↦{fullShare} W v0') ∗ (locV1 d ↦{fullShare} W v1') ∗ (locV2 d ↦{fullShare} W v2') ∗ (locW d ↦{fullShare} W v3')
        ∗ (locV4 d ↦{fullShare} W v4') ∗ (locB d ↦{fullShare} W v5') ∗ (locO d ↦{fullShare} W v6') ∗ (locR d ↦{fullShare} W v7')) := by
  unfold held S14
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((loc0 d ↦{fullShare} W main_arg0) ∗ (loc1 d ↦{fullShare} W main_arg1) ∗ (loc2 d ↦{fullShare} W main_arg2) ∗ (loc3 d ↦{fullShare} W main_arg3)
        ∗ (loc4 d ↦{fullShare} W main_arg4) ∗ (loc5 d ↦{fullShare} W main_arg5)
        ∗ (locV0 d ↦{fullShare} W main_v0) ∗ (locV1 d ↦{fullShare} W main_v1) ∗ (locV2 d ↦{fullShare} W main_v2) ∗ (locW d ↦{fullShare} W main_v3)
        ∗ (locV4 d ↦{fullShare} W main_v4) ∗ (locB d ↦{fullShare} W main_v5) ∗ (locO d ↦{fullShare} W main_v6) ∗ (locR d ↦{fullShare} W main_v7)) := by
  unfold unscopedBufs
  rw [show (Finset.univ.filter fun b : Ref sig .tc => ¬ b.isScoped)
      = {main_arg0, main_arg1, main_arg2, main_arg3, main_arg4, main_arg5, main_v0, main_v1, main_v2, main_v3, main_v4, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch contents of the TensorCore's arrays. -/
def V0 (d : Dev nD) : Valuation τ sig (Elt F) := fun b => m (d, b)

theorem unscoped_held (d : Dev nD) : (unscopedBufs d (fun b => m ((SparseCore.T d).loc b)) : sProp 𝕄) = held (T d) S14 (V0 m d) := by
  rw [unscopedBufs_eq, held_S14]; rfl

/-! ## The host operations and what the arrays hold around the call -/

variable [FloatOps F]

abbrev op0 : HloOp τ sig (Elt F) := StableHlo.reshape main_arg4 main_v0 rfl shapeCasts_S1x32_S32
abbrev op1 : HloOp τ sig (Elt F) :=
  StableHlo.unary main_v0 main_v1 (broadcastInDim S32x1 ![0] bcast_S32_S32x1_0 : (⟨S32, .f32⟩ : BufTy).Contents (Elt F) → (⟨S32x1, .f32⟩ : BufTy).Contents (Elt F))
abbrev op2 : HloOp τ sig (Elt F) :=
  StableHlo.unary main_v1 main_v2 (broadcastInDim S32x16 ![0, 1] bcast_S32x1_S32x16_0_1 : (⟨S32x1, .f32⟩ : BufTy).Contents (Elt F) → (⟨S32x16, .f32⟩ : BufTy).Contents (Elt F))
abbrev op3 : HloOp τ sig (Elt F) := StableHlo.reshape main_v2 main_v3 rfl shapeCasts_S32x16_S512
abbrev op4 : HloOp τ sig (Elt F) := StableHlo.reshape main_arg5 main_v4 rfl shapeCasts_S1_S_
abbrev op5 : HloOp τ sig (Elt F) :=
  StableHlo.unary main_v4 main_v5 (broadcastInDim S16 ![] bcast_S_S16 : (⟨S_, .f32⟩ : BufTy).Contents (Elt F) → (⟨S16, .f32⟩ : BufTy).Contents (Elt F))
abbrev op7 : HloOp τ sig (Elt F) := StableHlo.reshape main_v6 main_v7 rfl shapeCasts_S16384_S16384x1

theorem hbufs0 : (op0 (F := F)).bufs ⊆ S14 := show ({a4', v0'} : Finset (DevRef τ sig)) ⊆ S14 by decide
theorem hbufs1 : (op1 (F := F)).bufs ⊆ S14 := show ({v0', v1'} : Finset (DevRef τ sig)) ⊆ S14 by decide
theorem hbufs2 : (op2 (F := F)).bufs ⊆ S14 := show ({v1', v2'} : Finset (DevRef τ sig)) ⊆ S14 by decide
theorem hbufs3 : (op3 (F := F)).bufs ⊆ S14 := show ({v2', v3'} : Finset (DevRef τ sig)) ⊆ S14 by decide
theorem hbufs4 : (op4 (F := F)).bufs ⊆ S14 := show ({a5', v4'} : Finset (DevRef τ sig)) ⊆ S14 by decide
theorem hbufs5 : (op5 (F := F)).bufs ⊆ S14 := show ({v4', v5'} : Finset (DevRef τ sig)) ⊆ S14 by decide
theorem hbufs7 : (op7 (F := F)).bufs ⊆ S14 := show ({v6', v7'} : Finset (DevRef τ sig)) ⊆ S14 by decide

/-- What the TensorCore's arrays hold when the call starts: the launch contents through the six host operations. -/
def Vpre (d : Dev nD) : Valuation τ sig (Elt F) :=
  (op5 (F := F)).result ((op4 (F := F)).result ((op3 (F := F)).result ((op2 (F := F)).result ((op1 (F := F)).result ((op0 (F := F)).result (V0 m d))))))

/-- Each operation's result at its own result array is its function's value, at any other array what was there. -/
local macro "host_results" : tactic =>
  `(tactic| (repeat (first
      | rw [StableHlo.unary_result] | rw [StableHlo.reshape_result]
      | (rw [StableHlo.unary_result_ne]; rotate_left; decide)
      | (rw [StableHlo.reshape_result_ne]; rotate_left; decide))))

theorem Vpre_a0 (d : Dev nD) : Vpre m d a0' = m (loc0 d) := by unfold Vpre; host_results; try rfl
theorem Vpre_a1 (d : Dev nD) : Vpre m d a1' = m (loc1 d) := by unfold Vpre; host_results; try rfl
theorem Vpre_a2 (d : Dev nD) : Vpre m d a2' = m (loc2 d) := by unfold Vpre; host_results; try rfl
theorem Vpre_a3 (d : Dev nD) : Vpre m d a3' = m (loc3 d) := by unfold Vpre; host_results; try rfl
theorem Vpre_a4 (d : Dev nD) : Vpre m d a4' = m (loc4 d) := by unfold Vpre; host_results; try rfl
theorem Vpre_a5 (d : Dev nD) : Vpre m d a5' = m (loc5 d) := by unfold Vpre; host_results; try rfl
theorem Vpre_v3 (d : Dev nD) : Vpre m d v3' = WB m d := by unfold Vpre; host_results; try rfl
theorem Vpre_v5 (d : Dev nD) : Vpre m d v5' = BI m d := by unfold Vpre; host_results; try rfl
theorem Vpre_v6 (d : Dev nD) : Vpre m d v6' = m (locO d) := by unfold Vpre; host_results; try rfl
theorem Vpre_v7 (d : Dev nD) : Vpre m d v7' = m (locR d) := by unfold Vpre; host_results; try rfl

/-- The same when the call has ended: the result array at the expected contents. -/
def Vpost (d : Dev nD) : Valuation τ sig (Elt F) := Function.update (Vpre m d) v6' (OUT d)

theorem Vpost_v6 (d : Dev nD) : Vpost m OUT d v6' = OUT d := Function.update_self _ _ _
theorem Vpost_ne (d : Dev nD) {b : DevRef τ sig} (h : b ≠ v6') : Vpost m OUT d b = Vpre m d b := Function.update_of_ne h _ _

/-- And after the last host operation. -/
def Vfin (d : Dev nD) : Valuation τ sig (Elt F) := (op7 (F := F)).result (Vpost m OUT d)

theorem Vfin_ne (d : Dev nD) {r : Ref sig .tc} (h : r ≠ main_v7) (h6 : (Proc.devRef .tc r : DevRef τ sig) ≠ v6') :
    Vfin m OUT d (Proc.devRef .tc r) = Vpre m d (Proc.devRef .tc r) := by
  unfold Vfin
  rw [StableHlo.reshape_result_ne (h := h), Vpost_ne m OUT d h6]
theorem Vfin_v6 (d : Dev nD) : Vfin m OUT d v6' = OUT d := by
  unfold Vfin
  rw [StableHlo.reshape_result_ne (h := show main_v6 ≠ main_v7 by decide), Vpost_v6]
theorem Vfin_v7 (d : Dev nD) : Vfin m OUT d v7' = reshapeOut (OUT d) := by
  unfold Vfin
  rw [StableHlo.reshape_result, Vpost_v6]
  rfl

/-- The TensorCore's fourteen arrays: the arguments at their launch contents, the stretched weight and bias, the
    call's result at o and the program's result at r; the three intermediate values at whatever the host
    operations left. -/
def ALL (d : Dev nD) (o : Buf (Elt F) (locO d)) (r : Buf (Elt F) (locR d)) : sProp 𝕄 :=
  iprop((loc0 d ↦{fullShare} m (loc0 d)) ∗ (loc1 d ↦{fullShare} m (loc1 d)) ∗ (loc2 d ↦{fullShare} m (loc2 d)) ∗ (loc3 d ↦{fullShare} m (loc3 d))
    ∗ (loc4 d ↦{fullShare} m (loc4 d)) ∗ (loc5 d ↦{fullShare} m (loc5 d))
    ∗ (locV0 d ↦{fullShare} Vpre m d v0') ∗ (locV1 d ↦{fullShare} Vpre m d v1') ∗ (locV2 d ↦{fullShare} Vpre m d v2') ∗ (locW d ↦{fullShare} WB m d)
    ∗ (locV4 d ↦{fullShare} Vpre m d v4') ∗ (locB d ↦{fullShare} BI m d) ∗ (locO d ↦{fullShare} o) ∗ (locR d ↦{fullShare} r))

theorem held_pre (d : Dev nD) : (held (T d) S14 (Vpre m d) : sProp 𝕄) = ALL m d (m (locO d)) (m (locR d)) := by
  rw [held_S14, Vpre_a0, Vpre_a1, Vpre_a2, Vpre_a3, Vpre_a4, Vpre_a5, Vpre_v3, Vpre_v5, Vpre_v6, Vpre_v7]; rfl

theorem held_post (d : Dev nD) : (held (T d) S14 (Vpost m OUT d) : sProp 𝕄) = ALL m d (OUT d) (m (locR d)) := by
  rw [held_S14, Vpost_v6, Vpost_ne m OUT d (show a0' ≠ v6' by decide), Vpost_ne m OUT d (show a1' ≠ v6' by decide),
    Vpost_ne m OUT d (show a2' ≠ v6' by decide), Vpost_ne m OUT d (show a3' ≠ v6' by decide), Vpost_ne m OUT d (show a4' ≠ v6' by decide),
    Vpost_ne m OUT d (show a5' ≠ v6' by decide), Vpost_ne m OUT d (show v0' ≠ v6' by decide), Vpost_ne m OUT d (show v1' ≠ v6' by decide),
    Vpost_ne m OUT d (show v2' ≠ v6' by decide), Vpost_ne m OUT d (show v3' ≠ v6' by decide), Vpost_ne m OUT d (show v4' ≠ v6' by decide),
    Vpost_ne m OUT d (show v5' ≠ v6' by decide), Vpost_ne m OUT d (show v7' ≠ v6' by decide),
    Vpre_a0, Vpre_a1, Vpre_a2, Vpre_a3, Vpre_a4, Vpre_a5, Vpre_v3, Vpre_v5, Vpre_v7]; rfl

theorem held_fin (d : Dev nD) : (held (T d) S14 (Vfin m OUT d) : sProp 𝕄) = ALL m d (OUT d) (reshapeOut (OUT d)) := by
  rw [held_S14, Vfin_v6, Vfin_v7,
    Vfin_ne m OUT d (show main_arg0 ≠ main_v7 by decide) (by decide), Vfin_ne m OUT d (show main_arg1 ≠ main_v7 by decide) (by decide),
    Vfin_ne m OUT d (show main_arg2 ≠ main_v7 by decide) (by decide), Vfin_ne m OUT d (show main_arg3 ≠ main_v7 by decide) (by decide),
    Vfin_ne m OUT d (show main_arg4 ≠ main_v7 by decide) (by decide), Vfin_ne m OUT d (show main_arg5 ≠ main_v7 by decide) (by decide),
    Vfin_ne m OUT d (show main_v0 ≠ main_v7 by decide) (by decide), Vfin_ne m OUT d (show main_v1 ≠ main_v7 by decide) (by decide),
    Vfin_ne m OUT d (show main_v2 ≠ main_v7 by decide) (by decide), Vfin_ne m OUT d (show main_v3 ≠ main_v7 by decide) (by decide),
    Vfin_ne m OUT d (show main_v4 ≠ main_v7 by decide) (by decide), Vfin_ne m OUT d (show main_v5 ≠ main_v7 by decide) (by decide),
    Vpre_a0, Vpre_a1, Vpre_a2, Vpre_a3, Vpre_a4, Vpre_a5, Vpre_v3, Vpre_v5]; rfl

abbrev W1 (d : Dev nD) : Valuation τ sig (Elt F) := (op0 (F := F)).result (V0 m d)
abbrev W2 (d : Dev nD) : Valuation τ sig (Elt F) := (op1 (F := F)).result (W1 m d)
abbrev W3 (d : Dev nD) : Valuation τ sig (Elt F) := (op2 (F := F)).result (W2 m d)
abbrev W4 (d : Dev nD) : Valuation τ sig (Elt F) := (op3 (F := F)).result (W3 m d)
abbrev W5 (d : Dev nD) : Valuation τ sig (Elt F) := (op4 (F := F)).result (W4 m d)

theorem Vpre_eq (d : Dev nD) : (op5 (F := F)).result (W5 m d) = Vpre m d := rfl
theorem Vfin_eq (d : Dev nD) : (op7 (F := F)).result (Vpost m OUT d) = Vfin m OUT d := rfl

/-! ## @main on the TensorCore -/

/-- What @main leaves the claim: the six arguments whole at their launch contents, the program's result at the
    expected result read as a column. -/
def FIN (d : Dev nD) : sProp 𝕄 :=
  iprop((loc0 d ↦{fullShare} m (loc0 d)) ∗ (loc1 d ↦{fullShare} m (loc1 d)) ∗ (loc2 d ↦{fullShare} m (loc2 d)) ∗ (loc3 d ↦{fullShare} m (loc3 d))
    ∗ (loc4 d ↦{fullShare} m (loc4 d)) ∗ (loc5 d ↦{fullShare} m (loc5 d)) ∗ (locR d ↦{fullShare} reshapeOut (OUT d)))

/-- @main on device d's TensorCore: the six host operations over the fourteen arrays held whole; the call's
    operands dealt (whole_split), the call, the operands collected (whole_split backwards, the result array at
    the expected contents); the last host operation. -/
theorem hmain (κ : GSem nD τ sig → ℕ) (d : Dev nD) :
    iprop((K (F := F)).ctx EH (P m (WB m) (BI m) OUT) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m OUT d) := by
  unfold SparseCore.Cfg.tcRes
  rw [unscoped_held]
  simp only [main, wp_bind, wp_pure]
  iintro ⟨#Hctx, Hst, ⟨Hb, Hheld, -, -⟩, -⟩
  -- the six host operations before the call
  iapply (wp_hlo_within 𝒱 (SparseCore.T d) none Set.univ (op := op0) (S := S14) hbufs0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S14) hbufs1 (V := W1 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S14) hbufs2 (V := W2 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S14) hbufs3 (V := W3 m d)) $$ [Hb Hheld]
  · isplitl [Hb]; · iexact Hb
    iexact Hheld
  iintro ⟨Hb, Hheld⟩
  rw [wp_ret]; imodintro
  iapply (wp_hlo_within 𝒱 (SparseCore.T d) none Set.univ (op := op4) (S := S14) hbufs4 (V := W4 m d)) $$ [Hb Hheld]
  · isplitl [Hb]; · iexact Hb
    iexact Hheld
  iintro ⟨Hb, Hheld⟩
  rw [wp_ret]; imodintro
  iapply (wp_hlo_within 𝒱 (SparseCore.T d) none Set.univ (op := op5) (S := S14) hbufs5 (V := W5 m d)) $$ [Hb Hheld]
  · isplitl [Hb]; · iexact Hb
    iexact Hheld
  iintro ⟨Hb, Hheld⟩
  rw [wp_ret]; imodintro
  rw [Vpre_eq]
  ihave Hh := (Entails.of_eq (held_pre m d)) $$ Hheld
  unfold ALL
  icases Hh with ⟨H0, H1, H2, H3, H4, H5, Hv0, Hv1, Hv2, HW, Hv4, HB, HO, HR⟩
  -- the call's operands dealt to the tiles
  ihave Hw := (Entails.of_eq (whole_split m (WB m) (BI m) d (m (locO d)))) $$ [H0 H1 H2 H3 HW HB HO]
  · unfold WHOLE
    isplitl [H0]; · iexact H0
    isplitl [H1]; · iexact H1
    isplitl [H2]; · iexact H2
    isplitl [H3]; · iexact H3
    isplitl [HW]; · iexact HW
    isplitl [HB]; · iexact HB
    iexact HO
  icases Hw with ⟨Hrem, Htiles⟩
  -- the call
  iapply ((K (F := F)).wp_run (D (F := F)) 𝒱 (EH := EH) (P := P m (WB m) (BI m) OUT) κ d 0) $$ [Hst Htiles Hrem Hb H4 H5 Hv0 Hv1 Hv2 Hv4 HR]
  isplitr; · iexact Hctx
  isplitl [Hst]; · iexact Hst
  isplitl [Htiles]
  · rw [st0_eq]; iexact Htiles
  iintro ⟨Hst, Hdn⟩
  -- the operands collected, the result array at the expected contents
  ihave Hdn' := (Entails.of_eq (dn0_eq m (WB m) (BI m) OUT d)) $$ Hdn
  ihave Hw := (Entails.of_eq (whole_split m (WB m) (BI m) d (OUT d)).symm) $$ [Hrem Hdn']
  · isplitl [Hrem]; · iexact Hrem
    iexact Hdn'
  unfold WHOLE
  icases Hw with ⟨H0, H1, H2, H3, HW, HB, HO⟩
  -- the last host operation
  iapply (wp_hlo_within 𝒱 (SparseCore.T d) none Set.univ (op := op7) (S := S14) hbufs7 (V := Vpost m OUT d)) $$ [Hb H0 H1 H2 H3 H4 H5 Hv0 Hv1 Hv2 HW Hv4 HB HO HR]
  · isplitl [Hb]; · iexact Hb
    rw [held_post]; unfold ALL
    isplitl [H0]; · iexact H0
    isplitl [H1]; · iexact H1
    isplitl [H2]; · iexact H2
    isplitl [H3]; · iexact H3
    isplitl [H4]; · iexact H4
    isplitl [H5]; · iexact H5
    isplitl [Hv0]; · iexact Hv0
    isplitl [Hv1]; · iexact Hv1
    isplitl [Hv2]; · iexact Hv2
    isplitl [HW]; · iexact HW
    isplitl [Hv4]; · iexact Hv4
    isplitl [HB]; · iexact HB
    isplitl [HO]; · iexact HO
    iexact HR
  iintro ⟨Hb, Hheld⟩
  rw [Vfin_eq]
  ihave Hh := (Entails.of_eq (held_fin m OUT d)) $$ Hheld
  unfold ALL
  icases Hh with ⟨H0, H1, H2, H3, H4, H5, -, -, -, -, -, -, -, HR⟩
  rw [wp_ret]; imodintro; imodintro
  isplitl [Hst]; · iexact Hst
  unfold FIN
  isplitl [H0]; · iexact H0
  isplitl [H1]; · iexact H1
  isplitl [H2]; · iexact H2
  isplitl [H3]; · iexact H3
  isplitl [H4]; · iexact H4
  isplitl [H5]; · iexact H5
  iexact HR

/-! ## The final memory read off @main's final assertion -/

/-- An array held whole at contents f holds f in any memory the assertion is true of. -/
theorem pts_agree (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

def fq (d : Dev nD) (s' : Phys nD τ sig (Elt F)) : Prop :=
  s'.mem.mem (locR d) = reshapeOut (OUT d) ∧ s'.mem.mem (loc0 d) = m (loc0 d) ∧ s'.mem.mem (loc1 d) = m (loc1 d)
    ∧ s'.mem.mem (loc2 d) = m (loc2 d) ∧ s'.mem.mem (loc3 d) = m (loc3 d) ∧ s'.mem.mem (loc4 d) = m (loc4 d) ∧ s'.mem.mem (loc5 d) = m (loc5 d)

theorem hfin (d : Dev nD) (s' : Phys nD τ sig (Elt F)) : iprop(FIN m OUT d ∗ SI s') ⊢ (⌜fq m OUT d s'⌝ : sProp 𝕄) := by
  unfold FIN
  iintro ⟨⟨H0, H1, H2, H3, H4, H5, HR⟩, HSI⟩
  ihave H := (pts_agree s' (loc0 d) _) $$ [HSI H0]
  · isplitl [HSI] <;> iassumption
  icases H with ⟨%h0, HSI⟩
  ihave H := (pts_agree s' (loc1 d) _) $$ [HSI H1]
  · isplitl [HSI] <;> iassumption
  icases H with ⟨%h1, HSI⟩
  ihave H := (pts_agree s' (loc2 d) _) $$ [HSI H2]
  · isplitl [HSI] <;> iassumption
  icases H with ⟨%h2, HSI⟩
  ihave H := (pts_agree s' (loc3 d) _) $$ [HSI H3]
  · isplitl [HSI] <;> iassumption
  icases H with ⟨%h3, HSI⟩
  ihave H := (pts_agree s' (loc4 d) _) $$ [HSI H4]
  · isplitl [HSI] <;> iassumption
  icases H with ⟨%h4, HSI⟩
  ihave H := (pts_agree s' (loc5 d) _) $$ [HSI H5]
  · isplitl [HSI] <;> iassumption
  icases H with ⟨%h5, HSI⟩
  ihave H := (pts_agree s' (locR d) _) $$ [HSI HR]
  · isplitl [HSI] <;> iassumption
  icases H with ⟨%hR, -⟩
  ipureintro; exact ⟨hR, h0, h1, h2, h3, h4, h5⟩

/-! ## The program's run -/

/-- Every weakly fair execution of the 35 threads from the launch memory ends, faulting nowhere; in the final memory
    the program's result is the expected result read as a column and the six arguments are unchanged — given the
    tiles' task proved against the handshakes' payloads at the stretched weight and bias and the expected result. -/
theorem run_main [∀ e, Nonempty (Elt F e)]
    (htile : (K (F := F)).TileObl (D (F := F)) 𝒱 (P m (WB m) (BI m) OUT) v₀ 0) :
    θ_run (Cert.Kernel.defs (F := F)) (Cert.Kernel.threads (F := F)) ⟨m, fun _ => 0, ρ⟩
      (fun r => ∀ c : Dev nD, r.2.mem (locR c) = reshapeOut (OUT c) ∧ r.2.mem (loc0 c) = m (loc0 c) ∧ r.2.mem (loc1 c) = m (loc1 c)
        ∧ r.2.mem (loc2 c) = m (loc2 c) ∧ r.2.mem (loc3 c) = m (loc3 c) ∧ r.2.mem (loc4 c) = m (loc4 c) ∧ r.2.mem (loc5 c) = m (loc5 c)) :=
  SparseCore.Cfg.θ_run_sc (K := K (F := F)) (D := D (F := F)) (𝒱 := 𝒱) (EH := EH) (P := P m (WB m) (BI m) OUT) facts v₀
    (fun q hq => match q with | 0 => nomatch hq)
    (fun q _ => match q with | 0 => htile)
    (fun q _ => match q with | 0 => SparseCore.Cfg.VecSplit.of_plain (vecSplit m (WB m) (BI m) OUT))
    m ρ main (fun _ => iprop(emp)) (FIN m OUT) (u₀ (F := F)) (sep_elim_left.trans (hu₀ m (WB m) (BI m) OUT)) (hmain m ρ OUT) (fq m OUT) (hfin m OUT)
    _ (fun _ h => h)

end Cert.Proof.KW

end
-- ==== Proof.WTile0.lean ====
/-
  A tile's own storage and semaphores, and the pieces it is handed, in the spelling its task uses.

  Tile (`L 0`, `L 1`) of the grid works on piece `2 * (L 1) + (L 0)` of the batch. Its task addresses the three
  length-16384 arrays through slices `[1024 * (L 1) + 512 * (L 0), + 512)`, which are those pieces; the tables, the
  staged weights and the staged bias it addresses whole. Of its own it has seven scratch buffers and nine DMA
  semaphores; the launch hands them over as one bundle each, unpacked here one by one.
-/
import proofs.«208244_g21053929685252_cont_8to1_1842_38_alg».proof.Proof.WIface
import proofs.«208244_g21053929685252_cont_8to1_1842_38_alg».proof.Proof.Gen.Kernel.Skeleton

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a2W" => (Memref.whole Cert.Kernel.main_arg0_scv : Memref Cert.Kernel.sig Kind.scVector Space.hbm Cert.Kernel.S16384 EltTy.i32)
local notation "a3W" => (Memref.whole Cert.Kernel.main_arg1_scv : Memref Cert.Kernel.sig Kind.scVector Space.hbm Cert.Kernel.S16384 EltTy.i32)
local notation "a4W" => (Memref.whole Cert.Kernel.main_arg2_scv : Memref Cert.Kernel.sig Kind.scVector Space.hbm Cert.Kernel.S1000000x32 EltTy.f32)
local notation "a5W" => (Memref.whole Cert.Kernel.main_arg3_scv : Memref Cert.Kernel.sig Kind.scVector Space.hbm Cert.Kernel.S1000000x32 EltTy.f32)
local notation "a6W" => (Memref.whole Cert.Kernel.main_v3_scv : Memref Cert.Kernel.sig Kind.scVector Space.hbm Cert.Kernel.S512 EltTy.f32)
local notation "a7W" => (Memref.whole Cert.Kernel.main_v5_scv : Memref Cert.Kernel.sig Kind.scVector Space.hbm Cert.Kernel.S16 EltTy.f32)
local notation "a8W" => (Memref.whole Cert.Kernel.main_v6_scv : Memref Cert.Kernel.sig Kind.scVector Space.hbm Cert.Kernel.S16384 EltTy.f32)
local notation "s9W" => (Memref.whole Cert.Kernel.cc0_scratch0 : Memref Cert.Kernel.sig Kind.scVector Space.vmem Cert.Kernel.S512 EltTy.i32)
local notation "s10W" => (Memref.whole Cert.Kernel.cc0_scratch1 : Memref Cert.Kernel.sig Kind.scVector Space.vmem Cert.Kernel.S512 EltTy.i32)
local notation "s11W" => (Memref.whole Cert.Kernel.cc0_scratch2 : Memref Cert.Kernel.sig Kind.scVector Space.vmem Cert.Kernel.S16x32 EltTy.f32)
local notation "s12W" => (Memref.whole Cert.Kernel.cc0_scratch3 : Memref Cert.Kernel.sig Kind.scVector Space.vmem Cert.Kernel.S16x32 EltTy.f32)
local notation "s13W" => (Memref.whole Cert.Kernel.cc0_scratch4 : Memref Cert.Kernel.sig Kind.scVector Space.vmem Cert.Kernel.S512 EltTy.f32)
local notation "s14W" => (Memref.whole Cert.Kernel.cc0_scratch5 : Memref Cert.Kernel.sig Kind.scVector Space.vmem Cert.Kernel.S16 EltTy.f32)
local notation "s15W" => (Memref.whole Cert.Kernel.cc0_scratch6 : Memref Cert.Kernel.sig Kind.scVector Space.vmem Cert.Kernel.S512 EltTy.f32)

variable [FloatOps F]

/-- The tile's thread and processor. -/
abbrev thrOf (d : Dev nD) (L : grid0.Coords) : Thread nD τ := V d ((L 0).castLE hcore0) ((L 1).castLE hsub0)
abbrev pV (L : grid0.Coords) : Proc τ := Proc.scVector ((L 0).castLE hcore0) ((L 1).castLE hsub0)

/-- The piece the tile works on. -/
def widL (L : grid0.Coords) : Fin 32 :=
  ⟨2 * (L 1).val + (L 0).val, by
    have h0 : (L 0).val < 2 := (L 0).isLt
    have h1 : (L 1).val < 16 := (L 1).isLt
    omega⟩

/-! ## The three sliced arrays -/

omit [FloatOps F] in
/-- The rectangle the task slices out of a length-16384 array is the tile's piece. -/
theorem rect1_eq (L : grid0.Coords) : Rect.unit (s := S16384) (k0_off1 L) S512.size (k0_off1_inb L) = piece (widL L) := by
  unfold piece Rect.part Rect.block
  congr 1 <;> funext a
  · rw [k0_off1_eq]
    match a with
    | ⟨0, _⟩ => simp [Shape.partIx, Shape.partSize, widL]; omega
  · match a with
    | ⟨0, _⟩ => simp [Shape.partSize]
omit [FloatOps F] in
theorem rect66_eq (L : grid0.Coords) : Rect.unit (s := S16384) (k0_off66 L) S512.size (k0_off66_inb L) = piece (widL L) := by
  unfold piece Rect.part Rect.block
  congr 1 <;> funext a
  · rw [k0_off66_eq]
    match a with
    | ⟨0, _⟩ => simp [Shape.partIx, Shape.partSize, widL]; omega
  · match a with
    | ⟨0, _⟩ => simp [Shape.partSize]

/-- The tile's slices of the two index lists and of the result array, as its task spells them. -/
abbrev sl2 (L : grid0.Coords) : Memref sig .scVector .hbm S512 .i32 := (a2W).slice (Rect.unit (s := S16384) (k0_off1 L) S512.size (k0_off1_inb L)) (fun _ => rfl)
abbrev sl3 (L : grid0.Coords) : Memref sig .scVector .hbm S512 .i32 := (a3W).slice (Rect.unit (s := S16384) (k0_off1 L) S512.size (k0_off1_inb L)) (fun _ => rfl)
abbrev sl8 (L : grid0.Coords) : Memref sig .scVector .hbm S512 .f32 := (a8W).slice (Rect.unit (s := S16384) (k0_off66 L) S512.size (k0_off66_inb L)) (fun _ => rfl)

omit [FloatOps F] in
theorem set_sl2 (L : grid0.Coords) : (sl2 L).view.set = pieceSet (widL L) := by
  show ((View.whole (main_arg0_scv : Ref sig .scVector)).slice (Rect.unit (s := S16384) (k0_off1 L) S512.size (k0_off1_inb L))).set = _
  rw [View.set_slice, rect1_eq]; exact Finset.map_refl
omit [FloatOps F] in
theorem set_sl3 (L : grid0.Coords) : (sl3 L).view.set = pieceSet (widL L) := by
  show ((View.whole (main_arg1_scv : Ref sig .scVector)).slice (Rect.unit (s := S16384) (k0_off1 L) S512.size (k0_off1_inb L))).set = _
  rw [View.set_slice, rect1_eq]; exact Finset.map_refl
omit [FloatOps F] in
theorem set_sl8 (L : grid0.Coords) : (sl8 L).view.set = pieceSet (widL L) := by
  show ((View.whole (main_v6_scv : Ref sig .scVector)).slice (Rect.unit (s := S16384) (k0_off66 L) S512.size (k0_off66_inb L))).set = _
  rw [View.set_slice, rect66_eq]; exact Finset.map_refl

omit [FloatOps F] in
theorem pts_sl2 (d : Dev nD) (L : grid0.Coords) (f : Buf (Elt F) (loc0 d)) :
    ((sl2 L).view.loc (thrOf d L) ↦[(sl2 L).view.set]{fullShare} f : sProp 𝕄) = loc0 d ↦[pieceSet (widL L)]{fullShare} f := by
  rw [set_sl2]
omit [FloatOps F] in
theorem pts_sl3 (d : Dev nD) (L : grid0.Coords) (f : Buf (Elt F) (loc1 d)) :
    ((sl3 L).view.loc (thrOf d L) ↦[(sl3 L).view.set]{fullShare} f : sProp 𝕄) = loc1 d ↦[pieceSet (widL L)]{fullShare} f := by
  rw [set_sl3]
omit [FloatOps F] in
theorem pts_sl8 (d : Dev nD) (L : grid0.Coords) (f : Buf (Elt F) (locO d)) :
    ((sl8 L).view.loc (thrOf d L) ↦[(sl8 L).view.set]{fullShare} f : sProp 𝕄) = locO d ↦[pieceSet (widL L)]{fullShare} f := by
  rw [set_sl8]

/-! ## The arrays read whole -/

omit [FloatOps F] in
theorem pts_a4 (d : Dev nD) (L : grid0.Coords) (q : PosShare TreeShare) (f : Buf (Elt F) (loc2 d)) :
    ((a4W).view.loc (thrOf d L) ↦{q} f : sProp 𝕄) = loc2 d ↦{q} f := rfl
omit [FloatOps F] in
theorem pts_a5 (d : Dev nD) (L : grid0.Coords) (q : PosShare TreeShare) (f : Buf (Elt F) (loc3 d)) :
    ((a5W).view.loc (thrOf d L) ↦{q} f : sProp 𝕄) = loc3 d ↦{q} f := rfl
omit [FloatOps F] in
theorem pts_a6 (d : Dev nD) (L : grid0.Coords) (q : PosShare TreeShare) (f : Buf (Elt F) (locW d)) :
    ((a6W).view.loc (thrOf d L) ↦{q} f : sProp 𝕄) = locW d ↦{q} f := rfl
omit [FloatOps F] in
theorem pts_a7 (d : Dev nD) (L : grid0.Coords) (q : PosShare TreeShare) (f : Buf (Elt F) (locB d)) :
    ((a7W).view.loc (thrOf d L) ↦{q} f : sProp 𝕄) = locB d ↦{q} f := rfl

/-! ## The tile's nine DMA semaphores -/

abbrev csem (k : Nat) (hk : k < 9 := by decide) : DmaSem sig := ⟨k, hk⟩
abbrev dcell (d : Dev nD) (c : Fin τ.nSC) (i : Fin τ.nSub) (k : Fin 9) : GSem nD τ sig := (V d c i, .dma (csem k.val k.isLt))

/-- The nine at zero, in the task's spelling: the four the row copies share, then the five of the staging copies. -/
abbrev cells0 (d : Dev nD) (L : grid0.Coords) : sProp 𝕄 :=
  iprop(semVal (thrOf d L, SemLoc.dma (csem 0)) 0 ∗ semVal (thrOf d L, SemLoc.dma (csem 1)) 0 ∗ semVal (thrOf d L, SemLoc.dma (csem 2)) 0
    ∗ semVal (thrOf d L, SemLoc.dma (csem 3)) 0 ∗ semVal (thrOf d L, SemLoc.dma (csem 4)) 0 ∗ semVal (thrOf d L, SemLoc.dma (csem 5)) 0
    ∗ semVal (thrOf d L, SemLoc.dma (csem 6)) 0 ∗ semVal (thrOf d L, SemLoc.dma (csem 7)) 0 ∗ semVal (thrOf d L, SemLoc.dma (csem 8)) 0)

omit [FloatOps F] in
theorem dcell_mem (d : Dev nD) (c : Fin τ.nSC) (i : Fin τ.nSub) (k : Fin 9) : dcell d c i k ∈ ownCells (V d c i) :=
  mem_ownCells.mpr ⟨rfl, (show ∀ s : DmaSem sig, (SemLoc.dma s : SemLoc sig).isScoped .scVector = true by decide) _⟩

omit [FloatOps F] in
/-- The tile's own semaphores at zero: the nine its task names, one by one, and the rest. -/
theorem ownSems0_V (d : Dev nD) (L : grid0.Coords) :
    (ownSems0 (thrOf d L) : sProp 𝕄)
      = iprop(cells0 d L
          ∗ bigSep ((ownCells (thrOf d L)) \ Finset.univ.image (dcell d ((L 0).castLE hcore0) ((L 1).castLE hsub0))) fun g => semVal g 0) := by
  unfold SparseCore.Cfg.ownSems0
  rw [SparseCore.bigSep_sdiff_split' (t := Finset.univ.image (dcell d ((L 0).castLE hcore0) ((L 1).castLE hsub0)))
      (Finset.image_subset_iff.mpr fun k _ => dcell_mem d _ _ k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 9)) = {0, 1, 2, 3, 4, 5, 6, 7, 8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-! ## The tile's seven scratch buffers -/

abbrev restRefs (L : grid0.Coords) : Finset (DevRef τ sig) :=
  ((((((((ownRefs (τ := τ) (.scVector ((L 0).castLE hcore0) ((L 1).castLE hsub0))).erase (pV L |>.devRef cc0_scratch0)).erase (pV L |>.devRef cc0_scratch1)).erase (pV L |>.devRef cc0_scratch2)).erase (pV L |>.devRef cc0_scratch3)).erase (pV L |>.devRef cc0_scratch4)).erase (pV L |>.devRef cc0_scratch5)).erase (pV L |>.devRef cc0_scratch6))

omit [FloatOps F] in
/-- The tile's own buffers: the seven scratches, each at some contents, and the rest. -/
theorem ownBufs_V (d : Dev nD) (L : grid0.Coords) :
    (ownBufs (thrOf d L) : sProp 𝕄)
      = iprop((∃ f, (thrOf d L).loc cc0_scratch0 ↦{fullShare} f) ∗ (∃ f, (thrOf d L).loc cc0_scratch1 ↦{fullShare} f) ∗ (∃ f, (thrOf d L).loc cc0_scratch2 ↦{fullShare} f) ∗ (∃ f, (thrOf d L).loc cc0_scratch3 ↦{fullShare} f) ∗ (∃ f, (thrOf d L).loc cc0_scratch4 ↦{fullShare} f) ∗ (∃ f, (thrOf d L).loc cc0_scratch5 ↦{fullShare} f) ∗ (∃ f, (thrOf d L).loc cc0_scratch6 ↦{fullShare} f)
          ∗ bigSep (restRefs L) fun b => iprop(∃ f, ((d, b) : Loc nD τ sig) ↦{fullShare} f)) := by
  unfold SparseCore.Cfg.ownBufs restRefs
  have hm0 : (pV L).devRef cc0_scratch0 ∈ ownRefs (τ := τ) (pV L) :=
    SparseCore.Cfg.mem_ownRefs_of_owner (p := pV L) (b := (pV L).devRef cc0_scratch0) rfl
  have hm1 : (pV L).devRef cc0_scratch1 ∈ ownRefs (τ := τ) (pV L) :=
    SparseCore.Cfg.mem_ownRefs_of_owner (p := pV L) (b := (pV L).devRef cc0_scratch1) rfl
  have hm2 : (pV L).devRef cc0_scratch2 ∈ ownRefs (τ := τ) (pV L) :=
    SparseCore.Cfg.mem_ownRefs_of_owner (p := pV L) (b := (pV L).devRef cc0_scratch2) rfl
  have hm3 : (pV L).devRef cc0_scratch3 ∈ ownRefs (τ := τ) (pV L) :=
    SparseCore.Cfg.mem_ownRefs_of_owner (p := pV L) (b := (pV L).devRef cc0_scratch3) rfl
  have hm4 : (pV L).devRef cc0_scratch4 ∈ ownRefs (τ := τ) (pV L) :=
    SparseCore.Cfg.mem_ownRefs_of_owner (p := pV L) (b := (pV L).devRef cc0_scratch4) rfl
  have hm5 : (pV L).devRef cc0_scratch5 ∈ ownRefs (τ := τ) (pV L) :=
    SparseCore.Cfg.mem_ownRefs_of_owner (p := pV L) (b := (pV L).devRef cc0_scratch5) rfl
  have hm6 : (pV L).devRef cc0_scratch6 ∈ ownRefs (τ := τ) (pV L) :=
    SparseCore.Cfg.mem_ownRefs_of_owner (p := pV L) (b := (pV L).devRef cc0_scratch6) rfl
  have hne : ∀ {r r' : Ref sig .scVector}, r ≠ r' → (pV L).devRef r ≠ (pV L).devRef r' :=
    fun h e => h (Proc.devRef_injective _ e)
  rw [SparseCore.bigSep_erase' (hm0),
    SparseCore.bigSep_erase' (Finset.mem_erase.mpr ⟨hne (by decide), hm1⟩),
    SparseCore.bigSep_erase' (Finset.mem_erase.mpr ⟨hne (by decide), Finset.mem_erase.mpr ⟨hne (by decide), hm2⟩⟩),
    SparseCore.bigSep_erase' (Finset.mem_erase.mpr ⟨hne (by decide), Finset.mem_erase.mpr ⟨hne (by decide), Finset.mem_erase.mpr ⟨hne (by decide), hm3⟩⟩⟩),
    SparseCore.bigSep_erase' (Finset.mem_erase.mpr ⟨hne (by decide), Finset.mem_erase.mpr ⟨hne (by decide), Finset.mem_erase.mpr ⟨hne (by decide), Finset.mem_erase.mpr ⟨hne (by decide), hm4⟩⟩⟩⟩),
    SparseCore.bigSep_erase' (Finset.mem_erase.mpr ⟨hne (by decide), Finset.mem_erase.mpr ⟨hne (by decide), Finset.mem_erase.mpr ⟨hne (by decide), Finset.mem_erase.mpr ⟨hne (by decide), Finset.mem_erase.mpr ⟨hne (by decide), hm5⟩⟩⟩⟩⟩),
    SparseCore.bigSep_erase' (Finset.mem_erase.mpr ⟨hne (by decide), Finset.mem_erase.mpr ⟨hne (by decide), Finset.mem_erase.mpr ⟨hne (by decide), Finset.mem_erase.mpr ⟨hne (by decide), Finset.mem_erase.mpr ⟨hne (by decide), Finset.mem_erase.mpr ⟨hne (by decide), hm6⟩⟩⟩⟩⟩⟩)]

end Cert.Proof.KW

end
-- ==== Proof.WTripVec.lean ====
/-
  The vector one trip of a tile's task computes, as a function of what the two row scratches hold.

  A trip has fetched sixteen user rows and sixteen item rows (one per lane) into two 16 × 32 scratches. It then
  walks the 32 columns: for column `c` it reads column `c` of both scratches (lane `l` reads row `l`),
  multiplies the two entry by entry and by the weight column `w c`, and adds the product to a running sum that
  started at the bias. The result is the running sum after the 32nd column: one number per lane.
  Stated here over any float instance, in the order the task performs it.
-/
import proofs.«208244_g21053929685252_cont_8to1_1842_38_alg».proof.Proof.Gen.Kernel
import proofs.«208244_g21053929685252_cont_8to1_1842_38_alg».proof.Proof.Gen.Kernel.Skeleton

noncomputable section

namespace Cert.Proof.KW

open Cert.Kernel Cert.Kernel.Gen
open Idealize.ShloMosaic

variable {F : FTy → Type} [FloatOps F]

/-- The lane numbers 0 … 15, as the vector unit makes them. -/
abbrev lanes : IVec S16 32 := iota .scVector S16 32 [0] iota_S16_d0_w32_scVector

/-- Reading a 16 × 32 scratch at (lane number, column `c`) stays inside it when `c < 32`. -/
theorem colIdx_inb (c : Nat) (hc : c < 32) :
    ∀ a x, ((![lanes, broadcast S16 (BitVec.ofNat 32 c)] : Fin 2 → IVec S16 32) a x).toNat < S16x32.size a := by
  intro a x
  match a with
  | ⟨0, _⟩ =>
    show (BitVec.ofNat 32 (0 * S16.size 0 + (x 0).val)).toNat < 16
    have hx : (x 0).val < 16 := (x 0).isLt
    rw [BitVec.toNat_ofNat]
    have : (0 * S16.size 0 + (x 0).val) = (x 0).val := by simp
    rw [this, Nat.mod_eq_of_lt (by omega)]
    exact hx
  | ⟨1, _⟩ =>
    show (BitVec.ofNat 32 c).toNat < 32
    rw [BitVec.toNat_ofNat, Nat.mod_eq_of_lt (by omega)]
    exact hc

/-- Column `c` of a 16 × 32 scratch holding `g`: lane `l` gets `g (l, c)`. -/
def colOf (g : FVec F S16x32 .f32) (c : Nat) (hc : c < 32 := by decide) : Vec F S16 .f32 :=
  loadIdx g ![lanes, broadcast S16 (BitVec.ofNat 32 c)] (colIdx_inb c hc)

/-- The same, for the scratch of user rows and for the scratch of item rows. -/
abbrev colU (g : FVec F S16x32 .f32) (c : Nat) (hc : c < 32 := by decide) : Vec F S16 .f32 := colOf g c hc
abbrev colI (g : FVec F S16x32 .f32) (c : Nat) (hc : c < 32 := by decide) : Vec F S16 .f32 := colOf g c hc

/-- The running sum after all 32 columns, from the bias `bias`, the weight columns `w`, the user rows `g11` and the
    item rows `g12`: the task's five blocks of arithmetic composed (columns 0–3, 4–10, 11–18, 19–25, 26–31). -/
def tripVec (bias : Vec F S16 .f32) (w : Nat → Vec F S16 .f32) (g11 g12 : FVec F S16x32 .f32) : FVec F S16 .f32 :=
  k0_pay37 (w 26) (w 27) (w 28) (w 29) (w 30) (w 31)
    (k0_pay36 (w 19) (w 20) (w 21) (w 22) (w 23) (w 24) (w 25)
      (k0_pay35 (w 11) (w 12) (w 13) (w 14) (w 15) (w 16) (w 17) (w 18)
        (k0_pay34 (w 4) (w 5) (w 6) (w 7) (w 8) (w 9) (w 10)
          (k0_pay33 bias (w 0) (w 1) (w 2) (w 3) (colU g11 0) (colI g12 0) (colU g11 1) (colI g12 1) (colU g11 2) (colI g12 2) (colU g11 3) (colI g12 3))
          (colU g11 4) (colI g12 4) (colU g11 5) (colI g12 5) (colU g11 6) (colI g12 6) (colU g11 7) (colI g12 7) (colU g11 8) (colI g12 8) (colU g11 9) (colI g12 9) (colU g11 10) (colI g12 10))
        (colU g11 11) (colI g12 11) (colU g11 12) (colI g12 12) (colU g11 13) (colI g12 13) (colU g11 14) (colI g12 14) (colU g11 15) (colI g12 15) (colU g11 16) (colI g12 16) (colU g11 17) (colI g12 17) (colU g11 18) (colI g12 18))
      (colU g11 19) (colI g12 19) (colU g11 20) (colI g12 20) (colU g11 21) (colI g12 21) (colU g11 22) (colI g12 22) (colU g11 23) (colI g12 23) (colU g11 24) (colI g12 24) (colU g11 25) (colI g12 25))
    (colU g11 26) (colI g12 26) (colU g11 27) (colI g12 27) (colU g11 28) (colI g12 28) (colU g11 29) (colI g12 29) (colU g11 30) (colI g12 30) (colU g11 31) (colI g12 31)

end Cert.Proof.KW

end
-- ==== Proof.WOut.lean ====
/-
  The result array the kernel is expected to leave, as a function of its argument arrays.

  Entry `j` of the batch belongs to piece `j / 512` (one tile), within it to trip `(j % 512) / 16`, and within
  the trip to lane `j % 16`. At that trip the tile has fetched, for each lane, the table row its index word names;
  the trip's vector (KTripVec) over those rows, the staged weight columns and the staged bias gives the lane's value.
  Stated over any float instance; nothing here uses the arithmetic's laws.
-/
import proofs.«208244_g21053929685252_cont_8to1_1842_38_alg».proof.Proof.WIface
import proofs.«208244_g21053929685252_cont_8to1_1842_38_alg».proof.Proof.WTripVec
import Idealize.ShloMosaic.Lib.ValueIdx

noncomputable section

namespace Cert.Proof.KW

open Cert.Kernel Cert.Kernel.Gen
open Idealize.ShloMosaic Idealize.ShloMosaic.ValueIdx

variable {F : FTy → Type} [FloatOps F]

/-- Weight column `c` as the task reads it off the staged weight vector: sixteen consecutive entries from `16 c`. -/
def wOf (wb : FVec F S512 .f32) (c : Nat) : Vec F S16 .f32 :=
  fun x => wb (ix1 ⟨(16 * c + (x 0).val) % 512, Nat.mod_lt _ (by decide)⟩)

/-- The sixteen rows piece `w`'s tile fetches at trip `s` out of table `tab` through index list `idx`:
    lane `r`, column `c` holds `tab (row named by idx (512 w + 16 s + r), c)`. -/
def rowsAt (tab : FVec F S1000000x32 .f32) (idx : IVec S16384 32) (w s : Fin 32) : FVec F S16x32 .f32 :=
  fun j => tab (ix2 (Cert.Proof.Spec.rowOf (idx (ix1 ⟨(512 * w.val + 16 * s.val + (j 0).val) % 16384, Nat.mod_lt _ (by decide)⟩))) (j 1))

/-- What piece `w`'s tile stores at trip `s`: the trip's vector over the fetched user and item rows. -/
def outAt (iu ii : IVec S16384 32) (ut it : FVec F S1000000x32 .f32) (wb : FVec F S512 .f32) (bv : FVec F S16 .f32)
    (w s : Fin 32) : FVec F S16 .f32 :=
  tripVec bv (wOf wb) (rowsAt ut iu w s) (rowsAt it ii w s)

/-- The whole expected result: entry `j` from its piece, trip and lane. -/
def outVec (iu ii : IVec S16384 32) (ut it : FVec F S1000000x32 .f32) (wb : FVec F S512 .f32) (bv : FVec F S16 .f32) :
    FVec F S16384 .f32 :=
  fun j => outAt iu ii ut it wb bv ⟨(j 0).val / 512, by have h : (j 0).val < 16384 := (j 0).isLt; show (j 0).val / 512 < 32; omega⟩
    ⟨((j 0).val % 512) / 16, by show ((j 0).val % 512) / 16 < 32; omega⟩
    (ix1 ⟨(j 0).val % 16, Nat.mod_lt _ (by decide)⟩)

/-- The expected contents of the call's result array on device `d`, from the launch memory `m` and the staged weight
    and bias contents. -/
def OUT (m : (ℓ : Loc nD τ sig) → Buf (Elt F) ℓ) (wbf : (d : Dev nD) → Buf (Elt F) (locW d)) (bsf : (d : Dev nD) → Buf (Elt F) (locB d))
    (d : Dev nD) : Buf (Elt F) (locO d) :=
  outVec (m (loc0 d)) (m (loc1 d)) (m (loc2 d)) (m (loc3 d)) (wbf d) (bsf d)

end Cert.Proof.KW

end
-- ==== Proof.WObl.lean ====
/-
  The tiles' task as the launch theorem asks for it, and the kernel's run.

  The launch theorem wants, of every tile of the grid, the run of the body table's row for that tile from what the
  go signal hands it to what it hands back. The row is the task's function at the tile's grid coordinates on the
  whole arrays and the tile's scratch; what the tile is handed is its bundle (its pieces and read shares), numbered
  2 i + c for tile i of SparseCore c, which is the number the task's own coordinates give. So the obligation
  is the task's proved run (taken here as a hypothesis, stated at a symbolic tile) at those coordinates; the task
  owes nothing for a protocol of its own. With it the launch side gives the run of all the threads.
-/
import proofs.«208244_g21053929685252_cont_8to1_1842_38_alg».proof.Proof.WLaunch
import proofs.«208244_g21053929685252_cont_8to1_1842_38_alg».proof.Proof.WTile0
import proofs.«208244_g21053929685252_cont_8to1_1842_38_alg».proof.Proof.WOut

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a2W" => (Memref.whole Cert.Kernel.main_arg0_scv : Memref Cert.Kernel.sig Kind.scVector Space.hbm Cert.Kernel.S16384 EltTy.i32)
local notation "a3W" => (Memref.whole Cert.Kernel.main_arg1_scv : Memref Cert.Kernel.sig Kind.scVector Space.hbm Cert.Kernel.S16384 EltTy.i32)
local notation "a4W" => (Memref.whole Cert.Kernel.main_arg2_scv : Memref Cert.Kernel.sig Kind.scVector Space.hbm Cert.Kernel.S1000000x32 EltTy.f32)
local notation "a5W" => (Memref.whole Cert.Kernel.main_arg3_scv : Memref Cert.Kernel.sig Kind.scVector Space.hbm Cert.Kernel.S1000000x32 EltTy.f32)
local notation "a6W" => (Memref.whole Cert.Kernel.main_v3_scv : Memref Cert.Kernel.sig Kind.scVector Space.hbm Cert.Kernel.S512 EltTy.f32)
local notation "a7W" => (Memref.whole Cert.Kernel.main_v5_scv : Memref Cert.Kernel.sig Kind.scVector Space.hbm Cert.Kernel.S16 EltTy.f32)
local notation "a8W" => (Memref.whole Cert.Kernel.main_v6_scv : Memref Cert.Kernel.sig Kind.scVector Space.hbm Cert.Kernel.S16384 EltTy.f32)
local notation "s9W" => (Memref.whole Cert.Kernel.cc0_scratch0 : Memref Cert.Kernel.sig Kind.scVector Space.vmem Cert.Kernel.S512 EltTy.i32)
local notation "s10W" => (Memref.whole Cert.Kernel.cc0_scratch1 : Memref Cert.Kernel.sig Kind.scVector Space.vmem Cert.Kernel.S512 EltTy.i32)
local notation "s11W" => (Memref.whole Cert.Kernel.cc0_scratch2 : Memref Cert.Kernel.sig Kind.scVector Space.vmem Cert.Kernel.S16x32 EltTy.f32)
local notation "s12W" => (Memref.whole Cert.Kernel.cc0_scratch3 : Memref Cert.Kernel.sig Kind.scVector Space.vmem Cert.Kernel.S16x32 EltTy.f32)
local notation "s13W" => (Memref.whole Cert.Kernel.cc0_scratch4 : Memref Cert.Kernel.sig Kind.scVector Space.vmem Cert.Kernel.S512 EltTy.f32)
local notation "s14W" => (Memref.whole Cert.Kernel.cc0_scratch5 : Memref Cert.Kernel.sig Kind.scVector Space.vmem Cert.Kernel.S16 EltTy.f32)
local notation "s15W" => (Memref.whole Cert.Kernel.cc0_scratch6 : Memref Cert.Kernel.sig Kind.scVector Space.vmem Cert.Kernel.S512 EltTy.f32)

variable (m : (ℓ : Loc nD τ sig) → Buf (Elt F) ℓ) (ρ : Dev nD → PrngReg)
variable (wbf : (d : Dev nD) → Buf (Elt F) (locW d)) (bsf : (d : Dev nD) → Buf (Elt F) (locB d))

variable [FloatOps F]

/-- The task's run at a symbolic tile: from the tile's bundle (the result piece at its launch contents), its scoped
    storage and what it owes, to the bundle with the result piece at the expected contents, the storage back, and
    nothing more owed; its waits are on its own semaphores only. -/
abbrev BodyRun : Prop :=
  ∀ (d : Dev nD) (L : grid0.Coords) (O : CellTallies nD τ sig (HIx 1)) (W : Waits sig (HIx 1)), (∀ g, O g none = 0) →
    iprop(levAts (K (F := F)).L (K (F := F)).lev ∗ emp ∗ tileRes m wbf bsf d (widL L) (m (locO d)) ∗ scopedBufs (thrOf d L) ∗ scopedSems0 (thrOf d L) ∗ owes (thrOf d L) O W)
      ⊢ wp frame (wpE (defs₀ (F := F)) 𝒱₀ (thrOf d L) none) Set.univ
          (cc0__gmf_body (F := F) L a2W (Memref.isWhole_whole _) a3W (Memref.isWhole_whole _) a4W (Memref.isWhole_whole _) a5W (Memref.isWhole_whole _) a6W (Memref.isWhole_whole _) a7W (Memref.isWhole_whole _) a8W (Memref.isWhole_whole _) s9W (Memref.isWhole_whole _) s10W (Memref.isWhole_whole _) s11W (Memref.isWhole_whole _) s12W (Memref.isWhole_whole _) s13W (Memref.isWhole_whole _) s14W (Memref.isWhole_whole _) s15W (Memref.isWhole_whole _) cc0_scratch7 cc0_scratch8 cc0_scratch9 cc0_scratch10 cc0_scoped0 cc0_scoped1 cc0_scoped2 cc0_scoped3 cc0_scoped4)
          fun _ => iprop(tileRes m wbf bsf d (widL L) (OUT m wbf bsf d) ∗ scopedBufs (thrOf d L) ∗ scopedSems0 (thrOf d L) ∗ ∃ W', ⌜∀ p ∈ W', p ∈ W ∨ p.2 = none⌝ ∗ owes (thrOf d L) O W')

/-! ## The launch theorem's obligation -/

/-- A tile's grid coordinates from its SparseCore's and its own number. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gmf_body (F := F) (coordsV c s) a2W (Memref.isWhole_whole _) a3W (Memref.isWhole_whole _) a4W (Memref.isWhole_whole _) a5W (Memref.isWhole_whole _) a6W (Memref.isWhole_whole _) a7W (Memref.isWhole_whole _) a8W (Memref.isWhole_whole _) s9W (Memref.isWhole_whole _) s10W (Memref.isWhole_whole _) s11W (Memref.isWhole_whole _) s12W (Memref.isWhole_whole _) s13W (Memref.isWhole_whole _) s14W (Memref.isWhole_whole _) s15W (Memref.isWhole_whole _) cc0_scratch7 cc0_scratch8 cc0_scratch9 cc0_scratch10 cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- The bundle number the launch gives tile i of SparseCore c is the one the task's coordinates give. -/
theorem widOf_coordsV (c : Fin ((K (F := F)).nCore 0)) (i : Fin ((K (F := F)).nSub 0))
    (hc : ((K (F := F)).core 0 c).val < grid0.bound 0 ∧ ((K (F := F)).sub 0 i).val < grid0.bound 1) :
    widOf c i = widL (coordsV ⟨_, hc.1⟩ ⟨_, hc.2⟩) := Fin.ext rfl

/-- The tiles' obligation at the one call, from the task's run. -/
theorem tileObl (hbody : BodyRun m wbf bsf) :
    (K (F := F)).TileObl (D (F := F)) 𝒱 (P m wbf bsf (OUT m wbf bsf)) v₀ 0 := by
  intro d c i O W hO _ _
  -- the task owes nothing for a protocol of its own
  simp only [show (P m wbf bsf (OUT m wbf bsf)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hx : (P m wbf bsf (OUT m wbf bsf)).x 0 (V d ((K (F := F)).core 0 c) ((K (F := F)).sub 0 i)) = iprop(emp) := rfl
  have hgo : (P m wbf bsf (OUT m wbf bsf)).go 0 d c i = tileRes m wbf bsf d (widL (coordsV ⟨_, hc.1⟩ ⟨_, hc.2⟩)) (m (locO d)) := by
    rw [← widOf_coordsV c i hc]; rfl
  have htd : (P m wbf bsf (OUT m wbf bsf)).td 0 d c i = tileRes m wbf bsf d (widL (coordsV ⟨_, hc.1⟩ ⟨_, hc.2⟩)) (OUT m wbf bsf d) := by
    rw [← widOf_coordsV c i hc]; rfl
  rw [hx, hgo, htd]
  exact (hbody d (coordsV ⟨_, hc.1⟩ ⟨_, hc.2⟩) O W hO).trans (wp_mono frame _ _ fun _ => obl_post)

/-! ## The kernel's run -/

/-- Every weakly fair execution of the threads from the launch memory ends, faulting nowhere; the final memory has the
    program's result at the expected result read as a column, and the six arguments unchanged — given the task's run
    at the stretched weight and bias. -/
theorem run_kernel [∀ e, Nonempty (Elt F e)] (hbody : BodyRun m (WB m) (BI m)) :
    θ_run (Cert.Kernel.defs (F := F)) (Cert.Kernel.threads (F := F)) ⟨m, fun _ => 0, ρ⟩
      (fun r => ∀ c : Dev nD, r.2.mem (locR c) = reshapeOut (OUT m (WB m) (BI m) c) ∧ r.2.mem (loc0 c) = m (loc0 c) ∧ r.2.mem (loc1 c) = m (loc1 c)
        ∧ r.2.mem (loc2 c) = m (loc2 c) ∧ r.2.mem (loc3 c) = m (loc3 c) ∧ r.2.mem (loc4 c) = m (loc4 c) ∧ r.2.mem (loc5 c) = m (loc5 c)) :=
  run_main m ρ (OUT m (WB m) (BI m)) (tileObl m (WB m) (BI m) hbody)

end Cert.Proof.KW

end
-- ==== Proof.KValue.lean ====
/-
  The idealized kernel's expected result is the shared specification.

  One trip of a tile's task keeps a running sum per lane: it starts at the bias and, for each of the 32
  columns `c` in turn, adds `(user row at c) * (item row at c) * (weight column c)`.  Read at lane `l`
  over the extended reals this is `((((bias + t 0) + t 1) + …) + t 31)` with
  `t c = (g11 (l, c) * g12 (l, c)) * w c l`; the specification writes the same 33 summands as
  `(∑ c, t c) + bias`.  The two are equal because addition of extended reals is commutative and
  associative (a running sum fed a list of terms is the list's sum plus the start value); nothing else
  about the summands is used, in particular not that they are finite.

  Batch entry `p` sits in piece `p / 512`, trip `(p % 512) / 16`, lane `p % 16`, and
  `512 * (p / 512) + 16 * ((p % 512) / 16) + p % 16 = p`: so the rows that trip fetches for that lane are the
  rows entry `p`'s two index words name, the stretched weight vector at `16 c + lane` is weight `c`, the
  stretched bias at the lane is the bias, and the trip's value at the lane is the specification's entry `p`.
  Both sides name a table row by the same function of the index word, so nothing is assumed of the words.
-/
import proofs.«208244_g21053929685252_cont_8to1_1842_38_alg».proof.Proof.KTripVec
import proofs.«208244_g21053929685252_cont_8to1_1842_38_alg».proof.Proof.KOut
import proofs.«208244_g21053929685252_cont_8to1_1842_38_alg».proof.Proof.KHost
import proofs.«208244_g21053929685252_cont_8to1_1842_38_alg».proof.Proof.Spec
import Idealize.ShloMosaic.Lib.ValueIdx

noncomputable section

open scoped BigOperators

namespace Cert.Proof.KI

open Cert.KernelIdeal Cert.KernelIdeal.Gen
open Idealize.ShloMosaic Idealize.ShloMosaic.ValueIdx

/-- Column `c` of a 16 × 32 scratch read at lane `l` is the scratch's entry `(l, c)`: the lane numbers are
    0 … 15 and the column number is below 32, so both index words read back, unsigned, as themselves. -/
theorem colOf_apply {F : FTy → Type} [FloatOps F] (g : FVec F S16x32 .f32) (c : Nat) (hc : c < 32) (l : Fin 16) :
    colOf g c hc (ix1 l) = g (ix2 l ⟨c, hc⟩) := by
  unfold colOf loadIdx
  refine congrArg g (funext fun a => Fin.ext ?_)
  match a with
  | ⟨0, _⟩ =>
    show (BitVec.ofNat 32 (0 * S16.size 0 + l.val)).toNat = l.val
    have e : (0 * S16.size 0 + l.val) = l.val := by simp
    rw [e, BitVec.toNat_ofNat, Nat.mod_eq_of_lt (by have := l.isLt; omega)]
  | ⟨1, _⟩ =>
    show (BitVec.ofNat 32 c).toNat = c
    rw [BitVec.toNat_ofNat, Nat.mod_eq_of_lt (by omega)]

/-- The trip's vector at lane `l`, over the extended reals: the sum over the 32 columns of
    `(user entry * item entry) * weight`, plus the bias.  The task adds the 32 products to the bias one at a
    time, left to right; the sum on the right is the same by commutativity and associativity of addition. -/
theorem tripVec_ideal (bias : Vec Ideal S16 .f32) (w : Nat → Vec Ideal S16 .f32) (g11 g12 : FVec Ideal S16x32 .f32)
    (l : Fin 16) :
    tripVec bias w g11 g12 (ix1 l)
      = (∑ c : Fin 32, (g11 (ix2 l c) * g12 (ix2 l c)) * w c.val (ix1 l)) + bias (ix1 l) := by
  refine Eq.trans ?_ (Cert.Proof.Spec.foldl_ofFn_add_eq_sum_add
    (fun c : Fin 32 => (g11 (ix2 l c) * g12 (ix2 l c)) * w c.val (ix1 l)) (bias (ix1 l)))
  unfold tripVec k0_pay37 k0_pay36 k0_pay35 k0_pay34 k0_pay33
  dsimp only
  simp only [addf_apply, mulf_apply, colOf_apply]
  rfl

/-! ## The expected result, entry by entry -/

/-- Piece, trip and lane put back together give the batch entry. -/
theorem entry_back (p : Fin 16384) :
    (⟨(512 * (p.val / 512) + 16 * (p.val % 512 / 16) + p.val % 16) % 16384, Nat.mod_lt _ (by decide)⟩ : Fin 16384) = p :=
  Fin.ext (by
    show (512 * (p.val / 512) + 16 * (p.val % 512 / 16) + p.val % 16) % 16384 = p.val
    have := p.isLt
    omega)

/-- The rows entry `p`'s trip fetches, at entry `p`'s lane: the table row entry `p`'s index word names. -/
theorem rowsAt_apply {F : FTy → Type} [FloatOps F] (tab : FVec F S1000000x32 .f32) (idx : IVec S16384 32) (p : Fin 16384)
    (c : Fin 32) (hW : p.val / 512 < 32) (hS : p.val % 512 / 16 < 32) (hL : p.val % 16 < 16) :
    rowsAt tab idx ⟨p.val / 512, hW⟩ ⟨p.val % 512 / 16, hS⟩ (ix2 (⟨p.val % 16, hL⟩ : Fin 16) c)
      = tab (ix2 (Cert.Proof.Spec.rowOf (idx (ix1 p))) c) :=
  congrArg (fun q : Fin 16384 => tab (ix2 (Cert.Proof.Spec.rowOf (idx (ix1 q))) c)) (entry_back p)

/-- Weight column `c` at lane `r` is entry `16 c + r` of the stretched weight vector (which has 512 entries). -/
theorem wOf_apply {F : FTy → Type} [FloatOps F] (wb : FVec F S512 .f32) (c : Fin 32) (r : Fin 16) :
    wOf wb c.val (ix1 r) = wb (ix1 ⟨16 * c.val + r.val, by omega⟩) := by
  have h : (⟨(16 * c.val + r.val) % 512, Nat.mod_lt _ (by decide)⟩ : Fin 512) = ⟨16 * c.val + r.val, by omega⟩ :=
    Fin.ext (Nat.mod_eq_of_lt (by omega))
  exact congrArg (fun q : Fin 512 => wb (ix1 q)) h

/-- Over plain arrays: if the stretched weight vector at `16 c + r` is weight `c` and the stretched bias is the bias
    at every lane, the expected result at entry `p` is the specification's entry `p`. -/
theorem outVec_eq (iu ii : IVec S16384 32) (ut it : FVec Ideal S1000000x32 .f32) (wb : FVec Ideal S512 .f32)
    (bv : FVec Ideal S16 .f32) (w4 : FVec Ideal S1x32 .f32) (b5 : FVec Ideal S1 .f32)
    (hw : ∀ (c : Fin 32) (r : Fin 16), wb (ix1 ⟨16 * c.val + r.val, by omega⟩) = w4 (ix2 (0 : Fin 1) c))
    (hb : ∀ r : Fin 16, bv (ix1 r) = b5 (ix1 (0 : Fin 1))) (p : Fin 16384) :
    outVec iu ii ut it wb bv (ix1 p) = Cert.Proof.Spec.entry iu ii ut it w4 b5 p := by
  have hW : p.val / 512 < 32 := by have := p.isLt; omega
  have hS : p.val % 512 / 16 < 32 := by omega
  have hL : p.val % 16 < 16 := Nat.mod_lt _ (by decide)
  show tripVec bv (wOf wb) (rowsAt ut iu ⟨p.val / 512, hW⟩ ⟨p.val % 512 / 16, hS⟩)
      (rowsAt it ii ⟨p.val / 512, hW⟩ ⟨p.val % 512 / 16, hS⟩) (ix1 (⟨p.val % 16, hL⟩ : Fin 16)) = _
  rw [tripVec_ideal]
  unfold Cert.Proof.Spec.entry
  refine congrArg₂ (· + ·) (Finset.sum_congr rfl fun c _ => ?_) (hb _)
  rw [rowsAt_apply ut iu p c hW hS hL, rowsAt_apply it ii p c hW hS hL, wOf_apply wb c ⟨p.val % 16, hL⟩, hw c ⟨p.val % 16, hL⟩]

/-- The program's result the idealized kernel is expected to leave — the call's expected result array, over the
    host's stretched weights and bias, read as a column — is the specification's `G` of the six argument arrays. -/
theorem out_eq_G (m : (ℓ : Loc nD τ sig) → Buf (Elt Ideal) ℓ) (d : Dev nD) :
    reshapeOut (OUT m (WB m) (BI m) d)
      = Cert.Proof.Spec.G (m (loc0 d)) (m (loc1 d)) (m (loc2 d)) (m (loc3 d)) (m (loc4 d)) (m (loc5 d)) := by
  funext j
  obtain ⟨p, q, rfl⟩ : ∃ (p : Fin 16384) (q : Fin 1), j = ix2 p q := ⟨j 0, j 1, eq_ix2 j⟩
  obtain rfl : q = 0 := Subsingleton.elim _ _
  rw [reshapeOut_apply]
  exact outVec_eq (m (loc0 d)) (m (loc1 d)) (m (loc2 d)) (m (loc3 d)) (WB m d) (BI m d) (m (loc4 d)) (m (loc5 d))
    (fun c r => WB_apply m d c r) (fun r => BI_apply m d r) p

end Cert.Proof.KI

end
-- ==== Proof.LibTypedRefs.lean ====
/-
  Host operations over references that carry the type of the value they hold, read at that type.

  A typed reference names a buffer together with the fact that the buffer's type is a given one; an operation built
  over typed references moves its function to the buffers' own types along those facts.  Read back at the carried
  types the moves cancel: the contents of the result's buffer, at the result's type, are the operation's function of
  the operands' contents at theirs, and every other buffer keeps its contents.  The statements are for arbitrary typed
  references, so none of them looks a buffer's type up.
-/
import Idealize.ShloMosaic.Lib.StableHlo.Run

noncomputable section

namespace Cert.TypedRefs

open Idealize.ShloMosaic Idealize.ShloMosaic.StableHlo

variable {τ : Topo} {sig : RefSig} {Val : EltTy → Type}
variable {T Tx Ta Tb Tc Ty Tz : BufTy}

/-- The contents of a typed reference's buffer, at the carried type. -/
def get (x : TRef sig T) (V : Valuation τ sig Val) : T.Contents Val := x.ofBuf (V (Proc.devRef .tc x.ref))

theorem get_nullary (y : TRef sig Ty) (v : Ty.Contents Val) (V : Valuation τ sig Val) :
    get y ((no_index (TRef.nullary y v : HloOp τ sig Val)).result V) = v := by
  obtain ⟨ry, hy, hdy, huy⟩ := y; subst hy
  exact nullary_result' _ _ V

theorem get_unary (x : TRef sig Tx) (y : TRef sig Ty) (f : Tx.Contents Val → Ty.Contents Val) (V : Valuation τ sig Val) :
    get y ((no_index (TRef.unary x y f : HloOp τ sig Val)).result V) = f (get x V) := by
  obtain ⟨rx, hx, hdx, hux⟩ := x; obtain ⟨ry, hy, hdy, huy⟩ := y; subst hx; subst hy
  exact unary_result' _ _ _ V

theorem get_binary (a : TRef sig Ta) (b : TRef sig Tb) (y : TRef sig Ty)
    (f : Ta.Contents Val → Tb.Contents Val → Ty.Contents Val) (V : Valuation τ sig Val) :
    get y ((no_index (TRef.binary a b y f : HloOp τ sig Val)).result V) = f (get a V) (get b V) := by
  obtain ⟨ra, ha, hda, hua⟩ := a; obtain ⟨rb, hb, hdb, hub⟩ := b; obtain ⟨ry, hy, hdy, huy⟩ := y
  subst ha; subst hb; subst hy
  exact binary_result' _ _ _ _ V

theorem get_ternary (c : TRef sig Tc) (a : TRef sig Ta) (b : TRef sig Tb) (y : TRef sig Ty)
    (f : Tc.Contents Val → Ta.Contents Val → Tb.Contents Val → Ty.Contents Val) (V : Valuation τ sig Val) :
    get y ((no_index (TRef.ternary c a b y f : HloOp τ sig Val)).result V) = f (get c V) (get a V) (get b V) := by
  obtain ⟨rc, hc, hdc, huc⟩ := c; obtain ⟨ra, ha, hda, hua⟩ := a; obtain ⟨rb, hb, hdb, hub⟩ := b
  obtain ⟨ry, hy, hdy, huy⟩ := y
  subst hc; subst ha; subst hb; subst hy
  exact ternary_result' _ _ _ _ _ V

/-- A reshape: the same entries in row-major order (the change of element type is the identity). -/
theorem get_reshape (x : TRef sig Tx) (y : TRef sig Ty) (he : Tx.elt = Ty.elt) (hn : Tx.shape.ShapeCasts Ty.shape)
    (V : Valuation τ sig Val) :
    get y ((no_index (TRef.reshape x y he hn : HloOp τ sig Val)).result V)
      = fun i => he ▸ shapeCast Ty.shape (get x V) hn i := by
  obtain ⟨rx, hx, hdx, hux⟩ := x; obtain ⟨ry, hy, hdy, huy⟩ := y; subst hx; subst hy
  exact reshape_result' _ _ _ _ V

theorem get_nullary_ne (y : TRef sig Ty) (v : Ty.Contents Val) (V : Valuation τ sig Val) (z : TRef sig Tz)
    (h : z.ref ≠ y.ref) : get z ((no_index (TRef.nullary y v : HloOp τ sig Val)).result V) = get z V :=
  congrArg z.ofBuf (nullary_result_ne' _ _ V h)

theorem get_unary_ne (x : TRef sig Tx) (y : TRef sig Ty) (f : Tx.Contents Val → Ty.Contents Val) (V : Valuation τ sig Val)
    (z : TRef sig Tz) (h : z.ref ≠ y.ref) :
    get z ((no_index (TRef.unary x y f : HloOp τ sig Val)).result V) = get z V :=
  congrArg z.ofBuf (unary_result_ne' _ _ _ V h)

theorem get_binary_ne (a : TRef sig Ta) (b : TRef sig Tb) (y : TRef sig Ty)
    (f : Ta.Contents Val → Tb.Contents Val → Ty.Contents Val) (V : Valuation τ sig Val) (z : TRef sig Tz)
    (h : z.ref ≠ y.ref) : get z ((no_index (TRef.binary a b y f : HloOp τ sig Val)).result V) = get z V :=
  congrArg z.ofBuf (binary_result_ne' _ _ _ _ V h)

theorem get_ternary_ne (c : TRef sig Tc) (a : TRef sig Ta) (b : TRef sig Tb) (y : TRef sig Ty)
    (f : Tc.Contents Val → Ta.Contents Val → Tb.Contents Val → Ty.Contents Val) (V : Valuation τ sig Val)
    (z : TRef sig Tz) (h : z.ref ≠ y.ref) :
    get z ((no_index (TRef.ternary c a b y f : HloOp τ sig Val)).result V) = get z V :=
  congrArg z.ofBuf (ternary_result_ne' _ _ _ _ _ V h)

theorem get_reshape_ne (x : TRef sig Tx) (y : TRef sig Ty) (he : Tx.elt = Ty.elt) (hn : Tx.shape.ShapeCasts Ty.shape)
    (V : Valuation τ sig Val) (z : TRef sig Tz) (h : z.ref ≠ y.ref) :
    get z ((no_index (TRef.reshape x y he hn : HloOp τ sig Val)).result V) = get z V :=
  congrArg z.ofBuf (reshape_result_ne' _ _ _ _ V h)

end Cert.TypedRefs

end
-- ==== Proof.RefRun.lean ====
/-
  The reference program's run, read back as one function of its six arguments.

  The reference looks up one row of each of two tables per batch entry, multiplies the two rows
  elementwise, contracts the product with the weight row, and adds the bias. Each look-up is
  `jnp.take` along axis 0 in its default mode for out-of-range indices: an index word that is
  negative as a signed integer is first moved up by the number of rows; the (possibly moved) word
  picks a whole row of the table; and a row whose word still lies outside `[0, 999999]` is replaced
  by a row of NaNs. `wrap`, `col`, `inRange` and `take` below are those stages, each the host
  operations the look-up function applies, in its order; `refOut` composes the two look-ups with the
  product, the transposed weights, the contraction, the bias broadcast twice, and the sum.

  The program is a straight line of 52 host operations (23 for each look-up, with the inner
  three-way select at its call site, then 6 of the main function), each writing one buffer of
  its own from buffers written before it. So every execution ends with the result buffer holding
  `refOut` of the argument buffers' initial contents, and the argument buffers, which no operation
  writes, unchanged. No assumption on the arguments is needed.

  The read-back goes in three pieces: what the first look-up's operations leave in its result buffer
  (`take_run0`), the same for the second (`take_run1`), and the main function's six operations over
  those two buffers (`out_eq`). The look-ups' operations are stated over references that carry their
  value's type, and are read at that type, so that no step compares a buffer's recorded type.
-/
import proofs.«208244_g21053929685252_cont_8to1_1842_38_alg».proof.ReferenceIdeal
import proofs.«208244_g21053929685252_cont_8to1_1842_38_alg».proof.Proof.LibTypedRefs
import Idealize.ShloMosaic.Lib.StableHlo.Run
import Idealize.ShloMosaic.PureOps.Ideal

noncomputable section

namespace Cert.Proof.RefRun

open Cert.ReferenceIdeal Idealize.ShloMosaic Idealize.ShloMosaic.TcCoe Idealize.SL.Sem Idealize.ShloMosaic.StableHlo
open Cert.ReferenceIdeal.Facts₀ Cert.TypedRefs

variable [Cert.ReferenceIdeal.Facts]

/-! ## The look-up's stages and the whole result, as pure functions -/

/-- The index words with the negative ones moved up by the number of rows:
    `select (idx < 0) (idx + 1000000) idx`, elementwise, the comparison signed. -/
def wrap (idx : IVec S16384 32) : IVec S16384 32 :=
  select (cmpi .slt idx (broadcastInDim S16384 ![] bcast_S_S16384 (constantI S_ 32 0#32)))
    (addi idx (broadcastInDim S16384 ![] bcast_S_S16384 (constantI S_ 32 1000000#32))) idx

/-- The moved index words as a column: one start index per batch entry. -/
def col (idx : IVec S16384 32) : IVec S16384x1 32 :=
  broadcastInDim S16384x1 ![0] bcast_S16384_S16384x1_0 (wrap idx)

/-- Per batch entry, whether its start index lies in `[0, 999999]` (signed): the two comparisons'
    conjunction, reduced by `and` over the column's one-element axis. -/
def inRange (c : IVec S16384x1 32) : IVec S16384 1 :=
  Host.reduce IntOp.andi
    (andi (cmpi .sge c (broadcastInDim S16384x1 ![] bcast_S_S16384x1 (constantI S_ 32 0#32)))
      (cmpi .sle c (broadcastInDim S16384x1 ![0, 1] bcast_S1x1_S16384x1_0_1
        (broadcastInDim S1x1 ![1] bcast_S1_S1x1_1 (constantI S1 32 999999#32)))))
    (constantI S_ 1 1#1) reducesTo_S16384x1_S16384_d1 h_S_

/-- One look-up: the gathered rows where the start index is in range, a row of NaNs elsewhere. -/
def take (tbl : FVec Ideal S1000000x32 .f32) (idx : IVec S16384 32) : FVec Ideal S16384x32 .f32 :=
  select (broadcastInDim S16384x32 ![0] bcast_S16384_S16384x32_0 (inRange (col idx)))
    (Host.gather gather_S1000000x32_S16384x1_S16384x32_1_0_n_n_0_1_132 tbl (col idx))
    (broadcastInDim S16384x32 ![] bcast_S_S16384x32 (constant (F := Ideal) S_ .f32 0x7FC00000#32))

/-- What the main function does with the two looked-up row arrays: their elementwise product, contracted over the
    32 columns with the transposed weight row, plus the bias broadcast to every entry. -/
def tail (x0 x1 : FVec Ideal S16384x32 .f32) (a4 : FVec Ideal S1x32 .f32) (a5 : FVec Ideal S1 .f32) :
    FVec Ideal S16384x1 .f32 :=
  addf
    (Host.dotGeneral dot_S16384x32_S32x1_S16384x1_1_0_0_1_n_n none (mulf x0 x1)
      (transpose S32x1 [1, 0] a4 transposes_S1x32_S32x1_1_0))
    (broadcastInDim S16384x1 ![0, 1] bcast_S1x1_S16384x1_0_1 (broadcastInDim S1x1 ![1] bcast_S1_S1x1_1 a5))

/-- The reference's result as a function of its six arguments: the two look-ups, then the main function's tail. -/
def refOut (a0 a1 : IVec S16384 32) (a2 a3 : FVec Ideal S1000000x32 .f32) (a4 : FVec Ideal S1x32 .f32)
    (a5 : FVec Ideal S1 .f32) : FVec Ideal S16384x1 .f32 :=
  tail (take a2 a0) (take a3 a1) a4 a5

/-! ## The program as a list of operations -/

variable {F : FTy → Type} [FloatOps F]

/-- One look-up's 23 operations over a table, an index list and the buffers of one call (the inner select at its
    place, seventh). -/
def opsTake (tbl : TRef sig ⟨S1000000x32, .f32⟩) (idx : TRef sig ⟨S16384, .i32⟩) (R : fn_take.Bufs) :
    List (HloOp τ sig (Elt F)) :=
  [ TRef.nullary R.c (constantI S_ 32 0#32),
    TRef.unary R.c R.v0 (broadcastInDim S16384 ![] bcast_S_S16384),
    TRef.binary idx R.v0 R.v1 (cmpi .slt),
    TRef.nullary R.c_0 (constantI S_ 32 1000000#32),
    TRef.unary R.c_0 R.v2 (broadcastInDim S16384 ![] bcast_S_S16384),
    TRef.binary idx R.v2 R.v3 addi,
    TRef.ternary R.v1 R.v3 idx R.call0.v0 select,
    TRef.unary R.call0.v0 R.v5 (broadcastInDim S16384x1 ![0] bcast_S16384_S16384x1_0),
    TRef.nullary R.c_1 (constantI S1 32 999999#32),
    TRef.nullary R.c_2 (constantI S_ 32 0#32),
    TRef.unary R.c_2 R.v6 (broadcastInDim S16384x1 ![] bcast_S_S16384x1),
    TRef.binary R.v5 R.v6 R.v7 (cmpi .sge),
    TRef.unary R.c_1 R.v8 (broadcastInDim S1x1 ![1] bcast_S1_S1x1_1),
    TRef.unary R.v8 R.v9 (broadcastInDim S16384x1 ![0, 1] bcast_S1x1_S16384x1_0_1),
    TRef.binary R.v5 R.v9 R.v10 (cmpi .sle),
    TRef.binary R.v7 R.v10 R.v11 andi,
    TRef.nullary R.c_3 (constantI S_ 1 1#1),
    TRef.binary R.v11 R.c_3 R.v12 (fun x v => Host.reduce IntOp.andi x v reducesTo_S16384x1_S16384_d1 h_S_),
    TRef.binary tbl R.v5 R.v13 (fun x i => Host.gather gather_S1000000x32_S16384x1_S16384x32_1_0_n_n_0_1_132 x i),
    TRef.unary R.v12 R.v14 (broadcastInDim S16384x32 ![0] bcast_S16384_S16384x32_0),
    TRef.nullary R.cst (constant S_ .f32 0x7FC00000#32),
    TRef.unary R.cst R.v15 (broadcastInDim S16384x32 ![] bcast_S_S16384x32),
    TRef.ternary R.v14 R.v13 R.v15 R.v16 select ]

/-- The main function's own 6 operations, after the two look-ups. -/
def opsMain : List (HloOp τ sig (Elt F)) :=
  [ binary main_v0 main_v1 main_v2 (mulf : (⟨S16384x32, .f32⟩ : BufTy).Contents (Elt F) → (⟨S16384x32, .f32⟩ : BufTy).Contents (Elt F) → (⟨S16384x32, .f32⟩ : BufTy).Contents (Elt F)),
    unary main_arg4 main_v3 ((transpose S32x1 [1, 0] · transposes_S1x32_S32x1_1_0) : (⟨S1x32, .f32⟩ : BufTy).Contents (Elt F) → (⟨S32x1, .f32⟩ : BufTy).Contents (Elt F)),
    binary main_v2 main_v3 main_v4 ((fun l r => Host.dotGeneral dot_S16384x32_S32x1_S16384x1_1_0_0_1_n_n none l r) : (⟨S16384x32, .f32⟩ : BufTy).Contents (Elt F) → (⟨S32x1, .f32⟩ : BufTy).Contents (Elt F) → (⟨S16384x1, .f32⟩ : BufTy).Contents (Elt F)),
    unary main_arg5 main_v5 (broadcastInDim S1x1 ![1] bcast_S1_S1x1_1 : (⟨S1, .f32⟩ : BufTy).Contents (Elt F) → (⟨S1x1, .f32⟩ : BufTy).Contents (Elt F)),
    unary main_v5 main_v6 (broadcastInDim S16384x1 ![0, 1] bcast_S1x1_S16384x1_0_1 : (⟨S1x1, .f32⟩ : BufTy).Contents (Elt F) → (⟨S16384x1, .f32⟩ : BufTy).Contents (Elt F)),
    binary main_v4 main_v6 main_v7 (addf : (⟨S16384x1, .f32⟩ : BufTy).Contents (Elt F) → (⟨S16384x1, .f32⟩ : BufTy).Contents (Elt F) → (⟨S16384x1, .f32⟩ : BufTy).Contents (Elt F)) ]

/-- The main function's 52 operations in order. -/
def ops : List (HloOp τ sig (Elt F)) :=
  opsTake (.of main_arg2 : TRef sig ⟨S1000000x32, .f32⟩) (.of main_arg0 : TRef sig ⟨S16384, .i32⟩) main_call0 ++ opsTake (.of main_arg3 : TRef sig ⟨S1000000x32, .f32⟩) (.of main_arg1 : TRef sig ⟨S16384, .i32⟩) main_call1 ++ opsMain

set_option maxRecDepth 4096 in
/-- The main function is that straight line: the look-up's and the select's definitions unfolded at their calls,
    and the sequencing re-associated, both sides are one chain of single-operation steps. -/
theorem main_eq (c : Dev nD) : main (F := F) c = seq ops := by
  simp only [main, fn_take.body, fn_where.body, ops, opsTake, opsMain, List.cons_append, List.nil_append, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsTake_sub (tbl : TRef sig ⟨S1000000x32, .f32⟩) (idx : TRef sig ⟨S16384, .i32⟩) (R : fn_take.Bufs) :
    (opsTake tbl idx R : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

theorem opsMain_sub : (opsMain : List (HloOp τ sig (Elt F))).Forall fun op => op.bufs ⊆ tcRefs τ sig :=
  ⟨binary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig := by
  rw [List.forall_iff_forall_mem]
  intro op hop
  rcases List.mem_append.1 hop with h | h
  · rcases List.mem_append.1 h with h | h
    · exact (List.forall_iff_forall_mem.1 (opsTake_sub _ _ _)) op h
    · exact (List.forall_iff_forall_mem.1 (opsTake_sub _ _ _)) op h
  · exact (List.forall_iff_forall_mem.1 opsMain_sub) op h

/-- No operation of the line leaves a buffer's contents undetermined. -/
theorem ops_fresh : ∀ op ∈ (ops : List (HloOp τ sig (Elt F))), op.fresh = ∅ := by
  intro op h
  simp only [ops, opsTake, opsMain, List.cons_append, List.nil_append] at h
  repeat (cases h with | head => rfl | tail _ h => ?_)
  exact nomatch h

/-- Every execution ends with each buffer at the operations' fold over the initial contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What the fold leaves in the result buffer and in the argument buffers -/

/-- Two lines one after the other fold as the second over the first's fold. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The first look-up's operations leave `take` of the table and the index list in its result buffer. -/
theorem take_run0 (V : Valuation τ sig (Elt Ideal)) :
    get main_call0.v16 (after (opsTake (.of main_arg2 : TRef sig ⟨S1000000x32, .f32⟩) (.of main_arg0 : TRef sig ⟨S16384, .i32⟩) main_call0) V) = take (get (.of main_arg2 : TRef sig ⟨S1000000x32, .f32⟩) V) (get (.of main_arg0 : TRef sig ⟨S16384, .i32⟩) V) := by
  unfold opsTake
  simp (disch := decide) only [after_cons, after_nil, get_nullary, get_unary, get_binary, get_ternary, get_nullary_ne, get_unary_ne, get_binary_ne, get_ternary_ne]
  rfl

/-- The second look-up's operations leave `take` of the table and the index list in its result buffer. -/
theorem take_run1 (V : Valuation τ sig (Elt Ideal)) :
    get main_call1.v16 (after (opsTake (.of main_arg3 : TRef sig ⟨S1000000x32, .f32⟩) (.of main_arg1 : TRef sig ⟨S16384, .i32⟩) main_call1) V) = take (get (.of main_arg3 : TRef sig ⟨S1000000x32, .f32⟩) V) (get (.of main_arg1 : TRef sig ⟨S16384, .i32⟩) V) := by
  unfold opsTake
  simp (disch := decide) only [after_cons, after_nil, get_nullary, get_unary, get_binary, get_ternary, get_nullary_ne, get_unary_ne, get_binary_ne, get_ternary_ne]
  rfl

/-- The main function's own six operations, from any contents: the tail of the two look-ups' result buffers, the
    weight buffer and the bias buffer. -/
theorem main_tail (W : Valuation τ sig (Elt Ideal)) :
    after opsMain W (main_v7 : DevRef τ sig)
      = tail (W (main_v0 : DevRef τ sig)) (W (main_v1 : DevRef τ sig)) (W (main_arg4 : DevRef τ sig))
          (W (main_arg5 : DevRef τ sig)) := by
  unfold opsMain
  after_results_simp
  rfl

/-- The first look-up's operations write none of the second look-up's two arguments, nor the weights, nor the bias. -/
theorem first_keeps (V : Valuation τ sig (Elt Ideal)) :
    get (.of main_arg3 : TRef sig ⟨S1000000x32, .f32⟩) (after (opsTake (.of main_arg2 : TRef sig ⟨S1000000x32, .f32⟩) (.of main_arg0 : TRef sig ⟨S16384, .i32⟩) main_call0) V) = get (.of main_arg3 : TRef sig ⟨S1000000x32, .f32⟩) V
    ∧ get (.of main_arg1 : TRef sig ⟨S16384, .i32⟩) (after (opsTake (.of main_arg2 : TRef sig ⟨S1000000x32, .f32⟩) (.of main_arg0 : TRef sig ⟨S16384, .i32⟩) main_call0) V) = get (.of main_arg1 : TRef sig ⟨S16384, .i32⟩) V
    ∧ get (.of main_arg4 : TRef sig ⟨S1x32, .f32⟩) (after (opsTake (.of main_arg2 : TRef sig ⟨S1000000x32, .f32⟩) (.of main_arg0 : TRef sig ⟨S16384, .i32⟩) main_call0) V) = get (.of main_arg4 : TRef sig ⟨S1x32, .f32⟩) V
    ∧ get (.of main_arg5 : TRef sig ⟨S1, .f32⟩) (after (opsTake (.of main_arg2 : TRef sig ⟨S1000000x32, .f32⟩) (.of main_arg0 : TRef sig ⟨S16384, .i32⟩) main_call0) V) = get (.of main_arg5 : TRef sig ⟨S1, .f32⟩) V := by
  unfold opsTake
  refine ⟨?_, ?_, ?_, ?_⟩ <;>
    simp (disch := decide) only [after_cons, after_nil, get_nullary_ne, get_unary_ne, get_binary_ne, get_ternary_ne]

/-- The second look-up's operations write neither the first look-up's result, nor the weights, nor the bias. -/
theorem second_keeps (W : Valuation τ sig (Elt Ideal)) :
    get (.of main_v0 : TRef sig ⟨S16384x32, .f32⟩) (after (opsTake (.of main_arg3 : TRef sig ⟨S1000000x32, .f32⟩) (.of main_arg1 : TRef sig ⟨S16384, .i32⟩) main_call1) W) = get (.of main_v0 : TRef sig ⟨S16384x32, .f32⟩) W
    ∧ get (.of main_arg4 : TRef sig ⟨S1x32, .f32⟩) (after (opsTake (.of main_arg3 : TRef sig ⟨S1000000x32, .f32⟩) (.of main_arg1 : TRef sig ⟨S16384, .i32⟩) main_call1) W) = get (.of main_arg4 : TRef sig ⟨S1x32, .f32⟩) W
    ∧ get (.of main_arg5 : TRef sig ⟨S1, .f32⟩) (after (opsTake (.of main_arg3 : TRef sig ⟨S1000000x32, .f32⟩) (.of main_arg1 : TRef sig ⟨S16384, .i32⟩) main_call1) W) = get (.of main_arg5 : TRef sig ⟨S1, .f32⟩) W := by
  unfold opsTake
  refine ⟨?_, ?_, ?_⟩ <;>
    simp (disch := decide) only [after_cons, after_nil, get_nullary_ne, get_unary_ne, get_binary_ne, get_ternary_ne]

/-- The whole line leaves `refOut` of the argument buffers' contents in the result buffer. -/
theorem out_eq (V : Valuation τ sig (Elt Ideal)) :
    after ops V (main_v7 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  unfold ops
  rw [after_app, after_app, main_tail]
  have h0 : after (opsTake (.of main_arg3 : TRef sig ⟨S1000000x32, .f32⟩) (.of main_arg1 : TRef sig ⟨S16384, .i32⟩) main_call1) (after (opsTake (.of main_arg2 : TRef sig ⟨S1000000x32, .f32⟩) (.of main_arg0 : TRef sig ⟨S16384, .i32⟩) main_call0) V) (main_v0 : DevRef τ sig)
      = take (V (main_arg2 : DevRef τ sig)) (V (main_arg0 : DevRef τ sig)) :=
    ((second_keeps _).1).trans (take_run0 V)
  have h1 : after (opsTake (.of main_arg3 : TRef sig ⟨S1000000x32, .f32⟩) (.of main_arg1 : TRef sig ⟨S16384, .i32⟩) main_call1) (after (opsTake (.of main_arg2 : TRef sig ⟨S1000000x32, .f32⟩) (.of main_arg0 : TRef sig ⟨S16384, .i32⟩) main_call0) V) (main_v1 : DevRef τ sig)
      = take (V (main_arg3 : DevRef τ sig)) (V (main_arg1 : DevRef τ sig)) :=
    (take_run1 _).trans (by rw [(first_keeps V).1, (first_keeps V).2.1]; rfl)
  have h4 : after (opsTake (.of main_arg3 : TRef sig ⟨S1000000x32, .f32⟩) (.of main_arg1 : TRef sig ⟨S16384, .i32⟩) main_call1) (after (opsTake (.of main_arg2 : TRef sig ⟨S1000000x32, .f32⟩) (.of main_arg0 : TRef sig ⟨S16384, .i32⟩) main_call0) V) (main_arg4 : DevRef τ sig)
      = V (main_arg4 : DevRef τ sig) :=
    ((second_keeps _).2.1).trans (first_keeps V).2.2.1
  have h5 : after (opsTake (.of main_arg3 : TRef sig ⟨S1000000x32, .f32⟩) (.of main_arg1 : TRef sig ⟨S16384, .i32⟩) main_call1) (after (opsTake (.of main_arg2 : TRef sig ⟨S1000000x32, .f32⟩) (.of main_arg0 : TRef sig ⟨S16384, .i32⟩) main_call0) V) (main_arg5 : DevRef τ sig)
      = V (main_arg5 : DevRef τ sig) :=
    ((second_keeps _).2.2).trans (first_keeps V).2.2.2
  rw [h0, h1, h4, h5]
  rfl

theorem arg0_eq (V : Valuation τ sig (Elt Ideal)) :
    after ops V (main_arg0 : DevRef τ sig) = V (main_arg0 : DevRef τ sig) := by
  unfold ops opsTake opsMain
  simp only [List.cons_append, List.nil_append]
  after_results_simp

theorem arg1_eq (V : Valuation τ sig (Elt Ideal)) :
    after ops V (main_arg1 : DevRef τ sig) = V (main_arg1 : DevRef τ sig) := by
  unfold ops opsTake opsMain
  simp only [List.cons_append, List.nil_append]
  after_results_simp

theorem arg2_eq (V : Valuation τ sig (Elt Ideal)) :
    after ops V (main_arg2 : DevRef τ sig) = V (main_arg2 : DevRef τ sig) := by
  unfold ops opsTake opsMain
  simp only [List.cons_append, List.nil_append]
  after_results_simp

theorem arg3_eq (V : Valuation τ sig (Elt Ideal)) :
    after ops V (main_arg3 : DevRef τ sig) = V (main_arg3 : DevRef τ sig) := by
  unfold ops opsTake opsMain
  simp only [List.cons_append, List.nil_append]
  after_results_simp

theorem arg4_eq (V : Valuation τ sig (Elt Ideal)) :
    after ops V (main_arg4 : DevRef τ sig) = V (main_arg4 : DevRef τ sig) := by
  unfold ops opsTake opsMain
  simp only [List.cons_append, List.nil_append]
  after_results_simp

theorem arg5_eq (V : Valuation τ sig (Elt Ideal)) :
    after ops V (main_arg5 : DevRef τ sig) = V (main_arg5 : DevRef τ sig) := by
  unfold ops opsTake opsMain
  simp only [List.cons_append, List.nil_append]
  after_results_simp

/-! ## The run -/

/-- From any memory with zero counters, whatever the arguments: every weakly fair execution of the reference terminates,
    nothing faulting, with the result buffer at `refOut` of the argument buffers' initial contents and the six
    argument buffers unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal)))
      ⟨m, fun _ => 0, ρ⟩
      (fun r => ∀ c : Dev nD,
        r.2.mem ((c.tc : Thread nD τ).loc main_v7)
            = refOut (m ((c.tc : Thread nD τ).loc main_arg0)) (m ((c.tc : Thread nD τ).loc main_arg1))
                (m ((c.tc : Thread nD τ).loc main_arg2)) (m ((c.tc : Thread nD τ).loc main_arg3))
                (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run defs _ _).mono
    (fun _ h c => ⟨(h c main_v7).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _)⟩)
    (run_main m ρ)

end Cert.Proof.RefRun

end
-- ==== Proof.LibGatherRows.lean ====
/-
  A gather of whole rows of a rank-2 table at a column of row numbers, read at an entry.
-/
import Idealize.ShloMosaic.PureOps.Ideal
import Idealize.ShloMosaic.Lib.ValueIdx

noncomputable section

open Idealize.ShloMosaic Idealize.ShloMosaic.ValueIdx
open scoped BigOperators

namespace Cert.LibRows

/-- The dimension numbers of a gather of whole rows: operand `[N, C]`, start indices `[E, 1]` (one row number per
    result row), result `[E, C]`; the row axis collapsed, the column axis the one offset axis. -/
abbrev rowsGather (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of whole rows read at `(e, c)` is the table at column `c` of the row whose number is the start index
    of result row `e`, read signed and clamped into `[0, N − 1]`. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsGather N C E wf) x idx (ix2 e c)
      = x (ix2 (⟨min (idx (ix2 e (0 : Fin 1))).toInt.toNat (N - 1), by omega⟩ : Fin N) c) := by
  have h0 : (rowsGather N C E wf).start (ix2 e c) idx 0 + (rowsGather N C E wf).batchCoord (ix2 e c) 0
      + (rowsGather N C E wf).offCoord (ix2 e c) 0 = min (idx (ix2 e (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N C E wf).startIndexMap from List.mem_singleton.mpr rfl)]
    have hsi : (rowsGather N C E wf).siIdx (ix2 e c) ⟨List.idxOf (0 : Fin 2) (rowsGather N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowsGather N C E wf).start (ix2 e c) idx 1 + (rowsGather N C E wf).batchCoord (ix2 e c) 1
      + (rowsGather N C E wf).offCoord (ix2 e c) 1 = c.val := by
    rw [GatherDims.batchCoord_eq_zero _ _ _ List.not_mem_nil]
    have hs : (rowsGather N C E wf).start (ix2 e c) idx 1 = 0 := by
      unfold GatherDims.start
      rw [dif_neg (show ¬ ((1 : Fin 2) ∈ ([0] : List (Fin 2))) from by decide)]
    rw [hs, Nat.add_zero, Nat.zero_add]
    rfl
  unfold Host.gather
  congr 1
  funext a
  refine Fin.ext ?_
  match a with
  | ⟨0, _⟩ => exact h0
  | ⟨1, _⟩ => exact h1

end Cert.LibRows

end
-- ==== Proof.LibWrap.lean ====
/-
  Two facts about 32-bit index words. A number below 2^31 written as a 32-bit word reads back, signed, as itself. A word
  that is not negative is left alone by the host's "count a negative index from the end" step
  (select (t < 0) (t + K) t), whatever the extent K.
-/
import Idealize.ShloMosaic.PureOps.Ideal
import Idealize.ShloMosaic.Lib.Affine

namespace Cert.LibWrap

open Idealize.ShloMosaic

/-- A number below 2^31, as a 32-bit word, reads back signed as itself. -/
theorem toInt_ofNat_of_lt (n : ℕ) (h : n < 2147483648) : (BitVec.ofNat 32 n).toInt = (n : Int) := by
  have h2 : (BitVec.ofNat 32 n).toNat = n := by
    rw [BitVec.toNat_ofNat]
    exact Nat.mod_eq_of_lt (by omega)
  rw [BitVec.toInt_eq_toNat_cond, h2, if_pos (by omega)]

/-- A word that is not negative is not counted from the end. -/
theorem wrap_of_nonneg (t K : BitVec 32) (h0 : 0 ≤ t.toInt) :
    Scalar.select (IntOp.cmpi .slt t 0#32) (IntOp.addi t K) t = t := by
  have hn : ¬ (IntOp.cmpi .slt t 0#32 = 1#1) := by
    rw [IntOp.cmpi_slt]
    show ¬ (t.toInt < (0#32 : BitVec 32).toInt)
    simp
    exact h0
  unfold Scalar.select
  exact if_neg hn

end Cert.LibWrap
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«208244_g21053929685252_cont_8to1_1842_38_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.RefValue.lean ====
/-
  The reference's result is the shared specification, under the index-range hypothesis.

  Read at entry `(p, 0)`, stage by stage.  An index word `v` with `v ≤ 999999` as a natural number is
  non-negative as a signed integer, so the "move a negative index up by the number of rows" select
  leaves it alone (`wrap_apply`), and the start-index column at `(p, 0)` is the word itself
  (`col_apply`).  Both range comparisons then hold at every entry, and an `and`-reduction of ones from
  one is one (`reduce_andi_of_all`), so the in-range mask is one everywhere (`inRange_apply`) and the
  select keeps the gathered row.  A gather of whole rows read at `(p, d)` is the table at column `d` of
  the row whose number is the start index read signed and clamped into `[0, 999999]`; for a word in
  range that row is the one `rowOf` names (`take_apply`).  The contraction of a 16384 × 32 array with a
  32 × 1 array at `(p, 0)` is the sum over the 32 columns `d` of the products; the transposed weight
  row at `(d, 0)` is the weight at `(0, d)`; the bias broadcast twice reads the bias's one entry; and the
  last operation adds the two.  The summands come out in the specification's own order and grouping,
  `(user * item) * weight` summed over `d`, then `+ bias`: no commutativity or re-association of the
  extended reals' sum or product is used.
-/
import proofs.«208244_g21053929685252_cont_8to1_1842_38_alg».proof.Proof.RefRun
import proofs.«208244_g21053929685252_cont_8to1_1842_38_alg».proof.Proof.Spec
import proofs.«208244_g21053929685252_cont_8to1_1842_38_alg».proof.Proof.LibGatherRows
import proofs.«208244_g21053929685252_cont_8to1_1842_38_alg».proof.Proof.LibWrap
import proofs.«208244_g21053929685252_cont_8to1_1842_38_alg».proof.Proof.LibRank2
import Idealize.ShloMosaic.Lib.ValueLayout
import Idealize.ShloMosaic.PureOps.Reduce

noncomputable section

open scoped BigOperators

namespace Cert.Proof.RefValue

open Cert.ReferenceIdeal Cert.ReferenceIdeal.Facts₀ Idealize.ShloMosaic Idealize.ShloMosaic.ValueIdx
open Cert.Proof.RefRun Cert.Proof.Spec

variable [Cert.ReferenceIdeal.Facts]

/-! ## Words and one-bit folds -/

/-- A 32-bit word at most 999999 as a natural number is that number as a signed integer. -/
theorem toInt_of_le {v : BitVec 32} (h : v.toNat ≤ 999999) : v.toInt = (v.toNat : Int) := by
  rw [BitVec.toInt_eq_toNat_cond, if_pos (by omega)]

/-- A running `and` started at one and fed only ones ends at one. -/
theorem foldl_andi_ones {ι : Type} (f : ι → BitVec 1) :
    ∀ l : List ι, (∀ n ∈ l, f n = 1#1) → l.foldl (fun r n => IntOp.andi r (f n)) 1#1 = 1#1
  | [], _ => rfl
  | a :: l, hl => by
    rw [List.foldl_cons, hl a List.mem_cons_self, show IntOp.andi (1#1 : BitVec 1) 1#1 = 1#1 from by decide]
    exact foldl_andi_ones f l fun n hn => hl n (List.mem_cons_of_mem _ hn)

/-- An `and`-reduction of an array of ones, from an initial value of ones, is one at every result index. -/
theorem reduce_andi_of_all {s t u : Shape} {axes : List (Fin s.rank)} (x : s.Idx → BitVec 1) (init : u.Idx → BitVec 1)
    (h : s.ReducesTo axes t) (hu : 0 < u.numel) (j : t.Idx) (hinit : ∀ i, init i = 1#1) (hx : ∀ i, x i = 1#1) :
    Host.reduce IntOp.andi x init h hu j = 1#1 := by
  rw [Host.reduce_eq_foldl, hinit]
  exact foldl_andi_ones x _ fun n _ => hx n

/-! ## Two broadcasts of a list of 16384 entries, read at an entry -/

/-- A list of 16384 entries made a column reads, at `(p, q)`, the list's entry `p`. -/
theorem bcast_col_apply {α : Type} (x : S16384.Idx → α) (p : Fin 16384) (q : Fin 1) :
    broadcastInDim S16384x1 ![0] bcast_S16384_S16384x1_0 x (ix2 p q) = x (ix1 p) :=
  broadcastInDim_apply ![0] bcast_S16384_S16384x1_0 x (ix2 p q) (ix1 p) fun a => by
    match a with
    | ⟨0, _⟩ =>
      show p.val = if (16384 : ℕ) = 1 then 0 else p.val
      rw [if_neg (by decide)]

/-- A list of 16384 entries repeated along 32 columns reads, at `(p, d)`, the list's entry `p`. -/
theorem bcast_rows_apply {α : Type} (x : S16384.Idx → α) (p : Fin 16384) (d : Fin 32) :
    broadcastInDim S16384x32 ![0] bcast_S16384_S16384x32_0 x (ix2 p d) = x (ix1 p) :=
  broadcastInDim_apply ![0] bcast_S16384_S16384x32_0 x (ix2 p d) (ix1 p) fun a => by
    match a with
    | ⟨0, _⟩ =>
      show p.val = if (16384 : ℕ) = 1 then 0 else p.val
      rw [if_neg (by decide)]

/-! ## The look-up's stages at an entry -/

/-- An index word in range is not moved. -/
theorem wrap_apply (idx : IVec S16384 32) (h : IdxOK idx) (p : Fin 16384) : wrap idx (ix1 p) = idx (ix1 p) := by
  unfold wrap
  exact Cert.LibWrap.wrap_of_nonneg (idx (ix1 p)) _ (by rw [toInt_of_le (h _)]; omega)

/-- The start-index column at `(p, q)` is entry `p`'s index word. -/
theorem col_apply (idx : IVec S16384 32) (h : IdxOK idx) (p : Fin 16384) (q : Fin 1) :
    col idx (ix2 p q) = idx (ix1 p) := by
  unfold col
  rw [bcast_col_apply]
  exact wrap_apply idx h p

/-- A column of words that are all in range passes the range test at every entry. -/
theorem inRange_apply (c : IVec S16384x1 32) (hc : ∀ j, (c j).toNat ≤ 999999) (p : Fin 16384) :
    inRange c (ix1 p) = 1#1 := by
  unfold inRange
  refine reduce_andi_of_all _ _ _ _ _ (fun _ => rfl) fun j => ?_
  show IntOp.andi (IntOp.cmpi .sge (c j) 0#32) (IntOp.cmpi .sle (c j) 999999#32) = 1#1
  have e0 : (0#32 : BitVec 32).toInt = 0 := by decide
  have e1 : (999999#32 : BitVec 32).toInt = 999999 := by decide
  rw [IntOp.andi_eq_one, IntOp.cmpi_sge, IntOp.cmpi_sle, toInt_of_le (hc j), e0, e1]
  have := hc j
  constructor <;> omega

/-- One look-up at `(p, d)`, for index words in range: column `d` of the table row the word names. -/
theorem take_apply (tbl : FVec Ideal S1000000x32 .f32) (idx : IVec S16384 32) (h : IdxOK idx) (p : Fin 16384)
    (d : Fin 32) : take tbl idx (ix2 p d) = tbl (ix2 (rowOf (idx (ix1 p))) d) := by
  have hc : ∀ j, (col idx j).toNat ≤ 999999 := fun j => by
    obtain ⟨a, b, rfl⟩ : ∃ (a : Fin 16384) (b : Fin 1), j = ix2 a b := ⟨j 0, j 1, eq_ix2 j⟩
    rw [col_apply idx h]
    exact h _
  have hm : broadcastInDim S16384x32 ![0] bcast_S16384_S16384x32_0 (inRange (col idx)) (ix2 p d) = 1#1 := by
    rw [bcast_rows_apply]
    exact inRange_apply _ hc p
  have hg : Host.gather gather_S1000000x32_S16384x1_S16384x32_1_0_n_n_0_1_132 tbl (col idx) (ix2 p d)
      = tbl (ix2 (rowOf (idx (ix1 p))) d) := by
    refine (Cert.LibRows.gather_rows_apply (N := 1000000) (C := 32) (E := 16384) (by decide)
      gather_S1000000x32_S16384x1_S16384x32_1_0_n_n_0_1_132_wf tbl (col idx) p d).trans ?_
    refine congrArg (fun r : Fin 1000000 => tbl (ix2 r d)) (Fin.ext ?_)
    show min (col idx (ix2 p (0 : Fin 1))).toInt.toNat (1000000 - 1) = min (idx (ix1 p)).toNat 999999
    rw [col_apply idx h, toInt_of_le (h _), Int.toNat_natCast]
  unfold take
  show Scalar.select (broadcastInDim S16384x32 ![0] bcast_S16384_S16384x32_0 (inRange (col idx)) (ix2 p d))
      (Host.gather gather_S1000000x32_S16384x1_S16384x32_1_0_n_n_0_1_132 tbl (col idx) (ix2 p d)) _ = _
  rw [hm, select_one, hg]

/-! ## The whole result -/

/-- For index lists whose every word names a row of the table, the reference's result is the specification's `G`. -/
theorem refOut_eq_G (a0 a1 : IVec S16384 32) (a2 a3 : FVec Ideal S1000000x32 .f32) (a4 : FVec Ideal S1x32 .f32)
    (a5 : FVec Ideal S1 .f32) (h0 : Cert.Proof.Spec.IdxOK a0) (h1 : Cert.Proof.Spec.IdxOK a1) :
    Cert.Proof.RefRun.refOut a0 a1 a2 a3 a4 a5 = Cert.Proof.Spec.G a0 a1 a2 a3 a4 a5 := by
  funext j
  obtain ⟨p, q, rfl⟩ : ∃ (p : Fin 16384) (q : Fin 1), j = ix2 p q := ⟨j 0, j 1, eq_ix2 j⟩
  obtain rfl : q = 0 := Subsingleton.elim _ _
  have hX : Host.dotGeneral dot_S16384x32_S32x1_S16384x1_1_0_0_1_n_n none (mulf (take a2 a0) (take a3 a1))
        (transpose S32x1 [1, 0] a4 transposes_S1x32_S32x1_1_0) (ix2 p (0 : Fin 1))
      = ∑ d : Fin 32, (a2 (ix2 (rowOf (a0 (ix1 p))) d) * a3 (ix2 (rowOf (a1 (ix1 p))) d)) * a4 (ix2 (0 : Fin 1) d) := by
    refine (Cert.Rank2.dotGeneral_plain_apply (M := 16384) (K := 32) (N := 1) dot_S16384x32_S32x1_S16384x1_1_0_0_1_n_n_wf none
      (mulf (take a2 a0) (take a3 a1)) (transpose S32x1 [1, 0] a4 transposes_S1x32_S32x1_1_0) p 0).trans ?_
    refine Finset.sum_congr rfl fun d _ => ?_
    rw [transpose_ix2_apply a4 transposes_S1x32_S32x1_1_0 d 0, mulf_apply, take_apply a2 a0 h0, take_apply a3 a1 h1]
  have hY : broadcastInDim S16384x1 ![0, 1] bcast_S1x1_S16384x1_0_1 (broadcastInDim S1x1 ![1] bcast_S1_S1x1_1 a5)
        (ix2 p (0 : Fin 1)) = a5 (ix1 (0 : Fin 1)) :=
    Cert.Rank2.rowBias_apply a5 bcast_S1_S1x1_1 bcast_S1x1_S16384x1_0_1 p 0
  unfold refOut tail
  rw [addf_apply, hX, hY]
  rfl

end Cert.Proof.RefValue

end
-- ==== Proof.PreFacts.lean ====
/-
  The index range, read out of the precondition.

  The precondition is a conjunction (`and` of one-bit words) whose last two conjuncts are, for each
  of the two index lists, "every word `v` satisfies `0 ≤ v` and `v ≤ 999999` as signed 32-bit
  integers", each stated as an `and`-reduction of the elementwise comparisons to a single bit.
  If the whole conjunction is 1, each conjunct is 1; an `and`-reduction that is 1 met only 1s, so
  the two comparisons hold at every position; and a 32-bit word that is non-negative as a signed
  integer and at most 999999 has natural-number value at most 999999. Nothing is used of the
  float arguments, so the statement holds at every float instance.
-/
import proofs.«208244_g21053929685252_cont_8to1_1842_38_alg».proof.Pre_input_domain
import proofs.«208244_g21053929685252_cont_8to1_1842_38_alg».proof.Proof.Spec
import Idealize.ShloMosaic.Lib.ReduceAll
import Idealize.ShloMosaic.Lib.ValueIdx

noncomputable section

namespace Cert.Proof.PreFacts

open Idealize.ShloMosaic Idealize.ShloMosaic.ValueIdx
open Cert.Pre_input_domain Cert.Pre_input_domain.Facts

/-- The scalar shape has exactly one index. -/
instance subsingleton_S_ : Subsingleton (S_ : Shape).Idx := ⟨fun _ _ => funext fun d => d.elim0⟩

/-- A 32-bit word that is at least 0 and at most 999999 as a signed integer has natural-number value
    at most 999999: a word whose natural-number value is 2^31 or more is negative as a signed integer. -/
theorem toNat_le_of_signed (v : BitVec 32) (h0 : IntOp.cmpi .sge v 0#32 = 1#1)
    (h1 : IntOp.cmpi .sle v 999999#32 = 1#1) : v.toNat ≤ 999999 := by
  rw [IntOp.cmpi_sge] at h0
  rw [IntOp.cmpi_sle] at h1
  have e0 : (0#32 : BitVec 32).toInt = 0 := by decide
  have e1 : (999999#32 : BitVec 32).toInt = 999999 := by decide
  rw [e0] at h0
  rw [e1] at h1
  have hv := v.isLt
  rw [BitVec.toInt_eq_toNat_cond] at h0 h1
  split at h0 <;> split at h1 <;> omega

/-- One index list's conjunct of the precondition: if the `and`-reduction of
    `(0 ≤ a) and (a ≤ 999999)` (signed, elementwise) is 1, every word of `a` is at most 999999. -/
theorem idxOK_of_all [Facts] (a : IVec S16384 32) (init : IVec S_ 1)
    (e : Host.reduce IntOp.andi
          (andi (cmpi .sge a (broadcastInDim S16384 ![] bcast_S_S16384 (constantI S_ 32 0#32)))
                (cmpi .sle a (broadcastInDim S16384 ![] bcast_S_S16384 (constantI S_ 32 999999#32))))
          init reducesTo_S16384_S_d0 h_S_ ix0 = 1#1) : Cert.Proof.Spec.IdxOK a := by
  intro j
  have hj := Host.reduce_andi_all _ init reducesTo_S16384_S_d0 h_S_ ix0 e j
  obtain ⟨h0, h1⟩ := IntOp.andi_eq_one.1 hj
  exact toNat_le_of_signed (a j) h0 h1

/-- Under the precondition both index lists hold only words that name a row of the table. -/
theorem idxOK_of_pre {F : FTy → Type} [FloatOps F] [Cert.Pre_input_domain.Facts]
    (a0 a1 : IVec S16384 32) (a2 a3 : FVec F S1000000x32 .f32) (a4 : FVec F S1x32 .f32) (a5 : FVec F S1 .f32)
    (h : Cert.Pre_input_domain.fn (F := F) a0 a1 a2 a3 a4 a5 = fun _ => 1#1) :
    Cert.Proof.Spec.IdxOK a0 ∧ Cert.Proof.Spec.IdxOK a1 := by
  have e := congrFun h ix0
  unfold Cert.Pre_input_domain.fn Cert.Pre_input_domain.fn_part1 at e
  dsimp only at e
  obtain ⟨e25, e31⟩ := IntOp.andi_eq_one.1 e
  obtain ⟨-, e24⟩ := IntOp.andi_eq_one.1 e25
  exact ⟨idxOK_of_all a0 _ e24, idxOK_of_all a1 _ e31⟩

end Cert.Proof.PreFacts

end
-- ==== Proof.Assemble.lean ====
/-
  The five conjuncts of the claim, assembled from the programs' runs.

  The kernel's run (at the word level, and read on the extended reals) gives, under the tiles' task proved, that every
  weakly fair execution ends with the six arguments unchanged and the result at the expected result read as a
  column; the precondition supplies what the task asks of the index lists (every word names a table row). Each of
  the kernel's two frames is that run with the result dropped. The reference's run gives its frame the same way.
  The ideal pass rewrote nothing, so there is nothing to preserve. For the equality of results the common value is
  the specification's G of the kernel's six argument arrays: the kernel's expected result read as a column is G,
  and the reference's result is G of ITS arguments, which agree with the kernel's by hypothesis.
-/
import proofs.«208244_g21053929685252_cont_8to1_1842_38_alg».proof.Defs
import proofs.«208244_g21053929685252_cont_8to1_1842_38_alg».proof.Proof.Gen.Kernel
import proofs.«208244_g21053929685252_cont_8to1_1842_38_alg».proof.Proof.Gen.KernelIdeal
import proofs.«208244_g21053929685252_cont_8to1_1842_38_alg».proof.Proof.Gen.ReferenceIdeal
import proofs.«208244_g21053929685252_cont_8to1_1842_38_alg».proof.Proof.Gen.Pre_input_domain
import proofs.«208244_g21053929685252_cont_8to1_1842_38_alg».proof.Proof.KObl
import proofs.«208244_g21053929685252_cont_8to1_1842_38_alg».proof.Proof.WObl
import proofs.«208244_g21053929685252_cont_8to1_1842_38_alg».proof.Proof.KValue
import proofs.«208244_g21053929685252_cont_8to1_1842_38_alg».proof.Proof.RefRun
import proofs.«208244_g21053929685252_cont_8to1_1842_38_alg».proof.Proof.RefValue
import proofs.«208244_g21053929685252_cont_8to1_1842_38_alg».proof.Proof.PreFacts

noncomputable section

namespace Cert.Proof.Assemble

open Idealize.ShloMosaic Idealize.SL.Sem

/-- Under the precondition every word of the two index lists names a table row, on every device: what the
    task's proof asks of the launch memory (the program read on the extended reals). -/
theorem preOK_I (m : (ℓ : Loc Cert.KernelIdeal.nD Cert.KernelIdeal.τ Cert.KernelIdeal.sig) → Buf (Elt Ideal) ℓ)
    (h : Cert.Pre_KernelIdeal m) : Cert.Proof.KI.PreOK m :=
  fun d => Cert.Proof.PreFacts.idxOK_of_pre (F := Ideal) _ _ _ _ _ _ (h d)

/-- The same at the word level. -/
theorem preOK_W (m : (ℓ : Loc Cert.Kernel.nD Cert.Kernel.τ Cert.Kernel.sig) → Buf (Elt Bits) ℓ)
    (h : Cert.Pre_Kernel m) : Cert.Proof.KW.PreOK m :=
  fun d => Cert.Proof.PreFacts.idxOK_of_pre (F := Bits) _ _ _ _ _ _ (h d)

section

variable
  (hI : ∀ (m : (ℓ : Loc Cert.KernelIdeal.nD Cert.KernelIdeal.τ Cert.KernelIdeal.sig) → Buf (Elt Ideal) ℓ),
    Cert.Proof.KI.PreOK m → Cert.Proof.KI.BodyRun (F := Ideal) m (Cert.Proof.KI.WB m) (Cert.Proof.KI.BI m))
  (hW : ∀ (m : (ℓ : Loc Cert.Kernel.nD Cert.Kernel.τ Cert.Kernel.sig) → Buf (Elt Bits) ℓ),
    Cert.Proof.KW.PreOK m → Cert.Proof.KW.BodyRun (F := Bits) m (Cert.Proof.KW.WB m) (Cert.Proof.KW.BI m))

include hW in
/-- The kernel's frame: its run with the result dropped. -/
theorem frame_Kernel : Cert.frame_Kernel := fun m g hpre =>
  (θ_run Cert.Kernel.defs _ _).mono (fun _ h c => (h c).2)
    (Cert.Proof.KW.run_kernel (F := Bits) m g (hW m (preOK_W m hpre)))

include hI in
/-- The idealized kernel's frame, likewise. -/
theorem frame_KernelIdeal : Cert.frame_KernelIdeal := fun m g hpre =>
  (θ_run Cert.KernelIdeal.defs _ _).mono (fun _ h c => (h c).2)
    (Cert.Proof.KI.run_kernel (F := Ideal) m g (hI m (preOK_I m hpre)))

/-- The reference's frame: its run with the result dropped. -/
theorem frame_ReferenceIdeal : Cert.frame_ReferenceIdeal := fun m g _ =>
  (θ_run _ _ _).mono (fun _ h c => (h c).2) (Cert.Proof.RefRun.run m g)

include hI in
/-- Both idealized programs end with the specification's G of the kernel's six arguments as their result. -/
theorem algebraic : Cert.algebraic_KernelIdeal_ReferenceIdeal := fun m g m' g' hpre hagree =>
  ⟨fun c => Cert.Proof.Spec.G (m (Cert.Proof.KI.loc0 c)) (m (Cert.Proof.KI.loc1 c)) (m (Cert.Proof.KI.loc2 c)) (m (Cert.Proof.KI.loc3 c))
      (m (Cert.Proof.KI.loc4 c)) (m (Cert.Proof.KI.loc5 c)),
    (θ_run Cert.KernelIdeal.defs _ _).mono (fun _ h c => ⟨(h c).1.trans (Cert.Proof.KI.out_eq_G m c), (h c).2⟩)
      (Cert.Proof.KI.run_kernel (F := Ideal) m g (hI m (preOK_I m hpre))),
    (θ_run _ _ _).mono
      (fun _ h c => ⟨(h c).1.trans (by
          obtain ⟨e0, e1, e2, e3, e4, e5⟩ := hagree c
          have hi := preOK_I m hpre c
          rw [e0, e1, e2, e3, e4, e5]
          exact Cert.Proof.RefValue.refOut_eq_G _ _ _ _ _ _ hi.1 hi.2), (h c).2⟩)
      (Cert.Proof.RefRun.run m' g')⟩

include hI hW in
/-- The claim, from the tiles' task proved at each of the kernel's two readings. -/
theorem claim_of : Cert.Claim :=
  ⟨Cert.Kernel.Gen.facts, Cert.KernelIdeal.Gen.facts, Cert.ReferenceIdeal.Gen.facts, Cert.Pre_input_domain.Gen.facts,
    frame_Kernel hW, frame_KernelIdeal hI, frame_ReferenceIdeal, trivial, algebraic hI⟩

end

end Cert.Proof.Assemble

end
-- ==== Proof.KTripDefs.lean ====
/-
  What one trip of a tile's task does, as a statement.

  Before a trip the tile holds its two staged index lists, its two row scratches (at whatever they hold), eight read
  shares of each table, its four copy semaphores at zero and its output scratch. After it the same, with sixteen
  consecutive entries of the output scratch (from `16 k`) overwritten by the trip's vector over the rows the staged
  index words `16 k … 16 k + 15` name.
-/
import proofs.«208244_g21053929685252_cont_8to1_1842_38_alg».proof.Proof.KTile0
import proofs.«208244_g21053929685252_cont_8to1_1842_38_alg».proof.Proof.KTripVec
import proofs.«208244_g21053929685252_cont_8to1_1842_38_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

local notation "a2W" => (Memref.whole Cert.KernelIdeal.main_arg0_scv : Memref Cert.KernelIdeal.sig Kind.scVector Space.hbm Cert.KernelIdeal.S16384 EltTy.i32)
local notation "a3W" => (Memref.whole Cert.KernelIdeal.main_arg1_scv : Memref Cert.KernelIdeal.sig Kind.scVector Space.hbm Cert.KernelIdeal.S16384 EltTy.i32)
local notation "a4W" => (Memref.whole Cert.KernelIdeal.main_arg2_scv : Memref Cert.KernelIdeal.sig Kind.scVector Space.hbm Cert.KernelIdeal.S1000000x32 EltTy.f32)
local notation "a5W" => (Memref.whole Cert.KernelIdeal.main_arg3_scv : Memref Cert.KernelIdeal.sig Kind.scVector Space.hbm Cert.KernelIdeal.S1000000x32 EltTy.f32)
local notation "a6W" => (Memref.whole Cert.KernelIdeal.main_v3_scv : Memref Cert.KernelIdeal.sig Kind.scVector Space.hbm Cert.KernelIdeal.S512 EltTy.f32)
local notation "a7W" => (Memref.whole Cert.KernelIdeal.main_v5_scv : Memref Cert.KernelIdeal.sig Kind.scVector Space.hbm Cert.KernelIdeal.S16 EltTy.f32)
local notation "a8W" => (Memref.whole Cert.KernelIdeal.main_v6_scv : Memref Cert.KernelIdeal.sig Kind.scVector Space.hbm Cert.KernelIdeal.S16384 EltTy.f32)
local notation "s9W" => (Memref.whole Cert.KernelIdeal.cc0_scratch0 : Memref Cert.KernelIdeal.sig Kind.scVector Space.vmem Cert.KernelIdeal.S512 EltTy.i32)
local notation "s10W" => (Memref.whole Cert.KernelIdeal.cc0_scratch1 : Memref Cert.KernelIdeal.sig Kind.scVector Space.vmem Cert.KernelIdeal.S512 EltTy.i32)
local notation "s11W" => (Memref.whole Cert.KernelIdeal.cc0_scratch2 : Memref Cert.KernelIdeal.sig Kind.scVector Space.vmem Cert.KernelIdeal.S16x32 EltTy.f32)
local notation "s12W" => (Memref.whole Cert.KernelIdeal.cc0_scratch3 : Memref Cert.KernelIdeal.sig Kind.scVector Space.vmem Cert.KernelIdeal.S16x32 EltTy.f32)
local notation "s13W" => (Memref.whole Cert.KernelIdeal.cc0_scratch4 : Memref Cert.KernelIdeal.sig Kind.scVector Space.vmem Cert.KernelIdeal.S512 EltTy.f32)
local notation "s14W" => (Memref.whole Cert.KernelIdeal.cc0_scratch5 : Memref Cert.KernelIdeal.sig Kind.scVector Space.vmem Cert.KernelIdeal.S16 EltTy.f32)
local notation "s15W" => (Memref.whole Cert.KernelIdeal.cc0_scratch6 : Memref Cert.KernelIdeal.sig Kind.scVector Space.vmem Cert.KernelIdeal.S512 EltTy.f32)

variable [FloatOps F]

/-- A read share cut off a tile's share of a table: the `j`-th of eight, one per row copy that can be in flight. -/
def sub (q : PosShare TreeShare) (j : Nat) : PosShare TreeShare := Transfers.shareTokN q j

/-- The sixteen rows trip `k` fetches out of a table holding `f` through the staged index list `u`: lane `r`,
    column `c` holds `f (row named by u (16 k + r), c)`. -/
def rowsOf (f : FVec F S1000000x32 .f32) (u : IVec S512 32) (k : Nat) : FVec F S16x32 .f32 :=
  fun j => f (ix2 (Cert.Proof.Spec.rowOf (u (ix1 ⟨(16 * k + (j 0).val) % 512, Nat.mod_lt _ (by decide)⟩))) (j 1))

/-- The output scratch after trip `k` stored the vector `v`: entries `16 k … 16 k + 15` are `v`'s, the rest as before. -/
def stored (f15 : FVec F S512 .f32) (k : Nat) (v : FVec F S16 .f32) : FVec F S512 .f32 :=
  fun j => if h : 16 * k ≤ (j 0).val ∧ (j 0).val < 16 * k + 16 then v (ix1 ⟨(j 0).val - 16 * k, by omega⟩) else f15 j

/-- One trip, run: from the tile's holdings before it to its holdings after it (see the header). The staged index
    lists' words all name table rows (`hu9`, `hu10`); the four copy semaphores carry four copies at a time. -/
abbrev TripRun (d : Dev nD) (L : grid0.Coords) : Prop :=
  ∀ (k : Fin k0_t1_loop.trips) (O : CellTallies nD τ sig (HIx 1)) (W : Waits sig (HIx 1))
    (u9 : Buf (Elt F) ((s9W).view.loc (thrOf d L))) (u10 : Buf (Elt F) ((s10W).view.loc (thrOf d L)))
    (_hu9 : ∀ j, (u9 j).toNat ≤ 999999) (_hu10 : ∀ j, (u10 j).toNat ≤ 999999)
    (f4 : Buf (Elt F) ((a4W).view.loc (thrOf d L))) (f5 : Buf (Elt F) ((a5W).view.loc (thrOf d L)))
    (q4 q5 : PosShare TreeShare)
    (f15 : Buf (Elt F) ((s15W).view.loc (thrOf d L)))
    (bias : Vec F S16 .f32) (w : Nat → Vec F S16 .f32),
    iprop(Transfers.MayWaits (thrOf d L) (none : HIx 1) O
        ∗ ((s9W).view.loc (thrOf d L) ↦{fullShare} u9) ∗ ((s10W).view.loc (thrOf d L) ↦{fullShare} u10)
        ∗ (∃ f, (s11W).view.loc (thrOf d L) ↦{fullShare} f) ∗ (∃ f, (s12W).view.loc (thrOf d L) ↦{fullShare} f)
        ∗ ((a4W).view.loc (thrOf d L) ↦{sub q4 0} f4) ∗ ((a4W).view.loc (thrOf d L) ↦{sub q4 1} f4) ∗ ((a4W).view.loc (thrOf d L) ↦{sub q4 2} f4) ∗ ((a4W).view.loc (thrOf d L) ↦{sub q4 3} f4) ∗ ((a4W).view.loc (thrOf d L) ↦{sub q4 4} f4) ∗ ((a4W).view.loc (thrOf d L) ↦{sub q4 5} f4) ∗ ((a4W).view.loc (thrOf d L) ↦{sub q4 6} f4) ∗ ((a4W).view.loc (thrOf d L) ↦{sub q4 7} f4)
        ∗ ((a5W).view.loc (thrOf d L) ↦{sub q5 0} f5) ∗ ((a5W).view.loc (thrOf d L) ↦{sub q5 1} f5) ∗ ((a5W).view.loc (thrOf d L) ↦{sub q5 2} f5) ∗ ((a5W).view.loc (thrOf d L) ↦{sub q5 3} f5) ∗ ((a5W).view.loc (thrOf d L) ↦{sub q5 4} f5) ∗ ((a5W).view.loc (thrOf d L) ↦{sub q5 5} f5) ∗ ((a5W).view.loc (thrOf d L) ↦{sub q5 6} f5) ∗ ((a5W).view.loc (thrOf d L) ↦{sub q5 7} f5)
        ∗ semVal (thrOf d L, SemLoc.dma cc0_scratch7.sem) 0 ∗ semVal (thrOf d L, SemLoc.dma cc0_scratch8.sem) 0
        ∗ semVal (thrOf d L, SemLoc.dma cc0_scratch9.sem) 0 ∗ semVal (thrOf d L, SemLoc.dma cc0_scratch10.sem) 0
        ∗ ((s15W).view.loc (thrOf d L) ↦{fullShare} f15)
        ∗ owes (thrOf d L) O W : sProp 𝕄)
      ⊢ wp frame (wpE (defs₀ (F := F)) 𝒱₀ (thrOf d L) none) Set.univ
          (k0_t1_body (F := F) L a2W (Memref.isWhole_whole _) a3W (Memref.isWhole_whole _) a4W (Memref.isWhole_whole _) a5W (Memref.isWhole_whole _)
            a6W (Memref.isWhole_whole _) a7W (Memref.isWhole_whole _) a8W (Memref.isWhole_whole _)
            s9W (Memref.isWhole_whole _) s10W (Memref.isWhole_whole _) s11W (Memref.isWhole_whole _) s12W (Memref.isWhole_whole _)
            s13W (Memref.isWhole_whole _) s14W (Memref.isWhole_whole _) s15W (Memref.isWhole_whole _)
            cc0_scratch7 cc0_scratch8 cc0_scratch9 cc0_scratch10 cc0_scoped0 cc0_scoped1 cc0_scoped2 cc0_scoped3 cc0_scoped4 bias (w 0) (w 1) (w 2) (w 3) (w 4) (w 5) (w 6) (w 7) (w 8) (w 9) (w 10) (w 11) (w 12) (w 13) (w 14) (w 15) (w 16) (w 17) (w 18) (w 19) (w 20) (w 21) (w 22) (w 23) (w 24) (w 25) (w 26) (w 27) (w 28) (w 29) (w 30) (w 31) lanes k ⟨⟩)
          (fun _ => iprop(Transfers.MayWaits (thrOf d L) (none : HIx 1) O
        ∗ ((s9W).view.loc (thrOf d L) ↦{fullShare} u9) ∗ ((s10W).view.loc (thrOf d L) ↦{fullShare} u10)
        ∗ (∃ f, (s11W).view.loc (thrOf d L) ↦{fullShare} f) ∗ (∃ f, (s12W).view.loc (thrOf d L) ↦{fullShare} f)
        ∗ ((a4W).view.loc (thrOf d L) ↦{sub q4 0} f4) ∗ ((a4W).view.loc (thrOf d L) ↦{sub q4 1} f4) ∗ ((a4W).view.loc (thrOf d L) ↦{sub q4 2} f4) ∗ ((a4W).view.loc (thrOf d L) ↦{sub q4 3} f4) ∗ ((a4W).view.loc (thrOf d L) ↦{sub q4 4} f4) ∗ ((a4W).view.loc (thrOf d L) ↦{sub q4 5} f4) ∗ ((a4W).view.loc (thrOf d L) ↦{sub q4 6} f4) ∗ ((a4W).view.loc (thrOf d L) ↦{sub q4 7} f4)
        ∗ ((a5W).view.loc (thrOf d L) ↦{sub q5 0} f5) ∗ ((a5W).view.loc (thrOf d L) ↦{sub q5 1} f5) ∗ ((a5W).view.loc (thrOf d L) ↦{sub q5 2} f5) ∗ ((a5W).view.loc (thrOf d L) ↦{sub q5 3} f5) ∗ ((a5W).view.loc (thrOf d L) ↦{sub q5 4} f5) ∗ ((a5W).view.loc (thrOf d L) ↦{sub q5 5} f5) ∗ ((a5W).view.loc (thrOf d L) ↦{sub q5 6} f5) ∗ ((a5W).view.loc (thrOf d L) ↦{sub q5 7} f5)
        ∗ semVal (thrOf d L, SemLoc.dma cc0_scratch7.sem) 0 ∗ semVal (thrOf d L, SemLoc.dma cc0_scratch8.sem) 0
        ∗ semVal (thrOf d L, SemLoc.dma cc0_scratch9.sem) 0 ∗ semVal (thrOf d L, SemLoc.dma cc0_scratch10.sem) 0
        ∗ ((s15W).view.loc (thrOf d L) ↦{fullShare} stored f15 k.val (tripVec bias w (rowsOf f4 u9 k.val) (rowsOf f5 u10 k.val)))
        ∗ ∃ W', ⌜∀ p ∈ W', p ∈ W ∨ p.2 = none⌝ ∗ owes (thrOf d L) O W'))

end Cert.Proof.KI

end
-- ==== Proof.KFill.lean ====
/-
  One trip fills sixteen more entries of a tile's piece of the expected result.

  A tile works on piece `w` of the batch (entries `512 w … 512 w + 511`) through staged copies of its pieces of the
  two index lists: staged entry `j` is entry `512 w + j` of the list.  Trip `k` fetches the rows the staged
  entries `16 k … 16 k + 15` name; those are the rows batch entries `512 w + 16 k + r` name, which is what the
  expected result's piece `w`, trip `k` is stated over (`rowsOf_eq_rowsAt`).  Batch entry `512 w + 16 k + l` lies in
  piece `w`, trip `k`, lane `l` — `(512 w + 16 k + l) / 512 = w`, `((512 w + 16 k + l) % 512) / 16 = k`,
  `(512 w + 16 k + l) % 16 = l`, since `16 k + l < 512` and `l < 16` — so the expected result there is that trip's
  vector at lane `l` (`outVec_at`, `trip_value`).  An output scratch that agrees with a target below `16 k`, once
  trip `k` has stored a vector agreeing with the target at `16 k … 16 k + 15`, agrees with it below `16 (k + 1)`
  (`stored_fills`); with the target the tile's piece of the expected result, that is the step from one trip to
  the next (`filled_step`).  Nothing here uses a law of the arithmetic: every statement holds at every float
  instance.
-/
import proofs.«208244_g21053929685252_cont_8to1_1842_38_alg».proof.Proof.KTripDefs
import proofs.«208244_g21053929685252_cont_8to1_1842_38_alg».proof.Proof.KOut
import Idealize.ShloMosaic.Lib.ValueIdx

noncomputable section

namespace Cert.Proof.KI

open Cert.KernelIdeal Cert.KernelIdeal.Gen
open Idealize.ShloMosaic Idealize.ShloMosaic.ValueIdx

variable {F : FTy → Type} [FloatOps F]

/-- The rows trip `k` fetches through the staged copy `u` of piece `w` of an index list are the rows the expected
    result's piece `w`, trip `k` is stated over: staged entry `16 k + r` is list entry `512 w + 16 k + r`. -/
theorem rowsOf_eq_rowsAt (tab : FVec F S1000000x32 .f32) (idx : IVec S16384 32) (u : IVec S512 32) (w : Fin 32) (k : Fin 32)
    (hu : ∀ j : Fin 512, u (ix1 j) = idx (ix1 ⟨512 * w.val + j.val, by omega⟩)) :
    rowsOf tab u k.val = rowsAt tab idx w k := by
  funext j
  obtain ⟨r, c, rfl⟩ : ∃ (r : Fin 16) (c : Fin 32), j = ix2 r c := ⟨j 0, j 1, eq_ix2 j⟩
  have hJ : (16 * k.val + r.val) % 512 < 512 := Nat.mod_lt _ (by decide)
  have hP : (512 * w.val + 16 * k.val + r.val) % 16384 < 16384 := Nat.mod_lt _ (by decide)
  show tab (ix2 (Cert.Proof.Spec.rowOf (u (ix1 (⟨(16 * k.val + r.val) % 512, hJ⟩ : Fin 512)))) c)
      = tab (ix2 (Cert.Proof.Spec.rowOf (idx (ix1 (⟨(512 * w.val + 16 * k.val + r.val) % 16384, hP⟩ : Fin 16384)))) c)
  rw [hu ⟨(16 * k.val + r.val) % 512, hJ⟩]
  refine congrArg (fun q : Fin 16384 => tab (ix2 (Cert.Proof.Spec.rowOf (idx (ix1 q))) c)) (Fin.ext ?_)
  show 512 * w.val + (16 * k.val + r.val) % 512 = (512 * w.val + 16 * k.val + r.val) % 16384
  omega

/-- Batch entry `512 w + 16 k + l` is lane `l` of trip `k` of piece `w`: the expected result there is that trip's
    vector at that lane. -/
theorem outVec_at (iu ii : IVec S16384 32) (ut it : FVec F S1000000x32 .f32) (wb : FVec F S512 .f32) (bv : FVec F S16 .f32)
    (w k : Fin 32) (l : Fin 16) :
    outVec iu ii ut it wb bv (ix1 ⟨512 * w.val + 16 * k.val + l.val, by omega⟩) = outAt iu ii ut it wb bv w k (ix1 l) := by
  have hA : (512 * w.val + 16 * k.val + l.val) / 512 < 32 := by omega
  have hB : (512 * w.val + 16 * k.val + l.val) % 512 / 16 < 32 := by omega
  have hC : (512 * w.val + 16 * k.val + l.val) % 16 < 16 := Nat.mod_lt _ (by decide)
  have e1 : (⟨(512 * w.val + 16 * k.val + l.val) / 512, hA⟩ : Fin 32) = w := Fin.ext (by
    show (512 * w.val + 16 * k.val + l.val) / 512 = w.val
    omega)
  have e2 : (⟨(512 * w.val + 16 * k.val + l.val) % 512 / 16, hB⟩ : Fin 32) = k := Fin.ext (by
    show (512 * w.val + 16 * k.val + l.val) % 512 / 16 = k.val
    omega)
  have e3 : (⟨(512 * w.val + 16 * k.val + l.val) % 16, hC⟩ : Fin 16) = l := Fin.ext (by
    show (512 * w.val + 16 * k.val + l.val) % 16 = l.val
    omega)
  show outAt iu ii ut it wb bv ⟨(512 * w.val + 16 * k.val + l.val) / 512, hA⟩
      ⟨(512 * w.val + 16 * k.val + l.val) % 512 / 16, hB⟩ (ix1 (⟨(512 * w.val + 16 * k.val + l.val) % 16, hC⟩ : Fin 16)) = _
  rw [e1, e2, e3]

/-- An output scratch that agrees with `G` below `16 k`, after trip `k` stores a vector that agrees with `G` at
    `16 k … 16 k + 15`, agrees with `G` below `16 (k + 1)`. -/
theorem stored_fills (f15 : FVec F S512 .f32) (k : Fin 32) (v : FVec F S16 .f32) (G : FVec F S512 .f32)
    (hprev : ∀ j : Fin 512, j.val < 16 * k.val → f15 (ix1 j) = G (ix1 j))
    (hv : ∀ l : Fin 16, v (ix1 l) = G (ix1 ⟨16 * k.val + l.val, by omega⟩)) :
    ∀ j : Fin 512, j.val < 16 * (k.val + 1) → stored f15 k.val v (ix1 j) = G (ix1 j) := by
  intro j hj
  by_cases h : 16 * k.val ≤ j.val ∧ j.val < 16 * k.val + 16
  · have hl : j.val - 16 * k.val < 16 := by omega
    have e : stored f15 k.val v (ix1 j) = v (ix1 (⟨j.val - 16 * k.val, hl⟩ : Fin 16)) := dif_pos h
    rw [e, hv ⟨j.val - 16 * k.val, hl⟩]
    refine congrArg (fun q : Fin 512 => G (ix1 q)) (Fin.ext ?_)
    show 16 * k.val + (j.val - 16 * k.val) = j.val
    omega
  · have e : stored f15 k.val v (ix1 j) = f15 (ix1 j) := dif_neg h
    rw [e]
    exact hprev j (by omega)

/-! ## The step, over a tile's piece of the expected array -/

variable (m : (ℓ : Loc nD τ sig) → Buf (Elt F) ℓ)
variable (wbf : (d : Dev nD) → Buf (Elt F) (locW d)) (bsf : (d : Dev nD) → Buf (Elt F) (locB d))

/-- Trip `k`'s vector over the rows fetched through the tile's staged index lists is, lane by lane, the expected
    result at the tile's piece, entries `16 k … 16 k + 15`. -/
theorem trip_value (d : Dev nD) (L : grid0.Coords) (u9 u10 : IVec S512 32)
    (hu9eq : ∀ j : Fin 512, u9 (ix1 j) = m (loc0 d) (ix1 ⟨512 * (widL L).val + j.val, by omega⟩))
    (hu10eq : ∀ j : Fin 512, u10 (ix1 j) = m (loc1 d) (ix1 ⟨512 * (widL L).val + j.val, by omega⟩))
    (k : Fin 32) (l : Fin 16) :
    tripVec (bsf d) (wOf (wbf d)) (rowsOf (m (loc2 d)) u9 k.val) (rowsOf (m (loc3 d)) u10 k.val) (ix1 l)
      = OUT m wbf bsf d (ix1 ⟨512 * (widL L).val + 16 * k.val + l.val, by omega⟩) := by
  rw [rowsOf_eq_rowsAt (m (loc2 d)) (m (loc0 d)) u9 (widL L) k hu9eq,
    rowsOf_eq_rowsAt (m (loc3 d)) (m (loc1 d)) u10 (widL L) k hu10eq]
  exact (outVec_at (m (loc0 d)) (m (loc1 d)) (m (loc2 d)) (m (loc3 d)) (wbf d) (bsf d) (widL L) k l).symm

/-- From one trip to the next: if the output scratch agrees with the tile's piece of the expected result below
    `16 k`, then after trip `k` has stored its vector it agrees below `16 (k + 1)`. -/
theorem filled_step (d : Dev nD) (L : grid0.Coords) (u9 u10 : IVec S512 32)
    (hu9eq : ∀ j : Fin 512, u9 (ix1 j) = m (loc0 d) (ix1 ⟨512 * (widL L).val + j.val, by omega⟩))
    (hu10eq : ∀ j : Fin 512, u10 (ix1 j) = m (loc1 d) (ix1 ⟨512 * (widL L).val + j.val, by omega⟩))
    (k : Fin 32) (f15 : FVec F S512 .f32)
    (hprev : ∀ j : Fin 512, j.val < 16 * k.val →
      f15 (ix1 j) = OUT m wbf bsf d (ix1 ⟨512 * (widL L).val + j.val, by omega⟩)) :
    ∀ j : Fin 512, j.val < 16 * (k.val + 1) →
      stored f15 k.val (tripVec (bsf d) (wOf (wbf d)) (rowsOf (m (loc2 d)) u9 k.val) (rowsOf (m (loc3 d)) u10 k.val)) (ix1 j)
        = OUT m wbf bsf d (ix1 ⟨512 * (widL L).val + j.val, by omega⟩) := by
  have key := stored_fills f15 k
    (tripVec (bsf d) (wOf (wbf d)) (rowsOf (m (loc2 d)) u9 k.val) (rowsOf (m (loc3 d)) u10 k.val))
    (fun x : S512.Idx => OUT m wbf bsf d (ix1 ⟨512 * (widL L).val + (x 0).val, by
      have h : (x 0).val < 512 := (x 0).isLt
      omega⟩))
    hprev
    (fun l => (trip_value m wbf bsf d L u9 u10 hu9eq hu10eq k l).trans
      (congrArg (fun q : Fin 16384 => OUT m wbf bsf d (ix1 q)) (Fin.ext (by
        show 512 * (widL L).val + 16 * k.val + l.val = 512 * (widL L).val + (16 * k.val + l.val)
        omega))))
  exact key

end Cert.Proof.KI

end
-- ==== Proof.KBody.lean ====
/-
  A tile's task, run: the staging copies, the 32 trips, the write-back.

  The task first copies the tile's piece of each index list into a scratch, and the stretched weight vector and the
  stretched bias into two more; it reads the bias and the 32 weight columns out of those; then 32 trips, each
  computing sixteen entries of the output scratch (one trip's run is taken as a hypothesis); then it copies the
  output scratch into the tile's piece of the result array. Around the trips the argument is bookkeeping: which
  array the task's memrefs name, that the staged index words are the piece's (so name table rows, by the
  precondition), that after trip k the first 16 k entries of the output scratch are the expected ones.
-/
import proofs.«208244_g21053929685252_cont_8to1_1842_38_alg».proof.Proof.KObl
import proofs.«208244_g21053929685252_cont_8to1_1842_38_alg».proof.Proof.KTripDefs
import proofs.«208244_g21053929685252_cont_8to1_1842_38_alg».proof.Proof.KOut
import proofs.«208244_g21053929685252_cont_8to1_1842_38_alg».proof.Proof.KTile0
import proofs.«208244_g21053929685252_cont_8to1_1842_38_alg».proof.Proof.KFill
import proofs.«208244_g21053929685252_cont_8to1_1842_38_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

local notation "a2W" => (Memref.whole Cert.KernelIdeal.main_arg0_scv : Memref Cert.KernelIdeal.sig Kind.scVector Space.hbm Cert.KernelIdeal.S16384 EltTy.i32)
local notation "a3W" => (Memref.whole Cert.KernelIdeal.main_arg1_scv : Memref Cert.KernelIdeal.sig Kind.scVector Space.hbm Cert.KernelIdeal.S16384 EltTy.i32)
local notation "a4W" => (Memref.whole Cert.KernelIdeal.main_arg2_scv : Memref Cert.KernelIdeal.sig Kind.scVector Space.hbm Cert.KernelIdeal.S1000000x32 EltTy.f32)
local notation "a5W" => (Memref.whole Cert.KernelIdeal.main_arg3_scv : Memref Cert.KernelIdeal.sig Kind.scVector Space.hbm Cert.KernelIdeal.S1000000x32 EltTy.f32)
local notation "a6W" => (Memref.whole Cert.KernelIdeal.main_v3_scv : Memref Cert.KernelIdeal.sig Kind.scVector Space.hbm Cert.KernelIdeal.S512 EltTy.f32)
local notation "a7W" => (Memref.whole Cert.KernelIdeal.main_v5_scv : Memref Cert.KernelIdeal.sig Kind.scVector Space.hbm Cert.KernelIdeal.S16 EltTy.f32)
local notation "a8W" => (Memref.whole Cert.KernelIdeal.main_v6_scv : Memref Cert.KernelIdeal.sig Kind.scVector Space.hbm Cert.KernelIdeal.S16384 EltTy.f32)
local notation "s9W" => (Memref.whole Cert.KernelIdeal.cc0_scratch0 : Memref Cert.KernelIdeal.sig Kind.scVector Space.vmem Cert.KernelIdeal.S512 EltTy.i32)
local notation "s10W" => (Memref.whole Cert.KernelIdeal.cc0_scratch1 : Memref Cert.KernelIdeal.sig Kind.scVector Space.vmem Cert.KernelIdeal.S512 EltTy.i32)
local notation "s11W" => (Memref.whole Cert.KernelIdeal.cc0_scratch2 : Memref Cert.KernelIdeal.sig Kind.scVector Space.vmem Cert.KernelIdeal.S16x32 EltTy.f32)
local notation "s12W" => (Memref.whole Cert.KernelIdeal.cc0_scratch3 : Memref Cert.KernelIdeal.sig Kind.scVector Space.vmem Cert.KernelIdeal.S16x32 EltTy.f32)
local notation "s13W" => (Memref.whole Cert.KernelIdeal.cc0_scratch4 : Memref Cert.KernelIdeal.sig Kind.scVector Space.vmem Cert.KernelIdeal.S512 EltTy.f32)
local notation "s14W" => (Memref.whole Cert.KernelIdeal.cc0_scratch5 : Memref Cert.KernelIdeal.sig Kind.scVector Space.vmem Cert.KernelIdeal.S16 EltTy.f32)
local notation "s15W" => (Memref.whole Cert.KernelIdeal.cc0_scratch6 : Memref Cert.KernelIdeal.sig Kind.scVector Space.vmem Cert.KernelIdeal.S512 EltTy.f32)

variable (m : (ℓ : Loc nD τ sig) → Buf (Elt F) ℓ)
variable (wbf : (d : Dev nD) → Buf (Elt F) (locW d)) (bsf : (d : Dev nD) → Buf (Elt F) (locB d))

variable [FloatOps F]

/-! ## Small facts about holdings -/

omit [FloatOps F] in
/-- Contents may be given a name, with the equation kept. -/
theorem pts_namedHeld {ℓ : Loc nD τ sig} {I : Finset (Idx ℓ)} (q : PosShare TreeShare) (f : Buf (Elt F) ℓ) :
    (ℓ ↦[I]{q} f : sProp 𝕄) ⊢ iprop(∃ g, ⌜g = f⌝ ∗ ℓ ↦[I]{q} g) := by
  iintro H
  iexists f
  isplitr
  · ipureintro; rfl
  · iexact H

omit [FloatOps F] in
theorem pts_s9 (d : Dev nD) (L : grid0.Coords) (f : Buf (Elt F) ((thrOf d L).loc cc0_scratch0)) :
    ((thrOf d L).loc cc0_scratch0 ↦{fullShare} f : sProp 𝕄) = (s9W).view.loc (thrOf d L) ↦{fullShare} f := rfl
omit [FloatOps F] in
theorem pts_s10 (d : Dev nD) (L : grid0.Coords) (f : Buf (Elt F) ((thrOf d L).loc cc0_scratch1)) :
    ((thrOf d L).loc cc0_scratch1 ↦{fullShare} f : sProp 𝕄) = (s10W).view.loc (thrOf d L) ↦{fullShare} f := rfl
omit [FloatOps F] in
theorem pts_s11 (d : Dev nD) (L : grid0.Coords) (f : Buf (Elt F) ((thrOf d L).loc cc0_scratch2)) :
    ((thrOf d L).loc cc0_scratch2 ↦{fullShare} f : sProp 𝕄) = (s11W).view.loc (thrOf d L) ↦{fullShare} f := rfl
omit [FloatOps F] in
theorem pts_s12 (d : Dev nD) (L : grid0.Coords) (f : Buf (Elt F) ((thrOf d L).loc cc0_scratch3)) :
    ((thrOf d L).loc cc0_scratch3 ↦{fullShare} f : sProp 𝕄) = (s12W).view.loc (thrOf d L) ↦{fullShare} f := rfl
omit [FloatOps F] in
theorem pts_s13 (d : Dev nD) (L : grid0.Coords) (f : Buf (Elt F) ((thrOf d L).loc cc0_scratch4)) :
    ((thrOf d L).loc cc0_scratch4 ↦{fullShare} f : sProp 𝕄) = (s13W).view.loc (thrOf d L) ↦{fullShare} f := rfl
omit [FloatOps F] in
theorem pts_s14 (d : Dev nD) (L : grid0.Coords) (f : Buf (Elt F) ((thrOf d L).loc cc0_scratch5)) :
    ((thrOf d L).loc cc0_scratch5 ↦{fullShare} f : sProp 𝕄) = (s14W).view.loc (thrOf d L) ↦{fullShare} f := rfl
omit [FloatOps F] in
theorem pts_s15 (d : Dev nD) (L : grid0.Coords) (f : Buf (Elt F) ((thrOf d L).loc cc0_scratch6)) :
    ((thrOf d L).loc cc0_scratch6 ↦{fullShare} f : sProp 𝕄) = (s15W).view.loc (thrOf d L) ↦{fullShare} f := rfl

omit [FloatOps F] in
/-- A read share cut into eight plain read shares and a remainder. -/
theorem shares8 (ℓ : Loc nD τ sig) (q : PosShare TreeShare) (f : Buf (Elt F) ℓ) :
    (ℓ ↦{q} f : sProp 𝕄)
      = iprop((ℓ ↦{Transfers.shareDrop q 8} f) ∗ (ℓ ↦{sub q 0} f) ∗ (ℓ ↦{sub q 1} f) ∗ (ℓ ↦{sub q 2} f) ∗ (ℓ ↦{sub q 3} f)
          ∗ (ℓ ↦{sub q 4} f) ∗ (ℓ ↦{sub q 5} f) ∗ (ℓ ↦{sub q 6} f) ∗ (ℓ ↦{sub q 7} f)) := by
  have h : (ℓ ↦{q} f : sProp 𝕄)
      ⊣⊢ iprop((ℓ ↦{Transfers.shareDrop q 8} f) ∗ bigSep (Finset.range 8) (fun i => ℓ ↦{Transfers.shareTokN q i} f)) :=
    Transfers.pointsTo_toks_range q 8
  rw [BI.equiv_iff.mp ⟨h.1, h.2⟩, show Finset.range 8 = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-- Thirty-two vectors as a family indexed by the naturals (the first again past the 32nd). -/
def wfun (x0 x1 x2 x3 x4 x5 x6 x7 x8 x9 x10 x11 x12 x13 x14 x15 x16 x17 x18 x19 x20 x21 x22 x23 x24 x25 x26 x27 x28 x29 x30 x31 : Vec F S16 .f32) :
    Nat → Vec F S16 .f32
  | 0 => x0 | 1 => x1 | 2 => x2 | 3 => x3 | 4 => x4 | 5 => x5 | 6 => x6 | 7 => x7 | 8 => x8 | 9 => x9 | 10 => x10 | 11 => x11
  | 12 => x12 | 13 => x13 | 14 => x14 | 15 => x15 | 16 => x16 | 17 => x17 | 18 => x18 | 19 => x19 | 20 => x20 | 21 => x21
  | 22 => x22 | 23 => x23 | 24 => x24 | 25 => x25 | 26 => x26 | 27 => x27 | 28 => x28 | 29 => x29 | 30 => x30 | 31 => x31
  | _ => x0

/-- The trip's vector reads the weight family at 0 … 31 only. -/
theorem tripVec_congr (bias bias' : Vec F S16 .f32) (w w' : Nat → Vec F S16 .f32) (g11 g12 : FVec F S16x32 .f32)
    (hb : bias = bias') (hw : ∀ c, c < 32 → w c = w' c) : tripVec bias w g11 g12 = tripVec bias' w' g11 g12 := by
  subst hb
  unfold tripVec
  rw [hw 0 (by decide), hw 1 (by decide), hw 2 (by decide), hw 3 (by decide), hw 4 (by decide), hw 5 (by decide), hw 6 (by decide),
    hw 7 (by decide), hw 8 (by decide), hw 9 (by decide), hw 10 (by decide), hw 11 (by decide), hw 12 (by decide), hw 13 (by decide),
    hw 14 (by decide), hw 15 (by decide), hw 16 (by decide), hw 17 (by decide), hw 18 (by decide), hw 19 (by decide), hw 20 (by decide),
    hw 21 (by decide), hw 22 (by decide), hw 23 (by decide), hw 24 (by decide), hw 25 (by decide), hw 26 (by decide), hw 27 (by decide),
    hw 28 (by decide), hw 29 (by decide), hw 30 (by decide), hw 31 (by decide)]

/-! ## The loop's invariant -/

/-- Before trip k: the staged index lists, the row scratches, eight read shares of each table, the four copy
    semaphores at zero, the output scratch with its first 16 k entries the expected ones, and the thread's debts. -/
def inv (d : Dev nD) (L : grid0.Coords) (O : CellTallies nD τ sig (HIx 1)) (W : Waits sig (HIx 1))
    (u9 : Buf (Elt F) ((s9W).view.loc (thrOf d L))) (u10 : Buf (Elt F) ((s10W).view.loc (thrOf d L))) (k : Nat) (_ : Unit) : sProp 𝕄 :=
  iprop(Transfers.MayWaits (thrOf d L) (none : HIx 1) O
    ∗ ((s9W).view.loc (thrOf d L) ↦{fullShare} u9) ∗ ((s10W).view.loc (thrOf d L) ↦{fullShare} u10)
    ∗ (∃ f, (s11W).view.loc (thrOf d L) ↦{fullShare} f) ∗ (∃ f, (s12W).view.loc (thrOf d L) ↦{fullShare} f)
    ∗ ((a4W).view.loc (thrOf d L) ↦{sub (ts (widL L)) 0} m (loc2 d)) ∗ ((a4W).view.loc (thrOf d L) ↦{sub (ts (widL L)) 1} m (loc2 d)) ∗ ((a4W).view.loc (thrOf d L) ↦{sub (ts (widL L)) 2} m (loc2 d)) ∗ ((a4W).view.loc (thrOf d L) ↦{sub (ts (widL L)) 3} m (loc2 d)) ∗ ((a4W).view.loc (thrOf d L) ↦{sub (ts (widL L)) 4} m (loc2 d)) ∗ ((a4W).view.loc (thrOf d L) ↦{sub (ts (widL L)) 5} m (loc2 d)) ∗ ((a4W).view.loc (thrOf d L) ↦{sub (ts (widL L)) 6} m (loc2 d)) ∗ ((a4W).view.loc (thrOf d L) ↦{sub (ts (widL L)) 7} m (loc2 d))
    ∗ ((a5W).view.loc (thrOf d L) ↦{sub (ts (widL L)) 0} m (loc3 d)) ∗ ((a5W).view.loc (thrOf d L) ↦{sub (ts (widL L)) 1} m (loc3 d)) ∗ ((a5W).view.loc (thrOf d L) ↦{sub (ts (widL L)) 2} m (loc3 d)) ∗ ((a5W).view.loc (thrOf d L) ↦{sub (ts (widL L)) 3} m (loc3 d)) ∗ ((a5W).view.loc (thrOf d L) ↦{sub (ts (widL L)) 4} m (loc3 d)) ∗ ((a5W).view.loc (thrOf d L) ↦{sub (ts (widL L)) 5} m (loc3 d)) ∗ ((a5W).view.loc (thrOf d L) ↦{sub (ts (widL L)) 6} m (loc3 d)) ∗ ((a5W).view.loc (thrOf d L) ↦{sub (ts (widL L)) 7} m (loc3 d))
    ∗ semVal (thrOf d L, SemLoc.dma cc0_scratch7.sem) 0 ∗ semVal (thrOf d L, SemLoc.dma cc0_scratch8.sem) 0
    ∗ semVal (thrOf d L, SemLoc.dma cc0_scratch9.sem) 0 ∗ semVal (thrOf d L, SemLoc.dma cc0_scratch10.sem) 0
    ∗ (∃ f15 : Buf (Elt F) ((s15W).view.loc (thrOf d L)), ((s15W).view.loc (thrOf d L) ↦{fullShare} f15)
        ∗ ⌜∀ j : Fin 512, j.val < 16 * k → f15 (ix1 j)
            = OUT m wbf bsf d (ix1 ⟨512 * (widL L).val + j.val, by have h1 := (widL L).isLt; have h2 := j.isLt; omega⟩)⌝)
    ∗ ∃ W', ⌜∀ p ∈ W', p ∈ W ∨ p.2 = none⌝ ∗ owes (thrOf d L) O W')

/-! ## What the staging copies leave -/

omit [FloatOps F] in
/-- The staged copy of the tile's piece of the first index list: word j is word 512 w + j of the list. -/
theorem staged9 (d : Dev nD) (L : grid0.Coords) (f9 : Buf (Elt F) ((s9W).view.loc (thrOf d L))) (idx : Buf (Elt F) (loc0 d)) (j : Fin 512) :
    View.write (Elt F) (s9W).view f9 (ReadAs.same.apply (View.read (Elt F) (sl2 L).view idx)) Finset.univ (ix1 j)
      = idx (ix1 ⟨512 * (widL L).val + j.val, by have h1 := (widL L).isLt; have h2 := j.isLt; omega⟩) := by
  refine (congrFun (View.write_whole_univ (Val := Elt F) cc0_scratch0 f9 _) (ix1 j)).trans ?_
  show idx ((sl2 L).view.emb (ix1 j)) = _
  congr 1
  funext a
  match a with
  | ⟨0, _⟩ =>
    apply Fin.ext
    show (k0_off1 L) 0 + 1 * j.val = 512 * (widL L).val + j.val
    rw [k0_off1_eq]
    simp [widL]
    omega

omit [FloatOps F] in
/-- The same for the second index list. -/
theorem staged10 (d : Dev nD) (L : grid0.Coords) (f10 : Buf (Elt F) ((s10W).view.loc (thrOf d L))) (idx : Buf (Elt F) (loc1 d)) (j : Fin 512) :
    View.write (Elt F) (s10W).view f10 (ReadAs.same.apply (View.read (Elt F) (sl3 L).view idx)) Finset.univ (ix1 j)
      = idx (ix1 ⟨512 * (widL L).val + j.val, by have h1 := (widL L).isLt; have h2 := j.isLt; omega⟩) := by
  refine (congrFun (View.write_whole_univ (Val := Elt F) cc0_scratch1 f10 _) (ix1 j)).trans ?_
  show idx ((sl3 L).view.emb (ix1 j)) = _
  congr 1
  funext a
  match a with
  | ⟨0, _⟩ =>
    apply Fin.ext
    show (k0_off1 L) 0 + 1 * j.val = 512 * (widL L).val + j.val
    rw [k0_off1_eq]
    simp [widL]
    omega

omit [FloatOps F] in
/-- The bias vector the task loads is the stretched bias. -/
theorem bias_eq (d : Dev nD) (L : grid0.Coords) (f14 : Buf (Elt F) ((s14W).view.loc (thrOf d L))) (bv : Buf (Elt F) (locB d))
    (inb : ∀ a, (![0] : Fin 1 → Nat) a + S16.size a ≤ S16.size a) :
    View.readAt (Elt F) (s14W).view (Rect.unit (s := S16) ![0] S16.size inb).toLoadRect
        (View.write (Elt F) (s14W).view f14 (ReadAs.same.apply (View.read (Elt F) (a7W).view bv)) Finset.univ)
      = bv := by
  funext x
  refine (congrArg (fun g => View.readAt (Elt F) (s14W).view (Rect.unit (s := S16) ![0] S16.size inb).toLoadRect g x)
    (View.write_whole_univ (Val := Elt F) cc0_scratch5 f14 _)).trans ?_
  show bv ((Rect.unit (s := S16) ![0] S16.size inb).toLoadRect.idx x) = bv x
  congr 1
  funext a
  match a with
  | ⟨0, _⟩ =>
    apply Fin.ext
    show 0 + 1 * (x 0).val = (x 0).val
    omega

/-- Weight column c as the task loads it is column c of the stretched weight vector. -/
theorem wcol_eq (d : Dev nD) (L : grid0.Coords) (f13 : Buf (Elt F) ((s13W).view.loc (thrOf d L))) (wb : Buf (Elt F) (locW d)) (c : Nat) (hc : c < 32)
    (inb : ∀ a, (![16 * c] : Fin 1 → Nat) a + S16.size a ≤ S512.size a) :
    View.readAt (Elt F) (s13W).view (Rect.unit (s := S512) ![16 * c] S16.size inb).toLoadRect
        (View.write (Elt F) (s13W).view f13 (ReadAs.same.apply (View.read (Elt F) (a6W).view wb)) Finset.univ)
      = wOf wb c := by
  funext x
  refine (congrArg (fun g => View.readAt (Elt F) (s13W).view (Rect.unit (s := S512) ![16 * c] S16.size inb).toLoadRect g x)
    (View.write_whole_univ (Val := Elt F) cc0_scratch4 f13 _)).trans ?_
  show wb ((Rect.unit (s := S512) ![16 * c] S16.size inb).toLoadRect.idx x) = wb (ix1 ⟨(16 * c + (x 0).val) % 512, _⟩)
  congr 1
  funext a
  match a with
  | ⟨0, _⟩ =>
    apply Fin.ext
    show 16 * c + 1 * (x 0).val = (16 * c + (x 0).val) % 512
    have hx : (x 0).val < 16 := (x 0).isLt
    omega

omit [FloatOps F] in
theorem sem7 (d : Dev nD) (L : grid0.Coords) :
    (semVal (thrOf d L, SemLoc.dma (csem 0)) 0 : sProp 𝕄) = semVal (thrOf d L, SemLoc.dma cc0_scratch7.sem) 0 := rfl
omit [FloatOps F] in
theorem sem8 (d : Dev nD) (L : grid0.Coords) :
    (semVal (thrOf d L, SemLoc.dma (csem 1)) 0 : sProp 𝕄) = semVal (thrOf d L, SemLoc.dma cc0_scratch8.sem) 0 := rfl
omit [FloatOps F] in
theorem sem9 (d : Dev nD) (L : grid0.Coords) :
    (semVal (thrOf d L, SemLoc.dma (csem 2)) 0 : sProp 𝕄) = semVal (thrOf d L, SemLoc.dma cc0_scratch9.sem) 0 := rfl
omit [FloatOps F] in
theorem sem10 (d : Dev nD) (L : grid0.Coords) :
    (semVal (thrOf d L, SemLoc.dma (csem 3)) 0 : sProp 𝕄) = semVal (thrOf d L, SemLoc.dma cc0_scratch10.sem) 0 := rfl

omit [FloatOps F] in
/-- The tile's piece of the result array after the write-back of a scratch whose entry j is entry 512 w + j of G
    agrees with G on the piece. -/
theorem out_piece (d : Dev nD) (L : grid0.Coords) (f : Buf (Elt F) (locO d)) (w : S512.Idx → Elt F .f32) (G : Buf (Elt F) (locO d))
    (hw : ∀ j : Fin 512, w (ix1 j) = G (ix1 ⟨512 * (widL L).val + j.val, by have h1 := (widL L).isLt; have h2 := j.isLt; omega⟩)) :
    ∀ i ∈ (sl8 L).view.set, (sl8 L).view.writes (Elt F) f [⟨Rect.whole S512, w⟩] i = G i := by
  intro i hi
  obtain ⟨x, -, rfl⟩ := Finset.mem_map.mp hi
  refine (show (sl8 L).view.writes (Elt F) f [⟨Rect.whole S512, w⟩] ((sl8 L).view.emb x) = w x from
    congrFun (View.read_writes_whole (sl8 L).view f w) x).trans ?_
  obtain ⟨j, rfl⟩ : ∃ j : Fin 512, x = ix1 j := ⟨x 0, eq_ix1 x⟩
  refine (hw j).trans (congrArg G ?_)
  funext a
  match a with
  | ⟨0, _⟩ =>
    apply Fin.ext
    show 512 * (widL L).val + j.val = (k0_off66 L) 0 + 1 * j.val
    rw [k0_off66_eq]
    simp [widL]
    omega

/-- One trip's run, at thirty-two weight vectors given one by one. -/
theorem trip_apply (d : Dev nD) (L : grid0.Coords) (h : TripRun (F := F) d L)
    (k : Fin k0_t1_loop.trips) (O : CellTallies nD τ sig (HIx 1)) (W : Waits sig (HIx 1))
    (u9 : Buf (Elt F) ((s9W).view.loc (thrOf d L))) (u10 : Buf (Elt F) ((s10W).view.loc (thrOf d L)))
    (hu9 : ∀ j, (u9 j).toNat ≤ 999999) (hu10 : ∀ j, (u10 j).toNat ≤ 999999)
    (f4 : Buf (Elt F) ((a4W).view.loc (thrOf d L))) (f5 : Buf (Elt F) ((a5W).view.loc (thrOf d L)))
    (q4 q5 : PosShare TreeShare)
    (f15 : Buf (Elt F) ((s15W).view.loc (thrOf d L)))
    (bias : Vec F S16 .f32) (x0 x1 x2 x3 x4 x5 x6 x7 x8 x9 x10 x11 x12 x13 x14 x15 x16 x17 x18 x19 x20 x21 x22 x23 x24 x25 x26 x27 x28 x29 x30 x31 : Vec F S16 .f32) :
    iprop(Transfers.MayWaits (thrOf d L) (none : HIx 1) O
        ∗ ((s9W).view.loc (thrOf d L) ↦{fullShare} u9) ∗ ((s10W).view.loc (thrOf d L) ↦{fullShare} u10)
        ∗ (∃ f, (s11W).view.loc (thrOf d L) ↦{fullShare} f) ∗ (∃ f, (s12W).view.loc (thrOf d L) ↦{fullShare} f)
        ∗ ((a4W).view.loc (thrOf d L) ↦{sub q4 0} f4) ∗ ((a4W).view.loc (thrOf d L) ↦{sub q4 1} f4) ∗ ((a4W).view.loc (thrOf d L) ↦{sub q4 2} f4) ∗ ((a4W).view.loc (thrOf d L) ↦{sub q4 3} f4) ∗ ((a4W).view.loc (thrOf d L) ↦{sub q4 4} f4) ∗ ((a4W).view.loc (thrOf d L) ↦{sub q4 5} f4) ∗ ((a4W).view.loc (thrOf d L) ↦{sub q4 6} f4) ∗ ((a4W).view.loc (thrOf d L) ↦{sub q4 7} f4)
        ∗ ((a5W).view.loc (thrOf d L) ↦{sub q5 0} f5) ∗ ((a5W).view.loc (thrOf d L) ↦{sub q5 1} f5) ∗ ((a5W).view.loc (thrOf d L) ↦{sub q5 2} f5) ∗ ((a5W).view.loc (thrOf d L) ↦{sub q5 3} f5) ∗ ((a5W).view.loc (thrOf d L) ↦{sub q5 4} f5) ∗ ((a5W).view.loc (thrOf d L) ↦{sub q5 5} f5) ∗ ((a5W).view.loc (thrOf d L) ↦{sub q5 6} f5) ∗ ((a5W).view.loc (thrOf d L) ↦{sub q5 7} f5)
        ∗ semVal (thrOf d L, SemLoc.dma cc0_scratch7.sem) 0 ∗ semVal (thrOf d L, SemLoc.dma cc0_scratch8.sem) 0
        ∗ semVal (thrOf d L, SemLoc.dma cc0_scratch9.sem) 0 ∗ semVal (thrOf d L, SemLoc.dma cc0_scratch10.sem) 0
        ∗ ((s15W).view.loc (thrOf d L) ↦{fullShare} f15)
        ∗ owes (thrOf d L) O W : sProp 𝕄)
      ⊢ wp frame (wpE (defs₀ (F := F)) 𝒱₀ (thrOf d L) none) Set.univ
          (k0_t1_body (F := F) L a2W (Memref.isWhole_whole _) a3W (Memref.isWhole_whole _) a4W (Memref.isWhole_whole _) a5W (Memref.isWhole_whole _)
            a6W (Memref.isWhole_whole _) a7W (Memref.isWhole_whole _) a8W (Memref.isWhole_whole _)
            s9W (Memref.isWhole_whole _) s10W (Memref.isWhole_whole _) s11W (Memref.isWhole_whole _) s12W (Memref.isWhole_whole _)
            s13W (Memref.isWhole_whole _) s14W (Memref.isWhole_whole _) s15W (Memref.isWhole_whole _)
            cc0_scratch7 cc0_scratch8 cc0_scratch9 cc0_scratch10 cc0_scoped0 cc0_scoped1 cc0_scoped2 cc0_scoped3 cc0_scoped4 bias x0 x1 x2 x3 x4 x5 x6 x7 x8 x9 x10 x11 x12 x13 x14 x15 x16 x17 x18 x19 x20 x21 x22 x23 x24 x25 x26 x27 x28 x29 x30 x31 lanes k ⟨⟩)
          (fun _ => iprop(Transfers.MayWaits (thrOf d L) (none : HIx 1) O
        ∗ ((s9W).view.loc (thrOf d L) ↦{fullShare} u9) ∗ ((s10W).view.loc (thrOf d L) ↦{fullShare} u10)
        ∗ (∃ f, (s11W).view.loc (thrOf d L) ↦{fullShare} f) ∗ (∃ f, (s12W).view.loc (thrOf d L) ↦{fullShare} f)
        ∗ ((a4W).view.loc (thrOf d L) ↦{sub q4 0} f4) ∗ ((a4W).view.loc (thrOf d L) ↦{sub q4 1} f4) ∗ ((a4W).view.loc (thrOf d L) ↦{sub q4 2} f4) ∗ ((a4W).view.loc (thrOf d L) ↦{sub q4 3} f4) ∗ ((a4W).view.loc (thrOf d L) ↦{sub q4 4} f4) ∗ ((a4W).view.loc (thrOf d L) ↦{sub q4 5} f4) ∗ ((a4W).view.loc (thrOf d L) ↦{sub q4 6} f4) ∗ ((a4W).view.loc (thrOf d L) ↦{sub q4 7} f4)
        ∗ ((a5W).view.loc (thrOf d L) ↦{sub q5 0} f5) ∗ ((a5W).view.loc (thrOf d L) ↦{sub q5 1} f5) ∗ ((a5W).view.loc (thrOf d L) ↦{sub q5 2} f5) ∗ ((a5W).view.loc (thrOf d L) ↦{sub q5 3} f5) ∗ ((a5W).view.loc (thrOf d L) ↦{sub q5 4} f5) ∗ ((a5W).view.loc (thrOf d L) ↦{sub q5 5} f5) ∗ ((a5W).view.loc (thrOf d L) ↦{sub q5 6} f5) ∗ ((a5W).view.loc (thrOf d L) ↦{sub q5 7} f5)
        ∗ semVal (thrOf d L, SemLoc.dma cc0_scratch7.sem) 0 ∗ semVal (thrOf d L, SemLoc.dma cc0_scratch8.sem) 0
        ∗ semVal (thrOf d L, SemLoc.dma cc0_scratch9.sem) 0 ∗ semVal (thrOf d L, SemLoc.dma cc0_scratch10.sem) 0
        ∗ ((s15W).view.loc (thrOf d L) ↦{fullShare} stored f15 k.val (tripVec bias (wfun x0 x1 x2 x3 x4 x5 x6 x7 x8 x9 x10 x11 x12 x13 x14 x15 x16 x17 x18 x19 x20 x21 x22 x23 x24 x25 x26 x27 x28 x29 x30 x31) (rowsOf f4 u9 k.val) (rowsOf f5 u10 k.val)))
        ∗ ∃ W', ⌜∀ p ∈ W', p ∈ W ∨ p.2 = none⌝ ∗ owes (thrOf d L) O W')) :=
  h k O W u9 u10 hu9 hu10 f4 f5 q4 q5 f15 bias (wfun x0 x1 x2 x3 x4 x5 x6 x7 x8 x9 x10 x11 x12 x13 x14 x15 x16 x17 x18 x19 x20 x21 x22 x23 x24 x25 x26 x27 x28 x29 x30 x31)

/-! ## The task -/

set_option maxHeartbeats 8000000 in
theorem tile_body (hF : (K (F := F)).Facts) (hpre : PreOK m) (htrip : ∀ d L, TripRun (F := F) d L) : BodyRun m wbf bsf := by
  intro d L O W hO
  rw [cc0__gmf_body_eq_skeleton]; unfold cc0__gmf_body_skel
  rw [(K (F := F)).scopedBufs_V hF d _ _, SparseCore.Cfg.scopedSems0_V (Val := Elt F) d _ _, ownSems0_V, ownBufs_V]
  unfold tileRes cells0
  iintro ⟨#Hlv, -, ⟨H0, H1, H2, H3, HW, HB, HO8⟩, ⟨⟨%f9, Hs9⟩, ⟨%f10, Hs10⟩, ⟨%f11, Hs11⟩, ⟨%f12, Hs12⟩, ⟨%f13, Hs13⟩, ⟨%f14, Hs14⟩, ⟨%f15, Hs15⟩, Hbufs⟩, ⟨⟨Hc0, Hc1, Hc2, Hc3, Hc4, Hc5, Hc6, Hc7, Hc8⟩, Hsems⟩, HO⟩
  ihave Hmw := ((K (F := F)).mayWaits_none (thr := thrOf d L) hO) $$ Hlv
  ihave H0' := (Entails.of_eq (pts_sl2 (F := F) d L _).symm) $$ H0
  ihave H1' := (Entails.of_eq (pts_sl3 (F := F) d L _).symm) $$ H1
  ihave HO8' := (Entails.of_eq (pts_sl8 (F := F) d L _).symm) $$ HO8
  ihave H2' := (Entails.of_eq (pts_a4 (F := F) d L _ _).symm) $$ H2
  ihave H3' := (Entails.of_eq (pts_a5 (F := F) d L _ _).symm) $$ H3
  ihave HW' := (Entails.of_eq (pts_a6 (F := F) d L _ _).symm) $$ HW
  ihave HB' := (Entails.of_eq (pts_a7 (F := F) d L _ _).symm) $$ HB
  ihave Hs9' := (Entails.of_eq (pts_s9 (F := F) d L _)) $$ Hs9
  ihave Hs10' := (Entails.of_eq (pts_s10 (F := F) d L _)) $$ Hs10
  ihave Hs11' := (Entails.of_eq (pts_s11 (F := F) d L _)) $$ Hs11
  ihave Hs12' := (Entails.of_eq (pts_s12 (F := F) d L _)) $$ Hs12
  ihave Hs13' := (Entails.of_eq (pts_s13 (F := F) d L _)) $$ Hs13
  ihave Hs14' := (Entails.of_eq (pts_s14 (F := F) d L _)) $$ Hs14
  ihave Hs15' := (Entails.of_eq (pts_s15 (F := F) d L _)) $$ Hs15
  sl_exec
  -- the staged index lists, named; their words are the piece's, so name table rows
  ihave Hg := (pts_namedHeld (F := F) _ _) $$ Hs9'
  icases Hg with ⟨%u9, %hu9def, Hs9'⟩
  ihave Hg := (pts_namedHeld (F := F) _ _) $$ Hs10'
  icases Hg with ⟨%u10, %hu10def, Hs10'⟩
  have hu9eq : ∀ j : Fin 512, u9 (ix1 j) = m (loc0 d) (ix1 ⟨512 * (widL L).val + j.val, by have h1 := (widL L).isLt; have h2 := j.isLt; omega⟩) :=
    fun j => by rw [hu9def]; exact staged9 d L f9 (m (loc0 d)) j
  have hu10eq : ∀ j : Fin 512, u10 (ix1 j) = m (loc1 d) (ix1 ⟨512 * (widL L).val + j.val, by have h1 := (widL L).isLt; have h2 := j.isLt; omega⟩) :=
    fun j => by rw [hu10def]; exact staged10 d L f10 (m (loc1 d)) j
  have hu9 : ∀ j, (u9 j).toNat ≤ 999999 := fun j => by
    obtain ⟨i, rfl⟩ : ∃ i : Fin 512, j = ix1 i := ⟨j 0, eq_ix1 (n := 512) j⟩
    rw [hu9eq i]; exact (hpre d).1 _
  have hu10 : ∀ j, (u10 j).toNat ≤ 999999 := fun j => by
    obtain ⟨i, rfl⟩ : ∃ i : Fin 512, j = ix1 i := ⟨j 0, eq_ix1 (n := 512) j⟩
    rw [hu10eq i]; exact (hpre d).2 _
  -- the tile's share of each table cut into eight and a remainder
  ihave Hsh := (Entails.of_eq (shares8 (F := F) _ _ _)) $$ H2'
  icases Hsh with ⟨H2r, H20, H21, H22, H23, H24, H25, H26, H27⟩
  ihave Hsh := (Entails.of_eq (shares8 (F := F) _ _ _)) $$ H3'
  icases Hsh with ⟨H3r, H30, H31, H32, H33, H34, H35, H36, H37⟩
  ihave Hc0 := (Entails.of_eq (sem7 (F := F) d L)) $$ Hc0
  ihave Hc1 := (Entails.of_eq (sem8 (F := F) d L)) $$ Hc1
  ihave Hc2 := (Entails.of_eq (sem9 (F := F) d L)) $$ Hc2
  ihave Hc3 := (Entails.of_eq (sem10 (F := F) d L)) $$ Hc3
  sl_for (inv m wbf bsf d L O W u9 u10) $$ [Hmw Hs9' Hs10' Hs11' Hs12' H20 H21 H22 H23 H24 H25 H26 H27 H30 H31 H32 H33 H34 H35 H36 H37 Hc0 Hc1 Hc2 Hc3 Hs15' HO]
  case region =>
    intro k acc
    have hk32 : k.val < 32 := k.isLt
    unfold inv
    unfold tile_body.sl.prog.body_1
    iintro ⟨Hmw, Hs9, Hs10, Hs11, Hs12, A0, A1, A2, A3, A4, A5, A6, A7, B0, B1, B2, B3, B4, B5, B6, B7, C0, C1, C2, C3, ⟨%g15, Hs15, %hg15⟩, ⟨%W', %hW', HO⟩⟩
    iapply ((trip_apply d L (htrip d L) k O W' u9 u10 hu9 hu10 (m (loc2 d)) (m (loc3 d)) (ts (widL L)) (ts (widL L)) g15
        _ _ _ _ _ _ _ _ _ _ _ _ _ _ _ _ _ _ _ _ _ _ _ _ _ _ _ _ _ _ _ _ _).trans (wp_mono frame _ _ fun _ => ?hpost))
      $$ [Hmw Hs9 Hs10 Hs11 Hs12 A0 A1 A2 A3 A4 A5 A6 A7 B0 B1 B2 B3 B4 B5 B6 B7 C0 C1 C2 C3 Hs15 HO]
    case hpost =>
      iintro ⟨Hmw, Hs9, Hs10, Hs11, Hs12, A0, A1, A2, A3, A4, A5, A6, A7, B0, B1, B2, B3, B4, B5, B6, B7, C0, C1, C2, C3, Hs15, ⟨%W'', %hW'', HO⟩⟩
      isplitl [Hmw]; · iexact Hmw
      isplitl [Hs9]; · iexact Hs9
      isplitl [Hs10]; · iexact Hs10
      isplitl [Hs11]; · iexact Hs11
      isplitl [Hs12]; · iexact Hs12
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [C0]; · iexact C0
      isplitl [C1]; · iexact C1
      isplitl [C2]; · iexact C2
      isplitl [C3]; · iexact C3
      isplitl [Hs15]
      · iexists _
        isplitl [Hs15]; · iexact Hs15
        ipureintro
        intro j hj
        refine (congrArg (fun v => stored g15 k.val v (ix1 j)) (tripVec_congr _ (bsf d) _ (wOf (wbf d)) _ _ ?hb ?hw)).trans ?_
        case hb => exact bias_eq d L f14 (bsf d) _
        case hw =>
          exact fun c hc => match c, hc with
          | 0, _ => wcol_eq d L f13 (wbf d) 0 (by decide) _
          | 1, _ => wcol_eq d L f13 (wbf d) 1 (by decide) _
          | 2, _ => wcol_eq d L f13 (wbf d) 2 (by decide) _
          | 3, _ => wcol_eq d L f13 (wbf d) 3 (by decide) _
          | 4, _ => wcol_eq d L f13 (wbf d) 4 (by decide) _
          | 5, _ => wcol_eq d L f13 (wbf d) 5 (by decide) _
          | 6, _ => wcol_eq d L f13 (wbf d) 6 (by decide) _
          | 7, _ => wcol_eq d L f13 (wbf d) 7 (by decide) _
          | 8, _ => wcol_eq d L f13 (wbf d) 8 (by decide) _
          | 9, _ => wcol_eq d L f13 (wbf d) 9 (by decide) _
          | 10, _ => wcol_eq d L f13 (wbf d) 10 (by decide) _
          | 11, _ => wcol_eq d L f13 (wbf d) 11 (by decide) _
          | 12, _ => wcol_eq d L f13 (wbf d) 12 (by decide) _
          | 13, _ => wcol_eq d L f13 (wbf d) 13 (by decide) _
          | 14, _ => wcol_eq d L f13 (wbf d) 14 (by decide) _
          | 15, _ => wcol_eq d L f13 (wbf d) 15 (by decide) _
          | 16, _ => wcol_eq d L f13 (wbf d) 16 (by decide) _
          | 17, _ => wcol_eq d L f13 (wbf d) 17 (by decide) _
          | 18, _ => wcol_eq d L f13 (wbf d) 18 (by decide) _
          | 19, _ => wcol_eq d L f13 (wbf d) 19 (by decide) _
          | 20, _ => wcol_eq d L f13 (wbf d) 20 (by decide) _
          | 21, _ => wcol_eq d L f13 (wbf d) 21 (by decide) _
          | 22, _ => wcol_eq d L f13 (wbf d) 22 (by decide) _
          | 23, _ => wcol_eq d L f13 (wbf d) 23 (by decide) _
          | 24, _ => wcol_eq d L f13 (wbf d) 24 (by decide) _
          | 25, _ => wcol_eq d L f13 (wbf d) 25 (by decide) _
          | 26, _ => wcol_eq d L f13 (wbf d) 26 (by decide) _
          | 27, _ => wcol_eq d L f13 (wbf d) 27 (by decide) _
          | 28, _ => wcol_eq d L f13 (wbf d) 28 (by decide) _
          | 29, _ => wcol_eq d L f13 (wbf d) 29 (by decide) _
          | 30, _ => wcol_eq d L f13 (wbf d) 30 (by decide) _
          | 31, _ => wcol_eq d L f13 (wbf d) 31 (by decide) _
          | (n + 32), h => absurd h (by omega)
        exact filled_step m wbf bsf d L u9 u10 hu9eq hu10eq ⟨k.val, hk32⟩ g15 hg15 j hj
      iexists W''
      isplitr
      · ipureintro
        intro p hp
        rcases hW'' p hp with h | h
        · exact hW' p h
        · exact Or.inr h
      · iexact HO
    isplitl [Hmw]; · iexact Hmw
    isplitl [Hs9]; · iexact Hs9
    isplitl [Hs10]; · iexact Hs10
    isplitl [Hs11]; · iexact Hs11
    isplitl [Hs12]; · iexact Hs12
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [C0]; · iexact C0
    isplitl [C1]; · iexact C1
    isplitl [C2]; · iexact C2
    isplitl [C3]; · iexact C3
    isplitl [Hs15]; · iexact Hs15
    iexact HO
  · unfold inv
    isplitl [Hmw]; · iexact Hmw
    isplitl [Hs9']; · iexact Hs9'
    isplitl [Hs10']; · iexact Hs10'
    isplitl [Hs11']; · iexists _; iexact Hs11'
    isplitl [Hs12']; · iexists _; iexact Hs12'
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [Hc0]; · iexact Hc0
    isplitl [Hc1]; · iexact Hc1
    isplitl [Hc2]; · iexact Hc2
    isplitl [Hc3]; · iexact Hc3
    isplitl [Hs15']
    · iexists _
      isplitl [Hs15']; · iexact Hs15'
      ipureintro
      intro j hj
      omega
    iexists _
    isplitr
    swap
    · iexact HO
    · ipureintro
      intro p hp
      simp only [Finset.mem_insert] at hp
      rcases hp with rfl | rfl | rfl | rfl | hp
      · exact Or.inr rfl
      · exact Or.inr rfl
      · exact Or.inr rfl
      · exact Or.inr rfl
      · exact Or.inl hp
  iintro %acc HI
  unfold inv
  icases HI with ⟨-, Hs9, Hs10, ⟨%g11, Hs11⟩, ⟨%g12, Hs12⟩, A0, A1, A2, A3, A4, A5, A6, A7, B0, B1, B2, B3, B4, B5, B6, B7, C0, C1, C2, C3, ⟨%g15, Hs15, %hg15⟩, ⟨%W', %hW', HO⟩⟩
  sl_exec
  sl_step
  have htr : Scf.trips k0_t1_loop.lb k0_t1_loop.ub k0_t1_loop.st = 32 := by decide
  rw [htr] at hg15
  have hwf : ∀ j : Fin 512, tile_body.sl.dma0_4 d L g15 (ix1 j)
      = OUT m wbf bsf d (ix1 ⟨512 * (widL L).val + j.val, by have h1 := (widL L).isLt; have h2 := j.isLt; omega⟩) :=
    fun j => hg15 j (by have := j.isLt; omega)
  -- the tile's piece of the result array is at the expected contents
  ihave H0f := (Entails.of_eq (pts_sl2 (F := F) d L _)) $$ H0'
  ihave H1f := (Entails.of_eq (pts_sl3 (F := F) d L _)) $$ H1'
  -- the eight read shares of each table joined with the remainder
  ihave H2f := (Entails.of_eq (shares8 (F := F) _ _ _).symm) $$ [H2r A0 A1 A2 A3 A4 A5 A6 A7]
  · isplitl [H2r]; · iexact H2r
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  ihave H3f := (Entails.of_eq (shares8 (F := F) _ _ _).symm) $$ [H3r B0 B1 B2 B3 B4 B5 B6 B7]
  · isplitl [H3r]; · iexact H3r
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  ihave H2g := (Entails.of_eq (pts_a4 (F := F) d L _ _)) $$ H2f
  ihave H3g := (Entails.of_eq (pts_a5 (F := F) d L _ _)) $$ H3f
  ihave HWg := (Entails.of_eq (pts_a6 (F := F) d L _ _)) $$ HW'
  ihave HBg := (Entails.of_eq (pts_a7 (F := F) d L _ _)) $$ HB'
  ihave Hs9 := (Entails.of_eq (pts_s9 (F := F) d L _).symm) $$ Hs9
  ihave Hs10 := (Entails.of_eq (pts_s10 (F := F) d L _).symm) $$ Hs10
  ihave Hs11 := (Entails.of_eq (pts_s11 (F := F) d L _).symm) $$ Hs11
  ihave Hs12 := (Entails.of_eq (pts_s12 (F := F) d L _).symm) $$ Hs12
  ihave Hs13 := (Entails.of_eq (pts_s13 (F := F) d L _).symm) $$ Hs13'
  ihave Hs14 := (Entails.of_eq (pts_s14 (F := F) d L _).symm) $$ Hs14'
  ihave Hs15 := (Entails.of_eq (pts_s15 (F := F) d L _).symm) $$ Hs15
  ihave C0 := (Entails.of_eq (sem7 (F := F) d L).symm) $$ C0
  ihave C1 := (Entails.of_eq (sem8 (F := F) d L).symm) $$ C1
  ihave C2 := (Entails.of_eq (sem9 (F := F) d L).symm) $$ C2
  ihave C3 := (Entails.of_eq (sem10 (F := F) d L).symm) $$ C3
  isplitl [H0f H1f H2g H3g HWg HBg HO8']
  · isplitl [H0f]; · iexact H0f
    isplitl [H1f]; · iexact H1f
    isplitl [H2g]; · iexact H2g
    isplitl [H3g]; · iexact H3g
    isplitl [HWg]; · iexact HWg
    isplitl [HBg]; · iexact HBg
    -- the tile's piece of the result array is at the expected contents
    iapply (Entails.of_eq (pts_sl8 (F := F) d L _))
    iapply (Entails.of_eq (pointsTo_congr (out_piece (F := F) d L _ _ (OUT m wbf bsf d) hwf)))
    iexact HO8'
  isplitl [Hs9 Hs10 Hs11 Hs12 Hs13 Hs14 Hs15 Hbufs]
  · isplitl [Hs9]; · iexists _; iexact Hs9
    isplitl [Hs10]; · iexists _; iexact Hs10
    isplitl [Hs11]; · iexists _; iexact Hs11
    isplitl [Hs12]; · iexists _; iexact Hs12
    isplitl [Hs13]; · iexists _; iexact Hs13
    isplitl [Hs14]; · iexists _; iexact Hs14
    isplitl [Hs15]; · iexists _; iexact Hs15
    iexact Hbufs
  isplitl [C0 C1 C2 C3 Hc4 Hc5 Hc6 Hc7 Hc8 Hsems]
  · isplitl [C0 C1 C2 C3 Hc4 Hc5 Hc6 Hc7 Hc8]
    · isplitl [C0]; · iexact C0
      isplitl [C1]; · iexact C1
      isplitl [C2]; · iexact C2
      isplitl [C3]; · iexact C3
      isplitl [Hc4]; · iexact Hc4
      isplitl [Hc5]; · iexact Hc5
      isplitl [Hc6]; · iexact Hc6
      isplitl [Hc7]; · iexact Hc7
      iexact Hc8
    · iexact Hsems
  iexists _
  isplitr
  swap
  · iexact HO
  · ipureintro
    intro p hp
    rcases Finset.mem_insert.mp hp with rfl | hp
    · exact Or.inr rfl
    · exact hW' p hp

end Cert.Proof.KI

end
-- ==== Proof.KRows.lean ====
/-
  A 16 × 32 scratch written row by row, read at an entry.

  Sixteen stores, one per row: store `r` writes the 32 entries of row `r` (the rectangle of one row and all 32
  columns at offsets `(r, 0)`) from a 1 × 32 payload `p r`.  Two different rows share no entry, so whatever the
  order of the stores, and whatever the scratch held before, entry `(r, c)` afterwards holds what store `r` put
  there: `p r` at `(0, c)`.  The sixteen stores are the library's list of equal-sized tiles kept apart by one
  axis (here the row axis, tile `i` at offsets `(i, 0)`), newest first, and the reading is that list's.
-/
import proofs.«208244_g21053929685252_cont_8to1_1842_38_alg».proof.Proof.Gen.KernelIdeal
import Idealize.ShloMosaic.Lib.Writes
import Idealize.ShloMosaic.Lib.WritesUnit
import Idealize.ShloMosaic.Lib.ValueIdx

noncomputable section

namespace Cert.Proof.KI

open Cert.KernelIdeal Cert.KernelIdeal.Gen Idealize.ShloMosaic Idealize.ShloMosaic.ValueIdx

/-- Row `i` with all 32 columns lies inside the 16 × 32 scratch. -/
theorem rowTile_inb (i : Fin 16) : ∀ a, (![i.val, 0] : Fin 2 → Nat) a + S1x32.size a ≤ S16x32.size a := by
  intro a
  match a with
  | ⟨0, _⟩ =>
    show i.val + 1 ≤ 16
    have := i.isLt
    omega
  | ⟨1, _⟩ =>
    show 0 + 32 ≤ 32
    omega

/-- After the sixteen row stores (row 15's listed first, row 0's last), entry `(r, c)` read through the scratch's
    view holds row `r`'s payload at `(0, c)`: row `r`'s store covers the entry and no other row's store does. -/
theorem read_rows16 {F : FTy → Type} {κ : Kind} {sp : Space} (v : View sig κ sp S16x32 .f32) (f : v.ty.Contents (Elt F))
    (p : Fin 16 → S1x32.Idx → Elt F .f32) (r : Fin 16) (c : Fin 32) :
    v.read (Elt F) (v.writes (Elt F) f
      [⟨Rect.unit (s := S16x32) ![15, 0] S1x32.size inb_S16x32_S1x32_15_0, p 15⟩,
      ⟨Rect.unit (s := S16x32) ![14, 0] S1x32.size inb_S16x32_S1x32_14_0, p 14⟩,
      ⟨Rect.unit (s := S16x32) ![13, 0] S1x32.size inb_S16x32_S1x32_13_0, p 13⟩,
      ⟨Rect.unit (s := S16x32) ![12, 0] S1x32.size inb_S16x32_S1x32_12_0, p 12⟩,
      ⟨Rect.unit (s := S16x32) ![11, 0] S1x32.size inb_S16x32_S1x32_11_0, p 11⟩,
      ⟨Rect.unit (s := S16x32) ![10, 0] S1x32.size inb_S16x32_S1x32_10_0, p 10⟩,
      ⟨Rect.unit (s := S16x32) ![9, 0] S1x32.size inb_S16x32_S1x32_9_0, p 9⟩,
      ⟨Rect.unit (s := S16x32) ![8, 0] S1x32.size inb_S16x32_S1x32_8_0, p 8⟩,
      ⟨Rect.unit (s := S16x32) ![7, 0] S1x32.size inb_S16x32_S1x32_7_0, p 7⟩,
      ⟨Rect.unit (s := S16x32) ![6, 0] S1x32.size inb_S16x32_S1x32_6_0, p 6⟩,
      ⟨Rect.unit (s := S16x32) ![5, 0] S1x32.size inb_S16x32_S1x32_5_0, p 5⟩,
      ⟨Rect.unit (s := S16x32) ![4, 0] S1x32.size inb_S16x32_S1x32_4_0, p 4⟩,
      ⟨Rect.unit (s := S16x32) ![3, 0] S1x32.size inb_S16x32_S1x32_3_0, p 3⟩,
      ⟨Rect.unit (s := S16x32) ![2, 0] S1x32.size inb_S16x32_S1x32_2_0, p 2⟩,
      ⟨Rect.unit (s := S16x32) ![1, 0] S1x32.size inb_S16x32_S1x32_1_0, p 1⟩,
      ⟨Rect.unit (s := S16x32) ![0, 0] S1x32.size inb_S16x32_S1x32_0_0, p 0⟩]) (ix2 r c)
      = p r (ix2 (0 : Fin 1) c) :=
  View.read_tilePieces v f S1x32.size (fun i : Fin 16 => ![i.val, 0]) rowTile_inb p 16 (Nat.le_refl 16) (ix2 r c) r r.isLt
    (ix2 (0 : Fin 1) c)
    (fun a => match a with
      | ⟨0, _⟩ => (Nat.add_zero _).symm
      | ⟨1, _⟩ => (Nat.zero_add _).symm)
    0
    (fun i' hne => by
      have hv : i'.val ≠ r.val := fun h => hne (Fin.ext h)
      show r.val < i'.val ∨ i'.val + 1 ≤ r.val
      omega)

/-- The same for the user-row scratch read whole (the whole view of a buffer reads its contents as they are). -/
theorem read_rows16_scratch2 {F : FTy → Type} (f : (Memref.whole cc0_scratch2).view.ty.Contents (Elt F))
    (p : Fin 16 → S1x32.Idx → Elt F .f32) (r : Fin 16) (c : Fin 32) :
    ((Memref.whole cc0_scratch2).view.writes (Elt F) f
      [⟨Rect.unit (s := S16x32) ![15, 0] S1x32.size inb_S16x32_S1x32_15_0, p 15⟩,
      ⟨Rect.unit (s := S16x32) ![14, 0] S1x32.size inb_S16x32_S1x32_14_0, p 14⟩,
      ⟨Rect.unit (s := S16x32) ![13, 0] S1x32.size inb_S16x32_S1x32_13_0, p 13⟩,
      ⟨Rect.unit (s := S16x32) ![12, 0] S1x32.size inb_S16x32_S1x32_12_0, p 12⟩,
      ⟨Rect.unit (s := S16x32) ![11, 0] S1x32.size inb_S16x32_S1x32_11_0, p 11⟩,
      ⟨Rect.unit (s := S16x32) ![10, 0] S1x32.size inb_S16x32_S1x32_10_0, p 10⟩,
      ⟨Rect.unit (s := S16x32) ![9, 0] S1x32.size inb_S16x32_S1x32_9_0, p 9⟩,
      ⟨Rect.unit (s := S16x32) ![8, 0] S1x32.size inb_S16x32_S1x32_8_0, p 8⟩,
      ⟨Rect.unit (s := S16x32) ![7, 0] S1x32.size inb_S16x32_S1x32_7_0, p 7⟩,
      ⟨Rect.unit (s := S16x32) ![6, 0] S1x32.size inb_S16x32_S1x32_6_0, p 6⟩,
      ⟨Rect.unit (s := S16x32) ![5, 0] S1x32.size inb_S16x32_S1x32_5_0, p 5⟩,
      ⟨Rect.unit (s := S16x32) ![4, 0] S1x32.size inb_S16x32_S1x32_4_0, p 4⟩,
      ⟨Rect.unit (s := S16x32) ![3, 0] S1x32.size inb_S16x32_S1x32_3_0, p 3⟩,
      ⟨Rect.unit (s := S16x32) ![2, 0] S1x32.size inb_S16x32_S1x32_2_0, p 2⟩,
      ⟨Rect.unit (s := S16x32) ![1, 0] S1x32.size inb_S16x32_S1x32_1_0, p 1⟩,
      ⟨Rect.unit (s := S16x32) ![0, 0] S1x32.size inb_S16x32_S1x32_0_0, p 0⟩] : S16x32.Idx → Elt F .f32) (ix2 r c)
      = p r (ix2 (0 : Fin 1) c) :=
  read_rows16 (Memref.whole cc0_scratch2).view f p r c

/-- The same for the item-row scratch read whole. -/
theorem read_rows16_scratch3 {F : FTy → Type} (f : (Memref.whole cc0_scratch3).view.ty.Contents (Elt F))
    (p : Fin 16 → S1x32.Idx → Elt F .f32) (r : Fin 16) (c : Fin 32) :
    ((Memref.whole cc0_scratch3).view.writes (Elt F) f
      [⟨Rect.unit (s := S16x32) ![15, 0] S1x32.size inb_S16x32_S1x32_15_0, p 15⟩,
      ⟨Rect.unit (s := S16x32) ![14, 0] S1x32.size inb_S16x32_S1x32_14_0, p 14⟩,
      ⟨Rect.unit (s := S16x32) ![13, 0] S1x32.size inb_S16x32_S1x32_13_0, p 13⟩,
      ⟨Rect.unit (s := S16x32) ![12, 0] S1x32.size inb_S16x32_S1x32_12_0, p 12⟩,
      ⟨Rect.unit (s := S16x32) ![11, 0] S1x32.size inb_S16x32_S1x32_11_0, p 11⟩,
      ⟨Rect.unit (s := S16x32) ![10, 0] S1x32.size inb_S16x32_S1x32_10_0, p 10⟩,
      ⟨Rect.unit (s := S16x32) ![9, 0] S1x32.size inb_S16x32_S1x32_9_0, p 9⟩,
      ⟨Rect.unit (s := S16x32) ![8, 0] S1x32.size inb_S16x32_S1x32_8_0, p 8⟩,
      ⟨Rect.unit (s := S16x32) ![7, 0] S1x32.size inb_S16x32_S1x32_7_0, p 7⟩,
      ⟨Rect.unit (s := S16x32) ![6, 0] S1x32.size inb_S16x32_S1x32_6_0, p 6⟩,
      ⟨Rect.unit (s := S16x32) ![5, 0] S1x32.size inb_S16x32_S1x32_5_0, p 5⟩,
      ⟨Rect.unit (s := S16x32) ![4, 0] S1x32.size inb_S16x32_S1x32_4_0, p 4⟩,
      ⟨Rect.unit (s := S16x32) ![3, 0] S1x32.size inb_S16x32_S1x32_3_0, p 3⟩,
      ⟨Rect.unit (s := S16x32) ![2, 0] S1x32.size inb_S16x32_S1x32_2_0, p 2⟩,
      ⟨Rect.unit (s := S16x32) ![1, 0] S1x32.size inb_S16x32_S1x32_1_0, p 1⟩,
      ⟨Rect.unit (s := S16x32) ![0, 0] S1x32.size inb_S16x32_S1x32_0_0, p 0⟩] : S16x32.Idx → Elt F .f32) (ix2 r c)
      = p r (ix2 (0 : Fin 1) c) :=
  read_rows16 (Memref.whole cc0_scratch3).view f p r c

end Cert.Proof.KI

end
-- ==== Proof.KLanded.lean ====
/-
  Sixteen table rows, named by sixteen consecutive staged index words, land in the sixteen rows of a scratch.

  A trip loads the sixteen staged index words `16 k … 16 k + 15` as one vector, picks word `r` out of it, and
  copies the table row whose number is that word (read unsigned) into row `r` of a 16 × 32 scratch.  Every staged
  word is at most 999999, so the row it names is its own value and lies inside the table.  After the sixteen copies
  the scratch holds, at `(r, c)`, the table's entry at (row named by staged word `16 k + r`, column `c`), whatever
  it held before: the sixteen row stores are disjoint and cover it.  Stated for the user side and for the item
  side; nothing here uses the arithmetic of the float instance.
-/
import proofs.«208244_g21053929685252_cont_8to1_1842_38_alg».proof.Proof.KRows
import proofs.«208244_g21053929685252_cont_8to1_1842_38_alg».proof.Proof.KTripDefs
import proofs.«208244_g21053929685252_cont_8to1_1842_38_alg».proof.Proof.Gen.KernelIdeal.Skeleton
import Idealize.ShloMosaic.Lib.WritesUnit

noncomputable section

namespace Cert.Proof.KI

open Cert.KernelIdeal Cert.KernelIdeal.Gen Idealize.ShloMosaic Idealize.ShloMosaic.ValueIdx

/-- The loop makes 32 trips. -/
theorem trips_eq : k0_t1_loop.trips = 32 := by decide

theorem trip_lt (k : Fin k0_t1_loop.trips) : k.val < 32 :=
  lt_of_lt_of_eq k.isLt trips_eq

/-! ## The words a trip loads and the row a copy moves, in the task's spelling -/

/-- The sixteen staged user-index words trip `k` loads: entries `16 k … 16 k + 15` of the staged list `u`. -/
abbrev vecU (F : FTy → Type) (u : IVec S512 32) (k : Fin k0_t1_loop.trips) : IVec S16 32 :=
  (Memref.whole cc0_scratch0 : Memref sig .scVector .vmem S512 .i32).view.readAt (Elt F)
    (Rect.unit (s := S512) (k0_off2 k) S16.size (k0_off2_inb k)).toLoadRect u

/-- The same for the staged item-index words. -/
abbrev vecI (F : FTy → Type) (u : IVec S512 32) (k : Fin k0_t1_loop.trips) : IVec S16 32 :=
  (Memref.whole cc0_scratch1 : Memref sig .scVector .vmem S512 .i32).view.readAt (Elt F)
    (Rect.unit (s := S512) (k0_off2 k) S16.size (k0_off2_inb k)).toLoadRect u

variable {F : FTy → Type}

/-- Row `w` (read unsigned) of the user table holding `f`, as a 1 × 32 array: what one row copy moves. -/
abbrev rowU (f : FVec F S1000000x32 .f32) (w : BitVec 32)
    (hw : ∀ a, (![w.toNat, 0] : Fin 2 → Nat) a + S1x32.size a ≤ S1000000x32.size a) : S1x32.Idx → Elt F .f32 :=
  (ReadAs.same : ReadAs (Elt F) S1x32 .f32 S1x32 .f32).apply
    (((Memref.whole main_arg2_scv : Memref sig .scVector .hbm S1000000x32 .f32).slice
      (Rect.unit (s := S1000000x32) ![w.toNat, 0] S1x32.size hw) (fun _ => rfl)).view.read (Elt F) f)

/-- The same for the item table. -/
abbrev rowI (f : FVec F S1000000x32 .f32) (w : BitVec 32)
    (hw : ∀ a, (![w.toNat, 0] : Fin 2 → Nat) a + S1x32.size a ≤ S1000000x32.size a) : S1x32.Idx → Elt F .f32 :=
  (ReadAs.same : ReadAs (Elt F) S1x32 .f32 S1x32 .f32).apply
    (((Memref.whole main_arg3_scv : Memref sig .scVector .hbm S1000000x32 .f32).slice
      (Rect.unit (s := S1000000x32) ![w.toNat, 0] S1x32.size hw) (fun _ => rfl)).view.read (Elt F) f)

/-! ## Reading them -/

/-- A word at most 999999 names a row, with all 32 columns, inside the table. -/
theorem rowInb (w : BitVec 32) (hw : w.toNat ≤ 999999) :
    ∀ a, (![w.toNat, 0] : Fin 2 → Nat) a + S1x32.size a ≤ S1000000x32.size a := by
  intro a
  match a with
  | ⟨0, _⟩ =>
    show w.toNat + 1 ≤ 1000000
    omega
  | ⟨1, _⟩ =>
    show 0 + 32 ≤ 32
    omega

/-- Picking one word out of a vector of sixteen whose every word is at most 999999 gives such a word. -/
theorem word_inb (vec : IVec S16 32) (hvec : ∀ x, (vec x).toNat ≤ 999999) (off : Fin 1 → Nat) (hs : S16.Slices off S1) :
    ∀ a, (![(extractAt ![0] (extractStridedSlice S1 off vec hs) inpos_S1_p0).toNat, 0] : Fin 2 → Nat) a + S1x32.size a
      ≤ S1000000x32.size a :=
  rowInb _ (hvec _)

/-- Word `r` of a vector of sixteen, picked as the task picks it (a one-word slice at offset `r`, then its one word). -/
def wordAt (vec : IVec S16 32) (r : Fin 16) (hs : S16.Slices ![r.val] S1) : BitVec 32 :=
  extractAt ![0] (extractStridedSlice S1 ![r.val] vec hs) inpos_S1_p0

theorem slices16 (r : Fin 16) : S16.Slices ![r.val] S1 := by
  revert r
  decide

theorem wordAt_apply (vec : IVec S16 32) (r : Fin 16) (hs : S16.Slices ![r.val] S1) : wordAt vec r hs = vec (ix1 r) := by
  unfold wordAt extractAt extractStridedSlice
  refine congrArg vec (funext fun a => Fin.ext ?_)
  match a with
  | ⟨0, _⟩ =>
    show r.val + 0 = r.val
    omega

/-- The same in-range fact, for a word picked by `wordAt`. -/
theorem wordAt_inb (vec : IVec S16 32) (hvec : ∀ x, (vec x).toNat ≤ 999999) (r : Fin 16) (hs : S16.Slices ![r.val] S1) :
    ∀ a, (![(wordAt vec r hs).toNat, 0] : Fin 2 → Nat) a + S1x32.size a ≤ S1000000x32.size a :=
  word_inb vec hvec ![r.val] hs

/-- The loaded vector's word `r` is staged word `16 k + r`. -/
theorem vecU_apply (u : IVec S512 32) (k : Fin k0_t1_loop.trips) (r : Fin 16) :
    vecU F u k (ix1 r) = u (ix1 ⟨16 * k.val + r.val, by have := trip_lt k; omega⟩) := by
  show u _ = u _
  refine congrArg u (funext fun a => Fin.ext ?_)
  match a with
  | ⟨0, _⟩ =>
    show k0_off2 k 0 + 1 * r.val = 16 * k.val + r.val
    rw [k0_off2_eq]
    show 16 * k.val + 1 * r.val = 16 * k.val + r.val
    omega

theorem vecI_apply (u : IVec S512 32) (k : Fin k0_t1_loop.trips) (r : Fin 16) :
    vecI F u k (ix1 r) = u (ix1 ⟨16 * k.val + r.val, by have := trip_lt k; omega⟩) := by
  show u _ = u _
  refine congrArg u (funext fun a => Fin.ext ?_)
  match a with
  | ⟨0, _⟩ =>
    show k0_off2 k 0 + 1 * r.val = 16 * k.val + r.val
    rw [k0_off2_eq]
    show 16 * k.val + 1 * r.val = 16 * k.val + r.val
    omega

/-- Every loaded word is a staged word, so at most 999999 when the staged words are. -/
theorem vecU_le (u : IVec S512 32) (hu : ∀ j, (u j).toNat ≤ 999999) (k : Fin k0_t1_loop.trips) :
    ∀ x, (vecU F u k x).toNat ≤ 999999 :=
  fun x => hu ((Rect.unit (s := S512) (k0_off2 k) S16.size (k0_off2_inb k)).toLoadRect.idx x)

theorem vecI_le (u : IVec S512 32) (hu : ∀ j, (u j).toNat ≤ 999999) (k : Fin k0_t1_loop.trips) :
    ∀ x, (vecI F u k x).toNat ≤ 999999 :=
  fun x => hu ((Rect.unit (s := S512) (k0_off2 k) S16.size (k0_off2_inb k)).toLoadRect.idx x)

/-- The copied row at `(0, c)` is the table's entry at (row `w`, column `c`). -/
theorem rowU_apply (f : FVec F S1000000x32 .f32) (w : BitVec 32)
    (hw : ∀ a, (![w.toNat, 0] : Fin 2 → Nat) a + S1x32.size a ≤ S1000000x32.size a) (c : Fin 32) :
    rowU f w hw (ix2 (0 : Fin 1) c) = f (ix2 (⟨w.toNat, by have := hw 0; change w.toNat + 1 ≤ 1000000 at this; omega⟩ : Fin 1000000) c) := by
  show f _ = f _
  refine congrArg f (funext fun a => Fin.ext ?_)
  match a with
  | ⟨0, _⟩ =>
    show w.toNat + 1 * 0 = w.toNat
    omega
  | ⟨1, _⟩ =>
    show 0 + 1 * c.val = c.val
    omega

theorem rowI_apply (f : FVec F S1000000x32 .f32) (w : BitVec 32)
    (hw : ∀ a, (![w.toNat, 0] : Fin 2 → Nat) a + S1x32.size a ≤ S1000000x32.size a) (c : Fin 32) :
    rowI f w hw (ix2 (0 : Fin 1) c) = f (ix2 (⟨w.toNat, by have := hw 0; change w.toNat + 1 ≤ 1000000 at this; omega⟩ : Fin 1000000) c) := by
  show f _ = f _
  refine congrArg f (funext fun a => Fin.ext ?_)
  match a with
  | ⟨0, _⟩ =>
    show w.toNat + 1 * 0 = w.toNat
    omega
  | ⟨1, _⟩ =>
    show 0 + 1 * c.val = c.val
    omega

/-- The table row a staged word in range names, read through the loaded vector: the specification's row. -/
theorem named_row (vec : IVec S16 32) (u : IVec S512 32) (hu : ∀ j, (u j).toNat ≤ 999999) (k : Fin k0_t1_loop.trips)
    (hvec : ∀ r : Fin 16, vec (ix1 r) = u (ix1 ⟨16 * k.val + r.val, by have := trip_lt k; omega⟩)) (r : Fin 16)
    (hs : S16.Slices ![r.val] S1) :
    (wordAt vec r hs).toNat
      = (Cert.Proof.Spec.rowOf (u (ix1 (⟨(16 * k.val + r.val) % 512, Nat.mod_lt _ (by decide)⟩ : Fin 512)))).val := by
  have hk := trip_lt k
  have hJ : (⟨(16 * k.val + r.val) % 512, Nat.mod_lt _ (by decide)⟩ : Fin 512) = ⟨16 * k.val + r.val, by omega⟩ :=
    Fin.ext (Nat.mod_eq_of_lt (by omega))
  rw [wordAt_apply, hvec r, hJ, Cert.Proof.Spec.rowOf_val_of_le (hu _)]

/-! ## The scratches after a trip's sixteen row copies -/

/-- After the sixteen user-row copies the user-row scratch holds the rows the staged user-index words
    `16 k … 16 k + 15` name: `rowsOf f4 u9 k`. -/
theorem landed_user [FloatOps F] (f4 : FVec F S1000000x32 .f32) (f11 : (Memref.whole cc0_scratch2).view.ty.Contents (Elt F))
    (u9 : IVec S512 32) (hu9 : ∀ j, (u9 j).toNat ≤ 999999) (k : Fin k0_t1_loop.trips) :
    (Memref.whole cc0_scratch2).view.writes (Elt F) f11
      [⟨Rect.unit (s := S16x32) ![15, 0] S1x32.size inb_S16x32_S1x32_15_0,
        rowU f4 (extractAt (s := S1) ![0] (extractStridedSlice (s := S16) S1 ![15] (vecU F u9 k) slices_S16_o15_S1) inpos_S1_p0)
          (word_inb (vecU F u9 k) (vecU_le u9 hu9 k) ![15] slices_S16_o15_S1)⟩,
      ⟨Rect.unit (s := S16x32) ![14, 0] S1x32.size inb_S16x32_S1x32_14_0,
        rowU f4 (extractAt (s := S1) ![0] (extractStridedSlice (s := S16) S1 ![14] (vecU F u9 k) slices_S16_o14_S1) inpos_S1_p0)
          (word_inb (vecU F u9 k) (vecU_le u9 hu9 k) ![14] slices_S16_o14_S1)⟩,
      ⟨Rect.unit (s := S16x32) ![13, 0] S1x32.size inb_S16x32_S1x32_13_0,
        rowU f4 (extractAt (s := S1) ![0] (extractStridedSlice (s := S16) S1 ![13] (vecU F u9 k) slices_S16_o13_S1) inpos_S1_p0)
          (word_inb (vecU F u9 k) (vecU_le u9 hu9 k) ![13] slices_S16_o13_S1)⟩,
      ⟨Rect.unit (s := S16x32) ![12, 0] S1x32.size inb_S16x32_S1x32_12_0,
        rowU f4 (extractAt (s := S1) ![0] (extractStridedSlice (s := S16) S1 ![12] (vecU F u9 k) slices_S16_o12_S1) inpos_S1_p0)
          (word_inb (vecU F u9 k) (vecU_le u9 hu9 k) ![12] slices_S16_o12_S1)⟩,
      ⟨Rect.unit (s := S16x32) ![11, 0] S1x32.size inb_S16x32_S1x32_11_0,
        rowU f4 (extractAt (s := S1) ![0] (extractStridedSlice (s := S16) S1 ![11] (vecU F u9 k) slices_S16_o11_S1) inpos_S1_p0)
          (word_inb (vecU F u9 k) (vecU_le u9 hu9 k) ![11] slices_S16_o11_S1)⟩,
      ⟨Rect.unit (s := S16x32) ![10, 0] S1x32.size inb_S16x32_S1x32_10_0,
        rowU f4 (extractAt (s := S1) ![0] (extractStridedSlice (s := S16) S1 ![10] (vecU F u9 k) slices_S16_o10_S1) inpos_S1_p0)
          (word_inb (vecU F u9 k) (vecU_le u9 hu9 k) ![10] slices_S16_o10_S1)⟩,
      ⟨Rect.unit (s := S16x32) ![9, 0] S1x32.size inb_S16x32_S1x32_9_0,
        rowU f4 (extractAt (s := S1) ![0] (extractStridedSlice (s := S16) S1 ![9] (vecU F u9 k) slices_S16_o9_S1) inpos_S1_p0)
          (word_inb (vecU F u9 k) (vecU_le u9 hu9 k) ![9] slices_S16_o9_S1)⟩,
      ⟨Rect.unit (s := S16x32) ![8, 0] S1x32.size inb_S16x32_S1x32_8_0,
        rowU f4 (extractAt (s := S1) ![0] (extractStridedSlice (s := S16) S1 ![8] (vecU F u9 k) slices_S16_o8_S1) inpos_S1_p0)
          (word_inb (vecU F u9 k) (vecU_le u9 hu9 k) ![8] slices_S16_o8_S1)⟩,
      ⟨Rect.unit (s := S16x32) ![7, 0] S1x32.size inb_S16x32_S1x32_7_0,
        rowU f4 (extractAt (s := S1) ![0] (extractStridedSlice (s := S16) S1 ![7] (vecU F u9 k) slices_S16_o7_S1) inpos_S1_p0)
          (word_inb (vecU F u9 k) (vecU_le u9 hu9 k) ![7] slices_S16_o7_S1)⟩,
      ⟨Rect.unit (s := S16x32) ![6, 0] S1x32.size inb_S16x32_S1x32_6_0,
        rowU f4 (extractAt (s := S1) ![0] (extractStridedSlice (s := S16) S1 ![6] (vecU F u9 k) slices_S16_o6_S1) inpos_S1_p0)
          (word_inb (vecU F u9 k) (vecU_le u9 hu9 k) ![6] slices_S16_o6_S1)⟩,
      ⟨Rect.unit (s := S16x32) ![5, 0] S1x32.size inb_S16x32_S1x32_5_0,
        rowU f4 (extractAt (s := S1) ![0] (extractStridedSlice (s := S16) S1 ![5] (vecU F u9 k) slices_S16_o5_S1) inpos_S1_p0)
          (word_inb (vecU F u9 k) (vecU_le u9 hu9 k) ![5] slices_S16_o5_S1)⟩,
      ⟨Rect.unit (s := S16x32) ![4, 0] S1x32.size inb_S16x32_S1x32_4_0,
        rowU f4 (extractAt (s := S1) ![0] (extractStridedSlice (s := S16) S1 ![4] (vecU F u9 k) slices_S16_o4_S1) inpos_S1_p0)
          (word_inb (vecU F u9 k) (vecU_le u9 hu9 k) ![4] slices_S16_o4_S1)⟩,
      ⟨Rect.unit (s := S16x32) ![3, 0] S1x32.size inb_S16x32_S1x32_3_0,
        rowU f4 (extractAt (s := S1) ![0] (extractStridedSlice (s := S16) S1 ![3] (vecU F u9 k) slices_S16_o3_S1) inpos_S1_p0)
          (word_inb (vecU F u9 k) (vecU_le u9 hu9 k) ![3] slices_S16_o3_S1)⟩,
      ⟨Rect.unit (s := S16x32) ![2, 0] S1x32.size inb_S16x32_S1x32_2_0,
        rowU f4 (extractAt (s := S1) ![0] (extractStridedSlice (s := S16) S1 ![2] (vecU F u9 k) slices_S16_o2_S1) inpos_S1_p0)
          (word_inb (vecU F u9 k) (vecU_le u9 hu9 k) ![2] slices_S16_o2_S1)⟩,
      ⟨Rect.unit (s := S16x32) ![1, 0] S1x32.size inb_S16x32_S1x32_1_0,
        rowU f4 (extractAt (s := S1) ![0] (extractStridedSlice (s := S16) S1 ![1] (vecU F u9 k) slices_S16_o1_S1) inpos_S1_p0)
          (word_inb (vecU F u9 k) (vecU_le u9 hu9 k) ![1] slices_S16_o1_S1)⟩,
      ⟨Rect.unit (s := S16x32) ![0, 0] S1x32.size inb_S16x32_S1x32_0_0,
        rowU f4 (extractAt (s := S1) ![0] (extractStridedSlice (s := S16) S1 ![0] (vecU F u9 k) slices_S16_o0_S1) inpos_S1_p0)
          (word_inb (vecU F u9 k) (vecU_le u9 hu9 k) ![0] slices_S16_o0_S1)⟩]
      = rowsOf f4 u9 k.val := by
  show ((Memref.whole cc0_scratch2).view.writes (Elt F) f11 _ : S16x32.Idx → Elt F .f32) = _
  funext j
  obtain ⟨r, c, rfl⟩ : ∃ (r : Fin 16) (c : Fin 32), j = ix2 r c := ⟨j 0, j 1, eq_ix2 j⟩
  refine (read_rows16_scratch2 f11
    (fun r' => rowU f4 (wordAt (vecU F u9 k) r' (slices16 r'))
      (wordAt_inb (vecU F u9 k) (vecU_le u9 hu9 k) r' (slices16 r'))) r c).trans ?_
  show rowU f4 (wordAt (vecU F u9 k) r (slices16 r)) _ (ix2 (0 : Fin 1) c)
    = f4 (ix2 (Cert.Proof.Spec.rowOf (u9 (ix1 (⟨(16 * k.val + r.val) % 512, Nat.mod_lt _ (by decide)⟩ : Fin 512)))) c)
  rw [rowU_apply]
  exact congrArg (fun q : Fin 1000000 => f4 (ix2 q c))
    (Fin.ext (named_row (vecU F u9 k) u9 hu9 k (vecU_apply u9 k) r (slices16 r)))

/-- After the sixteen item-row copies the item-row scratch holds the rows the staged item-index words
    `16 k … 16 k + 15` name: `rowsOf f5 u10 k`. -/
theorem landed_item [FloatOps F] (f5 : FVec F S1000000x32 .f32) (f12 : (Memref.whole cc0_scratch3).view.ty.Contents (Elt F))
    (u10 : IVec S512 32) (hu10 : ∀ j, (u10 j).toNat ≤ 999999) (k : Fin k0_t1_loop.trips) :
    (Memref.whole cc0_scratch3).view.writes (Elt F) f12
      [⟨Rect.unit (s := S16x32) ![15, 0] S1x32.size inb_S16x32_S1x32_15_0,
        rowI f5 (extractAt (s := S1) ![0] (extractStridedSlice (s := S16) S1 ![15] (vecI F u10 k) slices_S16_o15_S1) inpos_S1_p0)
          (word_inb (vecI F u10 k) (vecI_le u10 hu10 k) ![15] slices_S16_o15_S1)⟩,
      ⟨Rect.unit (s := S16x32) ![14, 0] S1x32.size inb_S16x32_S1x32_14_0,
        rowI f5 (extractAt (s := S1) ![0] (extractStridedSlice (s := S16) S1 ![14] (vecI F u10 k) slices_S16_o14_S1) inpos_S1_p0)
          (word_inb (vecI F u10 k) (vecI_le u10 hu10 k) ![14] slices_S16_o14_S1)⟩,
      ⟨Rect.unit (s := S16x32) ![13, 0] S1x32.size inb_S16x32_S1x32_13_0,
        rowI f5 (extractAt (s := S1) ![0] (extractStridedSlice (s := S16) S1 ![13] (vecI F u10 k) slices_S16_o13_S1) inpos_S1_p0)
          (word_inb (vecI F u10 k) (vecI_le u10 hu10 k) ![13] slices_S16_o13_S1)⟩,
      ⟨Rect.unit (s := S16x32) ![12, 0] S1x32.size inb_S16x32_S1x32_12_0,
        rowI f5 (extractAt (s := S1) ![0] (extractStridedSlice (s := S16) S1 ![12] (vecI F u10 k) slices_S16_o12_S1) inpos_S1_p0)
          (word_inb (vecI F u10 k) (vecI_le u10 hu10 k) ![12] slices_S16_o12_S1)⟩,
      ⟨Rect.unit (s := S16x32) ![11, 0] S1x32.size inb_S16x32_S1x32_11_0,
        rowI f5 (extractAt (s := S1) ![0] (extractStridedSlice (s := S16) S1 ![11] (vecI F u10 k) slices_S16_o11_S1) inpos_S1_p0)
          (word_inb (vecI F u10 k) (vecI_le u10 hu10 k) ![11] slices_S16_o11_S1)⟩,
      ⟨Rect.unit (s := S16x32) ![10, 0] S1x32.size inb_S16x32_S1x32_10_0,
        rowI f5 (extractAt (s := S1) ![0] (extractStridedSlice (s := S16) S1 ![10] (vecI F u10 k) slices_S16_o10_S1) inpos_S1_p0)
          (word_inb (vecI F u10 k) (vecI_le u10 hu10 k) ![10] slices_S16_o10_S1)⟩,
      ⟨Rect.unit (s := S16x32) ![9, 0] S1x32.size inb_S16x32_S1x32_9_0,
        rowI f5 (extractAt (s := S1) ![0] (extractStridedSlice (s := S16) S1 ![9] (vecI F u10 k) slices_S16_o9_S1) inpos_S1_p0)
          (word_inb (vecI F u10 k) (vecI_le u10 hu10 k) ![9] slices_S16_o9_S1)⟩,
      ⟨Rect.unit (s := S16x32) ![8, 0] S1x32.size inb_S16x32_S1x32_8_0,
        rowI f5 (extractAt (s := S1) ![0] (extractStridedSlice (s := S16) S1 ![8] (vecI F u10 k) slices_S16_o8_S1) inpos_S1_p0)
          (word_inb (vecI F u10 k) (vecI_le u10 hu10 k) ![8] slices_S16_o8_S1)⟩,
      ⟨Rect.unit (s := S16x32) ![7, 0] S1x32.size inb_S16x32_S1x32_7_0,
        rowI f5 (extractAt (s := S1) ![0] (extractStridedSlice (s := S16) S1 ![7] (vecI F u10 k) slices_S16_o7_S1) inpos_S1_p0)
          (word_inb (vecI F u10 k) (vecI_le u10 hu10 k) ![7] slices_S16_o7_S1)⟩,
      ⟨Rect.unit (s := S16x32) ![6, 0] S1x32.size inb_S16x32_S1x32_6_0,
        rowI f5 (extractAt (s := S1) ![0] (extractStridedSlice (s := S16) S1 ![6] (vecI F u10 k) slices_S16_o6_S1) inpos_S1_p0)
          (word_inb (vecI F u10 k) (vecI_le u10 hu10 k) ![6] slices_S16_o6_S1)⟩,
      ⟨Rect.unit (s := S16x32) ![5, 0] S1x32.size inb_S16x32_S1x32_5_0,
        rowI f5 (extractAt (s := S1) ![0] (extractStridedSlice (s := S16) S1 ![5] (vecI F u10 k) slices_S16_o5_S1) inpos_S1_p0)
          (word_inb (vecI F u10 k) (vecI_le u10 hu10 k) ![5] slices_S16_o5_S1)⟩,
      ⟨Rect.unit (s := S16x32) ![4, 0] S1x32.size inb_S16x32_S1x32_4_0,
        rowI f5 (extractAt (s := S1) ![0] (extractStridedSlice (s := S16) S1 ![4] (vecI F u10 k) slices_S16_o4_S1) inpos_S1_p0)
          (word_inb (vecI F u10 k) (vecI_le u10 hu10 k) ![4] slices_S16_o4_S1)⟩,
      ⟨Rect.unit (s := S16x32) ![3, 0] S1x32.size inb_S16x32_S1x32_3_0,
        rowI f5 (extractAt (s := S1) ![0] (extractStridedSlice (s := S16) S1 ![3] (vecI F u10 k) slices_S16_o3_S1) inpos_S1_p0)
          (word_inb (vecI F u10 k) (vecI_le u10 hu10 k) ![3] slices_S16_o3_S1)⟩,
      ⟨Rect.unit (s := S16x32) ![2, 0] S1x32.size inb_S16x32_S1x32_2_0,
        rowI f5 (extractAt (s := S1) ![0] (extractStridedSlice (s := S16) S1 ![2] (vecI F u10 k) slices_S16_o2_S1) inpos_S1_p0)
          (word_inb (vecI F u10 k) (vecI_le u10 hu10 k) ![2] slices_S16_o2_S1)⟩,
      ⟨Rect.unit (s := S16x32) ![1, 0] S1x32.size inb_S16x32_S1x32_1_0,
        rowI f5 (extractAt (s := S1) ![0] (extractStridedSlice (s := S16) S1 ![1] (vecI F u10 k) slices_S16_o1_S1) inpos_S1_p0)
          (word_inb (vecI F u10 k) (vecI_le u10 hu10 k) ![1] slices_S16_o1_S1)⟩,
      ⟨Rect.unit (s := S16x32) ![0, 0] S1x32.size inb_S16x32_S1x32_0_0,
        rowI f5 (extractAt (s := S1) ![0] (extractStridedSlice (s := S16) S1 ![0] (vecI F u10 k) slices_S16_o0_S1) inpos_S1_p0)
          (word_inb (vecI F u10 k) (vecI_le u10 hu10 k) ![0] slices_S16_o0_S1)⟩]
      = rowsOf f5 u10 k.val := by
  show ((Memref.whole cc0_scratch3).view.writes (Elt F) f12 _ : S16x32.Idx → Elt F .f32) = _
  funext j
  obtain ⟨r, c, rfl⟩ : ∃ (r : Fin 16) (c : Fin 32), j = ix2 r c := ⟨j 0, j 1, eq_ix2 j⟩
  refine (read_rows16_scratch3 f12
    (fun r' => rowI f5 (wordAt (vecI F u10 k) r' (slices16 r'))
      (wordAt_inb (vecI F u10 k) (vecI_le u10 hu10 k) r' (slices16 r'))) r c).trans ?_
  show rowI f5 (wordAt (vecI F u10 k) r (slices16 r)) _ (ix2 (0 : Fin 1) c)
    = f5 (ix2 (Cert.Proof.Spec.rowOf (u10 (ix1 (⟨(16 * k.val + r.val) % 512, Nat.mod_lt _ (by decide)⟩ : Fin 512)))) c)
  rw [rowI_apply]
  exact congrArg (fun q : Fin 1000000 => f5 (ix2 q c))
    (Fin.ext (named_row (vecI F u10 k) u10 hu10 k (vecI_apply u10 k) r (slices16 r)))

/-! ## The output scratch after a trip's store -/

/-- One store of sixteen entries at offset `16 k` into the 512-entry output scratch: entries `16 k … 16 k + 15`
    become the stored vector's, every other entry keeps what it held. -/
theorem stored_eq [FloatOps F] (f15 : (Memref.whole cc0_scratch6).view.ty.Contents (Elt F)) (k : Fin k0_t1_loop.trips)
    (v : FVec F S16 .f32) :
    (Memref.whole cc0_scratch6).view.writes (Elt F) f15
      [⟨Rect.unit (s := S512) (k0_off65 k) S16.size (k0_off65_inb k), v⟩] = stored f15 k.val v := by
  show ((Memref.whole cc0_scratch6).view.writes (Elt F) f15 _ : S512.Idx → Elt F .f32) = _
  funext j
  obtain ⟨p, rfl⟩ : ∃ p : Fin 512, j = ix1 p := ⟨j 0, eq_ix1 j⟩
  have hk := trip_lt k
  by_cases h : 16 * k.val ≤ p.val ∧ p.val < 16 * k.val + 16
  · have hl : p.val - 16 * k.val < 16 := by omega
    have e := View.read_writes_cons_unit_of_mem (Memref.whole cc0_scratch6 : Memref sig .scVector .vmem S512 .f32).view f15
      (k0_off65_inb k) v [] (ix1 p) (ix1 (⟨p.val - 16 * k.val, hl⟩ : Fin 16)) (k0_off65_eq k)
      (fun a => match a with
        | ⟨0, _⟩ => by
          show p.val = 16 * k.val + (p.val - 16 * k.val)
          omega)
    have e2 : stored f15 k.val v (ix1 p) = v (ix1 (⟨p.val - 16 * k.val, hl⟩ : Fin 16)) := dif_pos h
    exact e.trans e2.symm
  · have e := View.read_writes_cons_unit_of_not_mem (Memref.whole cc0_scratch6 : Memref sig .scVector .vmem S512 .f32).view f15
      (k0_off65_inb k) v [] (ix1 p) (k0_off65_eq k) 0 (by
        show p.val < 16 * k.val ∨ 16 * k.val + 16 ≤ p.val
        omega)
    have e2 : stored f15 k.val v (ix1 p) = (f15 : S512.Idx → Elt F .f32) (ix1 p) := dif_neg h
    exact e.trans e2.symm

end Cert.Proof.KI

end
-- ==== Proof.KTrip.lean ====
/-
  One trip of a tile's task, from start to finish.

  A trip reads sixteen user-index words and sixteen item-index words from the staged lists, starts a copy of the
  table row each names into row `lane` of the user-row scratch and of the item-row scratch (eight lanes at a time, four
  copies on each of four semaphores, then as many waits), and only then reads the two scratches column by column to
  form the trip's vector (KTripVec), which it stores into sixteen consecutive entries of the output scratch.
  No row scratch is read or written while a copy into it is pending, and the two halves land in different rows, so
  what the columns read is what the copies brought, whatever the order the copies complete in.
-/
import proofs.«208244_g21053929685252_cont_8to1_1842_38_alg».proof.Proof.KTile0
import proofs.«208244_g21053929685252_cont_8to1_1842_38_alg».proof.Proof.KTripVec
import proofs.«208244_g21053929685252_cont_8to1_1842_38_alg».proof.Proof.KTripDefs
import proofs.«208244_g21053929685252_cont_8to1_1842_38_alg».proof.Proof.KLanded

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a2W" => (Memref.whole Cert.KernelIdeal.main_arg0_scv : Memref Cert.KernelIdeal.sig Kind.scVector Space.hbm Cert.KernelIdeal.S16384 EltTy.i32)
local notation "a3W" => (Memref.whole Cert.KernelIdeal.main_arg1_scv : Memref Cert.KernelIdeal.sig Kind.scVector Space.hbm Cert.KernelIdeal.S16384 EltTy.i32)
local notation "a4W" => (Memref.whole Cert.KernelIdeal.main_arg2_scv : Memref Cert.KernelIdeal.sig Kind.scVector Space.hbm Cert.KernelIdeal.S1000000x32 EltTy.f32)
local notation "a5W" => (Memref.whole Cert.KernelIdeal.main_arg3_scv : Memref Cert.KernelIdeal.sig Kind.scVector Space.hbm Cert.KernelIdeal.S1000000x32 EltTy.f32)
local notation "a6W" => (Memref.whole Cert.KernelIdeal.main_v3_scv : Memref Cert.KernelIdeal.sig Kind.scVector Space.hbm Cert.KernelIdeal.S512 EltTy.f32)
local notation "a7W" => (Memref.whole Cert.KernelIdeal.main_v5_scv : Memref Cert.KernelIdeal.sig Kind.scVector Space.hbm Cert.KernelIdeal.S16 EltTy.f32)
local notation "a8W" => (Memref.whole Cert.KernelIdeal.main_v6_scv : Memref Cert.KernelIdeal.sig Kind.scVector Space.hbm Cert.KernelIdeal.S16384 EltTy.f32)
local notation "s9W" => (Memref.whole Cert.KernelIdeal.cc0_scratch0 : Memref Cert.KernelIdeal.sig Kind.scVector Space.vmem Cert.KernelIdeal.S512 EltTy.i32)
local notation "s10W" => (Memref.whole Cert.KernelIdeal.cc0_scratch1 : Memref Cert.KernelIdeal.sig Kind.scVector Space.vmem Cert.KernelIdeal.S512 EltTy.i32)
local notation "s11W" => (Memref.whole Cert.KernelIdeal.cc0_scratch2 : Memref Cert.KernelIdeal.sig Kind.scVector Space.vmem Cert.KernelIdeal.S16x32 EltTy.f32)
local notation "s12W" => (Memref.whole Cert.KernelIdeal.cc0_scratch3 : Memref Cert.KernelIdeal.sig Kind.scVector Space.vmem Cert.KernelIdeal.S16x32 EltTy.f32)
local notation "s13W" => (Memref.whole Cert.KernelIdeal.cc0_scratch4 : Memref Cert.KernelIdeal.sig Kind.scVector Space.vmem Cert.KernelIdeal.S512 EltTy.f32)
local notation "s14W" => (Memref.whole Cert.KernelIdeal.cc0_scratch5 : Memref Cert.KernelIdeal.sig Kind.scVector Space.vmem Cert.KernelIdeal.S16 EltTy.f32)
local notation "s15W" => (Memref.whole Cert.KernelIdeal.cc0_scratch6 : Memref Cert.KernelIdeal.sig Kind.scVector Space.vmem Cert.KernelIdeal.S512 EltTy.f32)

variable [FloatOps F]

/-- A row number at most 999,999 leaves room for one whole row of 32 inside the table of 1,000,000 rows
    (stated twice: the task slices the same row for the copy and for its wait). -/
theorem rowsInb (v : BitVec 32) (h : v.toNat ≤ 999999) :
    (∀ a, (![v.toNat, 0] : Fin 2 → Nat) a + S1x32.size a ≤ S1000000x32.size a) ∧
    (∀ a, (![v.toNat, 0] : Fin 2 → Nat) a + S1x32.size a ≤ S1000000x32.size a) := by
  have key : ∀ a, (![v.toNat, 0] : Fin 2 → Nat) a + S1x32.size a ≤ S1000000x32.size a := by
    intro a
    match a with
    | ⟨0, _⟩ => show v.toNat + 1 ≤ 1000000; omega
    | ⟨1, _⟩ => show 0 + 32 ≤ 32; omega
  exact ⟨key, key⟩

/-- One entry picked out of a vector is one of the vector's entries: a bound on all of them bounds it. -/
theorem pick_le {B : Nat} (v : S16.Idx → BitVec 32) (hv : ∀ x, (v x).toNat ≤ B) (o : Fin 1 → Nat) (hs : S16.Slices o S1)
    (hp : ∀ a, (![0] : Fin 1 → Nat) a < S1.size a) :
    (extractAt ![0] (extractStridedSlice S1 o v hs) hp).toNat ≤ B :=
  hv _

section Trip

variable (d : Dev nD) (L : grid0.Coords)

omit [FloatOps F] in
theorem pts_acc11 (f : Buf (Elt F) ((s11W).view.loc (thrOf d L))) :
    (((s11W).view.loc (thrOf d L) ↦{fullShare} f : sProp 𝕄)) = ((((s11W).access (.whole S16x32)).loc (thrOf d L) ↦{fullShare} f : sProp 𝕄)) := rfl
omit [FloatOps F] in
theorem pts_acc12 (f : Buf (Elt F) ((s12W).view.loc (thrOf d L))) :
    (((s12W).view.loc (thrOf d L) ↦{fullShare} f : sProp 𝕄)) = ((((s12W).access (.whole S16x32)).loc (thrOf d L) ↦{fullShare} f : sProp 𝕄)) := rfl

omit [FloatOps F] in
/-- Holding a buffer at some contents is holding it at contents one may name. -/
theorem pts_name {ℓ : Loc nD τ sig} (q : PosShare TreeShare) (f : Buf (Elt F) ℓ) :
    (ℓ ↦{q} f : sProp 𝕄) ⊢ iprop(∃ g, ⌜g = f⌝ ∗ ℓ ↦{q} g) := by
  iintro H; iexists f
  isplitr
  · ipureintro; rfl
  · iexact H

omit [FloatOps F] in
/-- A vector read out of the staged user-index list consists of entries of the list. -/
theorem readAt9_le (u9 : Buf (Elt F) ((s9W).view.loc (thrOf d L))) (hu9 : ∀ j, (u9 j).toNat ≤ 999999) (r : LoadRect S512) :
    ∀ x, (View.readAt (Elt F) (s9W).view r u9 x).toNat ≤ 999999 := by
  intro x; rw [View.readAt_apply]; exact hu9 _
omit [FloatOps F] in
theorem readAt10_le (u10 : Buf (Elt F) ((s10W).view.loc (thrOf d L))) (hu10 : ∀ j, (u10 j).toNat ≤ 999999) (r : LoadRect S512) :
    ∀ x, (View.readAt (Elt F) (s10W).view r u10 x).toNat ≤ 999999 := by
  intro x; rw [View.readAt_apply]; exact hu10 _

omit [FloatOps F] in
/-- Recording one more wait at the kernel's own index keeps the record admissible. -/
theorem mem_ins {W W' : Waits sig (HIx 1)} {a : SemLoc sig × HIx 1} (ha : a.2 = none) (h : ∀ p ∈ W', p ∈ W ∨ p.2 = none) :
    ∀ p ∈ insert a W', p ∈ W ∨ p.2 = none :=
  fun p hp => (Finset.mem_insert.mp hp).elim (fun e => .inr (e ▸ ha)) (h p)

/-- The indexed read of the user-row scratch, held whole at `f`: the program goes on with `f` read at the index vectors. -/
theorem wp_vli11 {α : Type} {idxs : Fin S16x32.rank → IVec S16 32} {h : ∀ a x, (idxs a x).toNat < S16x32.size a} {hl : (s11W).view.Loads}
    {k : Vec F S16 .f32 → Prog (TpuEff nD τ sig (Elt F) Λ₀ (thrOf d L).2) α} {Q : α → sProp 𝕄} {q : PosShare TreeShare}
    {f : Buf (Elt F) (((s11W).access (.whole S16x32)).loc (thrOf d L))} :
    ((((s11W).access (.whole S16x32)).loc (thrOf d L) ↦{q} f) : sProp 𝕄)
      ⊢ iprop((((((s11W).access (.whole S16x32)).loc (thrOf d L) ↦{q} f))
          -∗ wp frame (wpE (defs₀ (F := F)) 𝒱₀ (thrOf d L) none) Set.univ (k (loadIdx f idxs h)) Q)
        -∗ wp frame (wpE (defs₀ (F := F)) 𝒱₀ (thrOf d L) none) Set.univ (SparseCore.vectorLoadIdx (s11W) idxs h hl >>= k) Q) := by
  have H := SparseCore.wp_vectorLoadIdx (F := F) (defs := defs₀ (F := F)) 𝒱₀ (thrOf d L) none Set.univ (base := s11W) (idxs := idxs) (h := h) (hl := hl)
    (k := k) (S := Finset.univ) (q := q) (f := f) (Q := Q) (Finset.subset_univ _)
  rw [Memref.read_access_whole] at H
  exact H

/-- The indexed read of the item-row scratch, held whole at `f`: the program goes on with `f` read at the index vectors. -/
theorem wp_vli12 {α : Type} {idxs : Fin S16x32.rank → IVec S16 32} {h : ∀ a x, (idxs a x).toNat < S16x32.size a} {hl : (s12W).view.Loads}
    {k : Vec F S16 .f32 → Prog (TpuEff nD τ sig (Elt F) Λ₀ (thrOf d L).2) α} {Q : α → sProp 𝕄} {q : PosShare TreeShare}
    {f : Buf (Elt F) (((s12W).access (.whole S16x32)).loc (thrOf d L))} :
    ((((s12W).access (.whole S16x32)).loc (thrOf d L) ↦{q} f) : sProp 𝕄)
      ⊢ iprop((((((s12W).access (.whole S16x32)).loc (thrOf d L) ↦{q} f))
          -∗ wp frame (wpE (defs₀ (F := F)) 𝒱₀ (thrOf d L) none) Set.univ (k (loadIdx f idxs h)) Q)
        -∗ wp frame (wpE (defs₀ (F := F)) 𝒱₀ (thrOf d L) none) Set.univ (SparseCore.vectorLoadIdx (s12W) idxs h hl >>= k) Q) := by
  have H := SparseCore.wp_vectorLoadIdx (F := F) (defs := defs₀ (F := F)) 𝒱₀ (thrOf d L) none Set.univ (base := s12W) (idxs := idxs) (h := h) (hl := hl)
    (k := k) (S := Finset.univ) (q := q) (f := f) (Q := Q) (Finset.subset_univ _)
  rw [Memref.read_access_whole] at H
  exact H

set_option hygiene false in
/-- One column: its check, then the two indexed reads, each through the scratch held whole. -/
macro "col_step" : tactic => `(tactic| (
  first | sl_exec (disch := first | exact ⟨colIdx_inb _ (by decide), colIdx_inb _ (by decide)⟩) | skip
  ihave H11' := (Entails.of_eq (pts_acc11 (F := F) d L _)) $$ H11
  first
    | iapply (wp_vli11 (F := F) d L) $$ H11'
    | (rw [wp_bind]; iapply (wp_vli11 (F := F) d L) $$ H11')
  iintro H11'
  ihave H11 := (Entails.of_eq (pts_acc11 (F := F) d L _).symm) $$ H11'
  ihave H12' := (Entails.of_eq (pts_acc12 (F := F) d L _)) $$ H12
  first
    | iapply (wp_vli12 (F := F) d L) $$ H12'
    | (rw [wp_bind]; iapply (wp_vli12 (F := F) d L) $$ H12')
  iintro H12'
  ihave H12 := (Entails.of_eq (pts_acc12 (F := F) d L _).symm) $$ H12'))

set_option maxHeartbeats 8000000 in
/-- One trip of the task (KTripDefs: `TripRun`). -/
theorem trip : TripRun (F := F) d L := by
  intro k O W u9 u10 hu9 hu10 f4 f5 q4 q5 f15 bias w
  have _p16 : Transfers.BatchOf (thrOf d L) (SemLoc.dma (sig := sig) cc0_scratch7.sem) 4 (windows := true) := trivial
  have _p17 : Transfers.BatchOf (thrOf d L) (SemLoc.dma (sig := sig) cc0_scratch8.sem) 4 (windows := true) := trivial
  have _p18 : Transfers.BatchOf (thrOf d L) (SemLoc.dma (sig := sig) cc0_scratch9.sem) 4 (windows := true) := trivial
  have _p19 : Transfers.BatchOf (thrOf d L) (SemLoc.dma (sig := sig) cc0_scratch10.sem) 4 (windows := true) := trivial
  unfold k0_t1_body
  rw [k0_part18_eq_skeleton]; unfold k0_part18_skel
  iintro ⟨Hmw, H9, H10, ⟨%f11, H11⟩, ⟨%f12, H12⟩, H4_0, H4_1, H4_2, H4_3, H4_4, H4_5, H4_6, H4_7, H5_0, H5_1, H5_2, H5_3, H5_4, H5_5, H5_6, H5_7, Hs16, Hs17, Hs18, Hs19, H15, HO⟩
  sl_exec (disch := first
    | (refine rowsInb _ ?_; exact readAt9_le d L u9 hu9 _ _)
    | (refine rowsInb _ ?_; exact readAt10_le d L u10 hu10 _ _)
    | (refine (rowsInb _ ?_).1; exact readAt9_le d L u9 hu9 _ _)
    | (refine (rowsInb _ ?_).1; exact readAt10_le d L u10 hu10 _ _))
  ihave Hg := (pts_name (F := F) _ _) $$ H11
  icases Hg with ⟨%g11, %hg11, H11⟩
  ihave Hg := (pts_name (F := F) _ _) $$ H12
  icases Hg with ⟨%g12, %hg12, H12⟩
  col_step
  col_step
  col_step
  col_step
  col_step
  col_step
  col_step
  col_step
  col_step
  col_step
  col_step
  col_step
  col_step
  col_step
  col_step
  col_step
  col_step
  col_step
  col_step
  col_step
  col_step
  col_step
  col_step
  col_step
  col_step
  col_step
  col_step
  col_step
  col_step
  col_step
  col_step
  col_step
  first | sl_exec | skip
  sl_step
  have er : trip.sl.r_10 d L bias w g11 g12 = tripVec bias w g11 g12 := rfl
  have e11 : g11 = rowsOf f4 u9 k.val := hg11.trans (landed_user f4 f11 u9 hu9 k)
  have e12 : g12 = rowsOf f5 u10 k.val := hg12.trans (landed_item f5 f12 u10 hu10 k)
  have e15 : (s15W).view.writes (Elt F) f15 [⟨Rect.unit (s := S512) (k0_off65 k) S16.size (k0_off65_inb k), trip.sl.r_10 d L bias w g11 g12⟩]
      = stored f15 k.val (tripVec bias w (rowsOf f4 u9 k.val) (rowsOf f5 u10 k.val)) := by
    rw [er, ← e11, ← e12]; exact stored_eq f15 k _
  isplitl [Hmw]; · iexact Hmw
  isplitl [H9]; · iexact H9
  isplitl [H10]; · iexact H10
  isplitl [H11]; · iexists _; iexact H11
  isplitl [H12]; · iexists _; iexact H12
  isplitl [H4_0]; · iexact H4_0
  isplitl [H4_1]; · iexact H4_1
  isplitl [H4_2]; · iexact H4_2
  isplitl [H4_3]; · iexact H4_3
  isplitl [H4_4]; · iexact H4_4
  isplitl [H4_5]; · iexact H4_5
  isplitl [H4_6]; · iexact H4_6
  isplitl [H4_7]; · iexact H4_7
  isplitl [H5_0]; · iexact H5_0
  isplitl [H5_1]; · iexact H5_1
  isplitl [H5_2]; · iexact H5_2
  isplitl [H5_3]; · iexact H5_3
  isplitl [H5_4]; · iexact H5_4
  isplitl [H5_5]; · iexact H5_5
  isplitl [H5_6]; · iexact H5_6
  isplitl [H5_7]; · iexact H5_7
  isplitl [Hs16]; · iexact Hs16
  isplitl [Hs17]; · iexact Hs17
  isplitl [Hs18]; · iexact Hs18
  isplitl [Hs19]; · iexact Hs19
  isplitl [H15]
  · iapply (Entails.of_eq (congrArg (fun g => (((s15W).view.loc (thrOf d L) ↦{fullShare} g) : sProp 𝕄)) e15)); iexact H15
  iexists _; isplitr
  rotate_left
  · iexact HO
  · ipureintro
    repeat (refine mem_ins rfl ?_)
    exact fun p hp => Or.inl hp

end Trip

end Cert.Proof.KI

end
-- ==== Proof.WTripDefs.lean ====
/-
  What one trip of a tile's task does, as a statement.

  Before a trip the tile holds its two staged index lists, its two row scratches (at whatever they hold), eight read
  shares of each table, its four copy semaphores at zero and its output scratch. After it the same, with sixteen
  consecutive entries of the output scratch (from `16 k`) overwritten by the trip's vector over the rows the staged
  index words `16 k … 16 k + 15` name.
-/
import proofs.«208244_g21053929685252_cont_8to1_1842_38_alg».proof.Proof.WTile0
import proofs.«208244_g21053929685252_cont_8to1_1842_38_alg».proof.Proof.WTripVec
import proofs.«208244_g21053929685252_cont_8to1_1842_38_alg».proof.Proof.Spec

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

local notation "a2W" => (Memref.whole Cert.Kernel.main_arg0_scv : Memref Cert.Kernel.sig Kind.scVector Space.hbm Cert.Kernel.S16384 EltTy.i32)
local notation "a3W" => (Memref.whole Cert.Kernel.main_arg1_scv : Memref Cert.Kernel.sig Kind.scVector Space.hbm Cert.Kernel.S16384 EltTy.i32)
local notation "a4W" => (Memref.whole Cert.Kernel.main_arg2_scv : Memref Cert.Kernel.sig Kind.scVector Space.hbm Cert.Kernel.S1000000x32 EltTy.f32)
local notation "a5W" => (Memref.whole Cert.Kernel.main_arg3_scv : Memref Cert.Kernel.sig Kind.scVector Space.hbm Cert.Kernel.S1000000x32 EltTy.f32)
local notation "a6W" => (Memref.whole Cert.Kernel.main_v3_scv : Memref Cert.Kernel.sig Kind.scVector Space.hbm Cert.Kernel.S512 EltTy.f32)
local notation "a7W" => (Memref.whole Cert.Kernel.main_v5_scv : Memref Cert.Kernel.sig Kind.scVector Space.hbm Cert.Kernel.S16 EltTy.f32)
local notation "a8W" => (Memref.whole Cert.Kernel.main_v6_scv : Memref Cert.Kernel.sig Kind.scVector Space.hbm Cert.Kernel.S16384 EltTy.f32)
local notation "s9W" => (Memref.whole Cert.Kernel.cc0_scratch0 : Memref Cert.Kernel.sig Kind.scVector Space.vmem Cert.Kernel.S512 EltTy.i32)
local notation "s10W" => (Memref.whole Cert.Kernel.cc0_scratch1 : Memref Cert.Kernel.sig Kind.scVector Space.vmem Cert.Kernel.S512 EltTy.i32)
local notation "s11W" => (Memref.whole Cert.Kernel.cc0_scratch2 : Memref Cert.Kernel.sig Kind.scVector Space.vmem Cert.Kernel.S16x32 EltTy.f32)
local notation "s12W" => (Memref.whole Cert.Kernel.cc0_scratch3 : Memref Cert.Kernel.sig Kind.scVector Space.vmem Cert.Kernel.S16x32 EltTy.f32)
local notation "s13W" => (Memref.whole Cert.Kernel.cc0_scratch4 : Memref Cert.Kernel.sig Kind.scVector Space.vmem Cert.Kernel.S512 EltTy.f32)
local notation "s14W" => (Memref.whole Cert.Kernel.cc0_scratch5 : Memref Cert.Kernel.sig Kind.scVector Space.vmem Cert.Kernel.S16 EltTy.f32)
local notation "s15W" => (Memref.whole Cert.Kernel.cc0_scratch6 : Memref Cert.Kernel.sig Kind.scVector Space.vmem Cert.Kernel.S512 EltTy.f32)

variable [FloatOps F]

/-- A read share cut off a tile's share of a table: the `j`-th of eight, one per row copy that can be in flight. -/
def sub (q : PosShare TreeShare) (j : Nat) : PosShare TreeShare := Transfers.shareTokN q j

/-- The sixteen rows trip `k` fetches out of a table holding `f` through the staged index list `u`: lane `r`,
    column `c` holds `f (row named by u (16 k + r), c)`. -/
def rowsOf (f : FVec F S1000000x32 .f32) (u : IVec S512 32) (k : Nat) : FVec F S16x32 .f32 :=
  fun j => f (ix2 (Cert.Proof.Spec.rowOf (u (ix1 ⟨(16 * k + (j 0).val) % 512, Nat.mod_lt _ (by decide)⟩))) (j 1))

/-- The output scratch after trip `k` stored the vector `v`: entries `16 k … 16 k + 15` are `v`'s, the rest as before. -/
def stored (f15 : FVec F S512 .f32) (k : Nat) (v : FVec F S16 .f32) : FVec F S512 .f32 :=
  fun j => if h : 16 * k ≤ (j 0).val ∧ (j 0).val < 16 * k + 16 then v (ix1 ⟨(j 0).val - 16 * k, by omega⟩) else f15 j

/-- One trip, run: from the tile's holdings before it to its holdings after it (see the header). The staged index
    lists' words all name table rows (`hu9`, `hu10`); the four copy semaphores carry four copies at a time. -/
abbrev TripRun (d : Dev nD) (L : grid0.Coords) : Prop :=
  ∀ (k : Fin k0_t1_loop.trips) (O : CellTallies nD τ sig (HIx 1)) (W : Waits sig (HIx 1))
    (u9 : Buf (Elt F) ((s9W).view.loc (thrOf d L))) (u10 : Buf (Elt F) ((s10W).view.loc (thrOf d L)))
    (_hu9 : ∀ j, (u9 j).toNat ≤ 999999) (_hu10 : ∀ j, (u10 j).toNat ≤ 999999)
    (f4 : Buf (Elt F) ((a4W).view.loc (thrOf d L))) (f5 : Buf (Elt F) ((a5W).view.loc (thrOf d L)))
    (q4 q5 : PosShare TreeShare)
    (f15 : Buf (Elt F) ((s15W).view.loc (thrOf d L)))
    (bias : Vec F S16 .f32) (w : Nat → Vec F S16 .f32),
    iprop(Transfers.MayWaits (thrOf d L) (none : HIx 1) O
        ∗ ((s9W).view.loc (thrOf d L) ↦{fullShare} u9) ∗ ((s10W).view.loc (thrOf d L) ↦{fullShare} u10)
        ∗ (∃ f, (s11W).view.loc (thrOf d L) ↦{fullShare} f) ∗ (∃ f, (s12W).view.loc (thrOf d L) ↦{fullShare} f)
        ∗ ((a4W).view.loc (thrOf d L) ↦{sub q4 0} f4) ∗ ((a4W).view.loc (thrOf d L) ↦{sub q4 1} f4) ∗ ((a4W).view.loc (thrOf d L) ↦{sub q4 2} f4) ∗ ((a4W).view.loc (thrOf d L) ↦{sub q4 3} f4) ∗ ((a4W).view.loc (thrOf d L) ↦{sub q4 4} f4) ∗ ((a4W).view.loc (thrOf d L) ↦{sub q4 5} f4) ∗ ((a4W).view.loc (thrOf d L) ↦{sub q4 6} f4) ∗ ((a4W).view.loc (thrOf d L) ↦{sub q4 7} f4)
        ∗ ((a5W).view.loc (thrOf d L) ↦{sub q5 0} f5) ∗ ((a5W).view.loc (thrOf d L) ↦{sub q5 1} f5) ∗ ((a5W).view.loc (thrOf d L) ↦{sub q5 2} f5) ∗ ((a5W).view.loc (thrOf d L) ↦{sub q5 3} f5) ∗ ((a5W).view.loc (thrOf d L) ↦{sub q5 4} f5) ∗ ((a5W).view.loc (thrOf d L) ↦{sub q5 5} f5) ∗ ((a5W).view.loc (thrOf d L) ↦{sub q5 6} f5) ∗ ((a5W).view.loc (thrOf d L) ↦{sub q5 7} f5)
        ∗ semVal (thrOf d L, SemLoc.dma cc0_scratch7.sem) 0 ∗ semVal (thrOf d L, SemLoc.dma cc0_scratch8.sem) 0
        ∗ semVal (thrOf d L, SemLoc.dma cc0_scratch9.sem) 0 ∗ semVal (thrOf d L, SemLoc.dma cc0_scratch10.sem) 0
        ∗ ((s15W).view.loc (thrOf d L) ↦{fullShare} f15)
        ∗ owes (thrOf d L) O W : sProp 𝕄)
      ⊢ wp frame (wpE (defs₀ (F := F)) 𝒱₀ (thrOf d L) none) Set.univ
          (k0_t1_body (F := F) L a2W (Memref.isWhole_whole _) a3W (Memref.isWhole_whole _) a4W (Memref.isWhole_whole _) a5W (Memref.isWhole_whole _)
            a6W (Memref.isWhole_whole _) a7W (Memref.isWhole_whole _) a8W (Memref.isWhole_whole _)
            s9W (Memref.isWhole_whole _) s10W (Memref.isWhole_whole _) s11W (Memref.isWhole_whole _) s12W (Memref.isWhole_whole _)
            s13W (Memref.isWhole_whole _) s14W (Memref.isWhole_whole _) s15W (Memref.isWhole_whole _)
            cc0_scratch7 cc0_scratch8 cc0_scratch9 cc0_scratch10 cc0_scoped0 cc0_scoped1 cc0_scoped2 cc0_scoped3 cc0_scoped4 bias (w 0) (w 1) (w 2) (w 3) (w 4) (w 5) (w 6) (w 7) (w 8) (w 9) (w 10) (w 11) (w 12) (w 13) (w 14) (w 15) (w 16) (w 17) (w 18) (w 19) (w 20) (w 21) (w 22) (w 23) (w 24) (w 25) (w 26) (w 27) (w 28) (w 29) (w 30) (w 31) lanes k ⟨⟩)
          (fun _ => iprop(Transfers.MayWaits (thrOf d L) (none : HIx 1) O
        ∗ ((s9W).view.loc (thrOf d L) ↦{fullShare} u9) ∗ ((s10W).view.loc (thrOf d L) ↦{fullShare} u10)
        ∗ (∃ f, (s11W).view.loc (thrOf d L) ↦{fullShare} f) ∗ (∃ f, (s12W).view.loc (thrOf d L) ↦{fullShare} f)
        ∗ ((a4W).view.loc (thrOf d L) ↦{sub q4 0} f4) ∗ ((a4W).view.loc (thrOf d L) ↦{sub q4 1} f4) ∗ ((a4W).view.loc (thrOf d L) ↦{sub q4 2} f4) ∗ ((a4W).view.loc (thrOf d L) ↦{sub q4 3} f4) ∗ ((a4W).view.loc (thrOf d L) ↦{sub q4 4} f4) ∗ ((a4W).view.loc (thrOf d L) ↦{sub q4 5} f4) ∗ ((a4W).view.loc (thrOf d L) ↦{sub q4 6} f4) ∗ ((a4W).view.loc (thrOf d L) ↦{sub q4 7} f4)
        ∗ ((a5W).view.loc (thrOf d L) ↦{sub q5 0} f5) ∗ ((a5W).view.loc (thrOf d L) ↦{sub q5 1} f5) ∗ ((a5W).view.loc (thrOf d L) ↦{sub q5 2} f5) ∗ ((a5W).view.loc (thrOf d L) ↦{sub q5 3} f5) ∗ ((a5W).view.loc (thrOf d L) ↦{sub q5 4} f5) ∗ ((a5W).view.loc (thrOf d L) ↦{sub q5 5} f5) ∗ ((a5W).view.loc (thrOf d L) ↦{sub q5 6} f5) ∗ ((a5W).view.loc (thrOf d L) ↦{sub q5 7} f5)
        ∗ semVal (thrOf d L, SemLoc.dma cc0_scratch7.sem) 0 ∗ semVal (thrOf d L, SemLoc.dma cc0_scratch8.sem) 0
        ∗ semVal (thrOf d L, SemLoc.dma cc0_scratch9.sem) 0 ∗ semVal (thrOf d L, SemLoc.dma cc0_scratch10.sem) 0
        ∗ ((s15W).view.loc (thrOf d L) ↦{fullShare} stored f15 k.val (tripVec bias w (rowsOf f4 u9 k.val) (rowsOf f5 u10 k.val)))
        ∗ ∃ W', ⌜∀ p ∈ W', p ∈ W ∨ p.2 = none⌝ ∗ owes (thrOf d L) O W'))

end Cert.Proof.KW

end
-- ==== Proof.WFill.lean ====
/-
  One trip fills sixteen more entries of a tile's piece of the expected result.

  A tile works on piece `w` of the batch (entries `512 w … 512 w + 511`) through staged copies of its pieces of the
  two index lists: staged entry `j` is entry `512 w + j` of the list.  Trip `k` fetches the rows the staged
  entries `16 k … 16 k + 15` name; those are the rows batch entries `512 w + 16 k + r` name, which is what the
  expected result's piece `w`, trip `k` is stated over (`rowsOf_eq_rowsAt`).  Batch entry `512 w + 16 k + l` lies in
  piece `w`, trip `k`, lane `l` — `(512 w + 16 k + l) / 512 = w`, `((512 w + 16 k + l) % 512) / 16 = k`,
  `(512 w + 16 k + l) % 16 = l`, since `16 k + l < 512` and `l < 16` — so the expected result there is that trip's
  vector at lane `l` (`outVec_at`, `trip_value`).  An output scratch that agrees with a target below `16 k`, once
  trip `k` has stored a vector agreeing with the target at `16 k … 16 k + 15`, agrees with it below `16 (k + 1)`
  (`stored_fills`); with the target the tile's piece of the expected result, that is the step from one trip to
  the next (`filled_step`).  Nothing here uses a law of the arithmetic: every statement holds at every float
  instance.
-/
import proofs.«208244_g21053929685252_cont_8to1_1842_38_alg».proof.Proof.WTripDefs
import proofs.«208244_g21053929685252_cont_8to1_1842_38_alg».proof.Proof.WOut
import Idealize.ShloMosaic.Lib.ValueIdx

noncomputable section

namespace Cert.Proof.KW

open Cert.Kernel Cert.Kernel.Gen
open Idealize.ShloMosaic Idealize.ShloMosaic.ValueIdx

variable {F : FTy → Type} [FloatOps F]

/-- The rows trip `k` fetches through the staged copy `u` of piece `w` of an index list are the rows the expected
    result's piece `w`, trip `k` is stated over: staged entry `16 k + r` is list entry `512 w + 16 k + r`. -/
theorem rowsOf_eq_rowsAt (tab : FVec F S1000000x32 .f32) (idx : IVec S16384 32) (u : IVec S512 32) (w : Fin 32) (k : Fin 32)
    (hu : ∀ j : Fin 512, u (ix1 j) = idx (ix1 ⟨512 * w.val + j.val, by omega⟩)) :
    rowsOf tab u k.val = rowsAt tab idx w k := by
  funext j
  obtain ⟨r, c, rfl⟩ : ∃ (r : Fin 16) (c : Fin 32), j = ix2 r c := ⟨j 0, j 1, eq_ix2 j⟩
  have hJ : (16 * k.val + r.val) % 512 < 512 := Nat.mod_lt _ (by decide)
  have hP : (512 * w.val + 16 * k.val + r.val) % 16384 < 16384 := Nat.mod_lt _ (by decide)
  show tab (ix2 (Cert.Proof.Spec.rowOf (u (ix1 (⟨(16 * k.val + r.val) % 512, hJ⟩ : Fin 512)))) c)
      = tab (ix2 (Cert.Proof.Spec.rowOf (idx (ix1 (⟨(512 * w.val + 16 * k.val + r.val) % 16384, hP⟩ : Fin 16384)))) c)
  rw [hu ⟨(16 * k.val + r.val) % 512, hJ⟩]
  refine congrArg (fun q : Fin 16384 => tab (ix2 (Cert.Proof.Spec.rowOf (idx (ix1 q))) c)) (Fin.ext ?_)
  show 512 * w.val + (16 * k.val + r.val) % 512 = (512 * w.val + 16 * k.val + r.val) % 16384
  omega

/-- Batch entry `512 w + 16 k + l` is lane `l` of trip `k` of piece `w`: the expected result there is that trip's
    vector at that lane. -/
theorem outVec_at (iu ii : IVec S16384 32) (ut it : FVec F S1000000x32 .f32) (wb : FVec F S512 .f32) (bv : FVec F S16 .f32)
    (w k : Fin 32) (l : Fin 16) :
    outVec iu ii ut it wb bv (ix1 ⟨512 * w.val + 16 * k.val + l.val, by omega⟩) = outAt iu ii ut it wb bv w k (ix1 l) := by
  have hA : (512 * w.val + 16 * k.val + l.val) / 512 < 32 := by omega
  have hB : (512 * w.val + 16 * k.val + l.val) % 512 / 16 < 32 := by omega
  have hC : (512 * w.val + 16 * k.val + l.val) % 16 < 16 := Nat.mod_lt _ (by decide)
  have e1 : (⟨(512 * w.val + 16 * k.val + l.val) / 512, hA⟩ : Fin 32) = w := Fin.ext (by
    show (512 * w.val + 16 * k.val + l.val) / 512 = w.val
    omega)
  have e2 : (⟨(512 * w.val + 16 * k.val + l.val) % 512 / 16, hB⟩ : Fin 32) = k := Fin.ext (by
    show (512 * w.val + 16 * k.val + l.val) % 512 / 16 = k.val
    omega)
  have e3 : (⟨(512 * w.val + 16 * k.val + l.val) % 16, hC⟩ : Fin 16) = l := Fin.ext (by
    show (512 * w.val + 16 * k.val + l.val) % 16 = l.val
    omega)
  show outAt iu ii ut it wb bv ⟨(512 * w.val + 16 * k.val + l.val) / 512, hA⟩
      ⟨(512 * w.val + 16 * k.val + l.val) % 512 / 16, hB⟩ (ix1 (⟨(512 * w.val + 16 * k.val + l.val) % 16, hC⟩ : Fin 16)) = _
  rw [e1, e2, e3]

/-- An output scratch that agrees with `G` below `16 k`, after trip `k` stores a vector that agrees with `G` at
    `16 k … 16 k + 15`, agrees with `G` below `16 (k + 1)`. -/
theorem stored_fills (f15 : FVec F S512 .f32) (k : Fin 32) (v : FVec F S16 .f32) (G : FVec F S512 .f32)
    (hprev : ∀ j : Fin 512, j.val < 16 * k.val → f15 (ix1 j) = G (ix1 j))
    (hv : ∀ l : Fin 16, v (ix1 l) = G (ix1 ⟨16 * k.val + l.val, by omega⟩)) :
    ∀ j : Fin 512, j.val < 16 * (k.val + 1) → stored f15 k.val v (ix1 j) = G (ix1 j) := by
  intro j hj
  by_cases h : 16 * k.val ≤ j.val ∧ j.val < 16 * k.val + 16
  · have hl : j.val - 16 * k.val < 16 := by omega
    have e : stored f15 k.val v (ix1 j) = v (ix1 (⟨j.val - 16 * k.val, hl⟩ : Fin 16)) := dif_pos h
    rw [e, hv ⟨j.val - 16 * k.val, hl⟩]
    refine congrArg (fun q : Fin 512 => G (ix1 q)) (Fin.ext ?_)
    show 16 * k.val + (j.val - 16 * k.val) = j.val
    omega
  · have e : stored f15 k.val v (ix1 j) = f15 (ix1 j) := dif_neg h
    rw [e]
    exact hprev j (by omega)

/-! ## The step, over a tile's piece of the expected array -/

variable (m : (ℓ : Loc nD τ sig) → Buf (Elt F) ℓ)
variable (wbf : (d : Dev nD) → Buf (Elt F) (locW d)) (bsf : (d : Dev nD) → Buf (Elt F) (locB d))

/-- Trip `k`'s vector over the rows fetched through the tile's staged index lists is, lane by lane, the expected
    result at the tile's piece, entries `16 k … 16 k + 15`. -/
theorem trip_value (d : Dev nD) (L : grid0.Coords) (u9 u10 : IVec S512 32)
    (hu9eq : ∀ j : Fin 512, u9 (ix1 j) = m (loc0 d) (ix1 ⟨512 * (widL L).val + j.val, by omega⟩))
    (hu10eq : ∀ j : Fin 512, u10 (ix1 j) = m (loc1 d) (ix1 ⟨512 * (widL L).val + j.val, by omega⟩))
    (k : Fin 32) (l : Fin 16) :
    tripVec (bsf d) (wOf (wbf d)) (rowsOf (m (loc2 d)) u9 k.val) (rowsOf (m (loc3 d)) u10 k.val) (ix1 l)
      = OUT m wbf bsf d (ix1 ⟨512 * (widL L).val + 16 * k.val + l.val, by omega⟩) := by
  rw [rowsOf_eq_rowsAt (m (loc2 d)) (m (loc0 d)) u9 (widL L) k hu9eq,
    rowsOf_eq_rowsAt (m (loc3 d)) (m (loc1 d)) u10 (widL L) k hu10eq]
  exact (outVec_at (m (loc0 d)) (m (loc1 d)) (m (loc2 d)) (m (loc3 d)) (wbf d) (bsf d) (widL L) k l).symm

/-- From one trip to the next: if the output scratch agrees with the tile's piece of the expected result below
    `16 k`, then after trip `k` has stored its vector it agrees below `16 (k + 1)`. -/
theorem filled_step (d : Dev nD) (L : grid0.Coords) (u9 u10 : IVec S512 32)
    (hu9eq : ∀ j : Fin 512, u9 (ix1 j) = m (loc0 d) (ix1 ⟨512 * (widL L).val + j.val, by omega⟩))
    (hu10eq : ∀ j : Fin 512, u10 (ix1 j) = m (loc1 d) (ix1 ⟨512 * (widL L).val + j.val, by omega⟩))
    (k : Fin 32) (f15 : FVec F S512 .f32)
    (hprev : ∀ j : Fin 512, j.val < 16 * k.val →
      f15 (ix1 j) = OUT m wbf bsf d (ix1 ⟨512 * (widL L).val + j.val, by omega⟩)) :
    ∀ j : Fin 512, j.val < 16 * (k.val + 1) →
      stored f15 k.val (tripVec (bsf d) (wOf (wbf d)) (rowsOf (m (loc2 d)) u9 k.val) (rowsOf (m (loc3 d)) u10 k.val)) (ix1 j)
        = OUT m wbf bsf d (ix1 ⟨512 * (widL L).val + j.val, by omega⟩) := by
  have key := stored_fills f15 k
    (tripVec (bsf d) (wOf (wbf d)) (rowsOf (m (loc2 d)) u9 k.val) (rowsOf (m (loc3 d)) u10 k.val))
    (fun x : S512.Idx => OUT m wbf bsf d (ix1 ⟨512 * (widL L).val + (x 0).val, by
      have h : (x 0).val < 512 := (x 0).isLt
      omega⟩))
    hprev
    (fun l => (trip_value m wbf bsf d L u9 u10 hu9eq hu10eq k l).trans
      (congrArg (fun q : Fin 16384 => OUT m wbf bsf d (ix1 q)) (Fin.ext (by
        show 512 * (widL L).val + 16 * k.val + l.val = 512 * (widL L).val + (16 * k.val + l.val)
        omega))))
  exact key

end Cert.Proof.KW

end
-- ==== Proof.WBody.lean ====
/-
  A tile's task, run: the staging copies, the 32 trips, the write-back.

  The task first copies the tile's piece of each index list into a scratch, and the stretched weight vector and the
  stretched bias into two more; it reads the bias and the 32 weight columns out of those; then 32 trips, each
  computing sixteen entries of the output scratch (one trip's run is taken as a hypothesis); then it copies the
  output scratch into the tile's piece of the result array. Around the trips the argument is bookkeeping: which
  array the task's memrefs name, that the staged index words are the piece's (so name table rows, by the
  precondition), that after trip k the first 16 k entries of the output scratch are the expected ones.
-/
import proofs.«208244_g21053929685252_cont_8to1_1842_38_alg».proof.Proof.WObl
import proofs.«208244_g21053929685252_cont_8to1_1842_38_alg».proof.Proof.WTripDefs
import proofs.«208244_g21053929685252_cont_8to1_1842_38_alg».proof.Proof.WOut
import proofs.«208244_g21053929685252_cont_8to1_1842_38_alg».proof.Proof.WTile0
import proofs.«208244_g21053929685252_cont_8to1_1842_38_alg».proof.Proof.WFill
import proofs.«208244_g21053929685252_cont_8to1_1842_38_alg».proof.Proof.Gen.Kernel.Skeleton

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ

local notation "a2W" => (Memref.whole Cert.Kernel.main_arg0_scv : Memref Cert.Kernel.sig Kind.scVector Space.hbm Cert.Kernel.S16384 EltTy.i32)
local notation "a3W" => (Memref.whole Cert.Kernel.main_arg1_scv : Memref Cert.Kernel.sig Kind.scVector Space.hbm Cert.Kernel.S16384 EltTy.i32)
local notation "a4W" => (Memref.whole Cert.Kernel.main_arg2_scv : Memref Cert.Kernel.sig Kind.scVector Space.hbm Cert.Kernel.S1000000x32 EltTy.f32)
local notation "a5W" => (Memref.whole Cert.Kernel.main_arg3_scv : Memref Cert.Kernel.sig Kind.scVector Space.hbm Cert.Kernel.S1000000x32 EltTy.f32)
local notation "a6W" => (Memref.whole Cert.Kernel.main_v3_scv : Memref Cert.Kernel.sig Kind.scVector Space.hbm Cert.Kernel.S512 EltTy.f32)
local notation "a7W" => (Memref.whole Cert.Kernel.main_v5_scv : Memref Cert.Kernel.sig Kind.scVector Space.hbm Cert.Kernel.S16 EltTy.f32)
local notation "a8W" => (Memref.whole Cert.Kernel.main_v6_scv : Memref Cert.Kernel.sig Kind.scVector Space.hbm Cert.Kernel.S16384 EltTy.f32)
local notation "s9W" => (Memref.whole Cert.Kernel.cc0_scratch0 : Memref Cert.Kernel.sig Kind.scVector Space.vmem Cert.Kernel.S512 EltTy.i32)
local notation "s10W" => (Memref.whole Cert.Kernel.cc0_scratch1 : Memref Cert.Kernel.sig Kind.scVector Space.vmem Cert.Kernel.S512 EltTy.i32)
local notation "s11W" => (Memref.whole Cert.Kernel.cc0_scratch2 : Memref Cert.Kernel.sig Kind.scVector Space.vmem Cert.Kernel.S16x32 EltTy.f32)
local notation "s12W" => (Memref.whole Cert.Kernel.cc0_scratch3 : Memref Cert.Kernel.sig Kind.scVector Space.vmem Cert.Kernel.S16x32 EltTy.f32)
local notation "s13W" => (Memref.whole Cert.Kernel.cc0_scratch4 : Memref Cert.Kernel.sig Kind.scVector Space.vmem Cert.Kernel.S512 EltTy.f32)
local notation "s14W" => (Memref.whole Cert.Kernel.cc0_scratch5 : Memref Cert.Kernel.sig Kind.scVector Space.vmem Cert.Kernel.S16 EltTy.f32)
local notation "s15W" => (Memref.whole Cert.Kernel.cc0_scratch6 : Memref Cert.Kernel.sig Kind.scVector Space.vmem Cert.Kernel.S512 EltTy.f32)

variable (m : (ℓ : Loc nD τ sig) → Buf (Elt F) ℓ)
variable (wbf : (d : Dev nD) → Buf (Elt F) (locW d)) (bsf : (d : Dev nD) → Buf (Elt F) (locB d))

variable [FloatOps F]

/-! ## Small facts about holdings -/

omit [FloatOps F] in
/-- Contents may be given a name, with the equation kept. -/
theorem pts_namedHeld {ℓ : Loc nD τ sig} {I : Finset (Idx ℓ)} (q : PosShare TreeShare) (f : Buf (Elt F) ℓ) :
    (ℓ ↦[I]{q} f : sProp 𝕄) ⊢ iprop(∃ g, ⌜g = f⌝ ∗ ℓ ↦[I]{q} g) := by
  iintro H
  iexists f
  isplitr
  · ipureintro; rfl
  · iexact H

omit [FloatOps F] in
theorem pts_s9 (d : Dev nD) (L : grid0.Coords) (f : Buf (Elt F) ((thrOf d L).loc cc0_scratch0)) :
    ((thrOf d L).loc cc0_scratch0 ↦{fullShare} f : sProp 𝕄) = (s9W).view.loc (thrOf d L) ↦{fullShare} f := rfl
omit [FloatOps F] in
theorem pts_s10 (d : Dev nD) (L : grid0.Coords) (f : Buf (Elt F) ((thrOf d L).loc cc0_scratch1)) :
    ((thrOf d L).loc cc0_scratch1 ↦{fullShare} f : sProp 𝕄) = (s10W).view.loc (thrOf d L) ↦{fullShare} f := rfl
omit [FloatOps F] in
theorem pts_s11 (d : Dev nD) (L : grid0.Coords) (f : Buf (Elt F) ((thrOf d L).loc cc0_scratch2)) :
    ((thrOf d L).loc cc0_scratch2 ↦{fullShare} f : sProp 𝕄) = (s11W).view.loc (thrOf d L) ↦{fullShare} f := rfl
omit [FloatOps F] in
theorem pts_s12 (d : Dev nD) (L : grid0.Coords) (f : Buf (Elt F) ((thrOf d L).loc cc0_scratch3)) :
    ((thrOf d L).loc cc0_scratch3 ↦{fullShare} f : sProp 𝕄) = (s12W).view.loc (thrOf d L) ↦{fullShare} f := rfl
omit [FloatOps F] in
theorem pts_s13 (d : Dev nD) (L : grid0.Coords) (f : Buf (Elt F) ((thrOf d L).loc cc0_scratch4)) :
    ((thrOf d L).loc cc0_scratch4 ↦{fullShare} f : sProp 𝕄) = (s13W).view.loc (thrOf d L) ↦{fullShare} f := rfl
omit [FloatOps F] in
theorem pts_s14 (d : Dev nD) (L : grid0.Coords) (f : Buf (Elt F) ((thrOf d L).loc cc0_scratch5)) :
    ((thrOf d L).loc cc0_scratch5 ↦{fullShare} f : sProp 𝕄) = (s14W).view.loc (thrOf d L) ↦{fullShare} f := rfl
omit [FloatOps F] in
theorem pts_s15 (d : Dev nD) (L : grid0.Coords) (f : Buf (Elt F) ((thrOf d L).loc cc0_scratch6)) :
    ((thrOf d L).loc cc0_scratch6 ↦{fullShare} f : sProp 𝕄) = (s15W).view.loc (thrOf d L) ↦{fullShare} f := rfl

omit [FloatOps F] in
/-- A read share cut into eight plain read shares and a remainder. -/
theorem shares8 (ℓ : Loc nD τ sig) (q : PosShare TreeShare) (f : Buf (Elt F) ℓ) :
    (ℓ ↦{q} f : sProp 𝕄)
      = iprop((ℓ ↦{Transfers.shareDrop q 8} f) ∗ (ℓ ↦{sub q 0} f) ∗ (ℓ ↦{sub q 1} f) ∗ (ℓ ↦{sub q 2} f) ∗ (ℓ ↦{sub q 3} f)
          ∗ (ℓ ↦{sub q 4} f) ∗ (ℓ ↦{sub q 5} f) ∗ (ℓ ↦{sub q 6} f) ∗ (ℓ ↦{sub q 7} f)) := by
  have h : (ℓ ↦{q} f : sProp 𝕄)
      ⊣⊢ iprop((ℓ ↦{Transfers.shareDrop q 8} f) ∗ bigSep (Finset.range 8) (fun i => ℓ ↦{Transfers.shareTokN q i} f)) :=
    Transfers.pointsTo_toks_range q 8
  rw [BI.equiv_iff.mp ⟨h.1, h.2⟩, show Finset.range 8 = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-- Thirty-two vectors as a family indexed by the naturals (the first again past the 32nd). -/
def wfun (x0 x1 x2 x3 x4 x5 x6 x7 x8 x9 x10 x11 x12 x13 x14 x15 x16 x17 x18 x19 x20 x21 x22 x23 x24 x25 x26 x27 x28 x29 x30 x31 : Vec F S16 .f32) :
    Nat → Vec F S16 .f32
  | 0 => x0 | 1 => x1 | 2 => x2 | 3 => x3 | 4 => x4 | 5 => x5 | 6 => x6 | 7 => x7 | 8 => x8 | 9 => x9 | 10 => x10 | 11 => x11
  | 12 => x12 | 13 => x13 | 14 => x14 | 15 => x15 | 16 => x16 | 17 => x17 | 18 => x18 | 19 => x19 | 20 => x20 | 21 => x21
  | 22 => x22 | 23 => x23 | 24 => x24 | 25 => x25 | 26 => x26 | 27 => x27 | 28 => x28 | 29 => x29 | 30 => x30 | 31 => x31
  | _ => x0

/-- The trip's vector reads the weight family at 0 … 31 only. -/
theorem tripVec_congr (bias bias' : Vec F S16 .f32) (w w' : Nat → Vec F S16 .f32) (g11 g12 : FVec F S16x32 .f32)
    (hb : bias = bias') (hw : ∀ c, c < 32 → w c = w' c) : tripVec bias w g11 g12 = tripVec bias' w' g11 g12 := by
  subst hb
  unfold tripVec
  rw [hw 0 (by decide), hw 1 (by decide), hw 2 (by decide), hw 3 (by decide), hw 4 (by decide), hw 5 (by decide), hw 6 (by decide),
    hw 7 (by decide), hw 8 (by decide), hw 9 (by decide), hw 10 (by decide), hw 11 (by decide), hw 12 (by decide), hw 13 (by decide),
    hw 14 (by decide), hw 15 (by decide), hw 16 (by decide), hw 17 (by decide), hw 18 (by decide), hw 19 (by decide), hw 20 (by decide),
    hw 21 (by decide), hw 22 (by decide), hw 23 (by decide), hw 24 (by decide), hw 25 (by decide), hw 26 (by decide), hw 27 (by decide),
    hw 28 (by decide), hw 29 (by decide), hw 30 (by decide), hw 31 (by decide)]

/-! ## The loop's invariant -/

/-- Before trip k: the staged index lists, the row scratches, eight read shares of each table, the four copy
    semaphores at zero, the output scratch with its first 16 k entries the expected ones, and the thread's debts. -/
def inv (d : Dev nD) (L : grid0.Coords) (O : CellTallies nD τ sig (HIx 1)) (W : Waits sig (HIx 1))
    (u9 : Buf (Elt F) ((s9W).view.loc (thrOf d L))) (u10 : Buf (Elt F) ((s10W).view.loc (thrOf d L))) (k : Nat) (_ : Unit) : sProp 𝕄 :=
  iprop(Transfers.MayWaits (thrOf d L) (none : HIx 1) O
    ∗ ((s9W).view.loc (thrOf d L) ↦{fullShare} u9) ∗ ((s10W).view.loc (thrOf d L) ↦{fullShare} u10)
    ∗ (∃ f, (s11W).view.loc (thrOf d L) ↦{fullShare} f) ∗ (∃ f, (s12W).view.loc (thrOf d L) ↦{fullShare} f)
    ∗ ((a4W).view.loc (thrOf d L) ↦{sub (ts (widL L)) 0} m (loc2 d)) ∗ ((a4W).view.loc (thrOf d L) ↦{sub (ts (widL L)) 1} m (loc2 d)) ∗ ((a4W).view.loc (thrOf d L) ↦{sub (ts (widL L)) 2} m (loc2 d)) ∗ ((a4W).view.loc (thrOf d L) ↦{sub (ts (widL L)) 3} m (loc2 d)) ∗ ((a4W).view.loc (thrOf d L) ↦{sub (ts (widL L)) 4} m (loc2 d)) ∗ ((a4W).view.loc (thrOf d L) ↦{sub (ts (widL L)) 5} m (loc2 d)) ∗ ((a4W).view.loc (thrOf d L) ↦{sub (ts (widL L)) 6} m (loc2 d)) ∗ ((a4W).view.loc (thrOf d L) ↦{sub (ts (widL L)) 7} m (loc2 d))
    ∗ ((a5W).view.loc (thrOf d L) ↦{sub (ts (widL L)) 0} m (loc3 d)) ∗ ((a5W).view.loc (thrOf d L) ↦{sub (ts (widL L)) 1} m (loc3 d)) ∗ ((a5W).view.loc (thrOf d L) ↦{sub (ts (widL L)) 2} m (loc3 d)) ∗ ((a5W).view.loc (thrOf d L) ↦{sub (ts (widL L)) 3} m (loc3 d)) ∗ ((a5W).view.loc (thrOf d L) ↦{sub (ts (widL L)) 4} m (loc3 d)) ∗ ((a5W).view.loc (thrOf d L) ↦{sub (ts (widL L)) 5} m (loc3 d)) ∗ ((a5W).view.loc (thrOf d L) ↦{sub (ts (widL L)) 6} m (loc3 d)) ∗ ((a5W).view.loc (thrOf d L) ↦{sub (ts (widL L)) 7} m (loc3 d))
    ∗ semVal (thrOf d L, SemLoc.dma cc0_scratch7.sem) 0 ∗ semVal (thrOf d L, SemLoc.dma cc0_scratch8.sem) 0
    ∗ semVal (thrOf d L, SemLoc.dma cc0_scratch9.sem) 0 ∗ semVal (thrOf d L, SemLoc.dma cc0_scratch10.sem) 0
    ∗ (∃ f15 : Buf (Elt F) ((s15W).view.loc (thrOf d L)), ((s15W).view.loc (thrOf d L) ↦{fullShare} f15)
        ∗ ⌜∀ j : Fin 512, j.val < 16 * k → f15 (ix1 j)
            = OUT m wbf bsf d (ix1 ⟨512 * (widL L).val + j.val, by have h1 := (widL L).isLt; have h2 := j.isLt; omega⟩)⌝)
    ∗ ∃ W', ⌜∀ p ∈ W', p ∈ W ∨ p.2 = none⌝ ∗ owes (thrOf d L) O W')

/-! ## What the staging copies leave -/

omit [FloatOps F] in
/-- The staged copy of the tile's piece of the first index list: word j is word 512 w + j of the list. -/
theorem staged9 (d : Dev nD) (L : grid0.Coords) (f9 : Buf (Elt F) ((s9W).view.loc (thrOf d L))) (idx : Buf (Elt F) (loc0 d)) (j : Fin 512) :
    View.write (Elt F) (s9W).view f9 (ReadAs.same.apply (View.read (Elt F) (sl2 L).view idx)) Finset.univ (ix1 j)
      = idx (ix1 ⟨512 * (widL L).val + j.val, by have h1 := (widL L).isLt; have h2 := j.isLt; omega⟩) := by
  refine (congrFun (View.write_whole_univ (Val := Elt F) cc0_scratch0 f9 _) (ix1 j)).trans ?_
  show idx ((sl2 L).view.emb (ix1 j)) = _
  congr 1
  funext a
  match a with
  | ⟨0, _⟩ =>
    apply Fin.ext
    show (k0_off1 L) 0 + 1 * j.val = 512 * (widL L).val + j.val
    rw [k0_off1_eq]
    simp [widL]
    omega

omit [FloatOps F] in
/-- The same for the second index list. -/
theorem staged10 (d : Dev nD) (L : grid0.Coords) (f10 : Buf (Elt F) ((s10W).view.loc (thrOf d L))) (idx : Buf (Elt F) (loc1 d)) (j : Fin 512) :
    View.write (Elt F) (s10W).view f10 (ReadAs.same.apply (View.read (Elt F) (sl3 L).view idx)) Finset.univ (ix1 j)
      = idx (ix1 ⟨512 * (widL L).val + j.val, by have h1 := (widL L).isLt; have h2 := j.isLt; omega⟩) := by
  refine (congrFun (View.write_whole_univ (Val := Elt F) cc0_scratch1 f10 _) (ix1 j)).trans ?_
  show idx ((sl3 L).view.emb (ix1 j)) = _
  congr 1
  funext a
  match a with
  | ⟨0, _⟩ =>
    apply Fin.ext
    show (k0_off1 L) 0 + 1 * j.val = 512 * (widL L).val + j.val
    rw [k0_off1_eq]
    simp [widL]
    omega

omit [FloatOps F] in
/-- The bias vector the task loads is the stretched bias. -/
theorem bias_eq (d : Dev nD) (L : grid0.Coords) (f14 : Buf (Elt F) ((s14W).view.loc (thrOf d L))) (bv : Buf (Elt F) (locB d))
    (inb : ∀ a, (![0] : Fin 1 → Nat) a + S16.size a ≤ S16.size a) :
    View.readAt (Elt F) (s14W).view (Rect.unit (s := S16) ![0] S16.size inb).toLoadRect
        (View.write (Elt F) (s14W).view f14 (ReadAs.same.apply (View.read (Elt F) (a7W).view bv)) Finset.univ)
      = bv := by
  funext x
  refine (congrArg (fun g => View.readAt (Elt F) (s14W).view (Rect.unit (s := S16) ![0] S16.size inb).toLoadRect g x)
    (View.write_whole_univ (Val := Elt F) cc0_scratch5 f14 _)).trans ?_
  show bv ((Rect.unit (s := S16) ![0] S16.size inb).toLoadRect.idx x) = bv x
  congr 1
  funext a
  match a with
  | ⟨0, _⟩ =>
    apply Fin.ext
    show 0 + 1 * (x 0).val = (x 0).val
    omega

/-- Weight column c as the task loads it is column c of the stretched weight vector. -/
theorem wcol_eq (d : Dev nD) (L : grid0.Coords) (f13 : Buf (Elt F) ((s13W).view.loc (thrOf d L))) (wb : Buf (Elt F) (locW d)) (c : Nat) (hc : c < 32)
    (inb : ∀ a, (![16 * c] : Fin 1 → Nat) a + S16.size a ≤ S512.size a) :
    View.readAt (Elt F) (s13W).view (Rect.unit (s := S512) ![16 * c] S16.size inb).toLoadRect
        (View.write (Elt F) (s13W).view f13 (ReadAs.same.apply (View.read (Elt F) (a6W).view wb)) Finset.univ)
      = wOf wb c := by
  funext x
  refine (congrArg (fun g => View.readAt (Elt F) (s13W).view (Rect.unit (s := S512) ![16 * c] S16.size inb).toLoadRect g x)
    (View.write_whole_univ (Val := Elt F) cc0_scratch4 f13 _)).trans ?_
  show wb ((Rect.unit (s := S512) ![16 * c] S16.size inb).toLoadRect.idx x) = wb (ix1 ⟨(16 * c + (x 0).val) % 512, _⟩)
  congr 1
  funext a
  match a with
  | ⟨0, _⟩ =>
    apply Fin.ext
    show 16 * c + 1 * (x 0).val = (16 * c + (x 0).val) % 512
    have hx : (x 0).val < 16 := (x 0).isLt
    omega

omit [FloatOps F] in
theorem sem7 (d : Dev nD) (L : grid0.Coords) :
    (semVal (thrOf d L, SemLoc.dma (csem 0)) 0 : sProp 𝕄) = semVal (thrOf d L, SemLoc.dma cc0_scratch7.sem) 0 := rfl
omit [FloatOps F] in
theorem sem8 (d : Dev nD) (L : grid0.Coords) :
    (semVal (thrOf d L, SemLoc.dma (csem 1)) 0 : sProp 𝕄) = semVal (thrOf d L, SemLoc.dma cc0_scratch8.sem) 0 := rfl
omit [FloatOps F] in
theorem sem9 (d : Dev nD) (L : grid0.Coords) :
    (semVal (thrOf d L, SemLoc.dma (csem 2)) 0 : sProp 𝕄) = semVal (thrOf d L, SemLoc.dma cc0_scratch9.sem) 0 := rfl
omit [FloatOps F] in
theorem sem10 (d : Dev nD) (L : grid0.Coords) :
    (semVal (thrOf d L, SemLoc.dma (csem 3)) 0 : sProp 𝕄) = semVal (thrOf d L, SemLoc.dma cc0_scratch10.sem) 0 := rfl

omit [FloatOps F] in
/-- The tile's piece of the result array after the write-back of a scratch whose entry j is entry 512 w + j of G
    agrees with G on the piece. -/
theorem out_piece (d : Dev nD) (L : grid0.Coords) (f : Buf (Elt F) (locO d)) (w : S512.Idx → Elt F .f32) (G : Buf (Elt F) (locO d))
    (hw : ∀ j : Fin 512, w (ix1 j) = G (ix1 ⟨512 * (widL L).val + j.val, by have h1 := (widL L).isLt; have h2 := j.isLt; omega⟩)) :
    ∀ i ∈ (sl8 L).view.set, (sl8 L).view.writes (Elt F) f [⟨Rect.whole S512, w⟩] i = G i := by
  intro i hi
  obtain ⟨x, -, rfl⟩ := Finset.mem_map.mp hi
  refine (show (sl8 L).view.writes (Elt F) f [⟨Rect.whole S512, w⟩] ((sl8 L).view.emb x) = w x from
    congrFun (View.read_writes_whole (sl8 L).view f w) x).trans ?_
  obtain ⟨j, rfl⟩ : ∃ j : Fin 512, x = ix1 j := ⟨x 0, eq_ix1 x⟩
  refine (hw j).trans (congrArg G ?_)
  funext a
  match a with
  | ⟨0, _⟩ =>
    apply Fin.ext
    show 512 * (widL L).val + j.val = (k0_off66 L) 0 + 1 * j.val
    rw [k0_off66_eq]
    simp [widL]
    omega

/-- One trip's run, at thirty-two weight vectors given one by one. -/
theorem trip_apply (d : Dev nD) (L : grid0.Coords) (h : TripRun (F := F) d L)
    (k : Fin k0_t1_loop.trips) (O : CellTallies nD τ sig (HIx 1)) (W : Waits sig (HIx 1))
    (u9 : Buf (Elt F) ((s9W).view.loc (thrOf d L))) (u10 : Buf (Elt F) ((s10W).view.loc (thrOf d L)))
    (hu9 : ∀ j, (u9 j).toNat ≤ 999999) (hu10 : ∀ j, (u10 j).toNat ≤ 999999)
    (f4 : Buf (Elt F) ((a4W).view.loc (thrOf d L))) (f5 : Buf (Elt F) ((a5W).view.loc (thrOf d L)))
    (q4 q5 : PosShare TreeShare)
    (f15 : Buf (Elt F) ((s15W).view.loc (thrOf d L)))
    (bias : Vec F S16 .f32) (x0 x1 x2 x3 x4 x5 x6 x7 x8 x9 x10 x11 x12 x13 x14 x15 x16 x17 x18 x19 x20 x21 x22 x23 x24 x25 x26 x27 x28 x29 x30 x31 : Vec F S16 .f32) :
    iprop(Transfers.MayWaits (thrOf d L) (none : HIx 1) O
        ∗ ((s9W).view.loc (thrOf d L) ↦{fullShare} u9) ∗ ((s10W).view.loc (thrOf d L) ↦{fullShare} u10)
        ∗ (∃ f, (s11W).view.loc (thrOf d L) ↦{fullShare} f) ∗ (∃ f, (s12W).view.loc (thrOf d L) ↦{fullShare} f)
        ∗ ((a4W).view.loc (thrOf d L) ↦{sub q4 0} f4) ∗ ((a4W).view.loc (thrOf d L) ↦{sub q4 1} f4) ∗ ((a4W).view.loc (thrOf d L) ↦{sub q4 2} f4) ∗ ((a4W).view.loc (thrOf d L) ↦{sub q4 3} f4) ∗ ((a4W).view.loc (thrOf d L) ↦{sub q4 4} f4) ∗ ((a4W).view.loc (thrOf d L) ↦{sub q4 5} f4) ∗ ((a4W).view.loc (thrOf d L) ↦{sub q4 6} f4) ∗ ((a4W).view.loc (thrOf d L) ↦{sub q4 7} f4)
        ∗ ((a5W).view.loc (thrOf d L) ↦{sub q5 0} f5) ∗ ((a5W).view.loc (thrOf d L) ↦{sub q5 1} f5) ∗ ((a5W).view.loc (thrOf d L) ↦{sub q5 2} f5) ∗ ((a5W).view.loc (thrOf d L) ↦{sub q5 3} f5) ∗ ((a5W).view.loc (thrOf d L) ↦{sub q5 4} f5) ∗ ((a5W).view.loc (thrOf d L) ↦{sub q5 5} f5) ∗ ((a5W).view.loc (thrOf d L) ↦{sub q5 6} f5) ∗ ((a5W).view.loc (thrOf d L) ↦{sub q5 7} f5)
        ∗ semVal (thrOf d L, SemLoc.dma cc0_scratch7.sem) 0 ∗ semVal (thrOf d L, SemLoc.dma cc0_scratch8.sem) 0
        ∗ semVal (thrOf d L, SemLoc.dma cc0_scratch9.sem) 0 ∗ semVal (thrOf d L, SemLoc.dma cc0_scratch10.sem) 0
        ∗ ((s15W).view.loc (thrOf d L) ↦{fullShare} f15)
        ∗ owes (thrOf d L) O W : sProp 𝕄)
      ⊢ wp frame (wpE (defs₀ (F := F)) 𝒱₀ (thrOf d L) none) Set.univ
          (k0_t1_body (F := F) L a2W (Memref.isWhole_whole _) a3W (Memref.isWhole_whole _) a4W (Memref.isWhole_whole _) a5W (Memref.isWhole_whole _)
            a6W (Memref.isWhole_whole _) a7W (Memref.isWhole_whole _) a8W (Memref.isWhole_whole _)
            s9W (Memref.isWhole_whole _) s10W (Memref.isWhole_whole _) s11W (Memref.isWhole_whole _) s12W (Memref.isWhole_whole _)
            s13W (Memref.isWhole_whole _) s14W (Memref.isWhole_whole _) s15W (Memref.isWhole_whole _)
            cc0_scratch7 cc0_scratch8 cc0_scratch9 cc0_scratch10 cc0_scoped0 cc0_scoped1 cc0_scoped2 cc0_scoped3 cc0_scoped4 bias x0 x1 x2 x3 x4 x5 x6 x7 x8 x9 x10 x11 x12 x13 x14 x15 x16 x17 x18 x19 x20 x21 x22 x23 x24 x25 x26 x27 x28 x29 x30 x31 lanes k ⟨⟩)
          (fun _ => iprop(Transfers.MayWaits (thrOf d L) (none : HIx 1) O
        ∗ ((s9W).view.loc (thrOf d L) ↦{fullShare} u9) ∗ ((s10W).view.loc (thrOf d L) ↦{fullShare} u10)
        ∗ (∃ f, (s11W).view.loc (thrOf d L) ↦{fullShare} f) ∗ (∃ f, (s12W).view.loc (thrOf d L) ↦{fullShare} f)
        ∗ ((a4W).view.loc (thrOf d L) ↦{sub q4 0} f4) ∗ ((a4W).view.loc (thrOf d L) ↦{sub q4 1} f4) ∗ ((a4W).view.loc (thrOf d L) ↦{sub q4 2} f4) ∗ ((a4W).view.loc (thrOf d L) ↦{sub q4 3} f4) ∗ ((a4W).view.loc (thrOf d L) ↦{sub q4 4} f4) ∗ ((a4W).view.loc (thrOf d L) ↦{sub q4 5} f4) ∗ ((a4W).view.loc (thrOf d L) ↦{sub q4 6} f4) ∗ ((a4W).view.loc (thrOf d L) ↦{sub q4 7} f4)
        ∗ ((a5W).view.loc (thrOf d L) ↦{sub q5 0} f5) ∗ ((a5W).view.loc (thrOf d L) ↦{sub q5 1} f5) ∗ ((a5W).view.loc (thrOf d L) ↦{sub q5 2} f5) ∗ ((a5W).view.loc (thrOf d L) ↦{sub q5 3} f5) ∗ ((a5W).view.loc (thrOf d L) ↦{sub q5 4} f5) ∗ ((a5W).view.loc (thrOf d L) ↦{sub q5 5} f5) ∗ ((a5W).view.loc (thrOf d L) ↦{sub q5 6} f5) ∗ ((a5W).view.loc (thrOf d L) ↦{sub q5 7} f5)
        ∗ semVal (thrOf d L, SemLoc.dma cc0_scratch7.sem) 0 ∗ semVal (thrOf d L, SemLoc.dma cc0_scratch8.sem) 0
        ∗ semVal (thrOf d L, SemLoc.dma cc0_scratch9.sem) 0 ∗ semVal (thrOf d L, SemLoc.dma cc0_scratch10.sem) 0
        ∗ ((s15W).view.loc (thrOf d L) ↦{fullShare} stored f15 k.val (tripVec bias (wfun x0 x1 x2 x3 x4 x5 x6 x7 x8 x9 x10 x11 x12 x13 x14 x15 x16 x17 x18 x19 x20 x21 x22 x23 x24 x25 x26 x27 x28 x29 x30 x31) (rowsOf f4 u9 k.val) (rowsOf f5 u10 k.val)))
        ∗ ∃ W', ⌜∀ p ∈ W', p ∈ W ∨ p.2 = none⌝ ∗ owes (thrOf d L) O W')) :=
  h k O W u9 u10 hu9 hu10 f4 f5 q4 q5 f15 bias (wfun x0 x1 x2 x3 x4 x5 x6 x7 x8 x9 x10 x11 x12 x13 x14 x15 x16 x17 x18 x19 x20 x21 x22 x23 x24 x25 x26 x27 x28 x29 x30 x31)

/-! ## The task -/

set_option maxHeartbeats 8000000 in
theorem tile_body (hF : (K (F := F)).Facts) (hpre : PreOK m) (htrip : ∀ d L, TripRun (F := F) d L) : BodyRun m wbf bsf := by
  intro d L O W hO
  rw [cc0__gmf_body_eq_skeleton]; unfold cc0__gmf_body_skel
  rw [(K (F := F)).scopedBufs_V hF d _ _, SparseCore.Cfg.scopedSems0_V (Val := Elt F) d _ _, ownSems0_V, ownBufs_V]
  unfold tileRes cells0
  iintro ⟨#Hlv, -, ⟨H0, H1, H2, H3, HW, HB, HO8⟩, ⟨⟨%f9, Hs9⟩, ⟨%f10, Hs10⟩, ⟨%f11, Hs11⟩, ⟨%f12, Hs12⟩, ⟨%f13, Hs13⟩, ⟨%f14, Hs14⟩, ⟨%f15, Hs15⟩, Hbufs⟩, ⟨⟨Hc0, Hc1, Hc2, Hc3, Hc4, Hc5, Hc6, Hc7, Hc8⟩, Hsems⟩, HO⟩
  ihave Hmw := ((K (F := F)).mayWaits_none (thr := thrOf d L) hO) $$ Hlv
  ihave H0' := (Entails.of_eq (pts_sl2 (F := F) d L _).symm) $$ H0
  ihave H1' := (Entails.of_eq (pts_sl3 (F := F) d L _).symm) $$ H1
  ihave HO8' := (Entails.of_eq (pts_sl8 (F := F) d L _).symm) $$ HO8
  ihave H2' := (Entails.of_eq (pts_a4 (F := F) d L _ _).symm) $$ H2
  ihave H3' := (Entails.of_eq (pts_a5 (F := F) d L _ _).symm) $$ H3
  ihave HW' := (Entails.of_eq (pts_a6 (F := F) d L _ _).symm) $$ HW
  ihave HB' := (Entails.of_eq (pts_a7 (F := F) d L _ _).symm) $$ HB
  ihave Hs9' := (Entails.of_eq (pts_s9 (F := F) d L _)) $$ Hs9
  ihave Hs10' := (Entails.of_eq (pts_s10 (F := F) d L _)) $$ Hs10
  ihave Hs11' := (Entails.of_eq (pts_s11 (F := F) d L _)) $$ Hs11
  ihave Hs12' := (Entails.of_eq (pts_s12 (F := F) d L _)) $$ Hs12
  ihave Hs13' := (Entails.of_eq (pts_s13 (F := F) d L _)) $$ Hs13
  ihave Hs14' := (Entails.of_eq (pts_s14 (F := F) d L _)) $$ Hs14
  ihave Hs15' := (Entails.of_eq (pts_s15 (F := F) d L _)) $$ Hs15
  sl_exec
  -- the staged index lists, named; their words are the piece's, so name table rows
  ihave Hg := (pts_namedHeld (F := F) _ _) $$ Hs9'
  icases Hg with ⟨%u9, %hu9def, Hs9'⟩
  ihave Hg := (pts_namedHeld (F := F) _ _) $$ Hs10'
  icases Hg with ⟨%u10, %hu10def, Hs10'⟩
  have hu9eq : ∀ j : Fin 512, u9 (ix1 j) = m (loc0 d) (ix1 ⟨512 * (widL L).val + j.val, by have h1 := (widL L).isLt; have h2 := j.isLt; omega⟩) :=
    fun j => by rw [hu9def]; exact staged9 d L f9 (m (loc0 d)) j
  have hu10eq : ∀ j : Fin 512, u10 (ix1 j) = m (loc1 d) (ix1 ⟨512 * (widL L).val + j.val, by have h1 := (widL L).isLt; have h2 := j.isLt; omega⟩) :=
    fun j => by rw [hu10def]; exact staged10 d L f10 (m (loc1 d)) j
  have hu9 : ∀ j, (u9 j).toNat ≤ 999999 := fun j => by
    obtain ⟨i, rfl⟩ : ∃ i : Fin 512, j = ix1 i := ⟨j 0, eq_ix1 (n := 512) j⟩
    rw [hu9eq i]; exact (hpre d).1 _
  have hu10 : ∀ j, (u10 j).toNat ≤ 999999 := fun j => by
    obtain ⟨i, rfl⟩ : ∃ i : Fin 512, j = ix1 i := ⟨j 0, eq_ix1 (n := 512) j⟩
    rw [hu10eq i]; exact (hpre d).2 _
  -- the tile's share of each table cut into eight and a remainder
  ihave Hsh := (Entails.of_eq (shares8 (F := F) _ _ _)) $$ H2'
  icases Hsh with ⟨H2r, H20, H21, H22, H23, H24, H25, H26, H27⟩
  ihave Hsh := (Entails.of_eq (shares8 (F := F) _ _ _)) $$ H3'
  icases Hsh with ⟨H3r, H30, H31, H32, H33, H34, H35, H36, H37⟩
  ihave Hc0 := (Entails.of_eq (sem7 (F := F) d L)) $$ Hc0
  ihave Hc1 := (Entails.of_eq (sem8 (F := F) d L)) $$ Hc1
  ihave Hc2 := (Entails.of_eq (sem9 (F := F) d L)) $$ Hc2
  ihave Hc3 := (Entails.of_eq (sem10 (F := F) d L)) $$ Hc3
  sl_for (inv m wbf bsf d L O W u9 u10) $$ [Hmw Hs9' Hs10' Hs11' Hs12' H20 H21 H22 H23 H24 H25 H26 H27 H30 H31 H32 H33 H34 H35 H36 H37 Hc0 Hc1 Hc2 Hc3 Hs15' HO]
  case region =>
    intro k acc
    have hk32 : k.val < 32 := k.isLt
    unfold inv
    unfold tile_body.sl.prog.body_1
    iintro ⟨Hmw, Hs9, Hs10, Hs11, Hs12, A0, A1, A2, A3, A4, A5, A6, A7, B0, B1, B2, B3, B4, B5, B6, B7, C0, C1, C2, C3, ⟨%g15, Hs15, %hg15⟩, ⟨%W', %hW', HO⟩⟩
    iapply ((trip_apply d L (htrip d L) k O W' u9 u10 hu9 hu10 (m (loc2 d)) (m (loc3 d)) (ts (widL L)) (ts (widL L)) g15
        _ _ _ _ _ _ _ _ _ _ _ _ _ _ _ _ _ _ _ _ _ _ _ _ _ _ _ _ _ _ _ _ _).trans (wp_mono frame _ _ fun _ => ?hpost))
      $$ [Hmw Hs9 Hs10 Hs11 Hs12 A0 A1 A2 A3 A4 A5 A6 A7 B0 B1 B2 B3 B4 B5 B6 B7 C0 C1 C2 C3 Hs15 HO]
    case hpost =>
      iintro ⟨Hmw, Hs9, Hs10, Hs11, Hs12, A0, A1, A2, A3, A4, A5, A6, A7, B0, B1, B2, B3, B4, B5, B6, B7, C0, C1, C2, C3, Hs15, ⟨%W'', %hW'', HO⟩⟩
      isplitl [Hmw]; · iexact Hmw
      isplitl [Hs9]; · iexact Hs9
      isplitl [Hs10]; · iexact Hs10
      isplitl [Hs11]; · iexact Hs11
      isplitl [Hs12]; · iexact Hs12
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [C0]; · iexact C0
      isplitl [C1]; · iexact C1
      isplitl [C2]; · iexact C2
      isplitl [C3]; · iexact C3
      isplitl [Hs15]
      · iexists _
        isplitl [Hs15]; · iexact Hs15
        ipureintro
        intro j hj
        refine (congrArg (fun v => stored g15 k.val v (ix1 j)) (tripVec_congr _ (bsf d) _ (wOf (wbf d)) _ _ ?hb ?hw)).trans ?_
        case hb => exact bias_eq d L f14 (bsf d) _
        case hw =>
          exact fun c hc => match c, hc with
          | 0, _ => wcol_eq d L f13 (wbf d) 0 (by decide) _
          | 1, _ => wcol_eq d L f13 (wbf d) 1 (by decide) _
          | 2, _ => wcol_eq d L f13 (wbf d) 2 (by decide) _
          | 3, _ => wcol_eq d L f13 (wbf d) 3 (by decide) _
          | 4, _ => wcol_eq d L f13 (wbf d) 4 (by decide) _
          | 5, _ => wcol_eq d L f13 (wbf d) 5 (by decide) _
          | 6, _ => wcol_eq d L f13 (wbf d) 6 (by decide) _
          | 7, _ => wcol_eq d L f13 (wbf d) 7 (by decide) _
          | 8, _ => wcol_eq d L f13 (wbf d) 8 (by decide) _
          | 9, _ => wcol_eq d L f13 (wbf d) 9 (by decide) _
          | 10, _ => wcol_eq d L f13 (wbf d) 10 (by decide) _
          | 11, _ => wcol_eq d L f13 (wbf d) 11 (by decide) _
          | 12, _ => wcol_eq d L f13 (wbf d) 12 (by decide) _
          | 13, _ => wcol_eq d L f13 (wbf d) 13 (by decide) _
          | 14, _ => wcol_eq d L f13 (wbf d) 14 (by decide) _
          | 15, _ => wcol_eq d L f13 (wbf d) 15 (by decide) _
          | 16, _ => wcol_eq d L f13 (wbf d) 16 (by decide) _
          | 17, _ => wcol_eq d L f13 (wbf d) 17 (by decide) _
          | 18, _ => wcol_eq d L f13 (wbf d) 18 (by decide) _
          | 19, _ => wcol_eq d L f13 (wbf d) 19 (by decide) _
          | 20, _ => wcol_eq d L f13 (wbf d) 20 (by decide) _
          | 21, _ => wcol_eq d L f13 (wbf d) 21 (by decide) _
          | 22, _ => wcol_eq d L f13 (wbf d) 22 (by decide) _
          | 23, _ => wcol_eq d L f13 (wbf d) 23 (by decide) _
          | 24, _ => wcol_eq d L f13 (wbf d) 24 (by decide) _
          | 25, _ => wcol_eq d L f13 (wbf d) 25 (by decide) _
          | 26, _ => wcol_eq d L f13 (wbf d) 26 (by decide) _
          | 27, _ => wcol_eq d L f13 (wbf d) 27 (by decide) _
          | 28, _ => wcol_eq d L f13 (wbf d) 28 (by decide) _
          | 29, _ => wcol_eq d L f13 (wbf d) 29 (by decide) _
          | 30, _ => wcol_eq d L f13 (wbf d) 30 (by decide) _
          | 31, _ => wcol_eq d L f13 (wbf d) 31 (by decide) _
          | (n + 32), h => absurd h (by omega)
        exact filled_step m wbf bsf d L u9 u10 hu9eq hu10eq ⟨k.val, hk32⟩ g15 hg15 j hj
      iexists W''
      isplitr
      · ipureintro
        intro p hp
        rcases hW'' p hp with h | h
        · exact hW' p h
        · exact Or.inr h
      · iexact HO
    isplitl [Hmw]; · iexact Hmw
    isplitl [Hs9]; · iexact Hs9
    isplitl [Hs10]; · iexact Hs10
    isplitl [Hs11]; · iexact Hs11
    isplitl [Hs12]; · iexact Hs12
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [C0]; · iexact C0
    isplitl [C1]; · iexact C1
    isplitl [C2]; · iexact C2
    isplitl [C3]; · iexact C3
    isplitl [Hs15]; · iexact Hs15
    iexact HO
  · unfold inv
    isplitl [Hmw]; · iexact Hmw
    isplitl [Hs9']; · iexact Hs9'
    isplitl [Hs10']; · iexact Hs10'
    isplitl [Hs11']; · iexists _; iexact Hs11'
    isplitl [Hs12']; · iexists _; iexact Hs12'
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [Hc0]; · iexact Hc0
    isplitl [Hc1]; · iexact Hc1
    isplitl [Hc2]; · iexact Hc2
    isplitl [Hc3]; · iexact Hc3
    isplitl [Hs15']
    · iexists _
      isplitl [Hs15']; · iexact Hs15'
      ipureintro
      intro j hj
      omega
    iexists _
    isplitr
    swap
    · iexact HO
    · ipureintro
      intro p hp
      simp only [Finset.mem_insert] at hp
      rcases hp with rfl | rfl | rfl | rfl | hp
      · exact Or.inr rfl
      · exact Or.inr rfl
      · exact Or.inr rfl
      · exact Or.inr rfl
      · exact Or.inl hp
  iintro %acc HI
  unfold inv
  icases HI with ⟨-, Hs9, Hs10, ⟨%g11, Hs11⟩, ⟨%g12, Hs12⟩, A0, A1, A2, A3, A4, A5, A6, A7, B0, B1, B2, B3, B4, B5, B6, B7, C0, C1, C2, C3, ⟨%g15, Hs15, %hg15⟩, ⟨%W', %hW', HO⟩⟩
  sl_exec
  sl_step
  have htr : Scf.trips k0_t1_loop.lb k0_t1_loop.ub k0_t1_loop.st = 32 := by decide
  rw [htr] at hg15
  have hwf : ∀ j : Fin 512, tile_body.sl.dma0_4 d L g15 (ix1 j)
      = OUT m wbf bsf d (ix1 ⟨512 * (widL L).val + j.val, by have h1 := (widL L).isLt; have h2 := j.isLt; omega⟩) :=
    fun j => hg15 j (by have := j.isLt; omega)
  -- the tile's piece of the result array is at the expected contents
  ihave H0f := (Entails.of_eq (pts_sl2 (F := F) d L _)) $$ H0'
  ihave H1f := (Entails.of_eq (pts_sl3 (F := F) d L _)) $$ H1'
  -- the eight read shares of each table joined with the remainder
  ihave H2f := (Entails.of_eq (shares8 (F := F) _ _ _).symm) $$ [H2r A0 A1 A2 A3 A4 A5 A6 A7]
  · isplitl [H2r]; · iexact H2r
    isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  ihave H3f := (Entails.of_eq (shares8 (F := F) _ _ _).symm) $$ [H3r B0 B1 B2 B3 B4 B5 B6 B7]
  · isplitl [H3r]; · iexact H3r
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  ihave H2g := (Entails.of_eq (pts_a4 (F := F) d L _ _)) $$ H2f
  ihave H3g := (Entails.of_eq (pts_a5 (F := F) d L _ _)) $$ H3f
  ihave HWg := (Entails.of_eq (pts_a6 (F := F) d L _ _)) $$ HW'
  ihave HBg := (Entails.of_eq (pts_a7 (F := F) d L _ _)) $$ HB'
  ihave Hs9 := (Entails.of_eq (pts_s9 (F := F) d L _).symm) $$ Hs9
  ihave Hs10 := (Entails.of_eq (pts_s10 (F := F) d L _).symm) $$ Hs10
  ihave Hs11 := (Entails.of_eq (pts_s11 (F := F) d L _).symm) $$ Hs11
  ihave Hs12 := (Entails.of_eq (pts_s12 (F := F) d L _).symm) $$ Hs12
  ihave Hs13 := (Entails.of_eq (pts_s13 (F := F) d L _).symm) $$ Hs13'
  ihave Hs14 := (Entails.of_eq (pts_s14 (F := F) d L _).symm) $$ Hs14'
  ihave Hs15 := (Entails.of_eq (pts_s15 (F := F) d L _).symm) $$ Hs15
  ihave C0 := (Entails.of_eq (sem7 (F := F) d L).symm) $$ C0
  ihave C1 := (Entails.of_eq (sem8 (F := F) d L).symm) $$ C1
  ihave C2 := (Entails.of_eq (sem9 (F := F) d L).symm) $$ C2
  ihave C3 := (Entails.of_eq (sem10 (F := F) d L).symm) $$ C3
  isplitl [H0f H1f H2g H3g HWg HBg HO8']
  · isplitl [H0f]; · iexact H0f
    isplitl [H1f]; · iexact H1f
    isplitl [H2g]; · iexact H2g
    isplitl [H3g]; · iexact H3g
    isplitl [HWg]; · iexact HWg
    isplitl [HBg]; · iexact HBg
    -- the tile's piece of the result array is at the expected contents
    iapply (Entails.of_eq (pts_sl8 (F := F) d L _))
    iapply (Entails.of_eq (pointsTo_congr (out_piece (F := F) d L _ _ (OUT m wbf bsf d) hwf)))
    iexact HO8'
  isplitl [Hs9 Hs10 Hs11 Hs12 Hs13 Hs14 Hs15 Hbufs]
  · isplitl [Hs9]; · iexists _; iexact Hs9
    isplitl [Hs10]; · iexists _; iexact Hs10
    isplitl [Hs11]; · iexists _; iexact Hs11
    isplitl [Hs12]; · iexists _; iexact Hs12
    isplitl [Hs13]; · iexists _; iexact Hs13
    isplitl [Hs14]; · iexists _; iexact Hs14
    isplitl [Hs15]; · iexists _; iexact Hs15
    iexact Hbufs
  isplitl [C0 C1 C2 C3 Hc4 Hc5 Hc6 Hc7 Hc8 Hsems]
  · isplitl [C0 C1 C2 C3 Hc4 Hc5 Hc6 Hc7 Hc8]
    · isplitl [C0]; · iexact C0
      isplitl [C1]; · iexact C1
      isplitl [C2]; · iexact C2
      isplitl [C3]; · iexact C3
      isplitl [Hc4]; · iexact Hc4
      isplitl [Hc5]; · iexact Hc5
      isplitl [Hc6]; · iexact Hc6
      isplitl [Hc7]; · iexact Hc7
      iexact Hc8
    · iexact Hsems
  iexists _
  isplitr
  swap
  · iexact HO
  · ipureintro
    intro p hp
    rcases Finset.mem_insert.mp hp with rfl | hp
    · exact Or.inr rfl
    · exact hW' p hp

end Cert.Proof.KW

end
-- ==== Proof.WRows.lean ====
/-
  A 16 × 32 scratch written row by row, read at an entry.

  Sixteen stores, one per row: store `r` writes the 32 entries of row `r` (the rectangle of one row and all 32
  columns at offsets `(r, 0)`) from a 1 × 32 payload `p r`.  Two different rows share no entry, so whatever the
  order of the stores, and whatever the scratch held before, entry `(r, c)` afterwards holds what store `r` put
  there: `p r` at `(0, c)`.  The sixteen stores are the library's list of equal-sized tiles kept apart by one
  axis (here the row axis, tile `i` at offsets `(i, 0)`), newest first, and the reading is that list's.
-/
import proofs.«208244_g21053929685252_cont_8to1_1842_38_alg».proof.Proof.Gen.Kernel
import Idealize.ShloMosaic.Lib.Writes
import Idealize.ShloMosaic.Lib.WritesUnit
import Idealize.ShloMosaic.Lib.ValueIdx

noncomputable section

namespace Cert.Proof.KW

open Cert.Kernel Cert.Kernel.Gen Idealize.ShloMosaic Idealize.ShloMosaic.ValueIdx

/-- Row `i` with all 32 columns lies inside the 16 × 32 scratch. -/
theorem rowTile_inb (i : Fin 16) : ∀ a, (![i.val, 0] : Fin 2 → Nat) a + S1x32.size a ≤ S16x32.size a := by
  intro a
  match a with
  | ⟨0, _⟩ =>
    show i.val + 1 ≤ 16
    have := i.isLt
    omega
  | ⟨1, _⟩ =>
    show 0 + 32 ≤ 32
    omega

/-- After the sixteen row stores (row 15's listed first, row 0's last), entry `(r, c)` read through the scratch's
    view holds row `r`'s payload at `(0, c)`: row `r`'s store covers the entry and no other row's store does. -/
theorem read_rows16 {F : FTy → Type} {κ : Kind} {sp : Space} (v : View sig κ sp S16x32 .f32) (f : v.ty.Contents (Elt F))
    (p : Fin 16 → S1x32.Idx → Elt F .f32) (r : Fin 16) (c : Fin 32) :
    v.read (Elt F) (v.writes (Elt F) f
      [⟨Rect.unit (s := S16x32) ![15, 0] S1x32.size inb_S16x32_S1x32_15_0, p 15⟩,
      ⟨Rect.unit (s := S16x32) ![14, 0] S1x32.size inb_S16x32_S1x32_14_0, p 14⟩,
      ⟨Rect.unit (s := S16x32) ![13, 0] S1x32.size inb_S16x32_S1x32_13_0, p 13⟩,
      ⟨Rect.unit (s := S16x32) ![12, 0] S1x32.size inb_S16x32_S1x32_12_0, p 12⟩,
      ⟨Rect.unit (s := S16x32) ![11, 0] S1x32.size inb_S16x32_S1x32_11_0, p 11⟩,
      ⟨Rect.unit (s := S16x32) ![10, 0] S1x32.size inb_S16x32_S1x32_10_0, p 10⟩,
      ⟨Rect.unit (s := S16x32) ![9, 0] S1x32.size inb_S16x32_S1x32_9_0, p 9⟩,
      ⟨Rect.unit (s := S16x32) ![8, 0] S1x32.size inb_S16x32_S1x32_8_0, p 8⟩,
      ⟨Rect.unit (s := S16x32) ![7, 0] S1x32.size inb_S16x32_S1x32_7_0, p 7⟩,
      ⟨Rect.unit (s := S16x32) ![6, 0] S1x32.size inb_S16x32_S1x32_6_0, p 6⟩,
      ⟨Rect.unit (s := S16x32) ![5, 0] S1x32.size inb_S16x32_S1x32_5_0, p 5⟩,
      ⟨Rect.unit (s := S16x32) ![4, 0] S1x32.size inb_S16x32_S1x32_4_0, p 4⟩,
      ⟨Rect.unit (s := S16x32) ![3, 0] S1x32.size inb_S16x32_S1x32_3_0, p 3⟩,
      ⟨Rect.unit (s := S16x32) ![2, 0] S1x32.size inb_S16x32_S1x32_2_0, p 2⟩,
      ⟨Rect.unit (s := S16x32) ![1, 0] S1x32.size inb_S16x32_S1x32_1_0, p 1⟩,
      ⟨Rect.unit (s := S16x32) ![0, 0] S1x32.size inb_S16x32_S1x32_0_0, p 0⟩]) (ix2 r c)
      = p r (ix2 (0 : Fin 1) c) :=
  View.read_tilePieces v f S1x32.size (fun i : Fin 16 => ![i.val, 0]) rowTile_inb p 16 (Nat.le_refl 16) (ix2 r c) r r.isLt
    (ix2 (0 : Fin 1) c)
    (fun a => match a with
      | ⟨0, _⟩ => (Nat.add_zero _).symm
      | ⟨1, _⟩ => (Nat.zero_add _).symm)
    0
    (fun i' hne => by
      have hv : i'.val ≠ r.val := fun h => hne (Fin.ext h)
      show r.val < i'.val ∨ i'.val + 1 ≤ r.val
      omega)

/-- The same for the user-row scratch read whole (the whole view of a buffer reads its contents as they are). -/
theorem read_rows16_scratch2 {F : FTy → Type} (f : (Memref.whole cc0_scratch2).view.ty.Contents (Elt F))
    (p : Fin 16 → S1x32.Idx → Elt F .f32) (r : Fin 16) (c : Fin 32) :
    ((Memref.whole cc0_scratch2).view.writes (Elt F) f
      [⟨Rect.unit (s := S16x32) ![15, 0] S1x32.size inb_S16x32_S1x32_15_0, p 15⟩,
      ⟨Rect.unit (s := S16x32) ![14, 0] S1x32.size inb_S16x32_S1x32_14_0, p 14⟩,
      ⟨Rect.unit (s := S16x32) ![13, 0] S1x32.size inb_S16x32_S1x32_13_0, p 13⟩,
      ⟨Rect.unit (s := S16x32) ![12, 0] S1x32.size inb_S16x32_S1x32_12_0, p 12⟩,
      ⟨Rect.unit (s := S16x32) ![11, 0] S1x32.size inb_S16x32_S1x32_11_0, p 11⟩,
      ⟨Rect.unit (s := S16x32) ![10, 0] S1x32.size inb_S16x32_S1x32_10_0, p 10⟩,
      ⟨Rect.unit (s := S16x32) ![9, 0] S1x32.size inb_S16x32_S1x32_9_0, p 9⟩,
      ⟨Rect.unit (s := S16x32) ![8, 0] S1x32.size inb_S16x32_S1x32_8_0, p 8⟩,
      ⟨Rect.unit (s := S16x32) ![7, 0] S1x32.size inb_S16x32_S1x32_7_0, p 7⟩,
      ⟨Rect.unit (s := S16x32) ![6, 0] S1x32.size inb_S16x32_S1x32_6_0, p 6⟩,
      ⟨Rect.unit (s := S16x32) ![5, 0] S1x32.size inb_S16x32_S1x32_5_0, p 5⟩,
      ⟨Rect.unit (s := S16x32) ![4, 0] S1x32.size inb_S16x32_S1x32_4_0, p 4⟩,
      ⟨Rect.unit (s := S16x32) ![3, 0] S1x32.size inb_S16x32_S1x32_3_0, p 3⟩,
      ⟨Rect.unit (s := S16x32) ![2, 0] S1x32.size inb_S16x32_S1x32_2_0, p 2⟩,
      ⟨Rect.unit (s := S16x32) ![1, 0] S1x32.size inb_S16x32_S1x32_1_0, p 1⟩,
      ⟨Rect.unit (s := S16x32) ![0, 0] S1x32.size inb_S16x32_S1x32_0_0, p 0⟩] : S16x32.Idx → Elt F .f32) (ix2 r c)
      = p r (ix2 (0 : Fin 1) c) :=
  read_rows16 (Memref.whole cc0_scratch2).view f p r c

/-- The same for the item-row scratch read whole. -/
theorem read_rows16_scratch3 {F : FTy → Type} (f : (Memref.whole cc0_scratch3).view.ty.Contents (Elt F))
    (p : Fin 16 → S1x32.Idx → Elt F .f32) (r : Fin 16) (c : Fin 32) :
    ((Memref.whole cc0_scratch3).view.writes (Elt F) f
      [⟨Rect.unit (s := S16x32) ![15, 0] S1x32.size inb_S16x32_S1x32_15_0, p 15⟩,
      ⟨Rect.unit (s := S16x32) ![14, 0] S1x32.size inb_S16x32_S1x32_14_0, p 14⟩,
      ⟨Rect.unit (s := S16x32) ![13, 0] S1x32.size inb_S16x32_S1x32_13_0, p 13⟩,
      ⟨Rect.unit (s := S16x32) ![12, 0] S1x32.size inb_S16x32_S1x32_12_0, p 12⟩,
      ⟨Rect.unit (s := S16x32) ![11, 0] S1x32.size inb_S16x32_S1x32_11_0, p 11⟩,
      ⟨Rect.unit (s := S16x32) ![10, 0] S1x32.size inb_S16x32_S1x32_10_0, p 10⟩,
      ⟨Rect.unit (s := S16x32) ![9, 0] S1x32.size inb_S16x32_S1x32_9_0, p 9⟩,
      ⟨Rect.unit (s := S16x32) ![8, 0] S1x32.size inb_S16x32_S1x32_8_0, p 8⟩,
      ⟨Rect.unit (s := S16x32) ![7, 0] S1x32.size inb_S16x32_S1x32_7_0, p 7⟩,
      ⟨Rect.unit (s := S16x32) ![6, 0] S1x32.size inb_S16x32_S1x32_6_0, p 6⟩,
      ⟨Rect.unit (s := S16x32) ![5, 0] S1x32.size inb_S16x32_S1x32_5_0, p 5⟩,
      ⟨Rect.unit (s := S16x32) ![4, 0] S1x32.size inb_S16x32_S1x32_4_0, p 4⟩,
      ⟨Rect.unit (s := S16x32) ![3, 0] S1x32.size inb_S16x32_S1x32_3_0, p 3⟩,
      ⟨Rect.unit (s := S16x32) ![2, 0] S1x32.size inb_S16x32_S1x32_2_0, p 2⟩,
      ⟨Rect.unit (s := S16x32) ![1, 0] S1x32.size inb_S16x32_S1x32_1_0, p 1⟩,
      ⟨Rect.unit (s := S16x32) ![0, 0] S1x32.size inb_S16x32_S1x32_0_0, p 0⟩] : S16x32.Idx → Elt F .f32) (ix2 r c)
      = p r (ix2 (0 : Fin 1) c) :=
  read_rows16 (Memref.whole cc0_scratch3).view f p r c

end Cert.Proof.KW

end
-- ==== Proof.WLanded.lean ====
/-
  Sixteen table rows, named by sixteen consecutive staged index words, land in the sixteen rows of a scratch.

  A trip loads the sixteen staged index words `16 k … 16 k + 15` as one vector, picks word `r` out of it, and
  copies the table row whose number is that word (read unsigned) into row `r` of a 16 × 32 scratch.  Every staged
  word is at most 999999, so the row it names is its own value and lies inside the table.  After the sixteen copies
  the scratch holds, at `(r, c)`, the table's entry at (row named by staged word `16 k + r`, column `c`), whatever
  it held before: the sixteen row stores are disjoint and cover it.  Stated for the user side and for the item
  side; nothing here uses the arithmetic of the float instance.
-/
import proofs.«208244_g21053929685252_cont_8to1_1842_38_alg».proof.Proof.WRows
import proofs.«208244_g21053929685252_cont_8to1_1842_38_alg».proof.Proof.WTripDefs
import proofs.«208244_g21053929685252_cont_8to1_1842_38_alg».proof.Proof.Gen.Kernel.Skeleton
import Idealize.ShloMosaic.Lib.WritesUnit

noncomputable section

namespace Cert.Proof.KW

open Cert.Kernel Cert.Kernel.Gen Idealize.ShloMosaic Idealize.ShloMosaic.ValueIdx

/-- The loop makes 32 trips. -/
theorem trips_eq : k0_t1_loop.trips = 32 := by decide

theorem trip_lt (k : Fin k0_t1_loop.trips) : k.val < 32 :=
  lt_of_lt_of_eq k.isLt trips_eq

/-! ## The words a trip loads and the row a copy moves, in the task's spelling -/

/-- The sixteen staged user-index words trip `k` loads: entries `16 k … 16 k + 15` of the staged list `u`. -/
abbrev vecU (F : FTy → Type) (u : IVec S512 32) (k : Fin k0_t1_loop.trips) : IVec S16 32 :=
  (Memref.whole cc0_scratch0 : Memref sig .scVector .vmem S512 .i32).view.readAt (Elt F)
    (Rect.unit (s := S512) (k0_off2 k) S16.size (k0_off2_inb k)).toLoadRect u

/-- The same for the staged item-index words. -/
abbrev vecI (F : FTy → Type) (u : IVec S512 32) (k : Fin k0_t1_loop.trips) : IVec S16 32 :=
  (Memref.whole cc0_scratch1 : Memref sig .scVector .vmem S512 .i32).view.readAt (Elt F)
    (Rect.unit (s := S512) (k0_off2 k) S16.size (k0_off2_inb k)).toLoadRect u

variable {F : FTy → Type}

/-- Row `w` (read unsigned) of the user table holding `f`, as a 1 × 32 array: what one row copy moves. -/
abbrev rowU (f : FVec F S1000000x32 .f32) (w : BitVec 32)
    (hw : ∀ a, (![w.toNat, 0] : Fin 2 → Nat) a + S1x32.size a ≤ S1000000x32.size a) : S1x32.Idx → Elt F .f32 :=
  (ReadAs.same : ReadAs (Elt F) S1x32 .f32 S1x32 .f32).apply
    (((Memref.whole main_arg2_scv : Memref sig .scVector .hbm S1000000x32 .f32).slice
      (Rect.unit (s := S1000000x32) ![w.toNat, 0] S1x32.size hw) (fun _ => rfl)).view.read (Elt F) f)

/-- The same for the item table. -/
abbrev rowI (f : FVec F S1000000x32 .f32) (w : BitVec 32)
    (hw : ∀ a, (![w.toNat, 0] : Fin 2 → Nat) a + S1x32.size a ≤ S1000000x32.size a) : S1x32.Idx → Elt F .f32 :=
  (ReadAs.same : ReadAs (Elt F) S1x32 .f32 S1x32 .f32).apply
    (((Memref.whole main_arg3_scv : Memref sig .scVector .hbm S1000000x32 .f32).slice
      (Rect.unit (s := S1000000x32) ![w.toNat, 0] S1x32.size hw) (fun _ => rfl)).view.read (Elt F) f)

/-! ## Reading them -/

/-- A word at most 999999 names a row, with all 32 columns, inside the table. -/
theorem rowInb (w : BitVec 32) (hw : w.toNat ≤ 999999) :
    ∀ a, (![w.toNat, 0] : Fin 2 → Nat) a + S1x32.size a ≤ S1000000x32.size a := by
  intro a
  match a with
  | ⟨0, _⟩ =>
    show w.toNat + 1 ≤ 1000000
    omega
  | ⟨1, _⟩ =>
    show 0 + 32 ≤ 32
    omega

/-- Picking one word out of a vector of sixteen whose every word is at most 999999 gives such a word. -/
theorem word_inb (vec : IVec S16 32) (hvec : ∀ x, (vec x).toNat ≤ 999999) (off : Fin 1 → Nat) (hs : S16.Slices off S1) :
    ∀ a, (![(extractAt ![0] (extractStridedSlice S1 off vec hs) inpos_S1_p0).toNat, 0] : Fin 2 → Nat) a + S1x32.size a
      ≤ S1000000x32.size a :=
  rowInb _ (hvec _)

/-- Word `r` of a vector of sixteen, picked as the task picks it (a one-word slice at offset `r`, then its one word). -/
def wordAt (vec : IVec S16 32) (r : Fin 16) (hs : S16.Slices ![r.val] S1) : BitVec 32 :=
  extractAt ![0] (extractStridedSlice S1 ![r.val] vec hs) inpos_S1_p0

theorem slices16 (r : Fin 16) : S16.Slices ![r.val] S1 := by
  revert r
  decide

theorem wordAt_apply (vec : IVec S16 32) (r : Fin 16) (hs : S16.Slices ![r.val] S1) : wordAt vec r hs = vec (ix1 r) := by
  unfold wordAt extractAt extractStridedSlice
  refine congrArg vec (funext fun a => Fin.ext ?_)
  match a with
  | ⟨0, _⟩ =>
    show r.val + 0 = r.val
    omega

/-- The same in-range fact, for a word picked by `wordAt`. -/
theorem wordAt_inb (vec : IVec S16 32) (hvec : ∀ x, (vec x).toNat ≤ 999999) (r : Fin 16) (hs : S16.Slices ![r.val] S1) :
    ∀ a, (![(wordAt vec r hs).toNat, 0] : Fin 2 → Nat) a + S1x32.size a ≤ S1000000x32.size a :=
  word_inb vec hvec ![r.val] hs

/-- The loaded vector's word `r` is staged word `16 k + r`. -/
theorem vecU_apply (u : IVec S512 32) (k : Fin k0_t1_loop.trips) (r : Fin 16) :
    vecU F u k (ix1 r) = u (ix1 ⟨16 * k.val + r.val, by have := trip_lt k; omega⟩) := by
  show u _ = u _
  refine congrArg u (funext fun a => Fin.ext ?_)
  match a with
  | ⟨0, _⟩ =>
    show k0_off2 k 0 + 1 * r.val = 16 * k.val + r.val
    rw [k0_off2_eq]
    show 16 * k.val + 1 * r.val = 16 * k.val + r.val
    omega

theorem vecI_apply (u : IVec S512 32) (k : Fin k0_t1_loop.trips) (r : Fin 16) :
    vecI F u k (ix1 r) = u (ix1 ⟨16 * k.val + r.val, by have := trip_lt k; omega⟩) := by
  show u _ = u _
  refine congrArg u (funext fun a => Fin.ext ?_)
  match a with
  | ⟨0, _⟩ =>
    show k0_off2 k 0 + 1 * r.val = 16 * k.val + r.val
    rw [k0_off2_eq]
    show 16 * k.val + 1 * r.val = 16 * k.val + r.val
    omega

/-- Every loaded word is a staged word, so at most 999999 when the staged words are. -/
theorem vecU_le (u : IVec S512 32) (hu : ∀ j, (u j).toNat ≤ 999999) (k : Fin k0_t1_loop.trips) :
    ∀ x, (vecU F u k x).toNat ≤ 999999 :=
  fun x => hu ((Rect.unit (s := S512) (k0_off2 k) S16.size (k0_off2_inb k)).toLoadRect.idx x)

theorem vecI_le (u : IVec S512 32) (hu : ∀ j, (u j).toNat ≤ 999999) (k : Fin k0_t1_loop.trips) :
    ∀ x, (vecI F u k x).toNat ≤ 999999 :=
  fun x => hu ((Rect.unit (s := S512) (k0_off2 k) S16.size (k0_off2_inb k)).toLoadRect.idx x)

/-- The copied row at `(0, c)` is the table's entry at (row `w`, column `c`). -/
theorem rowU_apply (f : FVec F S1000000x32 .f32) (w : BitVec 32)
    (hw : ∀ a, (![w.toNat, 0] : Fin 2 → Nat) a + S1x32.size a ≤ S1000000x32.size a) (c : Fin 32) :
    rowU f w hw (ix2 (0 : Fin 1) c) = f (ix2 (⟨w.toNat, by have := hw 0; change w.toNat + 1 ≤ 1000000 at this; omega⟩ : Fin 1000000) c) := by
  show f _ = f _
  refine congrArg f (funext fun a => Fin.ext ?_)
  match a with
  | ⟨0, _⟩ =>
    show w.toNat + 1 * 0 = w.toNat
    omega
  | ⟨1, _⟩ =>
    show 0 + 1 * c.val = c.val
    omega

theorem rowI_apply (f : FVec F S1000000x32 .f32) (w : BitVec 32)
    (hw : ∀ a, (![w.toNat, 0] : Fin 2 → Nat) a + S1x32.size a ≤ S1000000x32.size a) (c : Fin 32) :
    rowI f w hw (ix2 (0 : Fin 1) c) = f (ix2 (⟨w.toNat, by have := hw 0; change w.toNat + 1 ≤ 1000000 at this; omega⟩ : Fin 1000000) c) := by
  show f _ = f _
  refine congrArg f (funext fun a => Fin.ext ?_)
  match a with
  | ⟨0, _⟩ =>
    show w.toNat + 1 * 0 = w.toNat
    omega
  | ⟨1, _⟩ =>
    show 0 + 1 * c.val = c.val
    omega

/-- The table row a staged word in range names, read through the loaded vector: the specification's row. -/
theorem named_row (vec : IVec S16 32) (u : IVec S512 32) (hu : ∀ j, (u j).toNat ≤ 999999) (k : Fin k0_t1_loop.trips)
    (hvec : ∀ r : Fin 16, vec (ix1 r) = u (ix1 ⟨16 * k.val + r.val, by have := trip_lt k; omega⟩)) (r : Fin 16)
    (hs : S16.Slices ![r.val] S1) :
    (wordAt vec r hs).toNat
      = (Cert.Proof.Spec.rowOf (u (ix1 (⟨(16 * k.val + r.val) % 512, Nat.mod_lt _ (by decide)⟩ : Fin 512)))).val := by
  have hk := trip_lt k
  have hJ : (⟨(16 * k.val + r.val) % 512, Nat.mod_lt _ (by decide)⟩ : Fin 512) = ⟨16 * k.val + r.val, by omega⟩ :=
    Fin.ext (Nat.mod_eq_of_lt (by omega))
  rw [wordAt_apply, hvec r, hJ, Cert.Proof.Spec.rowOf_val_of_le (hu _)]

/-! ## The scratches after a trip's sixteen row copies -/

/-- After the sixteen user-row copies the user-row scratch holds the rows the staged user-index words
    `16 k … 16 k + 15` name: `rowsOf f4 u9 k`. -/
theorem landed_user [FloatOps F] (f4 : FVec F S1000000x32 .f32) (f11 : (Memref.whole cc0_scratch2).view.ty.Contents (Elt F))
    (u9 : IVec S512 32) (hu9 : ∀ j, (u9 j).toNat ≤ 999999) (k : Fin k0_t1_loop.trips) :
    (Memref.whole cc0_scratch2).view.writes (Elt F) f11
      [⟨Rect.unit (s := S16x32) ![15, 0] S1x32.size inb_S16x32_S1x32_15_0,
        rowU f4 (extractAt (s := S1) ![0] (extractStridedSlice (s := S16) S1 ![15] (vecU F u9 k) slices_S16_o15_S1) inpos_S1_p0)
          (word_inb (vecU F u9 k) (vecU_le u9 hu9 k) ![15] slices_S16_o15_S1)⟩,
      ⟨Rect.unit (s := S16x32) ![14, 0] S1x32.size inb_S16x32_S1x32_14_0,
        rowU f4 (extractAt (s := S1) ![0] (extractStridedSlice (s := S16) S1 ![14] (vecU F u9 k) slices_S16_o14_S1) inpos_S1_p0)
          (word_inb (vecU F u9 k) (vecU_le u9 hu9 k) ![14] slices_S16_o14_S1)⟩,
      ⟨Rect.unit (s := S16x32) ![13, 0] S1x32.size inb_S16x32_S1x32_13_0,
        rowU f4 (extractAt (s := S1) ![0] (extractStridedSlice (s := S16) S1 ![13] (vecU F u9 k) slices_S16_o13_S1) inpos_S1_p0)
          (word_inb (vecU F u9 k) (vecU_le u9 hu9 k) ![13] slices_S16_o13_S1)⟩,
      ⟨Rect.unit (s := S16x32) ![12, 0] S1x32.size inb_S16x32_S1x32_12_0,
        rowU f4 (extractAt (s := S1) ![0] (extractStridedSlice (s := S16) S1 ![12] (vecU F u9 k) slices_S16_o12_S1) inpos_S1_p0)
          (word_inb (vecU F u9 k) (vecU_le u9 hu9 k) ![12] slices_S16_o12_S1)⟩,
      ⟨Rect.unit (s := S16x32) ![11, 0] S1x32.size inb_S16x32_S1x32_11_0,
        rowU f4 (extractAt (s := S1) ![0] (extractStridedSlice (s := S16) S1 ![11] (vecU F u9 k) slices_S16_o11_S1) inpos_S1_p0)
          (word_inb (vecU F u9 k) (vecU_le u9 hu9 k) ![11] slices_S16_o11_S1)⟩,
      ⟨Rect.unit (s := S16x32) ![10, 0] S1x32.size inb_S16x32_S1x32_10_0,
        rowU f4 (extractAt (s := S1) ![0] (extractStridedSlice (s := S16) S1 ![10] (vecU F u9 k) slices_S16_o10_S1) inpos_S1_p0)
          (word_inb (vecU F u9 k) (vecU_le u9 hu9 k) ![10] slices_S16_o10_S1)⟩,
      ⟨Rect.unit (s := S16x32) ![9, 0] S1x32.size inb_S16x32_S1x32_9_0,
        rowU f4 (extractAt (s := S1) ![0] (extractStridedSlice (s := S16) S1 ![9] (vecU F u9 k) slices_S16_o9_S1) inpos_S1_p0)
          (word_inb (vecU F u9 k) (vecU_le u9 hu9 k) ![9] slices_S16_o9_S1)⟩,
      ⟨Rect.unit (s := S16x32) ![8, 0] S1x32.size inb_S16x32_S1x32_8_0,
        rowU f4 (extractAt (s := S1) ![0] (extractStridedSlice (s := S16) S1 ![8] (vecU F u9 k) slices_S16_o8_S1) inpos_S1_p0)
          (word_inb (vecU F u9 k) (vecU_le u9 hu9 k) ![8] slices_S16_o8_S1)⟩,
      ⟨Rect.unit (s := S16x32) ![7, 0] S1x32.size inb_S16x32_S1x32_7_0,
        rowU f4 (extractAt (s := S1) ![0] (extractStridedSlice (s := S16) S1 ![7] (vecU F u9 k) slices_S16_o7_S1) inpos_S1_p0)
          (word_inb (vecU F u9 k) (vecU_le u9 hu9 k) ![7] slices_S16_o7_S1)⟩,
      ⟨Rect.unit (s := S16x32) ![6, 0] S1x32.size inb_S16x32_S1x32_6_0,
        rowU f4 (extractAt (s := S1) ![0] (extractStridedSlice (s := S16) S1 ![6] (vecU F u9 k) slices_S16_o6_S1) inpos_S1_p0)
          (word_inb (vecU F u9 k) (vecU_le u9 hu9 k) ![6] slices_S16_o6_S1)⟩,
      ⟨Rect.unit (s := S16x32) ![5, 0] S1x32.size inb_S16x32_S1x32_5_0,
        rowU f4 (extractAt (s := S1) ![0] (extractStridedSlice (s := S16) S1 ![5] (vecU F u9 k) slices_S16_o5_S1) inpos_S1_p0)
          (word_inb (vecU F u9 k) (vecU_le u9 hu9 k) ![5] slices_S16_o5_S1)⟩,
      ⟨Rect.unit (s := S16x32) ![4, 0] S1x32.size inb_S16x32_S1x32_4_0,
        rowU f4 (extractAt (s := S1) ![0] (extractStridedSlice (s := S16) S1 ![4] (vecU F u9 k) slices_S16_o4_S1) inpos_S1_p0)
          (word_inb (vecU F u9 k) (vecU_le u9 hu9 k) ![4] slices_S16_o4_S1)⟩,
      ⟨Rect.unit (s := S16x32) ![3, 0] S1x32.size inb_S16x32_S1x32_3_0,
        rowU f4 (extractAt (s := S1) ![0] (extractStridedSlice (s := S16) S1 ![3] (vecU F u9 k) slices_S16_o3_S1) inpos_S1_p0)
          (word_inb (vecU F u9 k) (vecU_le u9 hu9 k) ![3] slices_S16_o3_S1)⟩,
      ⟨Rect.unit (s := S16x32) ![2, 0] S1x32.size inb_S16x32_S1x32_2_0,
        rowU f4 (extractAt (s := S1) ![0] (extractStridedSlice (s := S16) S1 ![2] (vecU F u9 k) slices_S16_o2_S1) inpos_S1_p0)
          (word_inb (vecU F u9 k) (vecU_le u9 hu9 k) ![2] slices_S16_o2_S1)⟩,
      ⟨Rect.unit (s := S16x32) ![1, 0] S1x32.size inb_S16x32_S1x32_1_0,
        rowU f4 (extractAt (s := S1) ![0] (extractStridedSlice (s := S16) S1 ![1] (vecU F u9 k) slices_S16_o1_S1) inpos_S1_p0)
          (word_inb (vecU F u9 k) (vecU_le u9 hu9 k) ![1] slices_S16_o1_S1)⟩,
      ⟨Rect.unit (s := S16x32) ![0, 0] S1x32.size inb_S16x32_S1x32_0_0,
        rowU f4 (extractAt (s := S1) ![0] (extractStridedSlice (s := S16) S1 ![0] (vecU F u9 k) slices_S16_o0_S1) inpos_S1_p0)
          (word_inb (vecU F u9 k) (vecU_le u9 hu9 k) ![0] slices_S16_o0_S1)⟩]
      = rowsOf f4 u9 k.val := by
  show ((Memref.whole cc0_scratch2).view.writes (Elt F) f11 _ : S16x32.Idx → Elt F .f32) = _
  funext j
  obtain ⟨r, c, rfl⟩ : ∃ (r : Fin 16) (c : Fin 32), j = ix2 r c := ⟨j 0, j 1, eq_ix2 j⟩
  refine (read_rows16_scratch2 f11
    (fun r' => rowU f4 (wordAt (vecU F u9 k) r' (slices16 r'))
      (wordAt_inb (vecU F u9 k) (vecU_le u9 hu9 k) r' (slices16 r'))) r c).trans ?_
  show rowU f4 (wordAt (vecU F u9 k) r (slices16 r)) _ (ix2 (0 : Fin 1) c)
    = f4 (ix2 (Cert.Proof.Spec.rowOf (u9 (ix1 (⟨(16 * k.val + r.val) % 512, Nat.mod_lt _ (by decide)⟩ : Fin 512)))) c)
  rw [rowU_apply]
  exact congrArg (fun q : Fin 1000000 => f4 (ix2 q c))
    (Fin.ext (named_row (vecU F u9 k) u9 hu9 k (vecU_apply u9 k) r (slices16 r)))

/-- After the sixteen item-row copies the item-row scratch holds the rows the staged item-index words
    `16 k … 16 k + 15` name: `rowsOf f5 u10 k`. -/
theorem landed_item [FloatOps F] (f5 : FVec F S1000000x32 .f32) (f12 : (Memref.whole cc0_scratch3).view.ty.Contents (Elt F))
    (u10 : IVec S512 32) (hu10 : ∀ j, (u10 j).toNat ≤ 999999) (k : Fin k0_t1_loop.trips) :
    (Memref.whole cc0_scratch3).view.writes (Elt F) f12
      [⟨Rect.unit (s := S16x32) ![15, 0] S1x32.size inb_S16x32_S1x32_15_0,
        rowI f5 (extractAt (s := S1) ![0] (extractStridedSlice (s := S16) S1 ![15] (vecI F u10 k) slices_S16_o15_S1) inpos_S1_p0)
          (word_inb (vecI F u10 k) (vecI_le u10 hu10 k) ![15] slices_S16_o15_S1)⟩,
      ⟨Rect.unit (s := S16x32) ![14, 0] S1x32.size inb_S16x32_S1x32_14_0,
        rowI f5 (extractAt (s := S1) ![0] (extractStridedSlice (s := S16) S1 ![14] (vecI F u10 k) slices_S16_o14_S1) inpos_S1_p0)
          (word_inb (vecI F u10 k) (vecI_le u10 hu10 k) ![14] slices_S16_o14_S1)⟩,
      ⟨Rect.unit (s := S16x32) ![13, 0] S1x32.size inb_S16x32_S1x32_13_0,
        rowI f5 (extractAt (s := S1) ![0] (extractStridedSlice (s := S16) S1 ![13] (vecI F u10 k) slices_S16_o13_S1) inpos_S1_p0)
          (word_inb (vecI F u10 k) (vecI_le u10 hu10 k) ![13] slices_S16_o13_S1)⟩,
      ⟨Rect.unit (s := S16x32) ![12, 0] S1x32.size inb_S16x32_S1x32_12_0,
        rowI f5 (extractAt (s := S1) ![0] (extractStridedSlice (s := S16) S1 ![12] (vecI F u10 k) slices_S16_o12_S1) inpos_S1_p0)
          (word_inb (vecI F u10 k) (vecI_le u10 hu10 k) ![12] slices_S16_o12_S1)⟩,
      ⟨Rect.unit (s := S16x32) ![11, 0] S1x32.size inb_S16x32_S1x32_11_0,
        rowI f5 (extractAt (s := S1) ![0] (extractStridedSlice (s := S16) S1 ![11] (vecI F u10 k) slices_S16_o11_S1) inpos_S1_p0)
          (word_inb (vecI F u10 k) (vecI_le u10 hu10 k) ![11] slices_S16_o11_S1)⟩,
      ⟨Rect.unit (s := S16x32) ![10, 0] S1x32.size inb_S16x32_S1x32_10_0,
        rowI f5 (extractAt (s := S1) ![0] (extractStridedSlice (s := S16) S1 ![10] (vecI F u10 k) slices_S16_o10_S1) inpos_S1_p0)
          (word_inb (vecI F u10 k) (vecI_le u10 hu10 k) ![10] slices_S16_o10_S1)⟩,
      ⟨Rect.unit (s := S16x32) ![9, 0] S1x32.size inb_S16x32_S1x32_9_0,
        rowI f5 (extractAt (s := S1) ![0] (extractStridedSlice (s := S16) S1 ![9] (vecI F u10 k) slices_S16_o9_S1) inpos_S1_p0)
          (word_inb (vecI F u10 k) (vecI_le u10 hu10 k) ![9] slices_S16_o9_S1)⟩,
      ⟨Rect.unit (s := S16x32) ![8, 0] S1x32.size inb_S16x32_S1x32_8_0,
        rowI f5 (extractAt (s := S1) ![0] (extractStridedSlice (s := S16) S1 ![8] (vecI F u10 k) slices_S16_o8_S1) inpos_S1_p0)
          (word_inb (vecI F u10 k) (vecI_le u10 hu10 k) ![8] slices_S16_o8_S1)⟩,
      ⟨Rect.unit (s := S16x32) ![7, 0] S1x32.size inb_S16x32_S1x32_7_0,
        rowI f5 (extractAt (s := S1) ![0] (extractStridedSlice (s := S16) S1 ![7] (vecI F u10 k) slices_S16_o7_S1) inpos_S1_p0)
          (word_inb (vecI F u10 k) (vecI_le u10 hu10 k) ![7] slices_S16_o7_S1)⟩,
      ⟨Rect.unit (s := S16x32) ![6, 0] S1x32.size inb_S16x32_S1x32_6_0,
        rowI f5 (extractAt (s := S1) ![0] (extractStridedSlice (s := S16) S1 ![6] (vecI F u10 k) slices_S16_o6_S1) inpos_S1_p0)
          (word_inb (vecI F u10 k) (vecI_le u10 hu10 k) ![6] slices_S16_o6_S1)⟩,
      ⟨Rect.unit (s := S16x32) ![5, 0] S1x32.size inb_S16x32_S1x32_5_0,
        rowI f5 (extractAt (s := S1) ![0] (extractStridedSlice (s := S16) S1 ![5] (vecI F u10 k) slices_S16_o5_S1) inpos_S1_p0)
          (word_inb (vecI F u10 k) (vecI_le u10 hu10 k) ![5] slices_S16_o5_S1)⟩,
      ⟨Rect.unit (s := S16x32) ![4, 0] S1x32.size inb_S16x32_S1x32_4_0,
        rowI f5 (extractAt (s := S1) ![0] (extractStridedSlice (s := S16) S1 ![4] (vecI F u10 k) slices_S16_o4_S1) inpos_S1_p0)
          (word_inb (vecI F u10 k) (vecI_le u10 hu10 k) ![4] slices_S16_o4_S1)⟩,
      ⟨Rect.unit (s := S16x32) ![3, 0] S1x32.size inb_S16x32_S1x32_3_0,
        rowI f5 (extractAt (s := S1) ![0] (extractStridedSlice (s := S16) S1 ![3] (vecI F u10 k) slices_S16_o3_S1) inpos_S1_p0)
          (word_inb (vecI F u10 k) (vecI_le u10 hu10 k) ![3] slices_S16_o3_S1)⟩,
      ⟨Rect.unit (s := S16x32) ![2, 0] S1x32.size inb_S16x32_S1x32_2_0,
        rowI f5 (extractAt (s := S1) ![0] (extractStridedSlice (s := S16) S1 ![2] (vecI F u10 k) slices_S16_o2_S1) inpos_S1_p0)
          (word_inb (vecI F u10 k) (vecI_le u10 hu10 k) ![2] slices_S16_o2_S1)⟩,
      ⟨Rect.unit (s := S16x32) ![1, 0] S1x32.size inb_S16x32_S1x32_1_0,
        rowI f5 (extractAt (s := S1) ![0] (extractStridedSlice (s := S16) S1 ![1] (vecI F u10 k) slices_S16_o1_S1) inpos_S1_p0)
          (word_inb (vecI F u10 k) (vecI_le u10 hu10 k) ![1] slices_S16_o1_S1)⟩,
      ⟨Rect.unit (s := S16x32) ![0, 0] S1x32.size inb_S16x32_S1x32_0_0,
        rowI f5 (extractAt (s := S1) ![0] (extractStridedSlice (s := S16) S1 ![0] (vecI F u10 k) slices_S16_o0_S1) inpos_S1_p0)
          (word_inb (vecI F u10 k) (vecI_le u10 hu10 k) ![0] slices_S16_o0_S1)⟩]
      = rowsOf f5 u10 k.val := by
  show ((Memref.whole cc0_scratch3).view.writes (Elt F) f12 _ : S16x32.Idx → Elt F .f32) = _
  funext j
  obtain ⟨r, c, rfl⟩ : ∃ (r : Fin 16) (c : Fin 32), j = ix2 r c := ⟨j 0, j 1, eq_ix2 j⟩
  refine (read_rows16_scratch3 f12
    (fun r' => rowI f5 (wordAt (vecI F u10 k) r' (slices16 r'))
      (wordAt_inb (vecI F u10 k) (vecI_le u10 hu10 k) r' (slices16 r'))) r c).trans ?_
  show rowI f5 (wordAt (vecI F u10 k) r (slices16 r)) _ (ix2 (0 : Fin 1) c)
    = f5 (ix2 (Cert.Proof.Spec.rowOf (u10 (ix1 (⟨(16 * k.val + r.val) % 512, Nat.mod_lt _ (by decide)⟩ : Fin 512)))) c)
  rw [rowI_apply]
  exact congrArg (fun q : Fin 1000000 => f5 (ix2 q c))
    (Fin.ext (named_row (vecI F u10 k) u10 hu10 k (vecI_apply u10 k) r (slices16 r)))

/-! ## The output scratch after a trip's store -/

/-- One store of sixteen entries at offset `16 k` into the 512-entry output scratch: entries `16 k … 16 k + 15`
    become the stored vector's, every other entry keeps what it held. -/
theorem stored_eq [FloatOps F] (f15 : (Memref.whole cc0_scratch6).view.ty.Contents (Elt F)) (k : Fin k0_t1_loop.trips)
    (v : FVec F S16 .f32) :
    (Memref.whole cc0_scratch6).view.writes (Elt F) f15
      [⟨Rect.unit (s := S512) (k0_off65 k) S16.size (k0_off65_inb k), v⟩] = stored f15 k.val v := by
  show ((Memref.whole cc0_scratch6).view.writes (Elt F) f15 _ : S512.Idx → Elt F .f32) = _
  funext j
  obtain ⟨p, rfl⟩ : ∃ p : Fin 512, j = ix1 p := ⟨j 0, eq_ix1 j⟩
  have hk := trip_lt k
  by_cases h : 16 * k.val ≤ p.val ∧ p.val < 16 * k.val + 16
  · have hl : p.val - 16 * k.val < 16 := by omega
    have e := View.read_writes_cons_unit_of_mem (Memref.whole cc0_scratch6 : Memref sig .scVector .vmem S512 .f32).view f15
      (k0_off65_inb k) v [] (ix1 p) (ix1 (⟨p.val - 16 * k.val, hl⟩ : Fin 16)) (k0_off65_eq k)
      (fun a => match a with
        | ⟨0, _⟩ => by
          show p.val = 16 * k.val + (p.val - 16 * k.val)
          omega)
    have e2 : stored f15 k.val v (ix1 p) = v (ix1 (⟨p.val - 16 * k.val, hl⟩ : Fin 16)) := dif_pos h
    exact e.trans e2.symm
  · have e := View.read_writes_cons_unit_of_not_mem (Memref.whole cc0_scratch6 : Memref sig .scVector .vmem S512 .f32).view f15
      (k0_off65_inb k) v [] (ix1 p) (k0_off65_eq k) 0 (by
        show p.val < 16 * k.val ∨ 16 * k.val + 16 ≤ p.val
        omega)
    have e2 : stored f15 k.val v (ix1 p) = (f15 : S512.Idx → Elt F .f32) (ix1 p) := dif_neg h
    exact e.trans e2.symm

end Cert.Proof.KW

end
-- ==== Proof.WTrip.lean ====
/-
  One trip of a tile's task, from start to finish.

  A trip reads sixteen user-index words and sixteen item-index words from the staged lists, starts a copy of the
  table row each names into row `lane` of the user-row scratch and of the item-row scratch (eight lanes at a time, four
  copies on each of four semaphores, then as many waits), and only then reads the two scratches column by column to
  form the trip's vector (KTripVec), which it stores into sixteen consecutive entries of the output scratch.
  No row scratch is read or written while a copy into it is pending, and the two halves land in different rows, so
  what the columns read is what the copies brought, whatever the order the copies complete in.
-/
import proofs.«208244_g21053929685252_cont_8to1_1842_38_alg».proof.Proof.WTile0
import proofs.«208244_g21053929685252_cont_8to1_1842_38_alg».proof.Proof.WTripVec
import proofs.«208244_g21053929685252_cont_8to1_1842_38_alg».proof.Proof.WTripDefs
import proofs.«208244_g21053929685252_cont_8to1_1842_38_alg».proof.Proof.WLanded

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "a2W" => (Memref.whole Cert.Kernel.main_arg0_scv : Memref Cert.Kernel.sig Kind.scVector Space.hbm Cert.Kernel.S16384 EltTy.i32)
local notation "a3W" => (Memref.whole Cert.Kernel.main_arg1_scv : Memref Cert.Kernel.sig Kind.scVector Space.hbm Cert.Kernel.S16384 EltTy.i32)
local notation "a4W" => (Memref.whole Cert.Kernel.main_arg2_scv : Memref Cert.Kernel.sig Kind.scVector Space.hbm Cert.Kernel.S1000000x32 EltTy.f32)
local notation "a5W" => (Memref.whole Cert.Kernel.main_arg3_scv : Memref Cert.Kernel.sig Kind.scVector Space.hbm Cert.Kernel.S1000000x32 EltTy.f32)
local notation "a6W" => (Memref.whole Cert.Kernel.main_v3_scv : Memref Cert.Kernel.sig Kind.scVector Space.hbm Cert.Kernel.S512 EltTy.f32)
local notation "a7W" => (Memref.whole Cert.Kernel.main_v5_scv : Memref Cert.Kernel.sig Kind.scVector Space.hbm Cert.Kernel.S16 EltTy.f32)
local notation "a8W" => (Memref.whole Cert.Kernel.main_v6_scv : Memref Cert.Kernel.sig Kind.scVector Space.hbm Cert.Kernel.S16384 EltTy.f32)
local notation "s9W" => (Memref.whole Cert.Kernel.cc0_scratch0 : Memref Cert.Kernel.sig Kind.scVector Space.vmem Cert.Kernel.S512 EltTy.i32)
local notation "s10W" => (Memref.whole Cert.Kernel.cc0_scratch1 : Memref Cert.Kernel.sig Kind.scVector Space.vmem Cert.Kernel.S512 EltTy.i32)
local notation "s11W" => (Memref.whole Cert.Kernel.cc0_scratch2 : Memref Cert.Kernel.sig Kind.scVector Space.vmem Cert.Kernel.S16x32 EltTy.f32)
local notation "s12W" => (Memref.whole Cert.Kernel.cc0_scratch3 : Memref Cert.Kernel.sig Kind.scVector Space.vmem Cert.Kernel.S16x32 EltTy.f32)
local notation "s13W" => (Memref.whole Cert.Kernel.cc0_scratch4 : Memref Cert.Kernel.sig Kind.scVector Space.vmem Cert.Kernel.S512 EltTy.f32)
local notation "s14W" => (Memref.whole Cert.Kernel.cc0_scratch5 : Memref Cert.Kernel.sig Kind.scVector Space.vmem Cert.Kernel.S16 EltTy.f32)
local notation "s15W" => (Memref.whole Cert.Kernel.cc0_scratch6 : Memref Cert.Kernel.sig Kind.scVector Space.vmem Cert.Kernel.S512 EltTy.f32)

variable [FloatOps F]

/-- A row number at most 999,999 leaves room for one whole row of 32 inside the table of 1,000,000 rows
    (stated twice: the task slices the same row for the copy and for its wait). -/
theorem rowsInb (v : BitVec 32) (h : v.toNat ≤ 999999) :
    (∀ a, (![v.toNat, 0] : Fin 2 → Nat) a + S1x32.size a ≤ S1000000x32.size a) ∧
    (∀ a, (![v.toNat, 0] : Fin 2 → Nat) a + S1x32.size a ≤ S1000000x32.size a) := by
  have key : ∀ a, (![v.toNat, 0] : Fin 2 → Nat) a + S1x32.size a ≤ S1000000x32.size a := by
    intro a
    match a with
    | ⟨0, _⟩ => show v.toNat + 1 ≤ 1000000; omega
    | ⟨1, _⟩ => show 0 + 32 ≤ 32; omega
  exact ⟨key, key⟩

/-- One entry picked out of a vector is one of the vector's entries: a bound on all of them bounds it. -/
theorem pick_le {B : Nat} (v : S16.Idx → BitVec 32) (hv : ∀ x, (v x).toNat ≤ B) (o : Fin 1 → Nat) (hs : S16.Slices o S1)
    (hp : ∀ a, (![0] : Fin 1 → Nat) a < S1.size a) :
    (extractAt ![0] (extractStridedSlice S1 o v hs) hp).toNat ≤ B :=
  hv _

section Trip

variable (d : Dev nD) (L : grid0.Coords)

omit [FloatOps F] in
theorem pts_acc11 (f : Buf (Elt F) ((s11W).view.loc (thrOf d L))) :
    (((s11W).view.loc (thrOf d L) ↦{fullShare} f : sProp 𝕄)) = ((((s11W).access (.whole S16x32)).loc (thrOf d L) ↦{fullShare} f : sProp 𝕄)) := rfl
omit [FloatOps F] in
theorem pts_acc12 (f : Buf (Elt F) ((s12W).view.loc (thrOf d L))) :
    (((s12W).view.loc (thrOf d L) ↦{fullShare} f : sProp 𝕄)) = ((((s12W).access (.whole S16x32)).loc (thrOf d L) ↦{fullShare} f : sProp 𝕄)) := rfl

omit [FloatOps F] in
/-- Holding a buffer at some contents is holding it at contents one may name. -/
theorem pts_name {ℓ : Loc nD τ sig} (q : PosShare TreeShare) (f : Buf (Elt F) ℓ) :
    (ℓ ↦{q} f : sProp 𝕄) ⊢ iprop(∃ g, ⌜g = f⌝ ∗ ℓ ↦{q} g) := by
  iintro H; iexists f
  isplitr
  · ipureintro; rfl
  · iexact H

omit [FloatOps F] in
/-- A vector read out of the staged user-index list consists of entries of the list. -/
theorem readAt9_le (u9 : Buf (Elt F) ((s9W).view.loc (thrOf d L))) (hu9 : ∀ j, (u9 j).toNat ≤ 999999) (r : LoadRect S512) :
    ∀ x, (View.readAt (Elt F) (s9W).view r u9 x).toNat ≤ 999999 := by
  intro x; rw [View.readAt_apply]; exact hu9 _
omit [FloatOps F] in
theorem readAt10_le (u10 : Buf (Elt F) ((s10W).view.loc (thrOf d L))) (hu10 : ∀ j, (u10 j).toNat ≤ 999999) (r : LoadRect S512) :
    ∀ x, (View.readAt (Elt F) (s10W).view r u10 x).toNat ≤ 999999 := by
  intro x; rw [View.readAt_apply]; exact hu10 _

omit [FloatOps F] in
/-- Recording one more wait at the kernel's own index keeps the record admissible. -/
theorem mem_ins {W W' : Waits sig (HIx 1)} {a : SemLoc sig × HIx 1} (ha : a.2 = none) (h : ∀ p ∈ W', p ∈ W ∨ p.2 = none) :
    ∀ p ∈ insert a W', p ∈ W ∨ p.2 = none :=
  fun p hp => (Finset.mem_insert.mp hp).elim (fun e => .inr (e ▸ ha)) (h p)

/-- The indexed read of the user-row scratch, held whole at `f`: the program goes on with `f` read at the index vectors. -/
theorem wp_vli11 {α : Type} {idxs : Fin S16x32.rank → IVec S16 32} {h : ∀ a x, (idxs a x).toNat < S16x32.size a} {hl : (s11W).view.Loads}
    {k : Vec F S16 .f32 → Prog (TpuEff nD τ sig (Elt F) Λ₀ (thrOf d L).2) α} {Q : α → sProp 𝕄} {q : PosShare TreeShare}
    {f : Buf (Elt F) (((s11W).access (.whole S16x32)).loc (thrOf d L))} :
    ((((s11W).access (.whole S16x32)).loc (thrOf d L) ↦{q} f) : sProp 𝕄)
      ⊢ iprop((((((s11W).access (.whole S16x32)).loc (thrOf d L) ↦{q} f))
          -∗ wp frame (wpE (defs₀ (F := F)) 𝒱₀ (thrOf d L) none) Set.univ (k (loadIdx f idxs h)) Q)
        -∗ wp frame (wpE (defs₀ (F := F)) 𝒱₀ (thrOf d L) none) Set.univ (SparseCore.vectorLoadIdx (s11W) idxs h hl >>= k) Q) := by
  have H := SparseCore.wp_vectorLoadIdx (F := F) (defs := defs₀ (F := F)) 𝒱₀ (thrOf d L) none Set.univ (base := s11W) (idxs := idxs) (h := h) (hl := hl)
    (k := k) (S := Finset.univ) (q := q) (f := f) (Q := Q) (Finset.subset_univ _)
  rw [Memref.read_access_whole] at H
  exact H

/-- The indexed read of the item-row scratch, held whole at `f`: the program goes on with `f` read at the index vectors. -/
theorem wp_vli12 {α : Type} {idxs : Fin S16x32.rank → IVec S16 32} {h : ∀ a x, (idxs a x).toNat < S16x32.size a} {hl : (s12W).view.Loads}
    {k : Vec F S16 .f32 → Prog (TpuEff nD τ sig (Elt F) Λ₀ (thrOf d L).2) α} {Q : α → sProp 𝕄} {q : PosShare TreeShare}
    {f : Buf (Elt F) (((s12W).access (.whole S16x32)).loc (thrOf d L))} :
    ((((s12W).access (.whole S16x32)).loc (thrOf d L) ↦{q} f) : sProp 𝕄)
      ⊢ iprop((((((s12W).access (.whole S16x32)).loc (thrOf d L) ↦{q} f))
          -∗ wp frame (wpE (defs₀ (F := F)) 𝒱₀ (thrOf d L) none) Set.univ (k (loadIdx f idxs h)) Q)
        -∗ wp frame (wpE (defs₀ (F := F)) 𝒱₀ (thrOf d L) none) Set.univ (SparseCore.vectorLoadIdx (s12W) idxs h hl >>= k) Q) := by
  have H := SparseCore.wp_vectorLoadIdx (F := F) (defs := defs₀ (F := F)) 𝒱₀ (thrOf d L) none Set.univ (base := s12W) (idxs := idxs) (h := h) (hl := hl)
    (k := k) (S := Finset.univ) (q := q) (f := f) (Q := Q) (Finset.subset_univ _)
  rw [Memref.read_access_whole] at H
  exact H

set_option hygiene false in
/-- One column: its check, then the two indexed reads, each through the scratch held whole. -/
macro "col_step" : tactic => `(tactic| (
  first | sl_exec (disch := first | exact ⟨colIdx_inb _ (by decide), colIdx_inb _ (by decide)⟩) | skip
  ihave H11' := (Entails.of_eq (pts_acc11 (F := F) d L _)) $$ H11
  first
    | iapply (wp_vli11 (F := F) d L) $$ H11'
    | (rw [wp_bind]; iapply (wp_vli11 (F := F) d L) $$ H11')
  iintro H11'
  ihave H11 := (Entails.of_eq (pts_acc11 (F := F) d L _).symm) $$ H11'
  ihave H12' := (Entails.of_eq (pts_acc12 (F := F) d L _)) $$ H12
  first
    | iapply (wp_vli12 (F := F) d L) $$ H12'
    | (rw [wp_bind]; iapply (wp_vli12 (F := F) d L) $$ H12')
  iintro H12'
  ihave H12 := (Entails.of_eq (pts_acc12 (F := F) d L _).symm) $$ H12'))

set_option maxHeartbeats 8000000 in
/-- One trip of the task (KTripDefs: `TripRun`). -/
theorem trip : TripRun (F := F) d L := by
  intro k O W u9 u10 hu9 hu10 f4 f5 q4 q5 f15 bias w
  have _p16 : Transfers.BatchOf (thrOf d L) (SemLoc.dma (sig := sig) cc0_scratch7.sem) 4 (windows := true) := trivial
  have _p17 : Transfers.BatchOf (thrOf d L) (SemLoc.dma (sig := sig) cc0_scratch8.sem) 4 (windows := true) := trivial
  have _p18 : Transfers.BatchOf (thrOf d L) (SemLoc.dma (sig := sig) cc0_scratch9.sem) 4 (windows := true) := trivial
  have _p19 : Transfers.BatchOf (thrOf d L) (SemLoc.dma (sig := sig) cc0_scratch10.sem) 4 (windows := true) := trivial
  unfold k0_t1_body
  rw [k0_part18_eq_skeleton]; unfold k0_part18_skel
  iintro ⟨Hmw, H9, H10, ⟨%f11, H11⟩, ⟨%f12, H12⟩, H4_0, H4_1, H4_2, H4_3, H4_4, H4_5, H4_6, H4_7, H5_0, H5_1, H5_2, H5_3, H5_4, H5_5, H5_6, H5_7, Hs16, Hs17, Hs18, Hs19, H15, HO⟩
  sl_exec (disch := first
    | (refine rowsInb _ ?_; exact readAt9_le d L u9 hu9 _ _)
    | (refine rowsInb _ ?_; exact readAt10_le d L u10 hu10 _ _)
    | (refine (rowsInb _ ?_).1; exact readAt9_le d L u9 hu9 _ _)
    | (refine (rowsInb _ ?_).1; exact readAt10_le d L u10 hu10 _ _))
  ihave Hg := (pts_name (F := F) _ _) $$ H11
  icases Hg with ⟨%g11, %hg11, H11⟩
  ihave Hg := (pts_name (F := F) _ _) $$ H12
  icases Hg with ⟨%g12, %hg12, H12⟩
  col_step
  col_step
  col_step
  col_step
  col_step
  col_step
  col_step
  col_step
  col_step
  col_step
  col_step
  col_step
  col_step
  col_step
  col_step
  col_step
  col_step
  col_step
  col_step
  col_step
  col_step
  col_step
  col_step
  col_step
  col_step
  col_step
  col_step
  col_step
  col_step
  col_step
  col_step
  col_step
  first | sl_exec | skip
  sl_step
  have er : trip.sl.r_10 d L bias w g11 g12 = tripVec bias w g11 g12 := rfl
  have e11 : g11 = rowsOf f4 u9 k.val := hg11.trans (landed_user f4 f11 u9 hu9 k)
  have e12 : g12 = rowsOf f5 u10 k.val := hg12.trans (landed_item f5 f12 u10 hu10 k)
  have e15 : (s15W).view.writes (Elt F) f15 [⟨Rect.unit (s := S512) (k0_off65 k) S16.size (k0_off65_inb k), trip.sl.r_10 d L bias w g11 g12⟩]
      = stored f15 k.val (tripVec bias w (rowsOf f4 u9 k.val) (rowsOf f5 u10 k.val)) := by
    rw [er, ← e11, ← e12]; exact stored_eq f15 k _
  isplitl [Hmw]; · iexact Hmw
  isplitl [H9]; · iexact H9
  isplitl [H10]; · iexact H10
  isplitl [H11]; · iexists _; iexact H11
  isplitl [H12]; · iexists _; iexact H12
  isplitl [H4_0]; · iexact H4_0
  isplitl [H4_1]; · iexact H4_1
  isplitl [H4_2]; · iexact H4_2
  isplitl [H4_3]; · iexact H4_3
  isplitl [H4_4]; · iexact H4_4
  isplitl [H4_5]; · iexact H4_5
  isplitl [H4_6]; · iexact H4_6
  isplitl [H4_7]; · iexact H4_7
  isplitl [H5_0]; · iexact H5_0
  isplitl [H5_1]; · iexact H5_1
  isplitl [H5_2]; · iexact H5_2
  isplitl [H5_3]; · iexact H5_3
  isplitl [H5_4]; · iexact H5_4
  isplitl [H5_5]; · iexact H5_5
  isplitl [H5_6]; · iexact H5_6
  isplitl [H5_7]; · iexact H5_7
  isplitl [Hs16]; · iexact Hs16
  isplitl [Hs17]; · iexact Hs17
  isplitl [Hs18]; · iexact Hs18
  isplitl [Hs19]; · iexact Hs19
  isplitl [H15]
  · iapply (Entails.of_eq (congrArg (fun g => (((s15W).view.loc (thrOf d L) ↦{fullShare} g) : sProp 𝕄)) e15)); iexact H15
  iexists _; isplitr
  rotate_left
  · iexact HO
  · ipureintro
    repeat (refine mem_ins rfl ?_)
    exact fun p hp => Or.inl hp

end Trip

end Cert.Proof.KW

end
-- ==== Proof.lean ====
/-
  The claim: a SparseCore kernel that looks two rows up per batch entry and forms their weighted inner product
  computes, on the extended reals, what the reference does.

  For each of 16384 batch entries the reference takes the row of the user table and the row of the item table that
  the entry's two index words name (1,000,000 rows of 32 columns each), multiplies the rows entry by entry and by the
  32 weights, sums the 32 products and adds the bias. The kernel cuts the batch into 32 pieces of 512, one per tile
  (2 SparseCores of 16 vector subcores). A tile stages its piece of the two index lists, the weights stretched to 16
  lanes and the bias; then, sixteen entries at a time, it copies the sixteen user rows and the sixteen item rows the
  staged words name into two 16 x 32 scratches (four copies on each of four semaphores, eight rows at a time, each
  batch waited for in full before anything reads the scratches), reads the scratches column by column, accumulates
  bias + (u_0 * i_0) * w_0 + ... + (u_31 * i_31) * w_31 in that order on sixteen lanes at once, and finally writes
  its 512 results back. The index words are at most 999,999 by the precondition, so every row copy stays inside its
  table and the reference's out-of-range mask is nowhere taken.

  On the extended reals the kernel's running sum and the reference's sum-then-add-bias differ only in the order and
  grouping of 33 summands, and addition there is commutative and associative: that is the whole of the value
  argument, and it needs no finiteness. The rest is the run: every interleaving of the 35 threads (the TensorCore,
  two sequencers, 32 tiles) and the copy engine terminates, nothing faults, the arguments end unchanged, and the
  result array ends at the function above — proved once for a symbolic tile and a symbolic trip, for the printed
  program read at machine words (the frame only) and for its idealization (frame and value).
  The reference's run is read off its host operations one by one (two look-ups through a wrap-negative / gather /
  in-range mask, a product, a contraction over 32, the bias). The idealization pass rewrote nothing, so there is
  nothing to preserve beyond the text itself.
-/
import proofs.«208244_g21053929685252_cont_8to1_1842_38_alg».proof.Proof.Assemble
import proofs.«208244_g21053929685252_cont_8to1_1842_38_alg».proof.Proof.KBody
import proofs.«208244_g21053929685252_cont_8to1_1842_38_alg».proof.Proof.KTrip
import proofs.«208244_g21053929685252_cont_8to1_1842_38_alg».proof.Proof.WBody
import proofs.«208244_g21053929685252_cont_8to1_1842_38_alg».proof.Proof.WTrip

noncomputable section

namespace Cert.Proof

open Idealize.ShloMosaic Idealize.SL.Sem

/-- Every conjunct of the certificate, from the tile's task proved at both readings of the program. -/
theorem claim : Cert.Claim :=
  Cert.Proof.Assemble.claim_of
    (fun m hpre => Cert.Proof.KI.tile_body (F := Ideal) m (Cert.Proof.KI.WB m) (Cert.Proof.KI.BI m) Cert.Proof.KI.facts hpre
      (fun d L => Cert.Proof.KI.trip (F := Ideal) d L))
    (fun m hpre => Cert.Proof.KW.tile_body (F := Bits) m (Cert.Proof.KW.WB m) (Cert.Proof.KW.BI m) Cert.Proof.KW.facts hpre
      (fun d L => Cert.Proof.KW.trip (F := Bits) d L))

end Cert.Proof

end
